-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x2 : Shape := ⟨4, ![8, 256, 256, 2]⟩
abbrev S8x64 : Shape := ⟨2, ![8, 64]⟩
abbrev S128x96 : Shape := ⟨2, ![128, 96]⟩
abbrev S128 : Shape := ⟨1, ![128]⟩
abbrev S128x128 : Shape := ⟨2, ![128, 128]⟩
abbrev S1x128 : Shape := ⟨2, ![1, 128]⟩
abbrev S1 : Shape := ⟨1, ![1]⟩
abbrev S128x192 : Shape := ⟨2, ![128, 192]⟩
abbrev S3x128 : Shape := ⟨2, ![3, 128]⟩
abbrev S3 : Shape := ⟨1, ![3]⟩
abbrev S_ : Shape := ⟨0, ![]⟩

class Facts : Prop where
  bcast_S_S8x256x256x2 : S_.BroadcastsInDim S8x256x256x2 (![] : Fin 0 → Fin S8x256x256x2.rank)
  reducesTo_S8x256x256x2_S_d0_1_2_3 : S8x256x256x2.ReducesTo [0, 1, 2, 3] S_
  h_S_ : 0 < S_.numel
  bcast_S_S8x64 : S_.BroadcastsInDim S8x64 (![] : Fin 0 → Fin S8x64.rank)
  reducesTo_S8x64_S_d0_1 : S8x64.ReducesTo [0, 1] S_
  bcast_S_S128x96 : S_.BroadcastsInDim S128x96 (![] : Fin 0 → Fin S128x96.rank)
  reducesTo_S128x96_S_d0_1 : S128x96.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128x192 : S_.BroadcastsInDim S128x192 (![] : Fin 0 → Fin S128x192.rank)
  reducesTo_S128x192_S_d0_1 : S128x192.ReducesTo [0, 1] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S128 .f32) (main_arg15 : FVec F S3x128 .f32) (main_arg16 : FVec F S3 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S3x128 .f32 := Host.absf main_arg15
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3 .f32 := Host.absf main_arg16
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg11 : FVec F S128x192 .f32) (main_arg12 : FVec F S128 .f32) (main_arg13 : FVec F S128x128 .f32) (main_arg14 : FVec F S128 .f32) (main_arg15 : FVec F S3x128 .f32) (main_arg16 : FVec F S3 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x192 .f32 := Host.absf main_arg11
  let main_cst_20 : FVec F S_ .f32 := constant S_ .f32 0x7F800000#32
  let main_v55 : FVec F S128x192 .f32 := broadcastInDim S128x192 ![] bcast_S_S128x192 main_cst_20
  let main_v56 : IVec S128x192 1 := cmpf .olt main_v54 main_v55
  let main_c_21 : IVec S_ 1 := constantI S_ 1 1#1
  let main_v57 : IVec S_ 1 := (fun x v => Host.reduce IntOp.andi x v reducesTo_S128x192_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_v63 main_v67

def fn_part2 {F : FTy → Type} [FloatOps F] (main_arg7 : FVec F S128x128 .f32) (main_arg8 : FVec F S128 .f32) (main_arg9 : FVec F S1x128 .f32) (main_arg10 : FVec F S1 .f32) (main_arg11 : FVec F S128x192 .f32) (main_arg12 : FVec F S128 .f32) (main_arg13 : FVec F S128x128 .f32) (main_arg14 : FVec F S128 .f32) (main_arg15 : FVec F S3x128 .f32) (main_arg16 : FVec F S3 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg9
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S1x128 .f32) (main_arg10 : FVec F S1 .f32) (main_arg11 : FVec F S128x192 .f32) (main_arg12 : FVec F S128 .f32) (main_arg13 : FVec F S128x128 .f32) (main_arg14 : FVec F S128 .f32) (main_arg15 : FVec F S3x128 .f32) (main_arg16 : FVec F S3 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x256x256x2 .f32) (main_arg1 : FVec F S8x64 .f32) (main_arg2 : FVec F S8x64 .f32) (main_arg3 : FVec F S128x96 .f32) (main_arg4 : FVec F S128 .f32) (main_arg5 : FVec F S128x128 .f32) (main_arg6 : FVec F S128 .f32) (main_arg7 : FVec F S128x128 .f32) (main_arg8 : FVec F S128 .f32) (main_arg9 : FVec F S1x128 .f32) (main_arg10 : FVec F S1 .f32) (main_arg11 : FVec F S128x192 .f32) (main_arg12 : FVec F S128 .f32) (main_arg13 : FVec F S128x128 .f32) (main_arg14 : FVec F S128 .f32) (main_arg15 : FVec F S3x128 .f32) (main_arg16 : FVec F S3 .f32) : IVec S_ 1 :=
  let main_v0 : FVec F S8x256x256x2 .f32 := Host.absf main_arg0
  let main_cst : FVec F S_ .f32 := constant S_ .f32 0x7F800000#32
  let main_v1 : FVec F S8x256x256x2 .f32 := broadcastInDim S8x256x256x2 ![] bcast_S_S8x256x256x2 main_cst
  let main_v2 : IVec S8x256x256x2 1 := cmpf .olt main_v0 main_v1
  let main_c : IVec S_ 1 := constantI S_ 1 1#1
  let main_v3 : IVec S_ 1 := (fun x v => Host.reduce IntOp.andi x v reducesTo_S8x256x256x2_S_d0_1_2_3 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S128x96 .f32 := Host.absf main_arg3
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x256x256x2 : Shape := ⟨4, ![8, 256, 256, 2]⟩
abbrev S8x64 : Shape := ⟨2, ![8, 64]⟩
abbrev S128x96 : Shape := ⟨2, ![128, 96]⟩
abbrev S128 : Shape := ⟨1, ![128]⟩
abbrev S128x128 : Shape := ⟨2, ![128, 128]⟩
abbrev S1x128 : Shape := ⟨2, ![1, 128]⟩
abbrev S1 : Shape := ⟨1, ![1]⟩
abbrev S128x192 : Shape := ⟨2, ![128, 192]⟩
abbrev S3x128 : Shape := ⟨2, ![3, 128]⟩
abbrev S3 : Shape := ⟨1, ![3]⟩
abbrev S32 : Shape := ⟨1, ![32]⟩
abbrev S8x65536x2 : Shape := ⟨3, ![8, 65536, 2]⟩
abbrev S8x2x65536 : Shape := ⟨3, ![8, 2, 65536]⟩
abbrev S128x32 : Shape := ⟨2, ![128, 32]⟩
abbrev S_ : Shape := ⟨0, ![]⟩
abbrev S128x64 : Shape := ⟨2, ![128, 64]⟩
abbrev S32x1 : Shape := ⟨2, ![32, 1]⟩
abbrev S64x128 : Shape := ⟨2, ![64, 128]⟩
abbrev S8x128 : Shape := ⟨2, ![8, 128]⟩
abbrev S8x128x1 : Shape := ⟨3, ![8, 128, 1]⟩
abbrev S128x1 : Shape := ⟨2, ![128, 1]⟩
abbrev S1x1 : Shape := ⟨2, ![1, 1]⟩
abbrev S3x1 : Shape := ⟨2, ![3, 1]⟩
abbrev S8x1x65536 : Shape := ⟨3, ![8, 1, 65536]⟩
abbrev S8x3x65536 : Shape := ⟨3, ![8, 3, 65536]⟩
abbrev S1x2x4096 : Shape := ⟨3, ![1, 2, 4096]⟩
abbrev S1x128x1 : Shape := ⟨3, ![1, 128, 1]⟩
abbrev S1x1x4096 : Shape := ⟨3, ![1, 1, 4096]⟩
abbrev S1x3x4096 : Shape := ⟨3, ![1, 3, 4096]⟩
abbrev S2x4096 : Shape := ⟨2, ![2, 4096]⟩
abbrev S1x4096 : Shape := ⟨2, ![1, 4096]⟩
abbrev S8x4096 : Shape := ⟨2, ![8, 4096]⟩
abbrev S32x4096 : Shape := ⟨2, ![32, 4096]⟩
abbrev S128x4096 : Shape := ⟨2, ![128, 4096]⟩
abbrev S3x4096 : Shape := ⟨2, ![3, 4096]⟩
abbrev S8x65536x1 : Shape := ⟨3, ![8, 65536, 1]⟩
abbrev S8x256x256x1 : Shape := ⟨4, ![8, 256, 256, 1]⟩
abbrev S8x65536x3 : Shape := ⟨3, ![8, 65536, 3]⟩
abbrev S8x256x256x3 : Shape := ⟨4, ![8, 256, 256, 3]⟩

abbrev nBuf : Space → Nat
  | .hbm => 88
  | .vmem => 22
  | .smem => 0
  | _ => 0

abbrev bufTy : (tb : Table) → Fin (tcTables nBuf tb) → BufTy
  | .hbm, ⟨0, _⟩ => ⟨S8x256x256x2, .f32⟩
  | .hbm, ⟨1, _⟩ => ⟨S8x64, .f32⟩
  | .hbm, ⟨2, _⟩ => ⟨S8x64, .f32⟩
  | .hbm, ⟨3, _⟩ => ⟨S128x96, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1, .f32⟩
  | .hbm, ⟨11, _⟩ => ⟨S128x192, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S3x128, .f32⟩
  | .hbm, ⟨16, _⟩ => ⟨S3, .f32⟩
  | .hbm, ⟨17, _⟩ => ⟨S32, .i32⟩
  | .hbm, ⟨18, _⟩ => ⟨S32, .i1⟩
  | .hbm, ⟨19, _⟩ => ⟨S8x65536x2, .f32⟩
  | .hbm, ⟨20, _⟩ => ⟨S8x2x65536, .f32⟩
  | .hbm, ⟨21, _⟩ => ⟨S128x32, .f32⟩
  | .hbm, ⟨22, _⟩ => ⟨S_, .f32⟩
  | .hbm, ⟨23, _⟩ => ⟨S128x32, .f32⟩
  | .hbm, ⟨24, _⟩ => ⟨S128x32, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S128x32, .f32⟩
  | .hbm, ⟨35, _⟩ => ⟨S128x32, .bf16⟩
  | .hbm, ⟨36, _⟩ => ⟨S1x128, .f32⟩
  | .hbm, ⟨37, _⟩ => ⟨S64x128, .f32⟩
  | .hbm, ⟨38, _⟩ => ⟨S8x128, .f32⟩
  | .hbm, ⟨39, _⟩ => ⟨S8x128, .f32⟩
  | .hbm, ⟨40, _⟩ => ⟨S8x128, .f32⟩
  | .hbm, ⟨41, _⟩ => ⟨S8x128x1, .f32⟩
  | .hbm, ⟨42, _⟩ => ⟨S128x128, .f32⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S128x64, .f32⟩
  | .hbm, ⟨47, _⟩ => ⟨S_, .f32⟩
  | .hbm, ⟨48, _⟩ => ⟨S128x64, .f32⟩
  | .hbm, ⟨49, _⟩ => ⟨S128x64, .f32⟩
  | .hbm, ⟨50, _⟩ => ⟨S128x128, .bf16⟩
  | .hbm, ⟨51, _⟩ => ⟨S1x128, .f32⟩
  | .hbm, ⟨52, _⟩ => ⟨S64x128, .f32⟩
  | .hbm, ⟨53, _⟩ => ⟨S8x128, .f32⟩
  | .hbm, ⟨54, _⟩ => ⟨S8x128, .f32⟩
  | .hbm, ⟨55, _⟩ => ⟨S8x128, .f32⟩
  | .hbm, ⟨56, _⟩ => ⟨S8x128x1, .f32⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S128x128, .bf16⟩
  | .hbm, ⟨61, _⟩ => ⟨S_, .f32⟩
  | .hbm, ⟨62, _⟩ => ⟨S128x128, .f32⟩
  | .hbm, ⟨63, _⟩ => ⟨S128x128, .f32⟩
  | .hbm, ⟨64, _⟩ => ⟨S128x128, .bf16⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S1x128, .bf16⟩
  | .hbm, ⟨69, _⟩ => ⟨S_, .f32⟩
  | .hbm, ⟨70, _⟩ => ⟨S128x128, .f32⟩
  | .hbm, ⟨71, _⟩ => ⟨S128x128, .f32⟩
  | .hbm, ⟨72, _⟩ => ⟨S128x128, .bf16⟩
  | .hbm, ⟨73, _⟩ => ⟨S_, .f32⟩
  | .hbm, ⟨74, _⟩ => ⟨S3x128, .f32⟩
  | .hbm, ⟨75, _⟩ => ⟨S3x128, .f32⟩
  | .hbm, ⟨76, _⟩ => ⟨S3x128, .bf16⟩
  | .hbm, ⟨77, _⟩ => ⟨S128x1, .f32⟩
  | .hbm, ⟨78, _⟩ => ⟨S128x1, .f32⟩
  | .hbm, ⟨79, _⟩ => ⟨S1x1, .f32⟩
  | .hbm, ⟨80, _⟩ => ⟨S128x1, .f32⟩
  | .hbm, ⟨81, _⟩ => ⟨S3x1, .f32⟩
  | .hbm, ⟨82, _⟩ => ⟨S8x1x65536, .f32⟩
  | .hbm, ⟨83, _⟩ => ⟨S8x3x65536, .f32⟩
  | .hbm, ⟨84, _⟩ => ⟨S8x65536x1, .f32⟩
  | .hbm, ⟨85, _⟩ => ⟨S8x256x256x1, .f32⟩
  | .hbm, ⟨86, _⟩ => ⟨S8x65536x3, .f32⟩
  | .hbm, ⟨87, _⟩ => ⟨S8x256x256x3, .f32⟩
  | .local _ .vmem, ⟨0, _⟩ => ⟨S1x2x4096, .f32⟩
  | .local _ .vmem, ⟨1, _⟩ => ⟨S1x2x4096, .f32⟩
  | .local _ .vmem, ⟨2, _⟩ => ⟨S128x32, .bf16⟩
  | .local _ .vmem, ⟨3, _⟩ => ⟨S1x128x1, .f32⟩
  | .local _ .vmem, ⟨4, _⟩ => ⟨S1x128x1, .f32⟩
  | .local _ .vmem, ⟨5, _⟩ => ⟨S128x128, .bf16⟩
  | .local _ .vmem, ⟨6, _⟩ => ⟨S128x1, .f32⟩
  | .local _ .vmem, ⟨7, _⟩ => ⟨S128x128, .bf16⟩
  | .local _ .vmem, ⟨8, _⟩ => ⟨S128x1, .f32⟩
  | .local _ .vmem, ⟨9, _⟩ => ⟨S1x128, .bf16⟩
  | .local _ .vmem, ⟨10, _⟩ => ⟨S1x1, .f32⟩
  | .local _ .vmem, ⟨11, _⟩ => ⟨S128x128, .bf16⟩
  | .local _ .vmem, ⟨12, _⟩ => ⟨S1x128x1, .f32⟩
  | .local _ .vmem, ⟨13, _⟩ => ⟨S1x128x1, .f32⟩
  | .local _ .vmem, ⟨14, _⟩ => ⟨S128x128, .bf16⟩
  | .local _ .vmem, ⟨15, _⟩ => ⟨S128x1, .f32⟩
  | .local _ .vmem, ⟨16, _⟩ => ⟨S3x128, .bf16⟩
  | .local _ .vmem, ⟨17, _⟩ => ⟨S3x1, .f32⟩
  | .local _ .vmem, ⟨18, _⟩ => ⟨S1x1x4096, .f32⟩
  | .local _ .vmem, ⟨19, _⟩ => ⟨S1x1x4096, .f32⟩
  | .local _ .vmem, ⟨20, _⟩ => ⟨S1x3x4096, .f32⟩
  | .local _ .vmem, ⟨21, _⟩ => ⟨S1x3x4096, .f32⟩
  | _, _ => ⟨S8x256x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x3x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  shapeCasts_S8x256x256x2_S8x65536x2 : S8x256x256x2.ShapeCasts S8x65536x2
  transposes_S8x65536x2_S8x2x65536_0_2_1 : S8x65536x2.Transposes [0, 2, 1] S8x2x65536
  slices_S128x96_S128x32_0_0 : S128x96.Slices ![0, 0] S128x32
  bcast_S_S128x32 : S_.BroadcastsInDim S128x32 (![] : Fin 0 → Fin S128x32.rank)
  slices_S128x96_S128x64_0_32 : S128x96.Slices ![0, 32] S128x64
  bcast_S_S128x64 : S_.BroadcastsInDim S128x64 (![] : Fin 0 → Fin S128x64.rank)
  bcast_S_S32 : S_.BroadcastsInDim S32 (![] : Fin 0 → Fin S32.rank)
  bcast_S32_S32x1_0 : S32.BroadcastsInDim S32x1 (![0] : Fin 1 → Fin S32x1.rank)
  bitsLt_bf16_f32 : FTy.bits .bf16 < FTy.bits .f32
  bcast_S128_S1x128_1 : S128.BroadcastsInDim S1x128 (![1] : Fin 1 → Fin S1x128.rank)
  transposes_S128x64_S64x128_1_0 : S128x64.Transposes [1, 0] S64x128
  bcast_S1x128_S8x128_0_1 : S1x128.BroadcastsInDim S8x128 (![0, 1] : Fin 2 → Fin S8x128.rank)
  bcast_S8x128_S8x128x1_0_1 : S8x128.BroadcastsInDim S8x128x1 (![0, 1] : Fin 2 → Fin S8x128x1.rank)
  slices_S128x192_S128x128_0_0 : S128x192.Slices ![0, 0] S128x128
  bcast_S_S128x128 : S_.BroadcastsInDim S128x128 (![] : Fin 0 → Fin S128x128.rank)
  slices_S128x192_S128x64_0_128 : S128x192.Slices ![0, 128] S128x64
  bcast_S_S1x128 : S_.BroadcastsInDim S1x128 (![] : Fin 0 → Fin S1x128.rank)
  bcast_S_S3x128 : S_.BroadcastsInDim S3x128 (![] : Fin 0 → Fin S3x128.rank)
  bcast_S128_S128x1_0 : S128.BroadcastsInDim S128x1 (![0] : Fin 1 → Fin S128x1.rank)
  bcast_S1_S1x1_0 : S1.BroadcastsInDim S1x1 (![0] : Fin 1 → Fin S1x1.rank)
  bcast_S3_S3x1_0 : S3.BroadcastsInDim S3x1 (![0] : Fin 1 → Fin S3x1.rank)
  inb_S1x2x4096_S1x2x4096_0_0_0 : ∀ a, (![0, 0, 0] : Fin 3 → Nat) a + S1x2x4096.size a ≤ S1x2x4096.size a
  h_S1x2x4096 : 0 < S1x2x4096.numel
  shapeCasts_S1x2x4096_S2x4096 : S1x2x4096.ShapeCasts S2x4096
  slices_S2x4096_o0_0_S1x4096 : S2x4096.Slices ![0, 0] S1x4096
  slices_S2x4096_o1_0_S1x4096 : S2x4096.Slices ![1, 0] S1x4096
  concatenates_S1x4096_S1x4096_S1x4096_S1x4096_S1x4096_S1x4096_S1x4096_S1x4096_S8x4096_d0 : Shape.Concatenates [S1x4096, S1x4096, S1x4096, S1x4096, S1x4096, S1x4096, S1x4096, S1x4096] S8x4096 0
  concatenates_S8x4096_S8x4096_S8x4096_S8x4096_S32x4096_d0 : Shape.Concatenates [S8x4096, S8x4096, S8x4096, S8x4096] S32x4096 0
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  broadcasts_S128x1_S128x4096 : S128x1.Broadcasts S128x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x4096 : S3x1.Broadcasts S3x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  shapeCasts_S3x4096_S1x3x4096 : S3x4096.ShapeCasts S1x3x4096
  transposes_S8x1x65536_S8x65536x1_0_2_1 : S8x1x65536.Transposes [0, 2, 1] S8x65536x1
  shapeCasts_S8x65536x1_S8x256x256x1 : S8x65536x1.ShapeCasts S8x256x256x1
  transposes_S8x3x65536_S8x65536x3_0_2_1 : S8x3x65536.Transposes [0, 2, 1] S8x65536x3
  shapeCasts_S8x65536x3_S8x256x256x3 : S8x65536x3.ShapeCasts S8x256x256x3
  gather_S128x32_S32x1_S128x32_0_1_n_n_1_1_1281_wf : GatherDims.WF S128x32 S32x1 S128x32 [0] [1] [] [1] [] 1 ![128, 1]
  dot_S8x64_S64x128_S8x128_1_0_0_1_n_n_wf : DotDims.WF S8x64 S64x128 S8x128 [1] [0] [0] [1] [] []
  dot_S128x32_S32x4096_S128x4096_1_0_0_1_n_n_wf : DotDims.WF S128x32 S32x4096 S128x4096 [1] [0] [0] [1] [] []
  dot_S128x128_S128x4096_S128x4096_1_0_0_1_n_n_wf : DotDims.WF S128x128 S128x4096 S128x4096 [1] [0] [0] [1] [] []
  dot_S1x128_S128x4096_S1x4096_1_0_0_1_n_n_wf : DotDims.WF S1x128 S128x4096 S1x4096 [1] [0] [0] [1] [] []
  dot_S3x128_S128x4096_S3x4096_1_0_0_1_n_n_wf : DotDims.WF S3x128 S128x4096 S3x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x4096.size a ≤ S8x2x65536.size a
  hwx0_0 : ∀ i : grid0.Coords, EltTy.bits .f32 = 32 ∨ (Rect.block (s := S8x2x65536) S1x2x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .bf16 = 32 ∨ (Rect.block (s := S128x32) S128x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S8x128x1.size a
  hwx0_2 : ∀ i : grid0.Coords, EltTy.bits .f32 = 32 ∨ (Rect.block (s := S8x128x1) S1x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .bf16 = 32 ∨ (Rect.block (s := S1x128) S1x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x1.size a ≤ S8x128x1.size a
  hwx0_10 : ∀ i : grid0.Coords, EltTy.bits .f32 = 32 ∨ (Rect.block (s := S8x128x1) S1x128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .f32 = 32 ∨ (Rect.block (s := S128x1) S128x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x128.size a ≤ S3x128.size a
  hwx0_13 : ∀ i : grid0.Coords, EltTy.bits .bf16 = 32 ∨ (Rect.block (s := S3x128) S3x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S3x1.size a ≤ S3x1.size a
  hwx0_14 : ∀ i : grid0.Coords, EltTy.bits .f32 = 32 ∨ (Rect.block (s := S3x1) S3x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x4096.size a ≤ S8x1x65536.size a
  hwx0_15 : ∀ i : grid0.Coords, EltTy.bits .f32 = 32 ∨ (Rect.block (s := S8x1x65536) S1x1x4096.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x3x4096.size a ≤ S8x3x65536.size a
  hwx0_16 : ∀ i : grid0.Coords, EltTy.bits .f32 = 32 ∨ (Rect.block (s := S8x3x65536) S1x3x4096.size (cc0_transform_16 i) (hinb0_16 i)).WholeWords (EltTy.packing .f32)

variable [Facts₀]

def gather_S128x32_S32x1_S128x32_0_1_n_n_1_1_1281 : GatherDims S128x32 S32x1 S128x32 where
  offsetDims := [0]
  collapsedSliceDims := [1]
  operandBatchingDims := []
  startIndicesBatchingDims := []
  startIndexMap := [1]
  indexVectorDim := 1
  sliceSizes := ![128, 1]
  wf := gather_S128x32_S32x1_S128x32_0_1_n_n_1_1_1281_wf
def dot_S8x64_S64x128_S8x128_1_0_0_1_n_n : DotDims S8x64 S64x128 S8x128 where
  lhsContracting := [1]
  rhsContracting := [0]
  lhsNonContracting := [0]
  rhsNonContracting := [1]
  lhsBatch := []
  rhsBatch := []
  wf := dot_S8x64_S64x128_S8x128_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S1x128_S128x4096_S1x4096_1_0_0_1_n_n : DotDims S1x128 S128x4096 S1x4096 where
  lhsContracting := [1]
  rhsContracting := [0]
  lhsNonContracting := [0]
  rhsNonContracting := [1]
  lhsBatch := []
  rhsBatch := []
  wf := dot_S1x128_S128x4096_S1x4096_1_0_0_1_n_n_wf
def dot_S3x128_S128x4096_S3x4096_1_0_0_1_n_n : DotDims S3x128 S128x4096 S3x4096 where
  lhsContracting := [1]
  rhsContracting := [0]
  lhsNonContracting := [0]
  rhsNonContracting := [1]
  lhsBatch := []
  rhsBatch := []
  wf := dot_S3x128_S128x4096_S3x4096_1_0_0_1_n_n_wf

abbrev win0_0 : Pipeline.Window sig grid0 :=
  Pipeline.Window.ofSpec (Memref.whole main_v1) S1x2x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S1x128x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v44) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v51) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v47) S3x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v52) S3x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v53_0) S1x1x4096.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v53_1) S1x3x4096.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8x256x256x2 : Shape := ⟨4, ![8, 256, 256, 2]⟩
abbrev S8x64 : Shape := ⟨2, ![8, 64]⟩
abbrev S128x96 : Shape := ⟨2, ![128, 96]⟩
abbrev S128 : Shape := ⟨1, ![128]⟩
abbrev S128x128 : Shape := ⟨2, ![128, 128]⟩
abbrev S1x128 : Shape := ⟨2, ![1, 128]⟩
abbrev S1 : Shape := ⟨1, ![1]⟩
abbrev S128x192 : Shape := ⟨2, ![128, 192]⟩
abbrev S3x128 : Shape := ⟨2, ![3, 128]⟩
abbrev S3 : Shape := ⟨1, ![3]⟩
abbrev S_ : Shape := ⟨0, ![]⟩
abbrev S8 : Shape := ⟨1, ![8]⟩
abbrev S8x256x256x1x2 : Shape := ⟨5, ![8, 256, 256, 1, 2]⟩
abbrev S8x1 : Shape := ⟨2, ![8, 1]⟩
abbrev S1x1x1x8x1 : Shape := ⟨5, ![1, 1, 1, 8, 1]⟩
abbrev S8x256x256x8x2 : Shape := ⟨5, ![8, 256, 256, 8, 2]⟩
abbrev S8x256x256x8x4 : Shape := ⟨5, ![8, 256, 256, 8, 4]⟩
abbrev S8x256x256x32 : Shape := ⟨4, ![8, 256, 256, 32]⟩
abbrev S8x1x1x64 : Shape := ⟨4, ![8, 1, 1, 64]⟩
abbrev S8x256x256x64 : Shape := ⟨4, ![8, 256, 256, 64]⟩
abbrev S8x256x256x96 : Shape := ⟨4, ![8, 256, 256, 96]⟩
abbrev S524288x96 : Shape := ⟨2, ![524288, 96]⟩
abbrev S96x128 : Shape := ⟨2, ![96, 128]⟩
abbrev S524288x128 : Shape := ⟨2, ![524288, 128]⟩
abbrev S128x1 : Shape := ⟨2, ![128, 1]⟩
abbrev S524288x1 : Shape := ⟨2, ![524288, 1]⟩
abbrev S1x1 : Shape := ⟨2, ![1, 1]⟩
abbrev S8x256x256x1 : Shape := ⟨4, ![8, 256, 256, 1]⟩
abbrev S524288x64 : Shape := ⟨2, ![524288, 64]⟩
abbrev S524288x192 : Shape := ⟨2, ![524288, 192]⟩
abbrev S192x128 : Shape := ⟨2, ![192, 128]⟩
abbrev S128x3 : Shape := ⟨2, ![128, 3]⟩
abbrev S524288x3 : Shape := ⟨2, ![524288, 3]⟩
abbrev S1x3 : Shape := ⟨2, ![1, 3]⟩
abbrev S8x256x256x3 : Shape := ⟨4, ![8, 256, 256, 3]⟩
abbrev S8x256x256 : Shape := ⟨3, ![8, 256, 256]⟩

abbrev nBuf : Space → Nat
  | .hbm => 173
  | .vmem => 0
  | .smem => 0
  | _ => 0

abbrev hbmTy0_0 (i : Nat) : BufTy := match i % 128 with
  | 0 => ⟨S8x256x256x2, .f32⟩
  | 1 => ⟨S8x64, .f32⟩
  | 2 => ⟨S8x64, .f32⟩
  | 3 => ⟨S128x96, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x128, .f32⟩
  | 10 => ⟨S1, .f32⟩
  | 11 => ⟨S128x192, .f32⟩
  | 12 => ⟨S128, .f32⟩
  | 13 => ⟨S128x128, .f32⟩
  | 14 => ⟨S128, .f32⟩
  | 15 => ⟨S3x128, .f32⟩
  | 16 => ⟨S3, .f32⟩
  | 17 => ⟨S_, .f32⟩
  | 18 => ⟨S8x256x256x2, .f32⟩
  | 19 => ⟨S8x256x256x2, .f32⟩
  | 20 => ⟨S8, .i32⟩
  | 21 => ⟨S8, .f32⟩
  | 22 => ⟨S_, .f32⟩
  | 23 => ⟨S8, .f32⟩
  | 24 => ⟨S8, .f32⟩
  | 25 => ⟨S8, .f32⟩
  | 26 => ⟨S8x256x256x1x2, .f32⟩
  | 27 => ⟨S8x1, .f32⟩
  | 28 => ⟨S1x1x1x8x1, .f32⟩
  | 29 => ⟨S8x256x256x8x2, .f32⟩
  | 30 => ⟨S8x256x256x8x2, .f32⟩
  | 31 => ⟨S8x256x256x8x2, .f32⟩
  | 32 => ⟨S8x256x256x8x2, .f32⟩
  | 33 => ⟨S8x256x256x8x2, .f32⟩
  | 34 => ⟨S8x256x256x8x4, .f32⟩
  | 35 => ⟨S8x256x256x32, .f32⟩
  | 36 => ⟨S8x1x1x64, .f32⟩
  | 37 => ⟨S8x256x256x64, .f32⟩
  | 38 => ⟨S8x256x256x96, .f32⟩
  | 39 => ⟨S524288x96, .f32⟩
  | 40 => ⟨S_, .f32⟩
  | 41 => ⟨S128x96, .f32⟩
  | 42 => ⟨S128x96, .f32⟩
  | 43 => ⟨S96x128, .f32⟩
  | 44 => ⟨S524288x128, .f32⟩
  | 45 => ⟨S1x128, .f32⟩
  | 46 => ⟨S524288x128, .f32⟩
  | 47 => ⟨S524288x128, .f32⟩
  | 48 => ⟨S_, .f32⟩
  | 49 => ⟨S_, .f32⟩
  | 50 => ⟨S524288x128, .f32⟩
  | 51 => ⟨S524288x128, .i1⟩
  | 52 => ⟨S_, .f32⟩
  | 53 => ⟨S524288x128, .f32⟩
  | 54 => ⟨S524288x128, .f32⟩
  | 55 => ⟨S524288x128, .f32⟩
  | 56 => ⟨S_, .f32⟩
  | 57 => ⟨S524288x128, .f32⟩
  | 58 => ⟨S524288x128, .f32⟩
  | 59 => ⟨S_, .f32⟩
  | 60 => ⟨S128x128, .f32⟩
  | 61 => ⟨S128x128, .f32⟩
  | 62 => ⟨S128x128, .f32⟩
  | 63 => ⟨S524288x128, .f32⟩
  | 64 => ⟨S1x128, .f32⟩
  | 65 => ⟨S524288x128, .f32⟩
  | 66 => ⟨S524288x128, .f32⟩
  | 67 => ⟨S_, .f32⟩
  | 68 => ⟨S_, .f32⟩
  | 69 => ⟨S524288x128, .f32⟩
  | 70 => ⟨S524288x128, .i1⟩
  | 71 => ⟨S_, .f32⟩
  | 72 => ⟨S524288x128, .f32⟩
  | 73 => ⟨S524288x128, .f32⟩
  | 74 => ⟨S524288x128, .f32⟩
  | 75 => ⟨S_, .f32⟩
  | 76 => ⟨S524288x128, .f32⟩
  | 77 => ⟨S524288x128, .f32⟩
  | 78 => ⟨S_, .f32⟩
  | 79 => ⟨S128x128, .f32⟩
  | 80 => ⟨S128x128, .f32⟩
  | 81 => ⟨S128x128, .f32⟩
  | 82 => ⟨S524288x128, .f32⟩
  | 83 => ⟨S1x128, .f32⟩
  | 84 => ⟨S524288x128, .f32⟩
  | 85 => ⟨S524288x128, .f32⟩
  | 86 => ⟨S_, .f32⟩
  | 87 => ⟨S_, .f32⟩
  | 88 => ⟨S524288x128, .f32⟩
  | 89 => ⟨S524288x128, .i1⟩
  | 90 => ⟨S_, .f32⟩
  | 91 => ⟨S524288x128, .f32⟩
  | 92 => ⟨S524288x128, .f32⟩
  | 93 => ⟨S524288x128, .f32⟩
  | 94 => ⟨S_, .f32⟩
  | 95 => ⟨S524288x128, .f32⟩
  | 96 => ⟨S524288x128, .f32⟩
  | 97 => ⟨S_, .f32⟩
  | 98 => ⟨S1x128, .f32⟩
  | 99 => ⟨S1x128, .f32⟩
  | 100 => ⟨S128x1, .f32⟩
  | 101 => ⟨S524288x1, .f32⟩
  | 102 => ⟨S1x1, .f32⟩
  | 103 => ⟨S524288x1, .f32⟩
  | 104 => ⟨S524288x1, .f32⟩
  | 105 => ⟨S8x256x256x1, .f32⟩
  | 106 => ⟨S8x1x1x64, .f32⟩
  | 107 => ⟨S8x256x256x64, .f32⟩
  | 108 => ⟨S524288x64, .f32⟩
  | 109 => ⟨S524288x192, .f32⟩
  | 110 => ⟨S_, .f32⟩
  | 111 => ⟨S128x192, .f32⟩
  | 112 => ⟨S128x192, .f32⟩
  | 113 => ⟨S192x128, .f32⟩
  | 114 => ⟨S524288x128, .f32⟩
  | 115 => ⟨S1x128, .f32⟩
  | 116 => ⟨S524288x128, .f32⟩
  | 117 => ⟨S524288x128, .f32⟩
  | 118 => ⟨S_, .f32⟩
  | 119 => ⟨S_, .f32⟩
  | 120 => ⟨S524288x128, .f32⟩
  | 121 => ⟨S524288x128, .i1⟩
  | 122 => ⟨S_, .f32⟩
  | 123 => ⟨S524288x128, .f32⟩
  | 124 => ⟨S524288x128, .f32⟩
  | 125 => ⟨S524288x128, .f32⟩
  | 126 => ⟨S_, .f32⟩
  | 127 => ⟨S524288x128, .f32⟩
  | _ => ⟨S8x256x256x2, .f32⟩

abbrev hbmTy0_1 (i : Nat) : BufTy := match i % 128 with
  | 0 => ⟨S524288x128, .f32⟩
  | 1 => ⟨S_, .f32⟩
  | 2 => ⟨S128x128, .f32⟩
  | 3 => ⟨S128x128, .f32⟩
  | 4 => ⟨S128x128, .f32⟩
  | 5 => ⟨S524288x128, .f32⟩
  | 6 => ⟨S1x128, .f32⟩
  | 7 => ⟨S524288x128, .f32⟩
  | 8 => ⟨S524288x128, .f32⟩
  | 9 => ⟨S_, .f32⟩
  | 10 => ⟨S_, .f32⟩
  | 11 => ⟨S524288x128, .f32⟩
  | 12 => ⟨S524288x128, .i1⟩
  | 13 => ⟨S_, .f32⟩
  | 14 => ⟨S524288x128, .f32⟩
  | 15 => ⟨S524288x128, .f32⟩
  | 16 => ⟨S524288x128, .f32⟩
  | 17 => ⟨S_, .f32⟩
  | 18 => ⟨S524288x128, .f32⟩
  | 19 => ⟨S524288x128, .f32⟩
  | 20 => ⟨S_, .f32⟩
  | 21 => ⟨S3x128, .f32⟩
  | 22 => ⟨S3x128, .f32⟩
  | 23 => ⟨S128x3, .f32⟩
  | 24 => ⟨S524288x3, .f32⟩
  | 25 => ⟨S1x3, .f32⟩
  | 26 => ⟨S524288x3, .f32⟩
  | 27 => ⟨S524288x3, .f32⟩
  | 28 => ⟨S8x256x256x3, .f32⟩
  | 29 => ⟨S8x256x256x2, .f32⟩
  | 30 => ⟨S_, .f32⟩
  | 31 => ⟨S8x256x256, .f32⟩
  | 32 => ⟨S8x256x256x1, .f32⟩
  | 33 => ⟨S8x256x256x1, .f32⟩
  | 34 => ⟨S_, .f32⟩
  | 35 => ⟨S8x256x256x1, .f32⟩
  | 36 => ⟨S8x256x256x1, .f32⟩
  | 37 => ⟨S_, .f32⟩
  | 38 => ⟨S8x256x256x1, .f32⟩
  | 39 => ⟨S8x256x256x1, .f32⟩
  | 40 => ⟨S8x256x256x1, .f32⟩
  | 41 => ⟨S_, .f32⟩
  | 42 => ⟨S8x256x256x1, .f32⟩
  | 43 => ⟨S8x256x256x1, .f32⟩
  | 44 => ⟨S8x256x256x1, .f32⟩
  | _ => ⟨S8x256x256x2, .f32⟩

abbrev hbmTy (i : Nat) : BufTy := match i / 128 with
  | 0 => hbmTy0_0 i
  | 1 => hbmTy0_1 i
  | _ => ⟨S8x256x256x2, .f32⟩

abbrev bufTy : (tb : Table) → Fin (tcTables nBuf tb) → BufTy
  | .hbm, ⟨i, _⟩ => hbmTy i
  | _, _ => ⟨S8x256x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v38 : Ref sig .tc := ⟨.hbm, 74, rfl⟩
abbrev main_cst_6 : Ref sig .tc := ⟨.hbm, 75, rfl⟩
abbrev main_v39 : Ref sig .tc := ⟨.hbm, 76, rfl⟩
abbrev main_v40 : Ref sig .tc := ⟨.hbm, 77, rfl⟩
abbrev main_cst_7 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_8 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v48 : Ref sig .tc := ⟨.hbm, 93, rfl⟩
abbrev main_cst_9 : Ref sig .tc := ⟨.hbm, 94, rfl⟩
abbrev main_v49 : Ref sig .tc := ⟨.hbm, 95, rfl⟩
abbrev main_v50 : Ref sig .tc := ⟨.hbm, 96, rfl⟩
abbrev main_cst_10 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_11 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_12 : Ref sig .tc := ⟨.hbm, 118, rfl⟩
abbrev main_call3_cst : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v70 : Ref sig .tc := ⟨.hbm, 125, rfl⟩
abbrev main_cst_13 : Ref sig .tc := ⟨.hbm, 126, rfl⟩
abbrev main_v71 : Ref sig .tc := ⟨.hbm, 127, rfl⟩
abbrev main_v72 : Ref sig .tc := ⟨.hbm, 128, rfl⟩
abbrev main_cst_14 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_15 : Ref sig .tc := ⟨.hbm, 137, rfl⟩
abbrev main_call4_cst : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_v80 : Ref sig .tc := ⟨.hbm, 144, rfl⟩
abbrev main_cst_16 : Ref sig .tc := ⟨.hbm, 145, rfl⟩
abbrev main_v81 : Ref sig .tc := ⟨.hbm, 146, rfl⟩
abbrev main_v82 : Ref sig .tc := ⟨.hbm, 147, rfl⟩
abbrev main_cst_17 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_cst_18 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_cst_19 : Ref sig .tc := ⟨.hbm, 162, rfl⟩
abbrev main_v95 : Ref sig .tc := ⟨.hbm, 163, rfl⟩
abbrev main_v96 : Ref sig .tc := ⟨.hbm, 164, rfl⟩
abbrev main_call5_cst : Ref sig .tc := ⟨.hbm, 165, rfl⟩
abbrev main_call5_v0 : Ref sig .tc := ⟨.hbm, 166, rfl⟩
abbrev main_v97 : Ref sig .tc := ⟨.hbm, 167, rfl⟩
abbrev main_v98 : Ref sig .tc := ⟨.hbm, 168, rfl⟩
abbrev main_cst_20 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩

abbrev nD : Nat := 1
abbrev τ : Topo := Topo.v7x

variable {F : FTy → Type} [FloatOps F]

class Facts₀ : Prop where
  bcast_S_S8x256x256x2 : S_.BroadcastsInDim S8x256x256x2 (![] : Fin 0 → Fin S8x256x256x2.rank)
  bcast_S_S8 : S_.BroadcastsInDim S8 (![] : Fin 0 → Fin S8.rank)
  bcast_S8x256x256x2_S8x256x256x1x2_0_1_2_4 : S8x256x256x2.BroadcastsInDim S8x256x256x1x2 (![0, 1, 2, 4] : Fin 4 → Fin S8x256x256x1x2.rank)
  bcast_S8_S8x1_0 : S8.BroadcastsInDim S8x1 (![0] : Fin 1 → Fin S8x1.rank)
  bcast_S8x1_S1x1x1x8x1_3_4 : S8x1.BroadcastsInDim S1x1x1x8x1 (![3, 4] : Fin 2 → Fin S1x1x1x8x1.rank)
  bcast_S8x256x256x1x2_S8x256x256x8x2_0_1_2_3_4 : S8x256x256x1x2.BroadcastsInDim S8x256x256x8x2 (![0, 1, 2, 3, 4] : Fin 5 → Fin S8x256x256x8x2.rank)
  bcast_S1x1x1x8x1_S8x256x256x8x2_0_1_2_3_4 : S1x1x1x8x1.BroadcastsInDim S8x256x256x8x2 (![0, 1, 2, 3, 4] : Fin 5 → Fin S8x256x256x8x2.rank)
  concatenates_S8x256x256x8x2_S8x256x256x8x2_S8x256x256x8x4_d4 : Shape.Concatenates [S8x256x256x8x2, S8x256x256x8x2] S8x256x256x8x4 4
  shapeCasts_S8x256x256x8x4_S8x256x256x32 : S8x256x256x8x4.ShapeCasts S8x256x256x32
  bcast_S8x64_S8x1x1x64_0_3 : S8x64.BroadcastsInDim S8x1x1x64 (![0, 3] : Fin 2 → Fin S8x1x1x64.rank)
  bcast_S8x1x1x64_S8x256x256x64_0_1_2_3 : S8x1x1x64.BroadcastsInDim S8x256x256x64 (![0, 1, 2, 3] : Fin 4 → Fin S8x256x256x64.rank)
  concatenates_S8x256x256x32_S8x256x256x64_S8x256x256x96_d3 : Shape.Concatenates [S8x256x256x32, S8x256x256x64] S8x256x256x96 3
  shapeCasts_S8x256x256x96_S524288x96 : S8x256x256x96.ShapeCasts S524288x96
  bcast_S_S128x96 : S_.BroadcastsInDim S128x96 (![] : Fin 0 → Fin S128x96.rank)
  transposes_S128x96_S96x128_1_0 : S128x96.Transposes [1, 0] S96x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S_S128x128 : S_.BroadcastsInDim S128x128 (![] : Fin 0 → Fin S128x128.rank)
  transposes_S128x128_S128x128_1_0 : S128x128.Transposes [1, 0] S128x128
  bcast_S_S1x128 : S_.BroadcastsInDim S1x128 (![] : Fin 0 → Fin S1x128.rank)
  transposes_S1x128_S128x1_1_0 : S1x128.Transposes [1, 0] S128x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S8x256x256x1 : S524288x1.ShapeCasts S8x256x256x1
  shapeCasts_S8x256x256x64_S524288x64 : S8x256x256x64.ShapeCasts S524288x64
  concatenates_S524288x128_S524288x64_S524288x192_d1 : Shape.Concatenates [S524288x128, S524288x64] S524288x192 1
  bcast_S_S128x192 : S_.BroadcastsInDim S128x192 (![] : Fin 0 → Fin S128x192.rank)
  transposes_S128x192_S192x128_1_0 : S128x192.Transposes [1, 0] S192x128
  bcast_S_S3x128 : S_.BroadcastsInDim S3x128 (![] : Fin 0 → Fin S3x128.rank)
  transposes_S3x128_S128x3_1_0 : S3x128.Transposes [1, 0] S128x3
  bcast_S3_S1x3_1 : S3.BroadcastsInDim S1x3 (![1] : Fin 1 → Fin S1x3.rank)
  bcast_S1x3_S524288x3_0_1 : S1x3.BroadcastsInDim S524288x3 (![0, 1] : Fin 2 → Fin S524288x3.rank)
  shapeCasts_S524288x3_S8x256x256x3 : S524288x3.ShapeCasts S8x256x256x3
  reducesTo_S8x256x256x2_S8x256x256_d3 : S8x256x256x2.ReducesTo [3] S8x256x256
  h_S_ : 0 < S_.numel
  bcast_S8x256x256_S8x256x256x1_0_1_2 : S8x256x256.BroadcastsInDim S8x256x256x1 (![0, 1, 2] : Fin 3 → Fin S8x256x256x1.rank)
  bcast_S_S8x256x256x1 : S_.BroadcastsInDim S8x256x256x1 (![] : Fin 0 → Fin S8x256x256x1.rank)
  dot_S524288x96_S96x128_S524288x128_1_0_0_1_n_n_wf : DotDims.WF S524288x96 S96x128 S524288x128 [1] [0] [0] [1] [] []
  dot_S524288x128_S128x128_S524288x128_1_0_0_1_n_n_wf : DotDims.WF S524288x128 S128x128 S524288x128 [1] [0] [0] [1] [] []
  dot_S524288x128_S128x1_S524288x1_1_0_0_1_n_n_wf : DotDims.WF S524288x128 S128x1 S524288x1 [1] [0] [0] [1] [] []
  dot_S524288x192_S192x128_S524288x128_1_0_0_1_n_n_wf : DotDims.WF S524288x192 S192x128 S524288x128 [1] [0] [0] [1] [] []
  dot_S524288x128_S128x3_S524288x3_1_0_0_1_n_n_wf : DotDims.WF S524288x128 S128x3 S524288x3 [1] [0] [0] [1] [] []

variable [Facts₀]

def dot_S524288x96_S96x128_S524288x128_1_0_0_1_n_n : DotDims S524288x96 S96x128 S524288x128 where
  lhsContracting := [1]
  rhsContracting := [0]
  lhsNonContracting := [0]
  rhsNonContracting := [1]
  lhsBatch := []
  rhsBatch := []
  wf := dot_S524288x96_S96x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x128_S128x1_S524288x1_1_0_0_1_n_n : DotDims S524288x128 S128x1 S524288x1 where
  lhsContracting := [1]
  rhsContracting := [0]
  lhsNonContracting := [0]
  rhsNonContracting := [1]
  lhsBatch := []
  rhsBatch := []
  wf := dot_S524288x128_S128x1_S524288x1_1_0_0_1_n_n_wf
def dot_S524288x192_S192x128_S524288x128_1_0_0_1_n_n : DotDims S524288x192 S192x128 S524288x128 where
  lhsContracting := [1]
  rhsContracting := [0]
  lhsNonContracting := [0]
  rhsNonContracting := [1]
  lhsBatch := []
  rhsBatch := []
  wf := dot_S524288x192_S192x128_S524288x128_1_0_0_1_n_n_wf
def dot_S524288x128_S128x3_S524288x3_1_0_0_1_n_n : DotDims S524288x128 S128x3 S524288x3 where
  lhsContracting := [1]
  rhsContracting := [0]
  lhsNonContracting := [0]
  rhsNonContracting := [1]
  lhsBatch := []
  rhsBatch := []
  wf := dot_S524288x128_S128x3_S524288x3_1_0_0_1_n_n_wf

class Facts : Prop extends Facts₀ where

variable [Facts]
-- ==== Proof.KerIblk.lean ====
/-
  Each input block of a grid point, read where it lies in its array.

  The grid has 8 × 16 points, point t being image b = t / 16 and tile r = t % 16.  The coordinate block of
  point t is rows 0..1 and lanes 4096·r .. 4096·r + 4095 of image b's [2, 65536] coordinate array; the two
  conditioned bias blocks are image b's [128, 1] slab; every other operand is loaded whole at every point.
  A block's coordinate in the array is always (block index) × (block extent) + (coordinate inside the block).
-/
import proofs.«145072_j3487513444877_2_alg».proof.Proof.Gen.KernelIdeal.Frame
import Idealize.ShloMosaic.Lib.ValueIdx

set_option maxRecDepth 16384

noncomputable section

namespace Cert.KerSide

open Idealize.ShloMosaic Idealize.ShloMosaic.TcCoe Idealize.ShloMosaic.ValueIdx
open Idealize.SL Idealize.SL.Sem
open Cert.KernelIdeal Cert.KernelIdeal.Gen

/-- A grid point's number is below 128. -/
theorem point_lt (t : Fin cfg0.N) : t.val < 128 := lt_of_lt_of_eq t.isLt N_0

/-- Window 0's block index at every grid point. -/
theorem idx0 : ∀ t : Fin cfg0.N, win0_0.index t (0 : Fin 3) = t.val / 16 ∧ win0_0.index t (1 : Fin 3) = 0 ∧ win0_0.index t (2 : Fin 3) = t.val % 16 :=
  (by decide +kernel : ∀ t : Fin grid0.N, _)

/-- Window 1's block index at every grid point. -/
theorem idx1 : ∀ t : Fin cfg0.N, win0_1.index t (0 : Fin 2) = 0 ∧ win0_1.index t (1 : Fin 2) = 0 :=
  (by decide +kernel : ∀ t : Fin grid0.N, _)

/-- Window 2's block index at every grid point. -/
theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)

/-- Window 3's block index at every grid point. -/
theorem idx3 : ∀ t : Fin cfg0.N, win0_3.index t (0 : Fin 2) = 0 ∧ win0_3.index t (1 : Fin 2) = 0 :=
  (by decide +kernel : ∀ t : Fin grid0.N, _)

/-- Window 4's block index at every grid point. -/
theorem idx4 : ∀ t : Fin cfg0.N, win0_4.index t (0 : Fin 2) = 0 ∧ win0_4.index t (1 : Fin 2) = 0 :=
  (by decide +kernel : ∀ t : Fin grid0.N, _)

/-- Window 5's block index at every grid point. -/
theorem idx5 : ∀ t : Fin cfg0.N, win0_5.index t (0 : Fin 2) = 0 ∧ win0_5.index t (1 : Fin 2) = 0 :=
  (by decide +kernel : ∀ t : Fin grid0.N, _)

/-- Window 6's block index at every grid point. -/
theorem idx6 : ∀ t : Fin cfg0.N, win0_6.index t (0 : Fin 2) = 0 ∧ win0_6.index t (1 : Fin 2) = 0 :=
  (by decide +kernel : ∀ t : Fin grid0.N, _)

/-- Window 7's block index at every grid point. -/
theorem idx7 : ∀ t : Fin cfg0.N, win0_7.index t (0 : Fin 2) = 0 ∧ win0_7.index t (1 : Fin 2) = 0 :=
  (by decide +kernel : ∀ t : Fin grid0.N, _)

/-- Window 8's block index at every grid point. -/
theorem idx8 : ∀ t : Fin cfg0.N, win0_8.index t (0 : Fin 2) = 0 ∧ win0_8.index t (1 : Fin 2) = 0 :=
  (by decide +kernel : ∀ t : Fin grid0.N, _)

/-- Window 9's block index at every grid point. -/
theorem idx9 : ∀ t : Fin cfg0.N, win0_9.index t (0 : Fin 2) = 0 ∧ win0_9.index t (1 : Fin 2) = 0 :=
  (by decide +kernel : ∀ t : Fin grid0.N, _)

/-- Window 10's block index at every grid point. -/
theorem idx10 : ∀ t : Fin cfg0.N, win0_10.index t (0 : Fin 3) = t.val / 16 ∧ win0_10.index t (1 : Fin 3) = 0 ∧ win0_10.index t (2 : Fin 3) = 0 :=
  (by decide +kernel : ∀ t : Fin grid0.N, _)

/-- Window 11's block index at every grid point. -/
theorem idx11 : ∀ t : Fin cfg0.N, win0_11.index t (0 : Fin 2) = 0 ∧ win0_11.index t (1 : Fin 2) = 0 :=
  (by decide +kernel : ∀ t : Fin grid0.N, _)

/-- Window 12's block index at every grid point. -/
theorem idx12 : ∀ t : Fin cfg0.N, win0_12.index t (0 : Fin 2) = 0 ∧ win0_12.index t (1 : Fin 2) = 0 :=
  (by decide +kernel : ∀ t : Fin grid0.N, _)

/-- Window 13's block index at every grid point. -/
theorem idx13 : ∀ t : Fin cfg0.N, win0_13.index t (0 : Fin 2) = 0 ∧ win0_13.index t (1 : Fin 2) = 0 :=
  (by decide +kernel : ∀ t : Fin grid0.N, _)

/-- Window 14's block index at every grid point. -/
theorem idx14 : ∀ t : Fin cfg0.N, win0_14.index t (0 : Fin 2) = 0 ∧ win0_14.index t (1 : Fin 2) = 0 :=
  (by decide +kernel : ∀ t : Fin grid0.N, _)

/-- Window 15's block index at every grid point. -/
theorem idx15 : ∀ t : Fin cfg0.N, win0_15.index t (0 : Fin 3) = t.val / 16 ∧ win0_15.index t (1 : Fin 3) = 0 ∧ win0_15.index t (2 : Fin 3) = t.val % 16 :=
  (by decide +kernel : ∀ t : Fin grid0.N, _)

/-- Window 16's block index at every grid point. -/
theorem idx16 : ∀ t : Fin cfg0.N, win0_16.index t (0 : Fin 3) = t.val / 16 ∧ win0_16.index t (1 : Fin 3) = 0 ∧ win0_16.index t (2 : Fin 3) = t.val % 16 :=
  (by decide +kernel : ∀ t : Fin grid0.N, _)

variable (m : (ℓ : Loc nD τ sig) → Buf (Elt Ideal) ℓ) (c : Dev nD)

/-- Window 0's block at point t, entry by entry, in the array main_v1. -/
theorem iblk0 (t : Fin cfg0.N) (j : Fin 2) (k : Fin 4096) :
    iblk m c 0 t (ix3 (0 : Fin 1) j k)
      = (V m c main_v1 : S8x2x65536.Idx → EReal) (ix3 (⟨t.val / 16, by have := point_lt t; omega⟩ : Fin 8) j (⟨4096 * (t.val % 16) + k.val, by have := point_lt t; have := k.isLt; omega⟩ : Fin 65536)) := by
  have h : ((cfg0.win 0).blk t).view.emb (ix3 (0 : Fin 1) j k) = ix3 (⟨t.val / 16, by have := point_lt t; omega⟩ : Fin 8) j (⟨4096 * (t.val % 16) + k.val, by have := point_lt t; have := k.isLt; omega⟩ : Fin 65536) := by
    obtain ⟨e0, e1, e2⟩ := idx0 t
    funext a; apply Fin.ext
    match a with
    | ⟨0, _⟩ => show win0_0.index t (0 : Fin 3) * 1 + 1 * 0 = t.val / 16; omega
    | ⟨1, _⟩ => show win0_0.index t (1 : Fin 3) * 2 + 1 * j.val = j.val; omega
    | ⟨2, _⟩ => show win0_0.index t (2 : Fin 3) * 4096 + 1 * k.val = 4096 * (t.val % 16) + k.val; omega
  show (V m c main_v1 : S8x2x65536.Idx → EReal) (((cfg0.win 0).blk t).view.emb (ix3 (0 : Fin 1) j k)) = _
  rw [h]

/-- Window 1's block at point t, entry by entry, in the array main_v13. -/
theorem iblk1 (t : Fin cfg0.N) (i : Fin 128) (j : Fin 32) :
    iblk m c 1 t (ix2 i j)
      = (V m c main_v13 : S128x32.Idx → EReal) (ix2 i j) := by
  have h : ((cfg0.win 1).blk t).view.emb (ix2 i j) = ix2 i j := by
    obtain ⟨e0, e1⟩ := idx1 t
    funext a; apply Fin.ext
    match a with
    | ⟨0, _⟩ => show win0_1.index t (0 : Fin 2) * 128 + 1 * i.val = i.val; omega
    | ⟨1, _⟩ => show win0_1.index t (1 : Fin 2) * 32 + 1 * j.val = j.val; omega
  show (V m c main_v13 : S128x32.Idx → EReal) (((cfg0.win 1).blk t).view.emb (ix2 i j)) = _
  rw [h]

/-- Window 2's block at point t, entry by entry, in the array main_v19. -/
theorem iblk2 (t : Fin cfg0.N) (j : Fin 128) :
    iblk m c 2 t (ix3 (0 : Fin 1) j (0 : Fin 1))
      = (V m c main_v19 : S8x128x1.Idx → EReal) (ix3 (⟨t.val / 16, by have := point_lt t; omega⟩ : Fin 8) j (0 : Fin 1)) := by
  have h : ((cfg0.win 2).blk t).view.emb (ix3 (0 : Fin 1) j (0 : Fin 1)) = ix3 (⟨t.val / 16, by have := point_lt t; omega⟩ : Fin 8) j (0 : Fin 1) := by
    obtain ⟨e0, e1, e2⟩ := idx2 t
    funext a; apply Fin.ext
    match a with
    | ⟨0, _⟩ => show win0_2.index t (0 : Fin 3) * 1 + 1 * 0 = t.val / 16; omega
    | ⟨1, _⟩ => show win0_2.index t (1 : Fin 3) * 128 + 1 * j.val = j.val; omega
    | ⟨2, _⟩ => show win0_2.index t (2 : Fin 3) * 1 + 1 * 0 = 0; omega
  show (V m c main_v19 : S8x128x1.Idx → EReal) (((cfg0.win 2).blk t).view.emb (ix3 (0 : Fin 1) j (0 : Fin 1))) = _
  rw [h]

/-- Window 3's block at point t, entry by entry, in the array main_v35. -/
theorem iblk3 (t : Fin cfg0.N) (i : Fin 128) (j : Fin 128) :
    iblk m c 3 t (ix2 i j)
      = (V m c main_v35 : S128x128.Idx → EReal) (ix2 i j) := by
  have h : ((cfg0.win 3).blk t).view.emb (ix2 i j) = ix2 i j := by
    obtain ⟨e0, e1⟩ := idx3 t
    funext a; apply Fin.ext
    match a with
    | ⟨0, _⟩ => show win0_3.index t (0 : Fin 2) * 128 + 1 * i.val = i.val; omega
    | ⟨1, _⟩ => show win0_3.index t (1 : Fin 2) * 128 + 1 * j.val = j.val; omega
  show (V m c main_v35 : S128x128.Idx → EReal) (((cfg0.win 3).blk t).view.emb (ix2 i j)) = _
  rw [h]

/-- Window 4's block at point t, entry by entry, in the array main_v48. -/
theorem iblk4 (t : Fin cfg0.N) (i : Fin 128) :
    iblk m c 4 t (ix2 i (0 : Fin 1))
      = (V m c main_v48 : S128x1.Idx → EReal) (ix2 i (0 : Fin 1)) := by
  have h : ((cfg0.win 4).blk t).view.emb (ix2 i (0 : Fin 1)) = ix2 i (0 : Fin 1) := by
    obtain ⟨e0, e1⟩ := idx4 t
    funext a; apply Fin.ext
    match a with
    | ⟨0, _⟩ => show win0_4.index t (0 : Fin 2) * 128 + 1 * i.val = i.val; omega
    | ⟨1, _⟩ => show win0_4.index t (1 : Fin 2) * 1 + 1 * 0 = 0; omega
  show (V m c main_v48 : S128x1.Idx → EReal) (((cfg0.win 4).blk t).view.emb (ix2 i (0 : Fin 1))) = _
  rw [h]

/-- Window 5's block at point t, entry by entry, in the array main_v38. -/
theorem iblk5 (t : Fin cfg0.N) (i : Fin 128) (j : Fin 128) :
    iblk m c 5 t (ix2 i j)
      = (V m c main_v38 : S128x128.Idx → EReal) (ix2 i j) := by
  have h : ((cfg0.win 5).blk t).view.emb (ix2 i j) = ix2 i j := by
    obtain ⟨e0, e1⟩ := idx5 t
    funext a; apply Fin.ext
    match a with
    | ⟨0, _⟩ => show win0_5.index t (0 : Fin 2) * 128 + 1 * i.val = i.val; omega
    | ⟨1, _⟩ => show win0_5.index t (1 : Fin 2) * 128 + 1 * j.val = j.val; omega
  show (V m c main_v38 : S128x128.Idx → EReal) (((cfg0.win 5).blk t).view.emb (ix2 i j)) = _
  rw [h]

/-- Window 6's block at point t, entry by entry, in the array main_v49. -/
theorem iblk6 (t : Fin cfg0.N) (i : Fin 128) :
    iblk m c 6 t (ix2 i (0 : Fin 1))
      = (V m c main_v49 : S128x1.Idx → EReal) (ix2 i (0 : Fin 1)) := by
  have h : ((cfg0.win 6).blk t).view.emb (ix2 i (0 : Fin 1)) = ix2 i (0 : Fin 1) := by
    obtain ⟨e0, e1⟩ := idx6 t
    funext a; apply Fin.ext
    match a with
    | ⟨0, _⟩ => show win0_6.index t (0 : Fin 2) * 128 + 1 * i.val = i.val; omega
    | ⟨1, _⟩ => show win0_6.index t (1 : Fin 2) * 1 + 1 * 0 = 0; omega
  show (V m c main_v49 : S128x1.Idx → EReal) (((cfg0.win 6).blk t).view.emb (ix2 i (0 : Fin 1))) = _
  rw [h]

/-- Window 7's block at point t, entry by entry, in the array main_v41. -/
theorem iblk7 (t : Fin cfg0.N) (j : Fin 128) :
    iblk m c 7 t (ix2 (0 : Fin 1) j)
      = (V m c main_v41 : S1x128.Idx → EReal) (ix2 (0 : Fin 1) j) := by
  have h : ((cfg0.win 7).blk t).view.emb (ix2 (0 : Fin 1) j) = ix2 (0 : Fin 1) j := by
    obtain ⟨e0, e1⟩ := idx7 t
    funext a; apply Fin.ext
    match a with
    | ⟨0, _⟩ => show win0_7.index t (0 : Fin 2) * 1 + 1 * 0 = 0; omega
    | ⟨1, _⟩ => show win0_7.index t (1 : Fin 2) * 128 + 1 * j.val = j.val; omega
  show (V m c main_v41 : S1x128.Idx → EReal) (((cfg0.win 7).blk t).view.emb (ix2 (0 : Fin 1) j)) = _
  rw [h]

/-- Window 8's block at point t, entry by entry, in the array main_v50. -/
theorem iblk8 (t : Fin cfg0.N)  :
    iblk m c 8 t (ix2 (0 : Fin 1) (0 : Fin 1))
      = (V m c main_v50 : S1x1.Idx → EReal) (ix2 (0 : Fin 1) (0 : Fin 1)) := by
  have h : ((cfg0.win 8).blk t).view.emb (ix2 (0 : Fin 1) (0 : Fin 1)) = ix2 (0 : Fin 1) (0 : Fin 1) := by
    obtain ⟨e0, e1⟩ := idx8 t
    funext a; apply Fin.ext
    match a with
    | ⟨0, _⟩ => show win0_8.index t (0 : Fin 2) * 1 + 1 * 0 = 0; omega
    | ⟨1, _⟩ => show win0_8.index t (1 : Fin 2) * 1 + 1 * 0 = 0; omega
  show (V m c main_v50 : S1x1.Idx → EReal) (((cfg0.win 8).blk t).view.emb (ix2 (0 : Fin 1) (0 : Fin 1))) = _
  rw [h]

/-- Window 9's block at point t, entry by entry, in the array main_v26. -/
theorem iblk9 (t : Fin cfg0.N) (i : Fin 128) (j : Fin 128) :
    iblk m c 9 t (ix2 i j)
      = (V m c main_v26 : S128x128.Idx → EReal) (ix2 i j) := by
  have h : ((cfg0.win 9).blk t).view.emb (ix2 i j) = ix2 i j := by
    obtain ⟨e0, e1⟩ := idx9 t
    funext a; apply Fin.ext
    match a with
    | ⟨0, _⟩ => show win0_9.index t (0 : Fin 2) * 128 + 1 * i.val = i.val; omega
    | ⟨1, _⟩ => show win0_9.index t (1 : Fin 2) * 128 + 1 * j.val = j.val; omega
  show (V m c main_v26 : S128x128.Idx → EReal) (((cfg0.win 9).blk t).view.emb (ix2 i j)) = _
  rw [h]

/-- Window 10's block at point t, entry by entry, in the array main_v32. -/
theorem iblk10 (t : Fin cfg0.N) (j : Fin 128) :
    iblk m c 10 t (ix3 (0 : Fin 1) j (0 : Fin 1))
      = (V m c main_v32 : S8x128x1.Idx → EReal) (ix3 (⟨t.val / 16, by have := point_lt t; omega⟩ : Fin 8) j (0 : Fin 1)) := by
  have h : ((cfg0.win 10).blk t).view.emb (ix3 (0 : Fin 1) j (0 : Fin 1)) = ix3 (⟨t.val / 16, by have := point_lt t; omega⟩ : Fin 8) j (0 : Fin 1) := by
    obtain ⟨e0, e1, e2⟩ := idx10 t
    funext a; apply Fin.ext
    match a with
    | ⟨0, _⟩ => show win0_10.index t (0 : Fin 3) * 1 + 1 * 0 = t.val / 16; omega
    | ⟨1, _⟩ => show win0_10.index t (1 : Fin 3) * 128 + 1 * j.val = j.val; omega
    | ⟨2, _⟩ => show win0_10.index t (2 : Fin 3) * 1 + 1 * 0 = 0; omega
  show (V m c main_v32 : S8x128x1.Idx → EReal) (((cfg0.win 10).blk t).view.emb (ix3 (0 : Fin 1) j (0 : Fin 1))) = _
  rw [h]

/-- Window 11's block at point t, entry by entry, in the array main_v44. -/
theorem iblk11 (t : Fin cfg0.N) (i : Fin 128) (j : Fin 128) :
    iblk m c 11 t (ix2 i j)
      = (V m c main_v44 : S128x128.Idx → EReal) (ix2 i j) := by
  have h : ((cfg0.win 11).blk t).view.emb (ix2 i j) = ix2 i j := by
    obtain ⟨e0, e1⟩ := idx11 t
    funext a; apply Fin.ext
    match a with
    | ⟨0, _⟩ => show win0_11.index t (0 : Fin 2) * 128 + 1 * i.val = i.val; omega
    | ⟨1, _⟩ => show win0_11.index t (1 : Fin 2) * 128 + 1 * j.val = j.val; omega
  show (V m c main_v44 : S128x128.Idx → EReal) (((cfg0.win 11).blk t).view.emb (ix2 i j)) = _
  rw [h]

/-- Window 12's block at point t, entry by entry, in the array main_v51. -/
theorem iblk12 (t : Fin cfg0.N) (i : Fin 128) :
    iblk m c 12 t (ix2 i (0 : Fin 1))
      = (V m c main_v51 : S128x1.Idx → EReal) (ix2 i (0 : Fin 1)) := by
  have h : ((cfg0.win 12).blk t).view.emb (ix2 i (0 : Fin 1)) = ix2 i (0 : Fin 1) := by
    obtain ⟨e0, e1⟩ := idx12 t
    funext a; apply Fin.ext
    match a with
    | ⟨0, _⟩ => show win0_12.index t (0 : Fin 2) * 128 + 1 * i.val = i.val; omega
    | ⟨1, _⟩ => show win0_12.index t (1 : Fin 2) * 1 + 1 * 0 = 0; omega
  show (V m c main_v51 : S128x1.Idx → EReal) (((cfg0.win 12).blk t).view.emb (ix2 i (0 : Fin 1))) = _
  rw [h]

/-- Window 13's block at point t, entry by entry, in the array main_v47. -/
theorem iblk13 (t : Fin cfg0.N) (i : Fin 3) (j : Fin 128) :
    iblk m c 13 t (ix2 i j)
      = (V m c main_v47 : S3x128.Idx → EReal) (ix2 i j) := by
  have h : ((cfg0.win 13).blk t).view.emb (ix2 i j) = ix2 i j := by
    obtain ⟨e0, e1⟩ := idx13 t
    funext a; apply Fin.ext
    match a with
    | ⟨0, _⟩ => show win0_13.index t (0 : Fin 2) * 3 + 1 * i.val = i.val; omega
    | ⟨1, _⟩ => show win0_13.index t (1 : Fin 2) * 128 + 1 * j.val = j.val; omega
  show (V m c main_v47 : S3x128.Idx → EReal) (((cfg0.win 13).blk t).view.emb (ix2 i j)) = _
  rw [h]

/-- Window 14's block at point t, entry by entry, in the array main_v52. -/
theorem iblk14 (t : Fin cfg0.N) (i : Fin 3) :
    iblk m c 14 t (ix2 i (0 : Fin 1))
      = (V m c main_v52 : S3x1.Idx → EReal) (ix2 i (0 : Fin 1)) := by
  have h : ((cfg0.win 14).blk t).view.emb (ix2 i (0 : Fin 1)) = ix2 i (0 : Fin 1) := by
    obtain ⟨e0, e1⟩ := idx14 t
    funext a; apply Fin.ext
    match a with
    | ⟨0, _⟩ => show win0_14.index t (0 : Fin 2) * 3 + 1 * i.val = i.val; omega
    | ⟨1, _⟩ => show win0_14.index t (1 : Fin 2) * 1 + 1 * 0 = 0; omega
  show (V m c main_v52 : S3x1.Idx → EReal) (((cfg0.win 14).blk t).view.emb (ix2 i (0 : Fin 1))) = _
  rw [h]

end Cert.KerSide

end
-- ==== Proof.Spec.lean ====
/-
  The function both programs compute, stated one image position at a time.

  A position (b, y, x) of image b has two coordinates (cx, cy).  Divided by ten and multiplied by the eight
  frequencies 2^0 … 2^7 they give thirty-two sinusoidal features, feature 4·s + q being, for q = 0, 1, 2, 3,
  sin(cx·2^s/10), sin(cy·2^s/10), cos(cx·2^s/10), cos(cy·2^s/10).  The features, followed by the sixty-four
  shape-conditioning numbers of image b, feed three scaled dense layers with a leaky rectifier of slope 0.2 and
  gain √2; a fourth, linear, layer gives the raw shape value.  The third layer's output followed by the
  sixty-four texture-conditioning numbers feeds two more rectified layers and a linear one with three outputs:
  the texture.  The shape value is finally damped by 1 − tanh(max(r − 1, 0)), r the Euclidean norm of (cx, cy).

  Every dense unit is  Σ_k input_k · (weight_k · scale) + bias,  the scale one of three float words
  (the rounded 1/√96, 1/√128, 1/√192) that both programs carry; those words, the slope, the gain, one and
  zero are kept as the words they are: no step below needs their numerical values.
-/
import Idealize.ShloMosaic.PureOps.Ideal
import Idealize.ShloMosaic.Lib.ValueIdx

noncomputable section

namespace Cert.Field

open Idealize.ShloMosaic Idealize.ShloMosaic.ValueIdx

/-- The float words both programs spell, as the extended reals they denote. -/
abbrev wZero : EReal := Ideal.ofBits .f32 0x00000000#32
abbrev wOne : EReal := Ideal.ofBits .f32 0x3F800000#32
abbrev wSlope : EReal := Ideal.ofBits .f32 0x3E4CCCCD#32
abbrev wGain : EReal := Ideal.ofBits .f32 0x3FB504F3#32
abbrev wS96 : EReal := Ideal.ofBits .f32 0x3DD105EC#32
abbrev wS128 : EReal := Ideal.ofBits .f32 0x3DB504F3#32
abbrev wS192 : EReal := Ideal.ofBits .f32 0x3D93CD3A#32

/-- The leaky rectifier with its gain: z ↦ (z if 0 ≤ z, else slope·z)·gain. -/
def act (z : EReal) : EReal := (if wZero ≤ z then z else wSlope * z) * wGain

/-- One unit of a scaled dense layer: Σ_k x_k·(w_k·s) + b. -/
def unit {n : ℕ} (x w : Fin n → EReal) (s b : EReal) : EReal := (∑ k, x k * (w k * s)) + b

/-- The frequency 2^s. -/
def freq (s : Fin 8) : EReal := (((2 : ℝ) ^ (s : ℕ) : ℝ) : EReal)

/-- A coordinate divided by ten and multiplied by the frequency 2^s. -/
def phase (c : EReal) (s : Fin 8) : EReal := c * ((1 / 10 : ℝ) : EReal) * freq s

/-- The four features of frequency s: sin and cos of both coordinates' phases. -/
def wave (cx cy : EReal) (s : Fin 8) (q : Fin 4) : EReal :=
  ![Ideal.sin (phase cx s), Ideal.sin (phase cy s), Ideal.cos (phase cx s), Ideal.cos (phase cy s)] q

/-- Feature f = 4·s + q of the embedding. -/
def feature (cx cy : EReal) (f : Fin 32) : EReal :=
  wave cx cy ⟨f.val / 4, by omega⟩ ⟨f.val % 4, by omega⟩

/-- n leading entries followed by 64 conditioning numbers. -/
def withCond {n : ℕ} (x : Fin n → EReal) (cond : Fin 64 → EReal) (k : Fin (n + 64)) : EReal :=
  if h : k.val < n then x ⟨k.val, h⟩ else cond ⟨k.val - n, by omega⟩

/-- The damping of the shape value: 1 − tanh(max(√(cx² + cy²) − 1, 0)). -/
def damp (cx cy : EReal) : EReal :=
  wOne - Ideal.tanh (max (Ideal.sqrt (cx * cx + cy * cy) - wOne) wZero)

/-- The seventeen argument arrays. -/
structure Params where
  coords : FVec Ideal ⟨4, ![8, 256, 256, 2]⟩ .f32
  sc : FVec Ideal ⟨2, ![8, 64]⟩ .f32
  tc : FVec Ideal ⟨2, ![8, 64]⟩ .f32
  ws0 : FVec Ideal ⟨2, ![128, 96]⟩ .f32
  bs0 : FVec Ideal ⟨1, ![128]⟩ .f32
  ws1 : FVec Ideal ⟨2, ![128, 128]⟩ .f32
  bs1 : FVec Ideal ⟨1, ![128]⟩ .f32
  ws2 : FVec Ideal ⟨2, ![128, 128]⟩ .f32
  bs2 : FVec Ideal ⟨1, ![128]⟩ .f32
  wsh : FVec Ideal ⟨2, ![1, 128]⟩ .f32
  bsh : FVec Ideal ⟨1, ![1]⟩ .f32
  wt0 : FVec Ideal ⟨2, ![128, 192]⟩ .f32
  bt0 : FVec Ideal ⟨1, ![128]⟩ .f32
  wt1 : FVec Ideal ⟨2, ![128, 128]⟩ .f32
  bt1 : FVec Ideal ⟨1, ![128]⟩ .f32
  wt2 : FVec Ideal ⟨2, ![3, 128]⟩ .f32
  bt2 : FVec Ideal ⟨1, ![3]⟩ .f32

variable (P : Params)

/-- The two coordinates of position (b, y, x). -/
def cx (b : Fin 8) (y x : Fin 256) : EReal := P.coords (ix4 b y x (0 : Fin 2))
def cy (b : Fin 8) (y x : Fin 256) : EReal := P.coords (ix4 b y x (1 : Fin 2))

/-- The first layer's ninety-six inputs at a position. -/
def in0 (b : Fin 8) (y x : Fin 256) : Fin (32 + 64) → EReal :=
  withCond (feature (cx P b y x) (cy P b y x)) (fun j => P.sc (ix2 b j))

def h1 (b : Fin 8) (y x : Fin 256) (o : Fin 128) : EReal :=
  act (unit (in0 P b y x) (fun k => P.ws0 (ix2 o k)) wS96 (P.bs0 (ix1 o)))
def h2 (b : Fin 8) (y x : Fin 256) (o : Fin 128) : EReal :=
  act (unit (h1 P b y x) (fun k => P.ws1 (ix2 o k)) wS128 (P.bs1 (ix1 o)))
def h3 (b : Fin 8) (y x : Fin 256) (o : Fin 128) : EReal :=
  act (unit (h2 P b y x) (fun k => P.ws2 (ix2 o k)) wS128 (P.bs2 (ix1 o)))

/-- The raw shape value. -/
def shapeRaw (b : Fin 8) (y x : Fin 256) : EReal :=
  unit (h3 P b y x) (fun k => P.wsh (ix2 (0 : Fin 1) k)) wS128 (P.bsh (ix1 (0 : Fin 1)))

/-- The texture branch's hundred and ninety-two inputs at a position. -/
def inT (b : Fin 8) (y x : Fin 256) : Fin (128 + 64) → EReal :=
  withCond (h3 P b y x) (fun j => P.tc (ix2 b j))

def t1 (b : Fin 8) (y x : Fin 256) (o : Fin 128) : EReal :=
  act (unit (inT P b y x) (fun k => P.wt0 (ix2 o k)) wS192 (P.bt0 (ix1 o)))
def t2 (b : Fin 8) (y x : Fin 256) (o : Fin 128) : EReal :=
  act (unit (t1 P b y x) (fun k => P.wt1 (ix2 o k)) wS128 (P.bt1 (ix1 o)))

/-- The shape value at a position. -/
def shapeAt (b : Fin 8) (y x : Fin 256) : EReal :=
  shapeRaw P b y x * damp (cx P b y x) (cy P b y x)

/-- The texture value, channel ch, at a position. -/
def texAt (b : Fin 8) (y x : Fin 256) (ch : Fin 3) : EReal :=
  unit (t2 P b y x) (fun k => P.wt2 (ix2 ch k)) wS128 (P.bt2 (ix1 ch))

/-- The two result arrays. -/
def shapeOut : FVec Ideal ⟨4, ![8, 256, 256, 1]⟩ .f32 := fun i => shapeAt P (i 0) (i 1) (i 2)
def texOut : FVec Ideal ⟨4, ![8, 256, 256, 3]⟩ .f32 := fun i => texAt P (i 0) (i 1) (i 2) (i 3)

end Cert.Field

end
-- ==== Proof.KerParams.lean ====
/-
  The seventeen argument arrays of one core, as the kernel's program finds them in memory.
-/
import proofs.«145072_j3487513444877_2_alg».proof.Proof.Spec
import proofs.«145072_j3487513444877_2_alg».proof.KernelIdeal

noncomputable section

namespace Cert.KerSide

open Idealize.ShloMosaic Idealize.SL.Sem Cert.KernelIdeal

/-- Core `c`'s argument arrays in the memory `m`. -/
def params (m : (ℓ : Loc nD τ sig) → Buf (Elt Ideal) ℓ) (c : Dev nD) : Cert.Field.Params where
  coords := m ((c.tc : Thread nD τ).loc main_arg0)
  sc := m ((c.tc : Thread nD τ).loc main_arg1)
  tc := m ((c.tc : Thread nD τ).loc main_arg2)
  ws0 := m ((c.tc : Thread nD τ).loc main_arg3)
  bs0 := m ((c.tc : Thread nD τ).loc main_arg4)
  ws1 := m ((c.tc : Thread nD τ).loc main_arg5)
  bs1 := m ((c.tc : Thread nD τ).loc main_arg6)
  ws2 := m ((c.tc : Thread nD τ).loc main_arg7)
  bs2 := m ((c.tc : Thread nD τ).loc main_arg8)
  wsh := m ((c.tc : Thread nD τ).loc main_arg9)
  bsh := m ((c.tc : Thread nD τ).loc main_arg10)
  wt0 := m ((c.tc : Thread nD τ).loc main_arg11)
  bt0 := m ((c.tc : Thread nD τ).loc main_arg12)
  wt1 := m ((c.tc : Thread nD τ).loc main_arg13)
  bt1 := m ((c.tc : Thread nD τ).loc main_arg14)
  wt2 := m ((c.tc : Thread nD τ).loc main_arg15)
  bt2 := m ((c.tc : Thread nD τ).loc main_arg16)

end Cert.KerSide

end
-- ==== Proof.KerForm.lean ====
/-
  The kernel's arrangement of the same computation, over the blocks it loads at one grid point.

  At a grid point the body sees 4096 consecutive positions of one image, channels first: a 2 × 4096 block of
  coordinates, weight matrices already scaled (and, for the first layer, with their thirty-two feature columns
  reordered: column j = 8·q + s holds the weight of feature 4·s + q), and bias columns; the first layer's and
  the texture branch's first layer's biases already contain the conditioning part of their dense sums.  Every
  dense unit is here  Σ_k weight_k · input_k + bias.
-/
import proofs.«145072_j3487513444877_2_alg».proof.Proof.Spec

noncomputable section

namespace Cert.Field

open Idealize.ShloMosaic

/-- Feature j = 8·q + s in the kernel's order: the features grouped by kind q, then by frequency s. -/
def featureK (cx cy : EReal) (j : Fin 32) : EReal :=
  wave cx cy ⟨j.val % 8, by omega⟩ ⟨j.val / 8, by omega⟩

/-- One dense unit in the kernel's order of factors: Σ_k w_k·x_k + b. -/
def unitK {n : ℕ} (w x : Fin n → EReal) (b : EReal) : EReal := (∑ k, w k * x k) + b

/-- The entries of the fifteen input blocks at one grid point. -/
structure Blocks where
  c : Fin 2 → Fin 4096 → EReal
  w0 : Fin 128 → Fin 32 → EReal
  b0 : Fin 128 → EReal
  w1 : Fin 128 → Fin 128 → EReal
  b1 : Fin 128 → EReal
  w2 : Fin 128 → Fin 128 → EReal
  b2 : Fin 128 → EReal
  wh : Fin 128 → EReal
  bh : EReal
  wt0 : Fin 128 → Fin 128 → EReal
  bt0 : Fin 128 → EReal
  wt1 : Fin 128 → Fin 128 → EReal
  bt1 : Fin 128 → EReal
  wt2 : Fin 3 → Fin 128 → EReal
  bt2 : Fin 3 → EReal

variable (B : Blocks)

def g1 (p : Fin 4096) (o : Fin 128) : EReal := act (unitK (B.w0 o) (featureK (B.c 0 p) (B.c 1 p)) (B.b0 o))
def g2 (p : Fin 4096) (o : Fin 128) : EReal := act (unitK (B.w1 o) (g1 B p) (B.b1 o))
def g3 (p : Fin 4096) (o : Fin 128) : EReal := act (unitK (B.w2 o) (g2 B p) (B.b2 o))
def u1 (p : Fin 4096) (o : Fin 128) : EReal := act (unitK (B.wt0 o) (g3 B p) (B.bt0 o))
def u2 (p : Fin 4096) (o : Fin 128) : EReal := act (unitK (B.wt1 o) (u1 B p) (B.bt1 o))

/-- What the body stores at lane p of its shape block, and at (ch, p) of its texture block. -/
def shapeK (p : Fin 4096) : EReal := unitK B.wh (g3 B p) B.bh * damp (B.c 0 p) (B.c 1 p)
def texK (p : Fin 4096) (ch : Fin 3) : EReal := unitK (B.wt2 ch) (u2 B p) (B.bt2 ch)

/-- The blocks a grid point (image b, tile r) sees, in terms of the argument arrays: position p of the tile is
    pixel n = 4096·r + p of the image, at row n / 256 and column n % 256. -/
def blocksAt (P : Params) (b : Fin 8) (r : Fin 16) : Blocks where
  c := fun d p => P.coords (ValueIdx.ix4 b (⟨(4096 * r.val + p.val) / 256, by omega⟩ : Fin 256)
        (⟨(4096 * r.val + p.val) % 256, by omega⟩ : Fin 256) d)
  w0 := fun o j => P.ws0 (ValueIdx.ix2 o (⟨4 * (j.val % 8) + j.val / 8, by omega⟩ : Fin 96)) * wS96
  b0 := fun o => P.bs0 (ValueIdx.ix1 o)
        + ∑ j : Fin 64, P.sc (ValueIdx.ix2 b j) * (P.ws0 (ValueIdx.ix2 o (⟨32 + j.val, by omega⟩ : Fin 96)) * wS96)
  w1 := fun o k => P.ws1 (ValueIdx.ix2 o k) * wS128
  b1 := fun o => P.bs1 (ValueIdx.ix1 o)
  w2 := fun o k => P.ws2 (ValueIdx.ix2 o k) * wS128
  b2 := fun o => P.bs2 (ValueIdx.ix1 o)
  wh := fun k => P.wsh (ValueIdx.ix2 (0 : Fin 1) k) * wS128
  bh := P.bsh (ValueIdx.ix1 (0 : Fin 1))
  wt0 := fun o k => P.wt0 (ValueIdx.ix2 o (⟨k.val, by omega⟩ : Fin 192)) * wS192
  bt0 := fun o => P.bt0 (ValueIdx.ix1 o)
        + ∑ j : Fin 64, P.tc (ValueIdx.ix2 b j) * (P.wt0 (ValueIdx.ix2 o (⟨128 + j.val, by omega⟩ : Fin 192)) * wS192)
  wt1 := fun o k => P.wt1 (ValueIdx.ix2 o k) * wS128
  bt1 := fun o => P.bt1 (ValueIdx.ix1 o)
  wt2 := fun ch k => P.wt2 (ValueIdx.ix2 ch k) * wS128
  bt2 := fun ch => P.bt2 (ValueIdx.ix1 ch)

end Cert.Field

end
-- ==== Proof.KerBlocks.lean ====
/-
  The fifteen vectors the body loads at a grid point, read entry by entry: the coordinate block has a leading
  unit axis, the two conditioned bias blocks a leading and a trailing one, the other bias blocks are columns.
-/
import proofs.«145072_j3487513444877_2_alg».proof.Proof.KerForm
import proofs.«145072_j3487513444877_2_alg».proof.KernelIdeal

noncomputable section

namespace Cert.KerPoint

open Idealize.ShloMosaic Idealize.ShloMosaic.ValueIdx Cert.KernelIdeal

/-- The entries of the loaded vectors, as the body's formulas use them. -/
def blocksOf (x0 : Vec Ideal S1x2x4096 .f32) (x1 : Vec Ideal S128x32 .bf16) (x2 : Vec Ideal S1x128x1 .f32)
    (x3 : Vec Ideal S128x128 .bf16) (x4 : Vec Ideal S128x1 .f32) (x5 : Vec Ideal S128x128 .bf16)
    (x6 : Vec Ideal S128x1 .f32) (x7 : Vec Ideal S1x128 .bf16) (x8 : Vec Ideal S1x1 .f32)
    (x9 : Vec Ideal S128x128 .bf16) (x10 : Vec Ideal S1x128x1 .f32) (x11 : Vec Ideal S128x128 .bf16)
    (x12 : Vec Ideal S128x1 .f32) (x13 : Vec Ideal S3x128 .bf16) (x14 : Vec Ideal S3x1 .f32) : Cert.Field.Blocks where
  c := fun d p => x0 (ix3 (0 : Fin 1) d p)
  w0 := fun o j => x1 (ix2 o j)
  b0 := fun o => x2 (ix3 (0 : Fin 1) o (0 : Fin 1))
  w1 := fun o k => x3 (ix2 o k)
  b1 := fun o => x4 (ix2 o (0 : Fin 1))
  w2 := fun o k => x5 (ix2 o k)
  b2 := fun o => x6 (ix2 o (0 : Fin 1))
  wh := fun k => x7 (ix2 (0 : Fin 1) k)
  bh := x8 (ix2 (0 : Fin 1) (0 : Fin 1))
  wt0 := fun o k => x9 (ix2 o k)
  bt0 := fun o => x10 (ix3 (0 : Fin 1) o (0 : Fin 1))
  wt1 := fun o k => x11 (ix2 o k)
  bt1 := fun o => x12 (ix2 o (0 : Fin 1))
  wt2 := fun ch k => x13 (ix2 ch k)
  bt2 := fun ch => x14 (ix2 ch (0 : Fin 1))

end Cert.KerPoint

end
-- ==== Proof.KerAlgebra.lean ====
/-
  The kernel's arrangement and the specification agree at every position: pure algebra on the extended reals.

  Only three facts about the extended reals are used: addition is associative and commutative, and
  multiplication is commutative.  (i) A dense unit with the factors of each product swapped and the scale
  folded into the weight is the same unit.  (ii) A unit over n leading inputs followed by 64 conditioning
  numbers splits into the sum over the leading inputs and the sum over the conditioning numbers; carrying the
  second sum inside the bias only regroups the additions.  (iii) The first layer's thirty-two features are
  visited in another order, j = 8·q + s instead of f = 4·s + q; a finite sum does not depend on the order.
-/
import proofs.«145072_j3487513444877_2_alg».proof.Proof.KerForm

noncomputable section

namespace Cert.Field

open Idealize.ShloMosaic Idealize.ShloMosaic.ValueIdx

/-! ### (i) the order of the factors -/

/-- Σ_k w_k·x_k + b = Σ_k x_k·(w'_k·s) + b when w_k = w'_k·s. -/
theorem unitK_eq_unit {n : ℕ} (w x w' : Fin n → EReal) (s b : EReal) (h : ∀ k, w k = w' k * s) :
    unitK w x b = unit x w' s b := by
  unfold unitK unit
  congr 1
  apply Finset.sum_congr rfl
  intro k _
  rw [h k, mul_comm]

/-! ### (ii) the conditioning numbers inside the bias -/

theorem withCond_castAdd {n : ℕ} (x : Fin n → EReal) (cond : Fin 64 → EReal) (k : Fin n) :
    withCond x cond (Fin.castAdd 64 k) = x k := by
  unfold withCond
  rw [dif_pos (show (Fin.castAdd 64 k).val < n from k.isLt)]
  rfl

theorem withCond_natAdd {n : ℕ} (x : Fin n → EReal) (cond : Fin 64 → EReal) (j : Fin 64) :
    withCond x cond (Fin.natAdd n j) = cond j := by
  unfold withCond
  rw [dif_neg (show ¬ (Fin.natAdd n j).val < n by simp)]
  congr 1
  apply Fin.ext
  simp

/-- A unit over n + 64 inputs is the sum over the first n, plus the bias and the sum over the last 64. -/
theorem unit_withCond {n : ℕ} (x : Fin n → EReal) (cond : Fin 64 → EReal) (W : Fin (n + 64) → EReal)
    (s b : EReal) :
    unit (withCond x cond) W s b
      = (∑ k : Fin n, x k * (W (Fin.castAdd 64 k) * s))
        + (b + ∑ j : Fin 64, cond j * (W (Fin.natAdd n j) * s)) := by
  unfold unit
  rw [Fin.sum_univ_add]
  simp only [withCond_castAdd, withCond_natAdd]
  rw [add_assoc, add_comm (∑ j : Fin 64, cond j * (W (Fin.natAdd n j) * s)) b]

/-- The kernel's unit, its bias carrying the conditioning sum, is the specification's conditioned unit. -/
theorem unitK_cond {n : ℕ} (w x : Fin n → EReal) (cond : Fin 64 → EReal) (W : Fin (n + 64) → EReal)
    (s b : EReal) (hw : ∀ k, w k = W (Fin.castAdd 64 k) * s) :
    unitK w x (b + ∑ j : Fin 64, cond j * (W (Fin.natAdd n j) * s)) = unit (withCond x cond) W s b := by
  rw [unit_withCond]
  unfold unitK
  congr 1
  apply Finset.sum_congr rfl
  intro k _
  rw [hw k, mul_comm]

/-! ### (iii) the order of the features -/

/-- j = 8·q + s ↦ f = 4·s + q, a bijection of the thirty-two feature indices. -/
def featPerm : Fin 32 ≃ Fin 32 where
  toFun j := ⟨4 * (j.val % 8) + j.val / 8, by omega⟩
  invFun f := ⟨8 * (f.val % 4) + f.val / 4, by omega⟩
  left_inv j := by
    apply Fin.ext
    show 8 * ((4 * (j.val % 8) + j.val / 8) % 4) + (4 * (j.val % 8) + j.val / 8) / 4 = j.val
    omega
  right_inv f := by
    apply Fin.ext
    show 4 * ((8 * (f.val % 4) + f.val / 4) % 8) + (8 * (f.val % 4) + f.val / 4) / 8 = f.val
    omega

/-- The kernel's j-th feature is the specification's feature 4·(j % 8) + j / 8. -/
theorem featureK_eq (cx cy : EReal) (j : Fin 32) : featureK cx cy j = feature cx cy (featPerm j) := by
  unfold featureK feature
  congr 1
  · apply Fin.ext
    show j.val % 8 = (4 * (j.val % 8) + j.val / 8) / 4
    omega
  · apply Fin.ext
    show j.val / 8 = (4 * (j.val % 8) + j.val / 8) % 4
    omega

/-- A unit does not depend on the order in which its inputs are visited. -/
theorem unitK_perm {n : ℕ} (σ : Fin n ≃ Fin n) (w x : Fin n → EReal) (b : EReal) :
    unitK (fun j => w (σ j)) (fun j => x (σ j)) b = unitK w x b := by
  unfold unitK
  congr 1
  exact Equiv.sum_comp σ (fun f => w f * x f)

/-! ### the layers at a position -/

/-- Row and column of pixel 4096·r + p of an image. -/
abbrev rowOf (r : Fin 16) (p : Fin 4096) : Fin 256 := ⟨(4096 * r.val + p.val) / 256, by omega⟩
abbrev colOf (r : Fin 16) (p : Fin 4096) : Fin 256 := ⟨(4096 * r.val + p.val) % 256, by omega⟩

theorem g1_blocksAt (P : Params) (b : Fin 8) (r : Fin 16) (p : Fin 4096) :
    g1 (blocksAt P b r) p = h1 P b (rowOf r p) (colOf r p) := by
  funext o
  unfold g1 h1
  congr 1
  have hf : featureK ((blocksAt P b r).c 0 p) ((blocksAt P b r).c 1 p)
      = fun j => feature (cx P b (rowOf r p) (colOf r p)) (cy P b (rowOf r p) (colOf r p)) (featPerm j) := by
    funext j
    exact featureK_eq _ _ j
  have hw : (blocksAt P b r).w0 o
      = fun j => (fun f : Fin 32 => P.ws0 (ix2 o (Fin.castAdd 64 f)) * wS96) (featPerm j) := by
    funext j
    rfl
  rw [hf, hw]
  refine (unitK_perm featPerm (fun f : Fin 32 => P.ws0 (ix2 o (Fin.castAdd 64 f)) * wS96)
    (feature (cx P b (rowOf r p) (colOf r p)) (cy P b (rowOf r p) (colOf r p))) _).trans ?_
  exact unitK_cond _ _ (fun j => P.sc (ix2 b j)) (fun k => P.ws0 (ix2 o k)) wS96 (P.bs0 (ix1 o))
    (fun _ => rfl)

theorem g2_blocksAt (P : Params) (b : Fin 8) (r : Fin 16) (p : Fin 4096) :
    g2 (blocksAt P b r) p = h2 P b (rowOf r p) (colOf r p) := by
  funext o
  unfold g2 h2
  rw [g1_blocksAt]
  congr 1
  exact unitK_eq_unit _ _ (fun k => P.ws1 (ix2 o k)) wS128 _ (fun _ => rfl)

theorem g3_blocksAt (P : Params) (b : Fin 8) (r : Fin 16) (p : Fin 4096) :
    g3 (blocksAt P b r) p = h3 P b (rowOf r p) (colOf r p) := by
  funext o
  unfold g3 h3
  rw [g2_blocksAt]
  congr 1
  exact unitK_eq_unit _ _ (fun k => P.ws2 (ix2 o k)) wS128 _ (fun _ => rfl)

theorem u1_blocksAt (P : Params) (b : Fin 8) (r : Fin 16) (p : Fin 4096) :
    u1 (blocksAt P b r) p = t1 P b (rowOf r p) (colOf r p) := by
  funext o
  unfold u1 t1
  rw [g3_blocksAt]
  congr 1
  exact unitK_cond _ _ (fun j => P.tc (ix2 b j)) (fun k => P.wt0 (ix2 o k)) wS192 (P.bt0 (ix1 o))
    (fun _ => rfl)

theorem u2_blocksAt (P : Params) (b : Fin 8) (r : Fin 16) (p : Fin 4096) :
    u2 (blocksAt P b r) p = t2 P b (rowOf r p) (colOf r p) := by
  funext o
  unfold u2 t2
  rw [u1_blocksAt]
  congr 1
  exact unitK_eq_unit _ _ (fun k => P.wt1 (ix2 o k)) wS128 _ (fun _ => rfl)

/-! ### the two results -/

theorem shapeK_blocksAt (P : Params) (b : Fin 8) (r : Fin 16) (p : Fin 4096) :
    shapeK (blocksAt P b r) p
      = shapeAt P b (⟨(4096 * r.val + p.val) / 256, by omega⟩ : Fin 256)
          (⟨(4096 * r.val + p.val) % 256, by omega⟩ : Fin 256) := by
  show shapeK (blocksAt P b r) p = shapeAt P b (rowOf r p) (colOf r p)
  unfold shapeK shapeAt shapeRaw
  rw [g3_blocksAt]
  congr 1
  exact unitK_eq_unit _ _ (fun k => P.wsh (ix2 (0 : Fin 1) k)) wS128 _ (fun _ => rfl)

theorem texK_blocksAt (P : Params) (b : Fin 8) (r : Fin 16) (p : Fin 4096) (ch : Fin 3) :
    texK (blocksAt P b r) p ch
      = texAt P b (⟨(4096 * r.val + p.val) / 256, by omega⟩ : Fin 256)
          (⟨(4096 * r.val + p.val) % 256, by omega⟩ : Fin 256) ch := by
  show texK (blocksAt P b r) p ch = texAt P b (rowOf r p) (colOf r p) ch
  unfold texK texAt
  rw [u2_blocksAt]
  exact unitK_eq_unit _ _ (fun k => P.wt2 (ix2 ch k)) wS128 _ (fun _ => rfl)

end Cert.Field

end
-- ==== Proof.KerHostSimple.lean ====
/-
  The arrays the region loads from that are an argument array times a scale word, or a bias vector stood up as a
  column: each read at an index in terms of the argument arrays.

  Before the region the host multiplies each later layer's weight matrix by its layer's scale word (the texture
  branch's first layer: the leading 128 of its 192 columns) and rounds the product to the narrower format, which over
  the extended reals changes nothing; and it recasts each later bias vector of a entries as an a × 1 column.
-/
import proofs.«145072_j3487513444877_2_alg».proof.Proof.Gen.KernelIdeal.Frame
import proofs.«145072_j3487513444877_2_alg».proof.Proof.KerParams
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KerSide

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (c : Dev nD)

/-- A vector of a entries spread to an a × 1 column reads, at (p, z), entry p. -/
theorem bcast_col_apply {α : Type} {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) := by
  refine broadcastInDim_apply _ h x _ (ix1 p) fun ax => ?_
  match ax with
  | ⟨0, _⟩ =>
    show p.val = if a = 1 then 0 else p.val
    split
    · have := p.isLt; omega
    · rfl

/-! ### the scaled weight matrices -/

theorem V_v35 (o k : Fin 128) :
    (V m c main_v35 : S128x128.Idx → EReal) (ix2 o k) = (params m c).ws1 (ix2 o k) * Cert.Field.wS128 := by
  have e : (V m c main_v35 : S128x128.Idx → EReal)
      = (truncf .bf16 (mulf (m (c, Proc.tc.devRef main_arg5))
          (broadcastInDim S128x128 ![] bcast_S_S128x128 (constant S_ .f32 0x3DB504F3#32))) bitsLt_bf16_f32
          : FVec Ideal S128x128 .bf16) := by
    show StableHlo.after hostOps0 (fun b => m (c, b)) (Proc.devRef .tc main_v35) = _
    after_results_simp
  rw [e]
  rfl

theorem V_v38 (o k : Fin 128) :
    (V m c main_v38 : S128x128.Idx → EReal) (ix2 o k) = (params m c).ws2 (ix2 o k) * Cert.Field.wS128 := by
  have e : (V m c main_v38 : S128x128.Idx → EReal)
      = (truncf .bf16 (mulf (m (c, Proc.tc.devRef main_arg7))
          (broadcastInDim S128x128 ![] bcast_S_S128x128 (constant S_ .f32 0x3DB504F3#32))) bitsLt_bf16_f32
          : FVec Ideal S128x128 .bf16) := by
    show StableHlo.after hostOps0 (fun b => m (c, b)) (Proc.devRef .tc main_v38) = _
    after_results_simp
  rw [e]
  rfl

theorem V_v41 (k : Fin 128) :
    (V m c main_v41 : S1x128.Idx → EReal) (ix2 (0 : Fin 1) k) = (params m c).wsh (ix2 (0 : Fin 1) k) * Cert.Field.wS128 := by
  have e : (V m c main_v41 : S1x128.Idx → EReal)
      = (truncf .bf16 (mulf (m (c, Proc.tc.devRef main_arg9))
          (broadcastInDim S1x128 ![] bcast_S_S1x128 (constant S_ .f32 0x3DB504F3#32))) bitsLt_bf16_f32
          : FVec Ideal S1x128 .bf16) := by
    show StableHlo.after hostOps0 (fun b => m (c, b)) (Proc.devRef .tc main_v41) = _
    after_results_simp
  rw [e]
  rfl

theorem V_v44 (o k : Fin 128) :
    (V m c main_v44 : S128x128.Idx → EReal) (ix2 o k) = (params m c).wt1 (ix2 o k) * Cert.Field.wS128 := by
  have e : (V m c main_v44 : S128x128.Idx → EReal)
      = (truncf .bf16 (mulf (m (c, Proc.tc.devRef main_arg13))
          (broadcastInDim S128x128 ![] bcast_S_S128x128 (constant S_ .f32 0x3DB504F3#32))) bitsLt_bf16_f32
          : FVec Ideal S128x128 .bf16) := by
    show StableHlo.after hostOps0 (fun b => m (c, b)) (Proc.devRef .tc main_v44) = _
    after_results_simp
  rw [e]
  rfl

theorem V_v47 (ch : Fin 3) (k : Fin 128) :
    (V m c main_v47 : S3x128.Idx → EReal) (ix2 ch k) = (params m c).wt2 (ix2 ch k) * Cert.Field.wS128 := by
  have e : (V m c main_v47 : S3x128.Idx → EReal)
      = (truncf .bf16 (mulf (m (c, Proc.tc.devRef main_arg15))
          (broadcastInDim S3x128 ![] bcast_S_S3x128 (constant S_ .f32 0x3DB504F3#32))) bitsLt_bf16_f32
          : FVec Ideal S3x128 .bf16) := by
    show StableHlo.after hostOps0 (fun b => m (c, b)) (Proc.devRef .tc main_v47) = _
    after_results_simp
  rw [e]
  rfl

/-- The texture branch's first weight matrix: its leading 128 columns, scaled. -/
theorem V_v26 (o k : Fin 128) :
    (V m c main_v26 : S128x128.Idx → EReal) (ix2 o k)
      = (params m c).wt0 (ix2 o (⟨k.val, by omega⟩ : Fin 192)) * Cert.Field.wS192 := by
  have e : (V m c main_v26 : S128x128.Idx → EReal)
      = (truncf .bf16 (mulf
          (extractStridedSlice S128x128 ![0, 0] (m (c, Proc.tc.devRef main_arg11)) slices_S128x192_S128x128_0_0)
          (broadcastInDim S128x128 ![] bcast_S_S128x128 (constant S_ .f32 0x3D93CD3A#32))) bitsLt_bf16_f32
          : FVec Ideal S128x128 .bf16) := by
    show StableHlo.after hostOps0 (fun b => m (c, b)) (Proc.devRef .tc main_v26) = _
    after_results_simp
  rw [e]
  exact congrArg (· * Cert.Field.wS192)
    (slice2_axis1_apply 0 (m (c, Proc.tc.devRef main_arg11)) slices_S128x192_S128x128_0_0 o k
      (⟨k.val, by omega⟩ : Fin 192) (Nat.zero_add _).symm)

/-! ### the bias columns -/

theorem V_v48 (o : Fin 128) :
    (V m c main_v48 : S128x1.Idx → EReal) (ix2 o (0 : Fin 1)) = (params m c).bs1 (ix1 o) := by
  have e : (V m c main_v48 : S128x1.Idx → EReal)
      = (broadcastInDim S128x1 ![0] bcast_S128_S128x1_0 (m (c, Proc.tc.devRef main_arg6)) : FVec Ideal S128x1 .f32) := by
    show StableHlo.after hostOps0 (fun b => m (c, b)) (Proc.devRef .tc main_v48) = _
    after_results_simp
  rw [e]
  exact bcast_col_apply _ _ o 0

theorem V_v49 (o : Fin 128) :
    (V m c main_v49 : S128x1.Idx → EReal) (ix2 o (0 : Fin 1)) = (params m c).bs2 (ix1 o) := by
  have e : (V m c main_v49 : S128x1.Idx → EReal)
      = (broadcastInDim S128x1 ![0] bcast_S128_S128x1_0 (m (c, Proc.tc.devRef main_arg8)) : FVec Ideal S128x1 .f32) := by
    show StableHlo.after hostOps0 (fun b => m (c, b)) (Proc.devRef .tc main_v49) = _
    after_results_simp
  rw [e]
  exact bcast_col_apply _ _ o 0

theorem V_v50 :
    (V m c main_v50 : S1x1.Idx → EReal) (ix2 (0 : Fin 1) (0 : Fin 1)) = (params m c).bsh (ix1 (0 : Fin 1)) := by
  have e : (V m c main_v50 : S1x1.Idx → EReal)
      = (broadcastInDim S1x1 ![0] bcast_S1_S1x1_0 (m (c, Proc.tc.devRef main_arg10)) : FVec Ideal S1x1 .f32) := by
    show StableHlo.after hostOps0 (fun b => m (c, b)) (Proc.devRef .tc main_v50) = _
    after_results_simp
  rw [e]
  exact bcast_col_apply _ _ (0 : Fin 1) 0

theorem V_v51 (o : Fin 128) :
    (V m c main_v51 : S128x1.Idx → EReal) (ix2 o (0 : Fin 1)) = (params m c).bt1 (ix1 o) := by
  have e : (V m c main_v51 : S128x1.Idx → EReal)
      = (broadcastInDim S128x1 ![0] bcast_S128_S128x1_0 (m (c, Proc.tc.devRef main_arg14)) : FVec Ideal S128x1 .f32) := by
    show StableHlo.after hostOps0 (fun b => m (c, b)) (Proc.devRef .tc main_v51) = _
    after_results_simp
  rw [e]
  exact bcast_col_apply _ _ o 0

theorem V_v52 (ch : Fin 3) :
    (V m c main_v52 : S3x1.Idx → EReal) (ix2 ch (0 : Fin 1)) = (params m c).bt2 (ix1 ch) := by
  have e : (V m c main_v52 : S3x1.Idx → EReal)
      = (broadcastInDim S3x1 ![0] bcast_S3_S3x1_0 (m (c, Proc.tc.devRef main_arg16)) : FVec Ideal S3x1 .f32) := by
    show StableHlo.after hostOps0 (fun b => m (c, b)) (Proc.devRef .tc main_v52) = _
    after_results_simp
  rw [e]
  exact bcast_col_apply _ _ ch 0

end Cert.KerSide

end
-- ==== Proof.KerHostCoords.lean ====
/-
  The coordinates array the region loads from, read at an index in terms of the argument array.

  Before the region the host flattens the 256 × 256 positions of every image row by row into 65536 pixels and then
  exchanges the last two axes, so that the two coordinates of a pixel lie in two rows of 65536 entries.
-/
import proofs.«145072_j3487513444877_2_alg».proof.Proof.Gen.KernelIdeal.Frame
import proofs.«145072_j3487513444877_2_alg».proof.Proof.KerParams
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KerSide

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (c : Dev nD)

/-- The coordinates block: entry (b, d, n) is coordinate d of pixel n of image b, pixel n at row n / 256 and column
    n % 256: the 256 × 256 positions are flattened row by row, then the last two axes are exchanged. -/
theorem V_v1 (b : Fin 8) (d : Fin 2) (n : Fin 65536) :
    (V m c main_v1 : S8x2x65536.Idx → EReal) (ix3 b d n)
      = (params m c).coords (ix4 b (⟨n.val / 256, by omega⟩ : Fin 256) (⟨n.val % 256, by omega⟩ : Fin 256) d) := by
  have e : (V m c main_v1 : S8x2x65536.Idx → EReal)
      = (transpose S8x2x65536 [0, 2, 1]
          (shapeCast S8x65536x2 (m (c, Proc.tc.devRef main_arg0)) shapeCasts_S8x256x256x2_S8x65536x2
            : FVec Ideal S8x65536x2 .f32)
          transposes_S8x65536x2_S8x2x65536_0_2_1 : FVec Ideal S8x2x65536 .f32) := by
    show StableHlo.after hostOps0 (fun b => m (c, b)) (Proc.devRef .tc main_v1) = _
    after_results_simp <;> rfl
  rw [e]
  refine (transpose_ix3_021_apply _ transposes_S8x65536x2_S8x2x65536_0_2_1 b d n).trans ?_
  refine shapeCast_apply _ shapeCasts_S8x256x256x2_S8x65536x2 (ix3 b n d)
    (ix4 b (⟨n.val / 256, by omega⟩ : Fin 256) (⟨n.val % 256, by omega⟩ : Fin 256) d) ?_
  rw [Shape.rowMajor_val_four, Shape.rowMajor_val_three]
  show ((b.val * 256 + n.val / 256) * 256 + n.val % 256) * 2 + d.val = (b.val * 65536 + n.val) * 2 + d.val
  omega

end Cert.KerSide

end
-- ==== Proof.LibGatherCols.lean ====
/-
  A reusable general lemma: `stablehlo.gather` of WHOLE COLUMNS of a rank-2 operand, read at an index.

  What `x[:, idx]` of a table `x : [N, C]` at an integer array `idx : [R]` lowers to: a gather with offset_dims `[0]`,
  collapsed_slice_dims `[1]`, start_index_map `[1]`, index_vector_dim 1 and slice sizes `[N, 1]` over the indices as a
  column `[R, 1]`. Result element `(o, j)` is `x` at row `o` and column `idx[j, 0]` — read as a signed integer and
  clamped into `[0, C − 1]`, as the operation clamps every start index so that the slice fits: on the collapsed axis the
  operand index is the clamped start alone, on the other axis (which the start index map does not name) it is the
  result's own offset coordinate. Stated at any extents `N`, `R`, `C` and any index width.
-/
import Idealize.ShloMosaic.Lib.ValueIdx

noncomputable section

namespace Idealize.ShloMosaic.GatherCols

open Idealize.ShloMosaic Idealize.ShloMosaic.ValueIdx

variable {α : Type}

/-- The column gather's dimension numbers for an operand `[N, C]`, start indices `[R, 1]` and result `[N, R]`; their
    conditions `wf` are decided on a program's literal shapes. -/
abbrev colDims (N R C : Nat)
    (wf : GatherDims.WF ⟨2, ![N, C]⟩ ⟨2, ![R, 1]⟩ ⟨2, ![N, R]⟩ [0] [1] [] [1] [] 1 ![N, 1]) :
    GatherDims ⟨2, ![N, C]⟩ ⟨2, ![R, 1]⟩ ⟨2, ![N, R]⟩ where
  offsetDims := [0]
  collapsedSliceDims := [1]
  operandBatchingDims := []
  startIndicesBatchingDims := []
  startIndexMap := [1]
  indexVectorDim := 1
  sliceSizes := ![N, 1]
  wf := wf

/-- THE COLUMN GATHER READ AT `(o, j)`: the operand at row `o` and column `idx[j, 0]`, read signed and clamped into
    `[0, C − 1]`. -/
theorem gather_cols_apply {N R C w : Nat} (hC : 0 < C)
    (wf : GatherDims.WF ⟨2, ![N, C]⟩ ⟨2, ![R, 1]⟩ ⟨2, ![N, R]⟩ [0] [1] [] [1] [] 1 ![N, 1])
    (x : (⟨2, ![N, C]⟩ : Shape).Idx → α) (idx : IVec ⟨2, ![R, 1]⟩ w) (o : Fin N) (j : Fin R) :
    Host.gather (colDims N R C wf) x idx (ix2 o j)
      = x (ix2 o ⟨min (idx (ix2 j (0 : Fin 1))).toInt.toNat (C - 1), by omega⟩) := by
  unfold Host.gather
  congr 1
  funext a
  refine Fin.ext ?_
  match a with
  | ⟨0, _⟩ =>
    show (colDims N R C wf).start (ix2 o j) idx 0 + (colDims N R C wf).batchCoord (ix2 o j) 0
        + (colDims N R C wf).offCoord (ix2 o j) 0 = o.val
    rw [GatherDims.batchCoord_eq_zero _ _ _ List.not_mem_nil]
    unfold GatherDims.start
    rw [dif_neg (show (0 : Fin 2) ∉ (colDims N R C wf).startIndexMap from (by decide : (0 : Fin 2) ∉ [(1 : Fin 2)]))]
    simp only [Nat.add_zero, Nat.zero_add]
    rfl
  | ⟨1, _⟩ =>
    show (colDims N R C wf).start (ix2 o j) idx 1 + (colDims N R C wf).batchCoord (ix2 o j) 1
        + (colDims N R C wf).offCoord (ix2 o j) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N R C wf).startIndexMap from List.mem_singleton.mpr rfl)]
    have hsi : (colDims N R C wf).siIdx (ix2 o j) ⟨List.idxOf (1 : Fin 2) (colDims N R C wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

end Idealize.ShloMosaic.GatherCols

end
-- ==== Proof.KerHostGather.lean ====
/-
  The first layer's feature weights as the region loads them, read at an index in terms of the argument array.

  Before the region the host cuts the leading 32 columns of the first weight matrix, scales them, and gathers the
  columns in the order a constant table of 32 indices names: entry j = 8·q + s of the table is 4·s + q, so that
  column j of the result is the weight of feature 4·(j % 8) + j / 8.  The rounding to the narrower format that follows
  changes nothing over the extended reals.
-/
import proofs.«145072_j3487513444877_2_alg».proof.Proof.Gen.KernelIdeal.Frame
import proofs.«145072_j3487513444877_2_alg».proof.Proof.KerParams
import proofs.«145072_j3487513444877_2_alg».proof.Proof.LibGatherCols
import proofs.«145072_j3487513444877_2_alg».proof.Proof.KerHostSimple
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KerSide

open Idealize.ShloMosaic Idealize.ShloMosaic.TcCoe Idealize.ShloMosaic.Tactic Idealize.ShloMosaic.ValueIdx
open Idealize.SL Idealize.SL.Sem
open Cert.KernelIdeal Cert.KernelIdeal.Gen

variable {α : Type}

/-- The index table: entry j = 8·q + s holds 4·s + q. -/
theorem lit0_val : ∀ j : Fin 32, (lit0 j).toInt.toNat = 4 * (j.val % 8) + j.val / 8 := by decide

/-- The index column the gather reads: the table itself (the mask that would add 32 to an entry is constantly false),
    stood up as a 32 × 1 column. -/
theorem idxCol_apply (A : IVec S32 32) (j : Fin 32) :
    broadcastInDim S32x1 ![0] bcast_S32_S32x1_0
        (select (constantI S32 1 0#1) A (fun i => lit0 (S32.rowMajor i))) (ix2 j (0 : Fin 1))
      = lit0 j := by
  refine (bcast_col_apply _ bcast_S32_S32x1_0 j 0).trans ?_
  show Scalar.select 0#1 (A (ix1 j)) (lit0 (S32.rowMajor (ix1 j))) = lit0 j
  rw [select_zero]
  exact congrArg lit0 (Fin.ext (Shape.rowMajor_val_one (ix1 j)))

/-- The gather of the columns the table names: column j of the result is column 4·(j % 8) + j / 8 of the operand. -/
theorem gather_table_apply (x : (S128x32).Idx → α) (A : IVec S32 32) (o : Fin 128) (j : Fin 32) :
    Host.gather gather_S128x32_S32x1_S128x32_0_1_n_n_1_1_1281 x
        (broadcastInDim S32x1 ![0] bcast_S32_S32x1_0
          (select (constantI S32 1 0#1) A (fun i => lit0 (S32.rowMajor i)))) (ix2 o j)
      = x (ix2 o (⟨4 * (j.val % 8) + j.val / 8, by omega⟩ : Fin 32)) := by
  refine (GatherCols.gather_cols_apply (N := 128) (R := 32) (C := 32) (by decide) gather_S128x32_S32x1_S128x32_0_1_n_n_1_1_1281_wf x _ o j).trans ?_
  refine congrArg (fun f : Fin 32 => x (ix2 o f)) (Fin.ext ?_)
  show min ((broadcastInDim S32x1 ![0] bcast_S32_S32x1_0
        (select (constantI S32 1 0#1) A (fun i => lit0 (S32.rowMajor i)))) (ix2 j (0 : Fin 1))).toInt.toNat (32 - 1)
      = 4 * (j.val % 8) + j.val / 8
  rw [idxCol_apply, lit0_val]
  omega

variable (m : (ℓ : Loc nD τ sig) → Buf (Elt Ideal) ℓ) (c : Dev nD)

/-- The first layer's feature weights: the leading 32 columns, scaled, then reordered by the table. -/
theorem V_v13 (o : Fin 128) (j : Fin 32) :
    (V m c main_v13 : S128x32.Idx → EReal) (ix2 o j)
      = (params m c).ws0 (ix2 o (⟨4 * (j.val % 8) + j.val / 8, by omega⟩ : Fin 96)) * Cert.Field.wS96 := by
  have e : (V m c main_v13 : S128x32.Idx → EReal)
      = (truncf .bf16
          (Host.gather gather_S128x32_S32x1_S128x32_0_1_n_n_1_1_1281
            (mulf (F := Ideal) (φ := .f32)
              (extractStridedSlice S128x32 ![0, 0] (m (c, Proc.tc.devRef main_arg3) : FVec Ideal S128x96 .f32)
                slices_S128x96_S128x32_0_0)
              (broadcastInDim S128x32 ![] bcast_S_S128x32 (constant (F := Ideal) S_ .f32 0x3DD105EC#32)))
            (broadcastInDim S32x1 ![0] bcast_S32_S32x1_0
              (select (constantI S32 1 0#1)
                (addi (fun i => lit0 (S32.rowMajor i)) (broadcastInDim S32 ![] bcast_S_S32 (constantI S_ 32 32#32)))
                (fun i => lit0 (S32.rowMajor i))))
            : FVec Ideal S128x32 .f32) bitsLt_bf16_f32
          : FVec Ideal S128x32 .bf16) := by
    show StableHlo.after hostOps0 (fun b => m (c, b)) (Proc.devRef .tc main_v13) = _
    after_results_simp <;> rfl
  rw [e]
  refine (truncf_apply _ bitsLt_bf16_f32 (ix2 o j)).trans ?_
  refine (gather_table_apply _ _ o j).trans ?_
  exact congrArg (· * Cert.Field.wS96)
    (slice2_axis1_apply 0 (m (c, Proc.tc.devRef main_arg3) : FVec Ideal S128x96 .f32) slices_S128x96_S128x32_0_0 o
      (⟨4 * (j.val % 8) + j.val / 8, by omega⟩ : Fin 32) (⟨4 * (j.val % 8) + j.val / 8, by omega⟩ : Fin 96)
      (Nat.zero_add _).symm)

end Cert.KerSide

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.KerHostBias.lean ====
/-
  The two bias columns that carry a conditioning sum, read at an index in terms of the argument arrays.

  For the first layer and for the texture branch's first layer the host cuts the weight matrix's last 64 columns,
  scales them, multiplies the image's 64 conditioning numbers into them (an 8 × 64 by 64 × 128 product), adds the
  layer's bias vector to every row, and gives the 8 × 128 result a trailing axis of extent one.  Entry (b, o, 0) is
  bias_o + Σ_j cond (b, j) · (weight (o, off + j) · scale).
-/
import proofs.«145072_j3487513444877_2_alg».proof.Proof.Gen.KernelIdeal.Frame
import proofs.«145072_j3487513444877_2_alg».proof.Proof.KerParams
import proofs.«145072_j3487513444877_2_alg».proof.Proof.LibPlainDot
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KerSide

open Idealize.ShloMosaic Idealize.ShloMosaic.TcCoe Idealize.ShloMosaic.Tactic Idealize.ShloMosaic.ValueIdx
open Idealize.SL Idealize.SL.Sem
open Cert.KernelIdeal Cert.KernelIdeal.Gen

variable {α : Type}

/-- A vector of M entries laid as one row and the row repeated n times reads, at (p, o), entry o. -/
theorem bias_rows_apply {n M : ℕ} (x : (⟨1, ![M]⟩ : Shape).Idx → α)
    (h1 : (⟨1, ![M]⟩ : Shape).BroadcastsInDim ⟨2, ![1, M]⟩ ![1])
    (h2 : (⟨2, ![1, M]⟩ : Shape).BroadcastsInDim ⟨2, ![n, M]⟩ ![0, 1]) (p : Fin n) (o : Fin M) :
    broadcastInDim ⟨2, ![n, M]⟩ ![0, 1] h2 (broadcastInDim ⟨2, ![1, M]⟩ ![1] h1 x) (ix2 p o) = x (ix1 o) := by
  refine (broadcastInDim_apply _ h2 _ (ix2 p o) (ix2 (0 : Fin 1) o) fun ax => ?_).trans
    (broadcastInDim_apply _ h1 x (ix2 (0 : Fin 1) o) (ix1 o) fun ax => ?_)
  · match ax with
    | ⟨0, _⟩ =>
      show 0 = if (1 : ℕ) = 1 then 0 else p.val
      rw [if_pos rfl]
    | ⟨1, _⟩ =>
      show o.val = if M = 1 then 0 else o.val
      split
      · have := o.isLt; omega
      · rfl
  · match ax with
    | ⟨0, _⟩ =>
      show o.val = if M = 1 then 0 else o.val
      split
      · have := o.isLt; omega
      · rfl

/-- An n × M matrix given a trailing axis of extent one reads, at (p, o, z), its entry (p, o). -/
theorem unit_last_apply {n M : ℕ} (x : (⟨2, ![n, M]⟩ : Shape).Idx → α)
    (h : (⟨2, ![n, M]⟩ : Shape).BroadcastsInDim ⟨3, ![n, M, 1]⟩ ![0, 1]) (p : Fin n) (o : Fin M) (z : Fin 1) :
    broadcastInDim ⟨3, ![n, M, 1]⟩ ![0, 1] h x (ix3 p o z) = x (ix2 p o) := by
  refine broadcastInDim_apply _ h x _ (ix2 p o) fun ax => ?_
  match ax with
  | ⟨0, _⟩ =>
    show p.val = if n = 1 then 0 else p.val
    split
    · have := p.isLt; omega
    · rfl
  | ⟨1, _⟩ =>
    show o.val = if M = 1 then 0 else o.val
    split
    · have := o.isLt; omega
    · rfl

/-- K columns of an M × C matrix from column off on, each entry times a scale word, transposed: entry (j, o) is
    w (o, off + j) · word. -/
theorem scaledT_slice_apply {M C K : ℕ} (off : ℕ) (w : FVec Ideal ⟨2, ![M, C]⟩ .f32) (word : BitVec 32)
    (hs : (⟨2, ![M, C]⟩ : Shape).Slices ![0, off] ⟨2, ![M, K]⟩)
    (hb : (⟨0, ![]⟩ : Shape).BroadcastsInDim ⟨2, ![M, K]⟩ ![])
    (ht : (⟨2, ![M, K]⟩ : Shape).Transposes [1, 0] ⟨2, ![K, M]⟩)
    (j : Fin K) (o : Fin M) (k : Fin C) (hk : k.val = off + j.val) :
    transpose ⟨2, ![K, M]⟩ [1, 0]
        (mulf (F := Ideal) (extractStridedSlice ⟨2, ![M, K]⟩ ![0, off] w hs)
          (broadcastInDim ⟨2, ![M, K]⟩ ![] hb (constant (F := Ideal) ⟨0, ![]⟩ .f32 word))) ht (ix2 j o)
      = w (ix2 o k) * Ideal.ofBits .f32 word := by
  rw [transpose_ix2_apply]
  show extractStridedSlice ⟨2, ![M, K]⟩ ![0, off] w hs (ix2 o j) * Ideal.ofBits .f32 word = _
  rw [slice2_axis1_apply off w hs o j k hk]

/-- The host's 8 × 64 by 64 × 128 product at entry (b, o): Σ_j l (b, j) · r (j, o). -/
theorem hostDot_apply (l : FVec Ideal S8x64 .f32) (r : FVec Ideal S64x128 .f32) (b : Fin 8) (o : Fin 128) :
    Host.dotGeneral (F := Ideal) (φ₁ := .f32) (φ₂ := .f32) dot_S8x64_S64x128_S8x128_1_0_0_1_n_n none l r (ix2 b o) = ∑ j : Fin 64, l (ix2 b j) * r (ix2 j o) :=
  Cert.PlainDot.dotGeneral_apply dot_S8x64_S64x128_S8x128_1_0_0_1_n_n rfl rfl
    (fun i q => by
      unfold DotDims.lhsIdx
      rw [dif_neg (show ¬(0 : Fin S8x64.rank) ∈ dot_S8x64_S64x128_S8x128_1_0_0_1_n_n.lhsBatch by decide),
        dif_pos (show (0 : Fin S8x64.rank) ∈ dot_S8x64_S64x128_S8x128_1_0_0_1_n_n.lhsNonContracting by decide)]
      rfl)
    (fun i q => dot_S8x64_S64x128_S8x128_1_0_0_1_n_n.lhsIdx_val_of_single rfl i q)
    (fun i q => dot_S8x64_S64x128_S8x128_1_0_0_1_n_n.rhsIdx_val_of_single rfl i q)
    (fun i q => by
      unfold DotDims.rhsIdx
      rw [dif_neg (show ¬(1 : Fin S64x128.rank) ∈ dot_S8x64_S64x128_S8x128_1_0_0_1_n_n.rhsBatch by decide),
        dif_pos (show (1 : Fin S64x128.rank) ∈ dot_S8x64_S64x128_S8x128_1_0_0_1_n_n.rhsNonContracting by decide)]
      rfl)
    none .single l r b o

variable (m : (ℓ : Loc nD τ sig) → Buf (Elt Ideal) ℓ) (c : Dev nD)

/-! ### the two bias columns that carry a conditioning sum -/

theorem V_v19 (b : Fin 8) (o : Fin 128) :
    (V m c main_v19 : S8x128x1.Idx → EReal) (ix3 b o (0 : Fin 1))
      = (params m c).bs0 (ix1 o)
        + ∑ j : Fin 64, (params m c).sc (ix2 b j)
            * ((params m c).ws0 (ix2 o (⟨32 + j.val, by omega⟩ : Fin 96)) * Cert.Field.wS96) := by
  have e : (V m c main_v19 : S8x128x1.Idx → EReal)
      = (broadcastInDim S8x128x1 ![0, 1] bcast_S8x128_S8x128x1_0_1
          (addf (F := Ideal) (φ := .f32)
            (broadcastInDim S8x128 ![0, 1] bcast_S1x128_S8x128_0_1
              (broadcastInDim S1x128 ![1] bcast_S128_S1x128_1 (m (c, Proc.tc.devRef main_arg4) : FVec Ideal S128 .f32)))
            (Host.dotGeneral (F := Ideal) (φ₁ := .f32) (φ₂ := .f32) dot_S8x64_S64x128_S8x128_1_0_0_1_n_n none (m (c, Proc.tc.devRef main_arg1) : FVec Ideal S8x64 .f32)
              (transpose S64x128 [1, 0]
                (mulf (F := Ideal) (φ := .f32)
                  (extractStridedSlice S128x64 ![0, 32] (m (c, Proc.tc.devRef main_arg3) : FVec Ideal S128x96 .f32) slices_S128x96_S128x64_0_32)
                  (broadcastInDim S128x64 ![] bcast_S_S128x64 (constant (F := Ideal) S_ .f32 0x3DD105EC#32)))
                transposes_S128x64_S64x128_1_0)
              : FVec Ideal S8x128 .f32)
            : FVec Ideal S8x128 .f32)
          : FVec Ideal S8x128x1 .f32) := by
    show StableHlo.after hostOps0 (fun b => m (c, b)) (Proc.devRef .tc main_v19) = _
    after_results_simp
  rw [e]
  refine (unit_last_apply _ bcast_S8x128_S8x128x1_0_1 b o 0).trans ?_
  rw [addf_apply, bias_rows_apply, hostDot_apply]
  refine congrArg (HAdd.hAdd (α := EReal) (β := EReal) (γ := EReal) _) (Finset.sum_congr rfl fun j _ => ?_)
  rw [scaledT_slice_apply 32 _ _ _ _ _ j o (⟨32 + j.val, by omega⟩ : Fin 96) rfl]
  rfl

theorem V_v32 (b : Fin 8) (o : Fin 128) :
    (V m c main_v32 : S8x128x1.Idx → EReal) (ix3 b o (0 : Fin 1))
      = (params m c).bt0 (ix1 o)
        + ∑ j : Fin 64, (params m c).tc (ix2 b j)
            * ((params m c).wt0 (ix2 o (⟨128 + j.val, by omega⟩ : Fin 192)) * Cert.Field.wS192) := by
  have e : (V m c main_v32 : S8x128x1.Idx → EReal)
      = (broadcastInDim S8x128x1 ![0, 1] bcast_S8x128_S8x128x1_0_1
          (addf (F := Ideal) (φ := .f32)
            (broadcastInDim S8x128 ![0, 1] bcast_S1x128_S8x128_0_1
              (broadcastInDim S1x128 ![1] bcast_S128_S1x128_1 (m (c, Proc.tc.devRef main_arg12) : FVec Ideal S128 .f32)))
            (Host.dotGeneral (F := Ideal) (φ₁ := .f32) (φ₂ := .f32) dot_S8x64_S64x128_S8x128_1_0_0_1_n_n none (m (c, Proc.tc.devRef main_arg2) : FVec Ideal S8x64 .f32)
              (transpose S64x128 [1, 0]
                (mulf (F := Ideal) (φ := .f32)
                  (extractStridedSlice S128x64 ![0, 128] (m (c, Proc.tc.devRef main_arg11) : FVec Ideal S128x192 .f32) slices_S128x192_S128x64_0_128)
                  (broadcastInDim S128x64 ![] bcast_S_S128x64 (constant (F := Ideal) S_ .f32 0x3D93CD3A#32)))
                transposes_S128x64_S64x128_1_0)
              : FVec Ideal S8x128 .f32)
            : FVec Ideal S8x128 .f32)
          : FVec Ideal S8x128x1 .f32) := by
    show StableHlo.after hostOps0 (fun b => m (c, b)) (Proc.devRef .tc main_v32) = _
    after_results_simp
  rw [e]
  refine (unit_last_apply _ bcast_S8x128_S8x128x1_0_1 b o 0).trans ?_
  rw [addf_apply, bias_rows_apply, hostDot_apply]
  refine congrArg (HAdd.hAdd (α := EReal) (β := EReal) (γ := EReal) _) (Finset.sum_congr rfl fun j _ => ?_)
  rw [scaledT_slice_apply 128 _ _ _ _ _ j o (⟨128 + j.val, by omega⟩ : Fin 192) rfl]
  rfl

end Cert.KerSide

end
-- ==== Proof.KerHost.lean ====
/-
  The fifteen arrays the region loads from, as the host operations before the region leave them, each read at an
  index in terms of the argument arrays: the coordinates (V_v1), the first layer's reordered feature weights (V_v13),
  the two bias columns that carry a conditioning sum (V_v19, V_v32), the scaled weight matrices (V_v26, V_v35, V_v38,
  V_v41, V_v44, V_v47) and the plain bias columns (V_v48 … V_v52).  The right-hand sides are the fields of
  Cert.Field.blocksAt.
-/
import proofs.«145072_j3487513444877_2_alg».proof.Proof.KerHostSimple
import proofs.«145072_j3487513444877_2_alg».proof.Proof.KerHostCoords
import proofs.«145072_j3487513444877_2_alg».proof.Proof.KerHostGather
import proofs.«145072_j3487513444877_2_alg».proof.Proof.KerHostBias
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.KerPayOps.lean ====
/-
  The body's operations read at an entry, over the extended reals.

  A matrix product into the zero accumulator is the textbook sum; a bias column spread over the 4096 lanes reads its
  row's entry; the compare-and-select with the slope and gain words is the leaky rectifier of the specification.
-/
import proofs.«145072_j3487513444877_2_alg».proof.Proof.Gen.KernelIdeal.Frame
import proofs.«145072_j3487513444877_2_alg».proof.Proof.KerBlocks
import proofs.«145072_j3487513444877_2_alg».proof.Proof.LibPlainDot
import proofs.«145072_j3487513444877_2_alg».proof.Proof.LibColumns
import Idealize.ShloMosaic.Lib.ValueLayout

noncomputable section

open scoped BigOperators

namespace Cert.KerPoint

open Idealize.ShloMosaic Idealize.ShloMosaic.ValueIdx Cert.KernelIdeal Cert.KernelIdeal.Gen Cert.Field

/-- Compare with zero, select between z and slope·z, multiply by the gain, change format: the rectifier. -/
theorem act_apply {s : Shape} (z : FVec Ideal s .f32) (i : s.Idx) :
    (truncf .bf16 (mulf (select (cmpf .oge z (broadcast s (Scalar.ofBits (F := Ideal) .f32 0x00000000#32))) z
      (mulf (broadcast s (Scalar.ofBits (F := Ideal) .f32 0x3E4CCCCD#32)) z))
      (broadcast s (Scalar.ofBits (F := Ideal) .f32 0x3FB504F3#32))) bitsLt_bf16_f32 : FVec Ideal s .bf16) i = act (z i) := by
  show Scalar.select (Ideal.cmp .oge (z i) wZero) (z i) (wSlope * z i) * wGain = act (z i)
  unfold act
  by_cases h : wZero ≤ z i
  · have e : Ideal.cmp .oge (z i) wZero = 1#1 := by
      show BitVec.ofBool (decide (wZero ≤ z i)) = 1#1
      rw [decide_eq_true h]; rfl
    rw [e, select_one, if_pos h]
  · have e : Ideal.cmp .oge (z i) wZero = 0#1 := by
      show BitVec.ofBool (decide (wZero ≤ z i)) = 0#1
      rw [decide_eq_false h]; rfl
    rw [e, select_zero, if_neg h]

/-- The 128 × 32 by 32 × 4096 product into the zero accumulator, at entry (o, p): Σ_k W(o, k)·X(k, p). -/
theorem mm32_apply (W : FVec Ideal S128x32 .bf16) (X : FVec Ideal S32x4096 .bf16) (o : Fin 128) (p : Fin 4096) :
    matmul dot_S128x32_S32x4096_S128x4096_1_0_0_1_n_n none W X (constant S128x4096 .f32 0x00000000#32) (ix2 o p)
      = ∑ k : Fin 32, W (ix2 o k) * X (ix2 k p) :=
  Cert.PlainDot.matmul_zero_apply dot_S128x32_S32x4096_S128x4096_1_0_0_1_n_n rfl rfl
    (fun i q => by
      unfold DotDims.lhsIdx
      rw [dif_neg (show ¬(0 : Fin S128x32.rank) ∈ dot_S128x32_S32x4096_S128x4096_1_0_0_1_n_n.lhsBatch by decide),
        dif_pos (show (0 : Fin S128x32.rank) ∈ dot_S128x32_S32x4096_S128x4096_1_0_0_1_n_n.lhsNonContracting by decide)]
      rfl)
    (fun i q => dot_S128x32_S32x4096_S128x4096_1_0_0_1_n_n.lhsIdx_val_of_single rfl i q)
    (fun i q => dot_S128x32_S32x4096_S128x4096_1_0_0_1_n_n.rhsIdx_val_of_single rfl i q)
    (fun i q => by
      unfold DotDims.rhsIdx
      rw [dif_neg (show ¬(1 : Fin S32x4096.rank) ∈ dot_S128x32_S32x4096_S128x4096_1_0_0_1_n_n.rhsBatch by decide),
        dif_pos (show (1 : Fin S32x4096.rank) ∈ dot_S128x32_S32x4096_S128x4096_1_0_0_1_n_n.rhsNonContracting by decide)]
      rfl)
    none W X o p

/-- The 128 × 128 by 128 × 4096 product into the zero accumulator, at entry (o, p): Σ_k W(o, k)·X(k, p). -/
theorem mm128_apply (W : FVec Ideal S128x128 .bf16) (X : FVec Ideal S128x4096 .bf16) (o : Fin 128) (p : Fin 4096) :
    matmul dot_S128x128_S128x4096_S128x4096_1_0_0_1_n_n none W X (constant S128x4096 .f32 0x00000000#32) (ix2 o p)
      = ∑ k : Fin 128, W (ix2 o k) * X (ix2 k p) :=
  Cert.PlainDot.matmul_zero_apply dot_S128x128_S128x4096_S128x4096_1_0_0_1_n_n rfl rfl
    (fun i q => by
      unfold DotDims.lhsIdx
      rw [dif_neg (show ¬(0 : Fin S128x128.rank) ∈ dot_S128x128_S128x4096_S128x4096_1_0_0_1_n_n.lhsBatch by decide),
        dif_pos (show (0 : Fin S128x128.rank) ∈ dot_S128x128_S128x4096_S128x4096_1_0_0_1_n_n.lhsNonContracting by decide)]
      rfl)
    (fun i q => dot_S128x128_S128x4096_S128x4096_1_0_0_1_n_n.lhsIdx_val_of_single rfl i q)
    (fun i q => dot_S128x128_S128x4096_S128x4096_1_0_0_1_n_n.rhsIdx_val_of_single rfl i q)
    (fun i q => by
      unfold DotDims.rhsIdx
      rw [dif_neg (show ¬(1 : Fin S128x4096.rank) ∈ dot_S128x128_S128x4096_S128x4096_1_0_0_1_n_n.rhsBatch by decide),
        dif_pos (show (1 : Fin S128x4096.rank) ∈ dot_S128x128_S128x4096_S128x4096_1_0_0_1_n_n.rhsNonContracting by decide)]
      rfl)
    none W X o p

/-- The 1 × 128 by 128 × 4096 product into the zero accumulator, at entry (o, p): Σ_k W(o, k)·X(k, p). -/
theorem mm1_apply (W : FVec Ideal S1x128 .bf16) (X : FVec Ideal S128x4096 .bf16) (o : Fin 1) (p : Fin 4096) :
    matmul dot_S1x128_S128x4096_S1x4096_1_0_0_1_n_n none W X (constant S1x4096 .f32 0x00000000#32) (ix2 o p)
      = ∑ k : Fin 128, W (ix2 o k) * X (ix2 k p) :=
  Cert.PlainDot.matmul_zero_apply dot_S1x128_S128x4096_S1x4096_1_0_0_1_n_n rfl rfl
    (fun i q => by
      unfold DotDims.lhsIdx
      rw [dif_neg (show ¬(0 : Fin S1x128.rank) ∈ dot_S1x128_S128x4096_S1x4096_1_0_0_1_n_n.lhsBatch by decide),
        dif_pos (show (0 : Fin S1x128.rank) ∈ dot_S1x128_S128x4096_S1x4096_1_0_0_1_n_n.lhsNonContracting by decide)]
      rfl)
    (fun i q => dot_S1x128_S128x4096_S1x4096_1_0_0_1_n_n.lhsIdx_val_of_single rfl i q)
    (fun i q => dot_S1x128_S128x4096_S1x4096_1_0_0_1_n_n.rhsIdx_val_of_single rfl i q)
    (fun i q => by
      unfold DotDims.rhsIdx
      rw [dif_neg (show ¬(1 : Fin S128x4096.rank) ∈ dot_S1x128_S128x4096_S1x4096_1_0_0_1_n_n.rhsBatch by decide),
        dif_pos (show (1 : Fin S128x4096.rank) ∈ dot_S1x128_S128x4096_S1x4096_1_0_0_1_n_n.rhsNonContracting by decide)]
      rfl)
    none W X o p

/-- The 3 × 128 by 128 × 4096 product into the zero accumulator, at entry (o, p): Σ_k W(o, k)·X(k, p). -/
theorem mm3_apply (W : FVec Ideal S3x128 .bf16) (X : FVec Ideal S128x4096 .bf16) (o : Fin 3) (p : Fin 4096) :
    matmul dot_S3x128_S128x4096_S3x4096_1_0_0_1_n_n none W X (constant S3x4096 .f32 0x00000000#32) (ix2 o p)
      = ∑ k : Fin 128, W (ix2 o k) * X (ix2 k p) :=
  Cert.PlainDot.matmul_zero_apply dot_S3x128_S128x4096_S3x4096_1_0_0_1_n_n rfl rfl
    (fun i q => by
      unfold DotDims.lhsIdx
      rw [dif_neg (show ¬(0 : Fin S3x128.rank) ∈ dot_S3x128_S128x4096_S3x4096_1_0_0_1_n_n.lhsBatch by decide),
        dif_pos (show (0 : Fin S3x128.rank) ∈ dot_S3x128_S128x4096_S3x4096_1_0_0_1_n_n.lhsNonContracting by decide)]
      rfl)
    (fun i q => dot_S3x128_S128x4096_S3x4096_1_0_0_1_n_n.lhsIdx_val_of_single rfl i q)
    (fun i q => dot_S3x128_S128x4096_S3x4096_1_0_0_1_n_n.rhsIdx_val_of_single rfl i q)
    (fun i q => by
      unfold DotDims.rhsIdx
      rw [dif_neg (show ¬(1 : Fin S128x4096.rank) ∈ dot_S3x128_S128x4096_S3x4096_1_0_0_1_n_n.rhsBatch by decide),
        dif_pos (show (1 : Fin S128x4096.rank) ∈ dot_S3x128_S128x4096_S3x4096_1_0_0_1_n_n.rhsNonContracting by decide)]
      rfl)
    none W X o p

/-- A 128-entry bias column spread over the lanes reads, at (o, p), its entry o. -/
theorem col_apply (b : Vec Ideal S128x1 .f32) (o : Fin 128) (p : Fin 4096) :
    broadcastTo S128x4096 (shapeCast S128x1 b shapeCasts_S128x1_S128x1) broadcasts_S128x1_S128x4096 (ix2 o p)
      = b (ix2 o (0 : Fin 1)) := by
  rw [shapeCast_self]
  exact Cert.LibColumns.broadcastTo_a1_ab_apply b _ o p

/-- The same for a bias column that carries a leading unit axis. -/
theorem col3_apply (b : Vec Ideal S1x128x1 .f32) (o : Fin 128) (p : Fin 4096) :
    broadcastTo S128x4096 (shapeCast S128x1 b shapeCasts_S1x128x1_S128x1) broadcasts_S128x1_S128x4096 (ix2 o p)
      = b (ix3 (0 : Fin 1) o (0 : Fin 1)) :=
  (Cert.LibColumns.broadcastTo_a1_ab_apply _ _ o p).trans (shapeCast_1ab_ab_apply b _ o (0 : Fin 1))

/-- The one-entry bias of the shape value spread over the lanes. -/
theorem col1_apply (b : Vec Ideal S1x1 .f32) (p : Fin 4096) :
    broadcastTo S1x4096 (shapeCast S1x1 b shapeCasts_S1x1_S1x1) broadcasts_S1x1_S1x4096 (ix2 (0 : Fin 1) p)
      = b (ix2 (0 : Fin 1) (0 : Fin 1)) := by
  rw [shapeCast_self]
  exact Cert.LibColumns.broadcastTo_a1_ab_apply b _ (0 : Fin 1) p

/-- The three-entry bias column of the texture spread over the lanes. -/
theorem colT_apply (b : Vec Ideal S3x1 .f32) (ch : Fin 3) (p : Fin 4096) :
    broadcastTo S3x4096 (shapeCast S3x1 b shapeCasts_S3x1_S3x1) broadcasts_S3x1_S3x4096 (ix2 ch p)
      = b (ix2 ch (0 : Fin 1)) := by
  rw [shapeCast_self]
  exact Cert.LibColumns.broadcastTo_a1_ab_apply b _ ch p

end Cert.KerPoint

end
-- ==== Proof.KerPayConsts.lean ====
/-
  The float words of the embedding, as the extended reals they denote.

  The eight frequency words are the powers of two 1, 2, 4, …, 128, that is 2^s for s = 0 … 7; the coordinate
  scale is the named constant one tenth.
-/
import proofs.«145072_j3487513444877_2_alg».proof.Proof.Spec
import proofs.«145072_j3487513444877_2_alg».proof.KernelIdeal
import Idealize.ShloMosaic.PureOps.IdealRules

noncomputable section

namespace Cert.KerPoint

open Idealize.ShloMosaic

/-- The coordinate scale denotes one tenth. -/
theorem inv_10 : Named.named (F := Ideal) Cert.KernelIdeal.κ "inv_10" (φ := .f32) 0x3DCCCCCD#32 = ((1 / 10 : ℝ) : EReal) :=
  IdealRules.named_const.ideal_named_scalar _ _ _ _ rfl

theorem word_f0 : Ideal.ofBits .f32 0x3F800000#32 = Cert.Field.freq 0 := by
  have h : Ideal.ofBits .f32 0x3F800000#32 = ((1 : ℝ) : EReal) := by
    simp [Ideal.ofBits, Ideal.ieee, -EReal.coe_mul]; norm_num
  rw [h]
  show ((1 : ℝ) : EReal) = (((2 : ℝ) ^ (0 : ℕ) : ℝ) : EReal)
  norm_num
theorem word_f1 : Ideal.ofBits .f32 0x40000000#32 = Cert.Field.freq 1 := by
  have h : Ideal.ofBits .f32 0x40000000#32 = ((2 : ℝ) : EReal) := by
    simp [Ideal.ofBits, Ideal.ieee, -EReal.coe_mul]; norm_num
  rw [h]
  show ((2 : ℝ) : EReal) = (((2 : ℝ) ^ (1 : ℕ) : ℝ) : EReal)
  norm_num
theorem word_f2 : Ideal.ofBits .f32 0x40800000#32 = Cert.Field.freq 2 := by
  have h : Ideal.ofBits .f32 0x40800000#32 = ((4 : ℝ) : EReal) := by
    simp [Ideal.ofBits, Ideal.ieee, -EReal.coe_mul]; norm_num
  rw [h]
  show ((4 : ℝ) : EReal) = (((2 : ℝ) ^ (2 : ℕ) : ℝ) : EReal)
  norm_num
theorem word_f3 : Ideal.ofBits .f32 0x41000000#32 = Cert.Field.freq 3 := by
  have h : Ideal.ofBits .f32 0x41000000#32 = ((8 : ℝ) : EReal) := by
    simp [Ideal.ofBits, Ideal.ieee, -EReal.coe_mul]; norm_num
  rw [h]
  show ((8 : ℝ) : EReal) = (((2 : ℝ) ^ (3 : ℕ) : ℝ) : EReal)
  norm_num
theorem word_f4 : Ideal.ofBits .f32 0x41800000#32 = Cert.Field.freq 4 := by
  have h : Ideal.ofBits .f32 0x41800000#32 = ((16 : ℝ) : EReal) := by
    simp [Ideal.ofBits, Ideal.ieee, -EReal.coe_mul]; norm_num
  rw [h]
  show ((16 : ℝ) : EReal) = (((2 : ℝ) ^ (4 : ℕ) : ℝ) : EReal)
  norm_num
theorem word_f5 : Ideal.ofBits .f32 0x42000000#32 = Cert.Field.freq 5 := by
  have h : Ideal.ofBits .f32 0x42000000#32 = ((32 : ℝ) : EReal) := by
    simp [Ideal.ofBits, Ideal.ieee, -EReal.coe_mul]; norm_num
  rw [h]
  show ((32 : ℝ) : EReal) = (((2 : ℝ) ^ (5 : ℕ) : ℝ) : EReal)
  norm_num
theorem word_f6 : Ideal.ofBits .f32 0x42800000#32 = Cert.Field.freq 6 := by
  have h : Ideal.ofBits .f32 0x42800000#32 = ((64 : ℝ) : EReal) := by
    simp [Ideal.ofBits, Ideal.ieee, -EReal.coe_mul]; norm_num
  rw [h]
  show ((64 : ℝ) : EReal) = (((2 : ℝ) ^ (6 : ℕ) : ℝ) : EReal)
  norm_num
theorem word_f7 : Ideal.ofBits .f32 0x43000000#32 = Cert.Field.freq 7 := by
  have h : Ideal.ofBits .f32 0x43000000#32 = ((128 : ℝ) : EReal) := by
    simp [Ideal.ofBits, Ideal.ieee, -EReal.coe_mul]; norm_num
  rw [h]
  show ((128 : ℝ) : EReal) = (((2 : ℝ) ^ (7 : ℕ) : ℝ) : EReal)
  norm_num

end Cert.KerPoint

end
-- ==== Proof.KerPayRows.lean ====
/-
  Stacks of rows read at an entry.

  Eight one-row arrays stacked along the rows read, at row s, the s-th array's only row; four eight-row arrays
  stacked along the rows read, at row j, row j % 8 of array j / 8.
-/
import Idealize.ShloMosaic.Lib.Pipeline.Value
import Idealize.ShloMosaic.Lib.ValueIdx

noncomputable section

namespace Cert.KerPoint

open Idealize.ShloMosaic Idealize.ShloMosaic.ValueIdx

variable {α : Type}

/-- Eight rows stacked: row s of the stack is the s-th row. -/
theorem rows8_apply {M : ℕ} (a0 a1 a2 a3 a4 a5 a6 a7 : (⟨2, ![1, M]⟩ : Shape).Idx → α)
    (h : Shape.Concatenates (([⟨⟨2, ![1, M]⟩, a0⟩, ⟨⟨2, ![1, M]⟩, a1⟩, ⟨⟨2, ![1, M]⟩, a2⟩, ⟨⟨2, ![1, M]⟩, a3⟩,
      ⟨⟨2, ![1, M]⟩, a4⟩, ⟨⟨2, ![1, M]⟩, a5⟩, ⟨⟨2, ![1, M]⟩, a6⟩, ⟨⟨2, ![1, M]⟩, a7⟩] :
        List ((s : Shape) × (s.Idx → α))).map (·.1)) ⟨2, ![8, M]⟩ 0)
    (s : Fin 8) (p : Fin M) :
    concatenate ⟨2, ![8, M]⟩ 0 [⟨⟨2, ![1, M]⟩, a0⟩, ⟨⟨2, ![1, M]⟩, a1⟩, ⟨⟨2, ![1, M]⟩, a2⟩, ⟨⟨2, ![1, M]⟩, a3⟩,
      ⟨⟨2, ![1, M]⟩, a4⟩, ⟨⟨2, ![1, M]⟩, a5⟩, ⟨⟨2, ![1, M]⟩, a6⟩, ⟨⟨2, ![1, M]⟩, a7⟩] h (ix2 s p)
      = (![a0, a1, a2, a3, a4, a5, a6, a7] s) (ix2 (0 : Fin 1) p) :=
  concatenate_ofFn_unit_apply (t := ⟨2, ![8, M]⟩) (s₁ := ⟨2, ![1, M]⟩) 0 ![a0, a1, a2, a3, a4, a5, a6, a7] h rfl rfl
    (ix2 s p) s rfl (ix2 (0 : Fin 1) p) (fun b hb => by
      match b with
      | ⟨0, _⟩ => exact absurd rfl hb
      | ⟨1, _⟩ => rfl)

/-- Four blocks of eight rows stacked: row j of the stack is row j % 8 of block j / 8. -/
theorem blocks4_apply {M : ℕ} (g0 g1 g2 g3 : (⟨2, ![8, M]⟩ : Shape).Idx → α)
    (h : Shape.Concatenates (([⟨⟨2, ![8, M]⟩, g0⟩, ⟨⟨2, ![8, M]⟩, g1⟩, ⟨⟨2, ![8, M]⟩, g2⟩, ⟨⟨2, ![8, M]⟩, g3⟩] :
        List ((s : Shape) × (s.Idx → α))).map (·.1)) ⟨2, ![32, M]⟩ 0)
    (j : Fin 32) (p : Fin M) :
    concatenate ⟨2, ![32, M]⟩ 0 [⟨⟨2, ![8, M]⟩, g0⟩, ⟨⟨2, ![8, M]⟩, g1⟩, ⟨⟨2, ![8, M]⟩, g2⟩, ⟨⟨2, ![8, M]⟩, g3⟩] h (ix2 j p)
      = (![g0, g1, g2, g3] ⟨j.val / 8, by omega⟩) (ix2 (⟨j.val % 8, by omega⟩ : Fin 8) p) :=
  concatenate_ofFn_apply (t := ⟨2, ![32, M]⟩) (s₁ := ⟨2, ![8, M]⟩) 0 ![g0, g1, g2, g3] h rfl 8 rfl
    (ix2 j p) ⟨j.val / 8, by omega⟩ rfl (ix2 (⟨j.val % 8, by omega⟩ : Fin 8) p) rfl (fun b hb => by
      match b with
      | ⟨0, _⟩ => exact absurd rfl hb
      | ⟨1, _⟩ => rfl)

end Cert.KerPoint

end
-- ==== Proof.KerPayEmbed.lean ====
/-
  The thirty-two sinusoidal features as the body builds them.

  Each coordinate row, times one tenth, times the frequency 2^s, is a row of phases; the eight phase rows of a
  coordinate are stacked, sine and cosine are taken entry by entry, and the four eight-row blocks (sine of the
  first coordinate's phases, sine of the second's, the two cosines) are stacked: row j = 8·q + s is kind q at
  frequency s.
-/
import proofs.«145072_j3487513444877_2_alg».proof.Proof.Gen.KernelIdeal.Frame
import proofs.«145072_j3487513444877_2_alg».proof.Proof.KerBlocks
import proofs.«145072_j3487513444877_2_alg».proof.Proof.KerPayConsts
import proofs.«145072_j3487513444877_2_alg».proof.Proof.KerPayRows
import Idealize.ShloMosaic.Lib.ValueLayout

noncomputable section

namespace Cert.KerPoint

open Idealize.ShloMosaic Idealize.ShloMosaic.ValueIdx Cert.KernelIdeal Cert.KernelIdeal.Gen Cert.Field

section Phases
variable (x0 : Vec Ideal S1x2x4096 .f32)

/-- Coordinate d at lane p, times one tenth. -/
theorem scaled_apply (d : Fin 2) (p : Fin 4096) :
    k0_pay2 (F := Ideal) x0 (ix2 d p) = x0 (ix3 (0 : Fin 1) d p) * ((1 / 10 : ℝ) : EReal) := by
  unfold k0_pay2 k0_pay1
  show shapeCast S2x4096 x0 shapeCasts_S1x2x4096_S2x4096 (ix2 d p)
    * Named.named (F := Ideal) Cert.KernelIdeal.κ "inv_10" (φ := .f32) 0x3DCCCCCD#32 = _
  rw [inv_10, shapeCast_1ab_ab_apply]

theorem row0_apply (p : Fin 4096) :
    k0_pay3 (F := Ideal) x0 (ix2 (0 : Fin 1) p) = x0 (ix3 (0 : Fin 1) (0 : Fin 2) p) * ((1 / 10 : ℝ) : EReal) := by
  unfold k0_pay3
  exact (slice2_axis0_apply 0 _ _ (0 : Fin 1) p (0 : Fin 2) rfl).trans (scaled_apply x0 0 p)

theorem row1_apply (p : Fin 4096) :
    k0_pay4 (F := Ideal) x0 (ix2 (0 : Fin 1) p) = x0 (ix3 (0 : Fin 1) (1 : Fin 2) p) * ((1 / 10 : ℝ) : EReal) := by
  unfold k0_pay4
  exact (slice2_axis0_apply 1 _ _ (0 : Fin 1) p (1 : Fin 2) rfl).trans (scaled_apply x0 1 p)

theorem pay5_apply (p : Fin 4096) : k0_pay5 (F := Ideal) x0 (ix2 (0 : Fin 1) p) = phase (x0 (ix3 (0 : Fin 1) (0 : Fin 2) p)) 0 := by
  unfold k0_pay5 phase
  show k0_pay3 (F := Ideal) x0 (ix2 (0 : Fin 1) p) * Ideal.ofBits .f32 0x3F800000#32 = _
  rw [row0_apply, word_f0]
theorem pay6_apply (p : Fin 4096) : k0_pay6 (F := Ideal) x0 (ix2 (0 : Fin 1) p) = phase (x0 (ix3 (0 : Fin 1) (0 : Fin 2) p)) 1 := by
  unfold k0_pay6 phase
  show k0_pay3 (F := Ideal) x0 (ix2 (0 : Fin 1) p) * Ideal.ofBits .f32 0x40000000#32 = _
  rw [row0_apply, word_f1]
theorem pay7_apply (p : Fin 4096) : k0_pay7 (F := Ideal) x0 (ix2 (0 : Fin 1) p) = phase (x0 (ix3 (0 : Fin 1) (0 : Fin 2) p)) 2 := by
  unfold k0_pay7 phase
  show k0_pay3 (F := Ideal) x0 (ix2 (0 : Fin 1) p) * Ideal.ofBits .f32 0x40800000#32 = _
  rw [row0_apply, word_f2]
theorem pay8_apply (p : Fin 4096) : k0_pay8 (F := Ideal) x0 (ix2 (0 : Fin 1) p) = phase (x0 (ix3 (0 : Fin 1) (0 : Fin 2) p)) 3 := by
  unfold k0_pay8 phase
  show k0_pay3 (F := Ideal) x0 (ix2 (0 : Fin 1) p) * Ideal.ofBits .f32 0x41000000#32 = _
  rw [row0_apply, word_f3]
theorem pay9_apply (p : Fin 4096) : k0_pay9 (F := Ideal) x0 (ix2 (0 : Fin 1) p) = phase (x0 (ix3 (0 : Fin 1) (0 : Fin 2) p)) 4 := by
  unfold k0_pay9 phase
  show k0_pay3 (F := Ideal) x0 (ix2 (0 : Fin 1) p) * Ideal.ofBits .f32 0x41800000#32 = _
  rw [row0_apply, word_f4]
theorem pay10_apply (p : Fin 4096) : k0_pay10 (F := Ideal) x0 (ix2 (0 : Fin 1) p) = phase (x0 (ix3 (0 : Fin 1) (0 : Fin 2) p)) 5 := by
  unfold k0_pay10 phase
  show k0_pay3 (F := Ideal) x0 (ix2 (0 : Fin 1) p) * Ideal.ofBits .f32 0x42000000#32 = _
  rw [row0_apply, word_f5]
theorem pay11_apply (p : Fin 4096) : k0_pay11 (F := Ideal) x0 (ix2 (0 : Fin 1) p) = phase (x0 (ix3 (0 : Fin 1) (0 : Fin 2) p)) 6 := by
  unfold k0_pay11 phase
  show k0_pay3 (F := Ideal) x0 (ix2 (0 : Fin 1) p) * Ideal.ofBits .f32 0x42800000#32 = _
  rw [row0_apply, word_f6]
theorem pay12_apply (p : Fin 4096) : k0_pay12 (F := Ideal) x0 (ix2 (0 : Fin 1) p) = phase (x0 (ix3 (0 : Fin 1) (0 : Fin 2) p)) 7 := by
  unfold k0_pay12 phase
  show k0_pay3 (F := Ideal) x0 (ix2 (0 : Fin 1) p) * Ideal.ofBits .f32 0x43000000#32 = _
  rw [row0_apply, word_f7]
theorem pay13_apply (p : Fin 4096) : k0_pay13 (F := Ideal) x0 (ix2 (0 : Fin 1) p) = phase (x0 (ix3 (0 : Fin 1) (1 : Fin 2) p)) 0 := by
  unfold k0_pay13 phase
  show k0_pay4 (F := Ideal) x0 (ix2 (0 : Fin 1) p) * Ideal.ofBits .f32 0x3F800000#32 = _
  rw [row1_apply, word_f0]
theorem pay14_apply (p : Fin 4096) : k0_pay14 (F := Ideal) x0 (ix2 (0 : Fin 1) p) = phase (x0 (ix3 (0 : Fin 1) (1 : Fin 2) p)) 1 := by
  unfold k0_pay14 phase
  show k0_pay4 (F := Ideal) x0 (ix2 (0 : Fin 1) p) * Ideal.ofBits .f32 0x40000000#32 = _
  rw [row1_apply, word_f1]
theorem pay15_apply (p : Fin 4096) : k0_pay15 (F := Ideal) x0 (ix2 (0 : Fin 1) p) = phase (x0 (ix3 (0 : Fin 1) (1 : Fin 2) p)) 2 := by
  unfold k0_pay15 phase
  show k0_pay4 (F := Ideal) x0 (ix2 (0 : Fin 1) p) * Ideal.ofBits .f32 0x40800000#32 = _
  rw [row1_apply, word_f2]
theorem pay16_apply (p : Fin 4096) : k0_pay16 (F := Ideal) x0 (ix2 (0 : Fin 1) p) = phase (x0 (ix3 (0 : Fin 1) (1 : Fin 2) p)) 3 := by
  unfold k0_pay16 phase
  show k0_pay4 (F := Ideal) x0 (ix2 (0 : Fin 1) p) * Ideal.ofBits .f32 0x41000000#32 = _
  rw [row1_apply, word_f3]
theorem pay17_apply (p : Fin 4096) : k0_pay17 (F := Ideal) x0 (ix2 (0 : Fin 1) p) = phase (x0 (ix3 (0 : Fin 1) (1 : Fin 2) p)) 4 := by
  unfold k0_pay17 phase
  show k0_pay4 (F := Ideal) x0 (ix2 (0 : Fin 1) p) * Ideal.ofBits .f32 0x41800000#32 = _
  rw [row1_apply, word_f4]
theorem pay18_apply (p : Fin 4096) : k0_pay18 (F := Ideal) x0 (ix2 (0 : Fin 1) p) = phase (x0 (ix3 (0 : Fin 1) (1 : Fin 2) p)) 5 := by
  unfold k0_pay18 phase
  show k0_pay4 (F := Ideal) x0 (ix2 (0 : Fin 1) p) * Ideal.ofBits .f32 0x42000000#32 = _
  rw [row1_apply, word_f5]
theorem pay19_apply (p : Fin 4096) : k0_pay19 (F := Ideal) x0 (ix2 (0 : Fin 1) p) = phase (x0 (ix3 (0 : Fin 1) (1 : Fin 2) p)) 6 := by
  unfold k0_pay19 phase
  show k0_pay4 (F := Ideal) x0 (ix2 (0 : Fin 1) p) * Ideal.ofBits .f32 0x42800000#32 = _
  rw [row1_apply, word_f6]
theorem pay20_apply (p : Fin 4096) : k0_pay20 (F := Ideal) x0 (ix2 (0 : Fin 1) p) = phase (x0 (ix3 (0 : Fin 1) (1 : Fin 2) p)) 7 := by
  unfold k0_pay20 phase
  show k0_pay4 (F := Ideal) x0 (ix2 (0 : Fin 1) p) * Ideal.ofBits .f32 0x43000000#32 = _
  rw [row1_apply, word_f7]

/-- The eight phase rows of the first coordinate, row s at lane p. -/
theorem phasesX_apply (s : Fin 8) (p : Fin 4096) :
    (![k0_pay5 (F := Ideal) x0, k0_pay6 (F := Ideal) x0, k0_pay7 (F := Ideal) x0, k0_pay8 (F := Ideal) x0, k0_pay9 (F := Ideal) x0, k0_pay10 (F := Ideal) x0, k0_pay11 (F := Ideal) x0, k0_pay12 (F := Ideal) x0] s) (ix2 (0 : Fin 1) p) = phase (x0 (ix3 (0 : Fin 1) (0 : Fin 2) p)) s := by
  match s with
  | ⟨0, _⟩ => exact pay5_apply x0 p
  | ⟨1, _⟩ => exact pay6_apply x0 p
  | ⟨2, _⟩ => exact pay7_apply x0 p
  | ⟨3, _⟩ => exact pay8_apply x0 p
  | ⟨4, _⟩ => exact pay9_apply x0 p
  | ⟨5, _⟩ => exact pay10_apply x0 p
  | ⟨6, _⟩ => exact pay11_apply x0 p
  | ⟨7, _⟩ => exact pay12_apply x0 p

/-- The eight phase rows of the second coordinate. -/
theorem phasesY_apply (s : Fin 8) (p : Fin 4096) :
    (![k0_pay13 (F := Ideal) x0, k0_pay14 (F := Ideal) x0, k0_pay15 (F := Ideal) x0, k0_pay16 (F := Ideal) x0, k0_pay17 (F := Ideal) x0, k0_pay18 (F := Ideal) x0, k0_pay19 (F := Ideal) x0, k0_pay20 (F := Ideal) x0] s) (ix2 (0 : Fin 1) p) = phase (x0 (ix3 (0 : Fin 1) (1 : Fin 2) p)) s := by
  match s with
  | ⟨0, _⟩ => exact pay13_apply x0 p
  | ⟨1, _⟩ => exact pay14_apply x0 p
  | ⟨2, _⟩ => exact pay15_apply x0 p
  | ⟨3, _⟩ => exact pay16_apply x0 p
  | ⟨4, _⟩ => exact pay17_apply x0 p
  | ⟨5, _⟩ => exact pay18_apply x0 p
  | ⟨6, _⟩ => exact pay19_apply x0 p
  | ⟨7, _⟩ => exact pay20_apply x0 p

end Phases

/-- Of four blocks — sine and cosine of two eight-row arrays — block q at (s, p). -/
theorem kinds_apply (cA cB : FVec Ideal S8x4096 .f32) (q : Fin 4) (s : Fin 8) (p : Fin 4096) :
    (![sin cA, sin cB, cos cA, cos cB] q) (ix2 s p)
      = ![Ideal.sin (cA (ix2 s p)), Ideal.sin (cB (ix2 s p)), Ideal.cos (cA (ix2 s p)), Ideal.cos (cB (ix2 s p))] q := by
  match q with
  | ⟨0, _⟩ => rfl
  | ⟨1, _⟩ => rfl
  | ⟨2, _⟩ => rfl
  | ⟨3, _⟩ => rfl

/-- The embedding as the body builds it from sixteen phase rows. -/
def embV (a0 a1 a2 a3 a4 a5 a6 a7 b0 b1 b2 b3 b4 b5 b6 b7 : FVec Ideal S1x4096 .f32) : FVec Ideal S32x4096 .bf16 :=
  truncf .bf16 (concatenate S32x4096 0
    [⟨S8x4096, sin (concatenate S8x4096 0 [⟨S1x4096, a0⟩, ⟨S1x4096, a1⟩, ⟨S1x4096, a2⟩, ⟨S1x4096, a3⟩, ⟨S1x4096, a4⟩, ⟨S1x4096, a5⟩, ⟨S1x4096, a6⟩, ⟨S1x4096, a7⟩]
        concatenates_S1x4096_S1x4096_S1x4096_S1x4096_S1x4096_S1x4096_S1x4096_S1x4096_S8x4096_d0)⟩,
     ⟨S8x4096, sin (concatenate S8x4096 0 [⟨S1x4096, b0⟩, ⟨S1x4096, b1⟩, ⟨S1x4096, b2⟩, ⟨S1x4096, b3⟩, ⟨S1x4096, b4⟩, ⟨S1x4096, b5⟩, ⟨S1x4096, b6⟩, ⟨S1x4096, b7⟩]
        concatenates_S1x4096_S1x4096_S1x4096_S1x4096_S1x4096_S1x4096_S1x4096_S1x4096_S8x4096_d0)⟩,
     ⟨S8x4096, cos (concatenate S8x4096 0 [⟨S1x4096, a0⟩, ⟨S1x4096, a1⟩, ⟨S1x4096, a2⟩, ⟨S1x4096, a3⟩, ⟨S1x4096, a4⟩, ⟨S1x4096, a5⟩, ⟨S1x4096, a6⟩, ⟨S1x4096, a7⟩]
        concatenates_S1x4096_S1x4096_S1x4096_S1x4096_S1x4096_S1x4096_S1x4096_S1x4096_S8x4096_d0)⟩,
     ⟨S8x4096, cos (concatenate S8x4096 0 [⟨S1x4096, b0⟩, ⟨S1x4096, b1⟩, ⟨S1x4096, b2⟩, ⟨S1x4096, b3⟩, ⟨S1x4096, b4⟩, ⟨S1x4096, b5⟩, ⟨S1x4096, b6⟩, ⟨S1x4096, b7⟩]
        concatenates_S1x4096_S1x4096_S1x4096_S1x4096_S1x4096_S1x4096_S1x4096_S1x4096_S8x4096_d0)⟩]
    concatenates_S8x4096_S8x4096_S8x4096_S8x4096_S32x4096_d0) bitsLt_bf16_f32

/-- Row j of the embedding at lane p: kind j / 8 of the two phases at frequency j % 8. -/
theorem embV_apply (a0 a1 a2 a3 a4 a5 a6 a7 b0 b1 b2 b3 b4 b5 b6 b7 : FVec Ideal S1x4096 .f32) (j : Fin 32) (p : Fin 4096) :
    embV a0 a1 a2 a3 a4 a5 a6 a7 b0 b1 b2 b3 b4 b5 b6 b7 (ix2 j p)
      = ![Ideal.sin ((![a0, a1, a2, a3, a4, a5, a6, a7] ⟨j.val % 8, by omega⟩) (ix2 (0 : Fin 1) p)),
          Ideal.sin ((![b0, b1, b2, b3, b4, b5, b6, b7] ⟨j.val % 8, by omega⟩) (ix2 (0 : Fin 1) p)),
          Ideal.cos ((![a0, a1, a2, a3, a4, a5, a6, a7] ⟨j.val % 8, by omega⟩) (ix2 (0 : Fin 1) p)),
          Ideal.cos ((![b0, b1, b2, b3, b4, b5, b6, b7] ⟨j.val % 8, by omega⟩) (ix2 (0 : Fin 1) p))]
          (⟨j.val / 8, by omega⟩ : Fin 4) := by
  unfold embV
  refine (truncf_apply (ψ := .bf16) (φ := .f32) (s := S32x4096) _ bitsLt_bf16_f32 (ix2 j p)).trans ?_
  refine (blocks4_apply _ _ _ _ _ j p).trans ?_
  refine (kinds_apply _ _ _ _ p).trans ?_
  rw [rows8_apply a0 a1 a2 a3 a4 a5 a6 a7, rows8_apply b0 b1 b2 b3 b4 b5 b6 b7]

/-- With the body's own phase rows the embedding is the specification's feature in the body's order. -/
theorem features_apply (x0 : Vec Ideal S1x2x4096 .f32) (j : Fin 32) (p : Fin 4096) :
    embV (k0_pay5 (F := Ideal) x0) (k0_pay6 (F := Ideal) x0) (k0_pay7 (F := Ideal) x0) (k0_pay8 (F := Ideal) x0)
      (k0_pay9 (F := Ideal) x0) (k0_pay10 (F := Ideal) x0) (k0_pay11 (F := Ideal) x0) (k0_pay12 (F := Ideal) x0)
      (k0_pay13 (F := Ideal) x0) (k0_pay14 (F := Ideal) x0) (k0_pay15 (F := Ideal) x0) (k0_pay16 (F := Ideal) x0)
      (k0_pay17 (F := Ideal) x0) (k0_pay18 (F := Ideal) x0) (k0_pay19 (F := Ideal) x0) (k0_pay20 (F := Ideal) x0) (ix2 j p)
      = featureK (x0 (ix3 (0 : Fin 1) (0 : Fin 2) p)) (x0 (ix3 (0 : Fin 1) (1 : Fin 2) p)) j := by
  rw [embV_apply, phasesX_apply, phasesY_apply]
  rfl

end Cert.KerPoint

end
-- ==== Proof.KerPayLayers.lean ====
/-
  The body's five rectified dense layers, read at an entry.

  Each layer is a matrix product of a weight block with the previous layer's 4096 columns, plus the layer's bias
  column, through the rectifier; at column p and row o this is the kernel's form of the dense unit of the
  specification, the previous layer's column p being its inputs.
-/
import proofs.«145072_j3487513444877_2_alg».proof.Proof.KerPayOps
import proofs.«145072_j3487513444877_2_alg».proof.Proof.KerPayEmbed

noncomputable section

open scoped BigOperators

namespace Cert.KerPoint

open Idealize.ShloMosaic Idealize.ShloMosaic.ValueIdx Cert.KernelIdeal Cert.KernelIdeal.Gen Cert.Field

/-- The rectifier applied to a whole array, as the body spells it. -/
def actV {s : Shape} (z : FVec Ideal s .f32) : FVec Ideal s .bf16 :=
  truncf .bf16 (mulf (select (cmpf .oge z (broadcast s (Scalar.ofBits (F := Ideal) .f32 0x00000000#32))) z
      (mulf (broadcast s (Scalar.ofBits (F := Ideal) .f32 0x3E4CCCCD#32)) z))
      (broadcast s (Scalar.ofBits (F := Ideal) .f32 0x3FB504F3#32))) bitsLt_bf16_f32

theorem actV_apply {s : Shape} (z : FVec Ideal s .f32) (i : s.Idx) : actV z i = act (z i) := act_apply z i

/-- A pre-activation plus a bias column, rectified, at (o, p). -/
theorem actBias_apply (M : FVec Ideal S128x4096 .f32) (b : Vec Ideal S128x1 .f32) (o : Fin 128) (p : Fin 4096) :
    actV (addf M (broadcastTo S128x4096 (shapeCast S128x1 b shapeCasts_S128x1_S128x1) broadcasts_S128x1_S128x4096)) (ix2 o p) = act (M (ix2 o p) + b (ix2 o (0 : Fin 1))) := by
  rw [actV_apply]
  show act (M (ix2 o p) + _) = _
  rw [col_apply]

theorem actBias3_apply (M : FVec Ideal S128x4096 .f32) (b : Vec Ideal S1x128x1 .f32) (o : Fin 128) (p : Fin 4096) :
    actV (addf M (broadcastTo S128x4096 (shapeCast S128x1 b shapeCasts_S1x128x1_S128x1) broadcasts_S128x1_S128x4096)) (ix2 o p) = act (M (ix2 o p) + b (ix3 (0 : Fin 1) o (0 : Fin 1))) := by
  rw [actV_apply]
  show act (M (ix2 o p) + _) = _
  rw [col3_apply]

/-- The products with a loaded weight block (recast to its own shape). -/
theorem mmW32_apply (W : FVec Ideal S128x32 .bf16) (X : FVec Ideal S32x4096 .bf16) (o : Fin 128) (p : Fin 4096) :
    matmul dot_S128x32_S32x4096_S128x4096_1_0_0_1_n_n none (shapeCast S128x32 W shapeCasts_S128x32_S128x32) X (constant S128x4096 .f32 0x00000000#32) (ix2 o p)
      = ∑ k : Fin 32, W (ix2 o k) * X (ix2 k p) := by
  rw [shapeCast_self W]; exact mm32_apply W X o p

theorem mmW128_apply (W : FVec Ideal S128x128 .bf16) (X : FVec Ideal S128x4096 .bf16) (o : Fin 128) (p : Fin 4096) :
    matmul dot_S128x128_S128x4096_S128x4096_1_0_0_1_n_n none (shapeCast S128x128 W shapeCasts_S128x128_S128x128) X (constant S128x4096 .f32 0x00000000#32) (ix2 o p)
      = ∑ k : Fin 128, W (ix2 o k) * X (ix2 k p) := by
  rw [shapeCast_self W]; exact mm128_apply W X o p

theorem mmW1_apply (W : FVec Ideal S1x128 .bf16) (X : FVec Ideal S128x4096 .bf16) (p : Fin 4096) :
    matmul dot_S1x128_S128x4096_S1x4096_1_0_0_1_n_n none (shapeCast S1x128 W shapeCasts_S1x128_S1x128) X (constant S1x4096 .f32 0x00000000#32) (ix2 (0 : Fin 1) p)
      = ∑ k : Fin 128, W (ix2 (0 : Fin 1) k) * X (ix2 k p) := by
  rw [shapeCast_self W]; exact mm1_apply W X 0 p

theorem mmW3_apply (W : FVec Ideal S3x128 .bf16) (X : FVec Ideal S128x4096 .bf16) (ch : Fin 3) (p : Fin 4096) :
    matmul dot_S3x128_S128x4096_S3x4096_1_0_0_1_n_n none (shapeCast S3x128 W shapeCasts_S3x128_S3x128) X (constant S3x4096 .f32 0x00000000#32) (ix2 ch p)
      = ∑ k : Fin 128, W (ix2 ch k) * X (ix2 k p) := by
  rw [shapeCast_self W]; exact mm3_apply W X ch p

section Layers
variable (x0 : Vec Ideal S1x2x4096 .f32) (x1 : Vec Ideal S128x32 .bf16) (x2 : Vec Ideal S1x128x1 .f32)
    (x3 : Vec Ideal S128x128 .bf16) (x4 : Vec Ideal S128x1 .f32) (x5 : Vec Ideal S128x128 .bf16)
    (x6 : Vec Ideal S128x1 .f32) (x7 : Vec Ideal S1x128 .bf16) (x8 : Vec Ideal S1x1 .f32)
    (x9 : Vec Ideal S128x128 .bf16) (x10 : Vec Ideal S1x128x1 .f32) (x11 : Vec Ideal S128x128 .bf16)
    (x12 : Vec Ideal S128x1 .f32) (x13 : Vec Ideal S3x128 .bf16) (x14 : Vec Ideal S3x1 .f32)

/-- The embedding of the loaded coordinate block. -/
def E0V : FVec Ideal S32x4096 .bf16 := embV (k0_pay5 (F := Ideal) x0) (k0_pay6 (F := Ideal) x0) (k0_pay7 (F := Ideal) x0) (k0_pay8 (F := Ideal) x0) (k0_pay9 (F := Ideal) x0) (k0_pay10 (F := Ideal) x0) (k0_pay11 (F := Ideal) x0) (k0_pay12 (F := Ideal) x0) (k0_pay13 (F := Ideal) x0) (k0_pay14 (F := Ideal) x0) (k0_pay15 (F := Ideal) x0) (k0_pay16 (F := Ideal) x0) (k0_pay17 (F := Ideal) x0) (k0_pay18 (F := Ideal) x0) (k0_pay19 (F := Ideal) x0) (k0_pay20 (F := Ideal) x0)

/-- The first, second and third layers of the shape branch. -/
def H1V : FVec Ideal S128x4096 .bf16 :=
  actV (addf (matmul dot_S128x32_S32x4096_S128x4096_1_0_0_1_n_n none (shapeCast S128x32 x1 shapeCasts_S128x32_S128x32 : FVec Ideal S128x32 .bf16) (E0V x0) (constant S128x4096 .f32 0x00000000#32)) (broadcastTo S128x4096 (shapeCast S128x1 x2 shapeCasts_S1x128x1_S128x1) broadcasts_S128x1_S128x4096))
def H2V : FVec Ideal S128x4096 .bf16 :=
  actV (addf (matmul dot_S128x128_S128x4096_S128x4096_1_0_0_1_n_n none (shapeCast S128x128 x3 shapeCasts_S128x128_S128x128 : FVec Ideal S128x128 .bf16) (H1V x0 x1 x2) (constant S128x4096 .f32 0x00000000#32)) (broadcastTo S128x4096 (shapeCast S128x1 x4 shapeCasts_S128x1_S128x1) broadcasts_S128x1_S128x4096))
def H3V : FVec Ideal S128x4096 .bf16 :=
  actV (addf (matmul dot_S128x128_S128x4096_S128x4096_1_0_0_1_n_n none (shapeCast S128x128 x5 shapeCasts_S128x128_S128x128 : FVec Ideal S128x128 .bf16) (H2V x0 x1 x2 x3 x4) (constant S128x4096 .f32 0x00000000#32)) (broadcastTo S128x4096 (shapeCast S128x1 x6 shapeCasts_S128x1_S128x1) broadcasts_S128x1_S128x4096))
/-- The two rectified layers of the texture branch. -/
def U1V : FVec Ideal S128x4096 .bf16 :=
  actV (addf (matmul dot_S128x128_S128x4096_S128x4096_1_0_0_1_n_n none (shapeCast S128x128 x9 shapeCasts_S128x128_S128x128 : FVec Ideal S128x128 .bf16) (H3V x0 x1 x2 x3 x4 x5 x6) (constant S128x4096 .f32 0x00000000#32)) (broadcastTo S128x4096 (shapeCast S128x1 x10 shapeCasts_S1x128x1_S128x1) broadcasts_S128x1_S128x4096))
def U2V : FVec Ideal S128x4096 .bf16 :=
  actV (addf (matmul dot_S128x128_S128x4096_S128x4096_1_0_0_1_n_n none (shapeCast S128x128 x11 shapeCasts_S128x128_S128x128 : FVec Ideal S128x128 .bf16) (U1V x0 x1 x2 x3 x4 x5 x6 x9 x10) (constant S128x4096 .f32 0x00000000#32)) (broadcastTo S128x4096 (shapeCast S128x1 x12 shapeCasts_S128x1_S128x1) broadcasts_S128x1_S128x4096))

/-- What the body computes between its loads and its stores is these arrays, layer by layer. -/
theorem pay21_eq : k0_pay21 (F := Ideal) (k0_pay5 (F := Ideal) x0) (k0_pay6 (F := Ideal) x0) (k0_pay7 (F := Ideal) x0) (k0_pay8 (F := Ideal) x0) (k0_pay9 (F := Ideal) x0) (k0_pay10 (F := Ideal) x0) (k0_pay11 (F := Ideal) x0) (k0_pay12 (F := Ideal) x0) (k0_pay13 (F := Ideal) x0) (k0_pay14 (F := Ideal) x0) (k0_pay15 (F := Ideal) x0) (k0_pay16 (F := Ideal) x0) (k0_pay17 (F := Ideal) x0) (k0_pay18 (F := Ideal) x0) (k0_pay19 (F := Ideal) x0) (k0_pay20 (F := Ideal) x0) x1 x2 x3 x4 = H2V x0 x1 x2 x3 x4 := rfl

theorem pay23_eq : k0_pay23 (F := Ideal) (H2V x0 x1 x2 x3 x4) (k0_pay22 (F := Ideal) x5) (constant S128x4096 .f32 0x00000000#32) x6
    = H3V x0 x1 x2 x3 x4 x5 x6 := rfl

theorem pay24_eq : k0_pay24 (F := Ideal) (H2V x0 x1 x2 x3 x4) (k0_pay22 (F := Ideal) x5) (constant S128x4096 .f32 0x00000000#32) x6 x7 x8
    = (addf (matmul dot_S1x128_S128x4096_S1x4096_1_0_0_1_n_n none (shapeCast S1x128 x7 shapeCasts_S1x128_S1x128 : FVec Ideal S1x128 .bf16) (H3V x0 x1 x2 x3 x4 x5 x6) (constant S1x4096 .f32 0x00000000#32)) (broadcastTo S1x4096 (shapeCast S1x1 x8 shapeCasts_S1x1_S1x1) broadcasts_S1x1_S1x4096)) := rfl

theorem pay25_eq : k0_pay25 (F := Ideal) (H2V x0 x1 x2 x3 x4) (k0_pay22 (F := Ideal) x5) (constant S128x4096 .f32 0x00000000#32) x6 x9 x10 x11
    = (matmul dot_S128x128_S128x4096_S128x4096_1_0_0_1_n_n none (shapeCast S128x128 x11 shapeCasts_S128x128_S128x128 : FVec Ideal S128x128 .bf16) (U1V x0 x1 x2 x3 x4 x5 x6 x9 x10) (constant S128x4096 .f32 0x00000000#32)) := rfl

theorem pay27_eq : k0_pay27 (F := Ideal) (matmul dot_S128x128_S128x4096_S128x4096_1_0_0_1_n_n none (shapeCast S128x128 x11 shapeCasts_S128x128_S128x128 : FVec Ideal S128x128 .bf16) (U1V x0 x1 x2 x3 x4 x5 x6 x9 x10) (constant S128x4096 .f32 0x00000000#32)) x12 x13 x14
    = shapeCast S1x3x4096 (addf (matmul dot_S3x128_S128x4096_S3x4096_1_0_0_1_n_n none (shapeCast S3x128 x13 shapeCasts_S3x128_S3x128 : FVec Ideal S3x128 .bf16) (U2V x0 x1 x2 x3 x4 x5 x6 x9 x10 x11 x12) (constant S3x4096 .f32 0x00000000#32)) (broadcastTo S3x4096 (shapeCast S3x1 x14 shapeCasts_S3x1_S3x1) broadcasts_S3x1_S3x4096)) shapeCasts_S3x4096_S1x3x4096 := rfl

/-- Layer by layer, column p of each array is the kernel's form of the specification's layer at lane p. -/
theorem g1_apply (k : Fin 128) (p : Fin 4096) : H1V x0 x1 x2 (ix2 k p) = g1 (blocksOf x0 x1 x2 x3 x4 x5 x6 x7 x8 x9 x10 x11 x12 x13 x14) p k := by
  unfold H1V
  refine (actBias3_apply _ x2 k p).trans ?_
  rw [mmW32_apply]
  have e : ∀ j : Fin 32, E0V x0 (ix2 j p)
      = featureK (x0 (ix3 (0 : Fin 1) (0 : Fin 2) p)) (x0 (ix3 (0 : Fin 1) (1 : Fin 2) p)) j :=
    fun j => features_apply x0 j p
  simp only [e]
  rfl

theorem g2_apply (o : Fin 128) (p : Fin 4096) : H2V x0 x1 x2 x3 x4 (ix2 o p) = g2 (blocksOf x0 x1 x2 x3 x4 x5 x6 x7 x8 x9 x10 x11 x12 x13 x14) p o := by
  unfold H2V
  refine (actBias_apply _ x4 o p).trans ?_
  rw [mmW128_apply]
  have e : ∀ k : Fin 128, H1V x0 x1 x2 (ix2 k p) = g1 (blocksOf x0 x1 x2 x3 x4 x5 x6 x7 x8 x9 x10 x11 x12 x13 x14) p k := fun k => g1_apply x0 x1 x2 x3 x4 x5 x6 x7 x8 x9 x10 x11 x12 x13 x14 k p
  simp only [e]
  rfl

theorem g3_apply (o : Fin 128) (p : Fin 4096) : H3V x0 x1 x2 x3 x4 x5 x6 (ix2 o p) = g3 (blocksOf x0 x1 x2 x3 x4 x5 x6 x7 x8 x9 x10 x11 x12 x13 x14) p o := by
  unfold H3V
  refine (actBias_apply _ x6 o p).trans ?_
  rw [mmW128_apply]
  have e : ∀ k : Fin 128, H2V x0 x1 x2 x3 x4 (ix2 k p) = g2 (blocksOf x0 x1 x2 x3 x4 x5 x6 x7 x8 x9 x10 x11 x12 x13 x14) p k := fun k => g2_apply x0 x1 x2 x3 x4 x5 x6 x7 x8 x9 x10 x11 x12 x13 x14 k p
  simp only [e]
  rfl

theorem u1_apply (o : Fin 128) (p : Fin 4096) : U1V x0 x1 x2 x3 x4 x5 x6 x9 x10 (ix2 o p) = u1 (blocksOf x0 x1 x2 x3 x4 x5 x6 x7 x8 x9 x10 x11 x12 x13 x14) p o := by
  unfold U1V
  refine (actBias3_apply _ x10 o p).trans ?_
  rw [mmW128_apply]
  have e : ∀ k : Fin 128, H3V x0 x1 x2 x3 x4 x5 x6 (ix2 k p) = g3 (blocksOf x0 x1 x2 x3 x4 x5 x6 x7 x8 x9 x10 x11 x12 x13 x14) p k := fun k => g3_apply x0 x1 x2 x3 x4 x5 x6 x7 x8 x9 x10 x11 x12 x13 x14 k p
  simp only [e]
  rfl

theorem u2_apply (o : Fin 128) (p : Fin 4096) : U2V x0 x1 x2 x3 x4 x5 x6 x9 x10 x11 x12 (ix2 o p) = u2 (blocksOf x0 x1 x2 x3 x4 x5 x6 x7 x8 x9 x10 x11 x12 x13 x14) p o := by
  unfold U2V
  refine (actBias_apply _ x12 o p).trans ?_
  rw [mmW128_apply]
  have e : ∀ k : Fin 128, U1V x0 x1 x2 x3 x4 x5 x6 x9 x10 (ix2 k p) = u1 (blocksOf x0 x1 x2 x3 x4 x5 x6 x7 x8 x9 x10 x11 x12 x13 x14) p k := fun k => u1_apply x0 x1 x2 x3 x4 x5 x6 x7 x8 x9 x10 x11 x12 x13 x14 k p
  simp only [e]
  rfl

/-- The raw shape value at lane p, and the texture value of channel ch at lane p. -/
theorem raw_apply (p : Fin 4096) :
    (addf (matmul dot_S1x128_S128x4096_S1x4096_1_0_0_1_n_n none (shapeCast S1x128 x7 shapeCasts_S1x128_S1x128 : FVec Ideal S1x128 .bf16) (H3V x0 x1 x2 x3 x4 x5 x6) (constant S1x4096 .f32 0x00000000#32)) (broadcastTo S1x4096 (shapeCast S1x1 x8 shapeCasts_S1x1_S1x1) broadcasts_S1x1_S1x4096)) (ix2 (0 : Fin 1) p) = unitK (blocksOf x0 x1 x2 x3 x4 x5 x6 x7 x8 x9 x10 x11 x12 x13 x14).wh (g3 (blocksOf x0 x1 x2 x3 x4 x5 x6 x7 x8 x9 x10 x11 x12 x13 x14) p) (blocksOf x0 x1 x2 x3 x4 x5 x6 x7 x8 x9 x10 x11 x12 x13 x14).bh := by
  show matmul dot_S1x128_S128x4096_S1x4096_1_0_0_1_n_n none (shapeCast S1x128 x7 shapeCasts_S1x128_S1x128 : FVec Ideal S1x128 .bf16) (H3V x0 x1 x2 x3 x4 x5 x6) (constant S1x4096 .f32 0x00000000#32) (ix2 (0 : Fin 1) p)
    + (broadcastTo S1x4096 (shapeCast S1x1 x8 shapeCasts_S1x1_S1x1) broadcasts_S1x1_S1x4096) (ix2 (0 : Fin 1) p) = _
  rw [mmW1_apply, col1_apply]
  have e : ∀ k : Fin 128, H3V x0 x1 x2 x3 x4 x5 x6 (ix2 k p) = g3 (blocksOf x0 x1 x2 x3 x4 x5 x6 x7 x8 x9 x10 x11 x12 x13 x14) p k := fun k => g3_apply x0 x1 x2 x3 x4 x5 x6 x7 x8 x9 x10 x11 x12 x13 x14 k p
  simp only [e]
  rfl

theorem tex_apply (ch : Fin 3) (p : Fin 4096) :
    (addf (matmul dot_S3x128_S128x4096_S3x4096_1_0_0_1_n_n none (shapeCast S3x128 x13 shapeCasts_S3x128_S3x128 : FVec Ideal S3x128 .bf16) (U2V x0 x1 x2 x3 x4 x5 x6 x9 x10 x11 x12) (constant S3x4096 .f32 0x00000000#32)) (broadcastTo S3x4096 (shapeCast S3x1 x14 shapeCasts_S3x1_S3x1) broadcasts_S3x1_S3x4096)) (ix2 ch p) = texK (blocksOf x0 x1 x2 x3 x4 x5 x6 x7 x8 x9 x10 x11 x12 x13 x14) p ch := by
  show matmul dot_S3x128_S128x4096_S3x4096_1_0_0_1_n_n none (shapeCast S3x128 x13 shapeCasts_S3x128_S3x128 : FVec Ideal S3x128 .bf16) (U2V x0 x1 x2 x3 x4 x5 x6 x9 x10 x11 x12) (constant S3x4096 .f32 0x00000000#32) (ix2 ch p)
    + (broadcastTo S3x4096 (shapeCast S3x1 x14 shapeCasts_S3x1_S3x1) broadcasts_S3x1_S3x4096) (ix2 ch p) = _
  rw [mmW3_apply, colT_apply]
  have e : ∀ k : Fin 128, U2V x0 x1 x2 x3 x4 x5 x6 x9 x10 x11 x12 (ix2 k p) = u2 (blocksOf x0 x1 x2 x3 x4 x5 x6 x7 x8 x9 x10 x11 x12 x13 x14) p k := fun k => u2_apply x0 x1 x2 x3 x4 x5 x6 x7 x8 x9 x10 x11 x12 x13 x14 k p
  simp only [e]
  rfl

end Layers

end Cert.KerPoint

end
-- ==== Proof.KerPayDamp.lean ====
/-
  The damped shape value as the body stores it.

  From the two coordinate rows the body forms r = √(cx² + cy²), the damping 1 − tanh(max(r − 1, 0)), multiplies the
  raw shape row by it and adds two leading unit axes: at lane p the stored value is the raw value times the
  specification's damping of the two coordinates.
-/
import proofs.«145072_j3487513444877_2_alg».proof.Proof.Gen.KernelIdeal.Frame
import proofs.«145072_j3487513444877_2_alg».proof.Proof.KerBlocks
import Idealize.ShloMosaic.Lib.ValueLayout

noncomputable section

namespace Cert.KerPoint

open Idealize.ShloMosaic Idealize.ShloMosaic.ValueIdx Cert.KernelIdeal Cert.KernelIdeal.Gen Cert.Field

theorem pay26_apply (v1 : FVec Ideal S2x4096 .f32) (v97 : FVec Ideal S1x4096 .f32) (p : Fin 4096) :
    k0_pay26 (F := Ideal) v1 v97 (ix3 (0 : Fin 1) (0 : Fin 1) p)
      = v97 (ix2 (0 : Fin 1) p) * damp (v1 (ix2 (0 : Fin 2) p)) (v1 (ix2 (1 : Fin 2) p)) := by
  have e0 : extractStridedSlice S1x4096 ![0, 0] v1 slices_S2x4096_o0_0_S1x4096 (ix2 (0 : Fin 1) p) = v1 (ix2 (0 : Fin 2) p) :=
    slice2_axis0_apply 0 v1 _ (0 : Fin 1) p (0 : Fin 2) rfl
  have e1 : extractStridedSlice S1x4096 ![1, 0] v1 slices_S2x4096_o1_0_S1x4096 (ix2 (0 : Fin 1) p) = v1 (ix2 (1 : Fin 2) p) :=
    slice2_axis0_apply 1 v1 _ (0 : Fin 1) p (1 : Fin 2) rfl
  unfold k0_pay26
  refine (shapeCast_ab_1ab_apply _ _ (0 : Fin 1) (0 : Fin 1) p).trans ?_
  show v97 (ix2 (0 : Fin 1) p) * (wOne - Ideal.tanh (max (Ideal.sqrt
      (extractStridedSlice S1x4096 ![0, 0] v1 slices_S2x4096_o0_0_S1x4096 (ix2 (0 : Fin 1) p)
          * extractStridedSlice S1x4096 ![0, 0] v1 slices_S2x4096_o0_0_S1x4096 (ix2 (0 : Fin 1) p)
        + extractStridedSlice S1x4096 ![1, 0] v1 slices_S2x4096_o1_0_S1x4096 (ix2 (0 : Fin 1) p)
          * extractStridedSlice S1x4096 ![1, 0] v1 slices_S2x4096_o1_0_S1x4096 (ix2 (0 : Fin 1) p)) - wOne) wZero)) = _
  rw [e0, e1]
  rfl

end Cert.KerPoint

end
-- ==== Proof.KerPay.lean ====
/-
  What the body stores, read at an entry.

  The body's two stores cover their whole blocks, so each block after the body is the stored array; every load
  reads a whole block.  The shape block holds, at lane p, the raw shape value times the damping; the texture block
  holds, at (ch, p), the texture value of channel ch: the kernel's forms of the specification at the lane's position.
-/
import proofs.«145072_j3487513444877_2_alg».proof.Proof.KerPayLayers
import proofs.«145072_j3487513444877_2_alg».proof.Proof.KerPayDamp

noncomputable section

namespace Cert.KerPoint

open Idealize.ShloMosaic Idealize.ShloMosaic.ValueIdx Cert.KernelIdeal Cert.KernelIdeal.Gen Cert.Field

theorem hz3 : (![0, 0, 0] : Fin 3 → ℕ) = fun _ => 0 := funext fun a => by fin_cases a <;> rfl
theorem hz2 : (![0, 0] : Fin 2 → ℕ) = fun _ => 0 := funext fun a => by fin_cases a <;> rfl

section Stores
variable (x0 : Vec Ideal S1x2x4096 .f32) (x1 : Vec Ideal S128x32 .bf16) (x2 : Vec Ideal S1x128x1 .f32)
    (x3 : Vec Ideal S128x128 .bf16) (x4 : Vec Ideal S128x1 .f32) (x5 : Vec Ideal S128x128 .bf16)
    (x6 : Vec Ideal S128x1 .f32) (x7 : Vec Ideal S1x128 .bf16) (x8 : Vec Ideal S1x1 .f32)
    (x9 : Vec Ideal S128x128 .bf16) (x10 : Vec Ideal S1x128x1 .f32) (x11 : Vec Ideal S128x128 .bf16)
    (x12 : Vec Ideal S128x1 .f32) (x13 : Vec Ideal S3x128 .bf16) (x14 : Vec Ideal S3x1 .f32)

/-- The shape block after the body is the damped raw shape row. -/
theorem out15_eq : Cert.KernelIdeal.Gen.out0_15 (F := Ideal) x0 x1 x2 x3 x4 x5 x6 x7 x8 x9 x10 x11 x12 x13 x14
    = k0_pay26 (F := Ideal) (k0_pay1 (F := Ideal) x0) (addf (matmul dot_S1x128_S128x4096_S1x4096_1_0_0_1_n_n none (shapeCast S1x128 x7 shapeCasts_S1x128_S1x128 : FVec Ideal S1x128 .bf16) (H3V x0 x1 x2 x3 x4 x5 x6) (constant S1x4096 .f32 0x00000000#32)) (broadcastTo S1x4096 (shapeCast S1x1 x8 shapeCasts_S1x1_S1x1) broadcasts_S1x1_S1x4096)) := by
  unfold Cert.KernelIdeal.Gen.out0_15
  rw [View.canon_unit_zero (S := S1x1x4096) hz3]
  simp only [View.ld_unit_zero (S := S1x2x4096) hz3,
    View.ld_unit_zero (S := S128x32) hz2,
    View.ld_unit_zero (S := S1x128x1) hz3,
    View.ld_unit_zero (S := S128x128) hz2,
    View.ld_unit_zero (S := S128x1) hz2,
    View.ld_unit_zero (S := S1x128) hz2,
    View.ld_unit_zero (S := S1x1) hz2,
    View.ld_unit_zero (S := S3x128) hz2,
    View.ld_unit_zero (S := S3x1) hz2]
  rfl

/-- The texture block after the body is the texture array with a leading unit axis. -/
theorem out16_eq : Cert.KernelIdeal.Gen.out0_16 (F := Ideal) x0 x1 x2 x3 x4 x5 x6 x7 x8 x9 x10 x11 x12 x13 x14
    = shapeCast S1x3x4096 (addf (matmul dot_S3x128_S128x4096_S3x4096_1_0_0_1_n_n none (shapeCast S3x128 x13 shapeCasts_S3x128_S3x128 : FVec Ideal S3x128 .bf16) (U2V x0 x1 x2 x3 x4 x5 x6 x9 x10 x11 x12) (constant S3x4096 .f32 0x00000000#32)) (broadcastTo S3x4096 (shapeCast S3x1 x14 shapeCasts_S3x1_S3x1) broadcasts_S3x1_S3x4096)) shapeCasts_S3x4096_S1x3x4096 := by
  unfold Cert.KernelIdeal.Gen.out0_16
  rw [View.canon_unit_zero (S := S1x3x4096) hz3]
  simp only [View.ld_unit_zero (S := S1x2x4096) hz3,
    View.ld_unit_zero (S := S128x32) hz2,
    View.ld_unit_zero (S := S1x128x1) hz3,
    View.ld_unit_zero (S := S128x128) hz2,
    View.ld_unit_zero (S := S128x1) hz2,
    View.ld_unit_zero (S := S1x128) hz2,
    View.ld_unit_zero (S := S1x1) hz2,
    View.ld_unit_zero (S := S3x128) hz2,
    View.ld_unit_zero (S := S3x1) hz2]
  rfl

theorem out15_apply (p : Fin 4096) :
    Cert.KernelIdeal.Gen.out0_15 (F := Ideal) x0 x1 x2 x3 x4 x5 x6 x7 x8 x9 x10 x11 x12 x13 x14 (ValueIdx.ix3 (0 : Fin 1) (0 : Fin 1) p)
      = Cert.Field.shapeK (blocksOf x0 x1 x2 x3 x4 x5 x6 x7 x8 x9 x10 x11 x12 x13 x14) p := by
  rw [out15_eq]
  refine (pay26_apply _ _ p).trans ?_
  have e0 : k0_pay1 (F := Ideal) x0 (ix2 (0 : Fin 2) p) = x0 (ix3 (0 : Fin 1) (0 : Fin 2) p) :=
    shapeCast_1ab_ab_apply x0 _ (0 : Fin 2) p
  have e1 : k0_pay1 (F := Ideal) x0 (ix2 (1 : Fin 2) p) = x0 (ix3 (0 : Fin 1) (1 : Fin 2) p) :=
    shapeCast_1ab_ab_apply x0 _ (1 : Fin 2) p
  rw [e0, e1, raw_apply]
  rfl

theorem out16_apply (ch : Fin 3) (p : Fin 4096) :
    Cert.KernelIdeal.Gen.out0_16 (F := Ideal) x0 x1 x2 x3 x4 x5 x6 x7 x8 x9 x10 x11 x12 x13 x14 (ValueIdx.ix3 (0 : Fin 1) ch p)
      = Cert.Field.texK (blocksOf x0 x1 x2 x3 x4 x5 x6 x7 x8 x9 x10 x11 x12 x13 x14) p ch := by
  rw [out16_eq]
  exact (shapeCast_ab_1ab_apply _ _ (0 : Fin 1) ch p).trans (tex_apply x0 x1 x2 x3 x4 x5 x6 x7 x8 x9 x10 x11 x12 x13 x14 ch p)

end Stores

end Cert.KerPoint

end
-- ==== Proof.KerArray.lean ====
/-
  From the blocks the grid points write to the two arrays the region leaves.

  Grid point t is image b = t / 16 and tile r = t % 16.  The fifteen blocks it loads are, entry by entry, the
  blocks `blocksAt` describes in terms of the argument arrays (each loaded block read where it lies in its
  array, each array read as the host operations before the region leave it).  So lane p of the block it stores is
  the specification's value at pixel n = 4096·r + p of image b, at row n / 256 and column n % 256.  The 128
  blocks tile each output array — entry (b, ·, n) lies in the block of point 16·b + n / 4096 — hence the arrays
  end as `shapeArr` and `texArr`: the specification's values with the pixel axis still flat and channels first.
-/
import proofs.«145072_j3487513444877_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«145072_j3487513444877_2_alg».proof.Proof.KerIblk
import proofs.«145072_j3487513444877_2_alg».proof.Proof.KerParams
import proofs.«145072_j3487513444877_2_alg».proof.Proof.KerBlocks
import proofs.«145072_j3487513444877_2_alg».proof.Proof.KerAlgebra
import proofs.«145072_j3487513444877_2_alg».proof.Proof.KerHost
import proofs.«145072_j3487513444877_2_alg».proof.Proof.KerPay

set_option maxRecDepth 16384

noncomputable section

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

namespace Cert.KerSide

variable (m : (ℓ : Loc nD τ sig) → Buf (Elt Ideal) ℓ) (c : Dev nD)

/-- Two families of blocks with equal entries are equal. -/
theorem blocks_ext {A B : Cert.Field.Blocks} (h_c : A.c = B.c) (h_w0 : A.w0 = B.w0) (h_b0 : A.b0 = B.b0) (h_w1 : A.w1 = B.w1) (h_b1 : A.b1 = B.b1) (h_w2 : A.w2 = B.w2) (h_b2 : A.b2 = B.b2) (h_wh : A.wh = B.wh) (h_bh : A.bh = B.bh) (h_wt0 : A.wt0 = B.wt0) (h_bt0 : A.bt0 = B.bt0) (h_wt1 : A.wt1 = B.wt1) (h_bt1 : A.bt1 = B.bt1) (h_wt2 : A.wt2 = B.wt2) (h_bt2 : A.bt2 = B.bt2) : A = B := by
  cases A; cases B; simp_all

set_option maxHeartbeats 4000000 in
/-- The blocks a grid point loads are the blocks of image t / 16, tile t % 16, as functions of the arguments. -/
theorem blocks_eq (t : Fin cfg0.N) :
    Cert.KerPoint.blocksOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      = Cert.Field.blocksAt (params m c) (⟨t.val / 16, by have := point_lt t; omega⟩ : Fin 8)
          (⟨t.val % 16, by omega⟩ : Fin 16) := by
  refine blocks_ext ?_ ?_ ?_ ?_ ?_ ?_ ?_ ?_ ?_ ?_ ?_ ?_ ?_ ?_ ?_
  · funext d p; show iblk m c 0 t (ix3 (0 : Fin 1) d p) = _; rw [iblk0, V_v1]; rfl
  · funext o j; show iblk m c 1 t (ix2 o j) = _; rw [iblk1, V_v13]; rfl
  · funext o; show iblk m c 2 t (ix3 (0 : Fin 1) o (0 : Fin 1)) = _; rw [iblk2, V_v19]; rfl
  · funext o k; show iblk m c 3 t (ix2 o k) = _; rw [iblk3, V_v35]; rfl
  · funext o; show iblk m c 4 t (ix2 o (0 : Fin 1)) = _; rw [iblk4, V_v48]; rfl
  · funext o k; show iblk m c 5 t (ix2 o k) = _; rw [iblk5, V_v38]; rfl
  · funext o; show iblk m c 6 t (ix2 o (0 : Fin 1)) = _; rw [iblk6, V_v49]; rfl
  · funext k; show iblk m c 7 t (ix2 (0 : Fin 1) k) = _; rw [iblk7, V_v41]; rfl
  · show iblk m c 8 t (ix2 (0 : Fin 1) (0 : Fin 1)) = _; rw [iblk8, V_v50]; rfl
  · funext o k; show iblk m c 9 t (ix2 o k) = _; rw [iblk9, V_v26]; rfl
  · funext o; show iblk m c 10 t (ix3 (0 : Fin 1) o (0 : Fin 1)) = _; rw [iblk10, V_v32]; rfl
  · funext o k; show iblk m c 11 t (ix2 o k) = _; rw [iblk11, V_v44]; rfl
  · funext o; show iblk m c 12 t (ix2 o (0 : Fin 1)) = _; rw [iblk12, V_v51]; rfl
  · funext ch k; show iblk m c 13 t (ix2 ch k) = _; rw [iblk13, V_v47]; rfl
  · funext ch; show iblk m c 14 t (ix2 ch (0 : Fin 1)) = _; rw [iblk14, V_v52]; rfl

/-- The shape array the region leaves: entry (b, 0, n) is the shape value of pixel n of image b, at row n / 256 and
    column n % 256. -/
def shapeArr (P : Cert.Field.Params) : S8x1x65536.Idx → EReal := fun i =>
  Cert.Field.shapeAt P (i 0) (⟨(i 2).val / 256, by have h : (i 2).val < 65536 := (i 2).isLt; omega⟩ : Fin 256)
    (⟨(i 2).val % 256, by omega⟩ : Fin 256)

/-- The texture array the region leaves: entry (b, ch, n) is channel ch of the texture of pixel n of image b. -/
def texArr (P : Cert.Field.Params) : S8x3x65536.Idx → EReal := fun i =>
  Cert.Field.texAt P (i 0) (⟨(i 2).val / 256, by have h : (i 2).val < 65536 := (i 2).isLt; omega⟩ : Fin 256)
    (⟨(i 2).val % 256, by omega⟩ : Fin 256) (i 1)

/-- An index of a [1, 1, 4096] block is its lane. -/
theorem lane15 (j : S1x1x4096.Idx) : j = ix3 (0 : Fin 1) (0 : Fin 1) (j 2) := by
  funext a; apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => rfl

/-- An index of a [1, 3, 4096] block is its channel and lane. -/
theorem lane16 (j : S1x3x4096.Idx) : j = ix3 (0 : Fin 1) (j 1) (j 2) := by
  funext a; apply Fin.ext
  match a with
  | ⟨0, _⟩ => have h : (j 0).val < 1 := (j 0).isLt; show (j 0).val = 0; omega
  | ⟨1, _⟩ => rfl
  | ⟨2, _⟩ => rfl

/-- Where lane p of point t's shape block lies in the shape array. -/
theorem emb15 (t : Fin cfg0.N) (p : Fin 4096) :
    ((cfg0.win 15).blk t).view.emb (ix3 (0 : Fin 1) (0 : Fin 1) p)
      = ix3 (⟨t.val / 16, by have := point_lt t; omega⟩ : Fin 8) (0 : Fin 1)
          (⟨4096 * (t.val % 16) + p.val, by have := p.isLt; omega⟩ : Fin 65536) := by
  obtain ⟨e0, e1, e2⟩ := idx15 t
  funext a; apply Fin.ext
  match a with
  | ⟨0, _⟩ => show win0_15.index t (0 : Fin 3) * 1 + 1 * 0 = t.val / 16; omega
  | ⟨1, _⟩ => show win0_15.index t (1 : Fin 3) * 1 + 1 * 0 = 0; omega
  | ⟨2, _⟩ => show win0_15.index t (2 : Fin 3) * 4096 + 1 * p.val = 4096 * (t.val % 16) + p.val; omega

/-- Where (ch, p) of point t's texture block lies in the texture array. -/
theorem emb16 (t : Fin cfg0.N) (ch : Fin 3) (p : Fin 4096) :
    ((cfg0.win 16).blk t).view.emb (ix3 (0 : Fin 1) ch p)
      = ix3 (⟨t.val / 16, by have := point_lt t; omega⟩ : Fin 8) ch
          (⟨4096 * (t.val % 16) + p.val, by have := p.isLt; omega⟩ : Fin 65536) := by
  obtain ⟨e0, e1, e2⟩ := idx16 t
  funext a; apply Fin.ext
  match a with
  | ⟨0, _⟩ => show win0_16.index t (0 : Fin 3) * 1 + 1 * 0 = t.val / 16; omega
  | ⟨1, _⟩ => show win0_16.index t (1 : Fin 3) * 3 + 1 * ch.val = ch.val; omega
  | ⟨2, _⟩ => show win0_16.index t (2 : Fin 3) * 4096 + 1 * p.val = 4096 * (t.val % 16) + p.val; omega

/-- WHAT POINT t WRITES BACK to the shape array is block t of `shapeArr`. -/
theorem flushed15 (t : Fin cfg0.N) :
    (dats m 0 c).flushed 15 t = ((cfg0.win 15).blk t).view.read (Elt Ideal) (shapeArr (params m c)) := by
  show (cfg0.win 15).cut (grid0.coords t) ((dats m 0 c).after 15 t) = _
  rw [after0_15]
  funext j
  obtain ⟨p, rfl⟩ : ∃ p : Fin 4096, j = ix3 (0 : Fin 1) (0 : Fin 1) p := ⟨j 2, lane15 j⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 (0 : Fin 1) (0 : Fin 1) p)
      = shapeArr (params m c) (((cfg0.win 15).blk t).view.emb (ix3 (0 : Fin 1) (0 : Fin 1) p))
  refine (Cert.KerPoint.out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p).trans ?_
  rw [blocks_eq, Cert.Field.shapeK_blocksAt, emb15]
  rfl

/-- WHAT POINT t WRITES BACK to the texture array is block t of `texArr`. -/
theorem flushed16 (t : Fin cfg0.N) :
    (dats m 0 c).flushed 16 t = ((cfg0.win 16).blk t).view.read (Elt Ideal) (texArr (params m c)) := by
  show (cfg0.win 16).cut (grid0.coords t) ((dats m 0 c).after 16 t) = _
  rw [after0_16]
  funext j
  obtain ⟨ch, p, rfl⟩ : ∃ (ch : Fin 3) (p : Fin 4096), j = ix3 (0 : Fin 1) ch p := ⟨j 1, j 2, lane16 j⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 (0 : Fin 1) ch p)
      = texArr (params m c) (((cfg0.win 16).blk t).view.emb (ix3 (0 : Fin 1) ch p))
  refine (Cert.KerPoint.out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ch p).trans ?_
  rw [blocks_eq, Cert.Field.texK_blocksAt, emb16]
  rfl

/-- An index of the shape array is in point t's block iff each coordinate is in the block's range on its axis. -/
theorem mem_blk15 (t : Fin cfg0.N) (i : S8x1x65536.Idx) :
    i ∈ ((cfg0.win 15).blk t).view.set ↔ ∀ a : Fin 3, win0_15.index t a * S1x1x4096.size a ≤ (i a).val ∧ (i a).val < win0_15.index t a * S1x1x4096.size a + S1x1x4096.size a := by
  show i ∈ ((View.whole main_v53_0).slice (win0_15.rect t)).set ↔ _
  rw [View.set_slice_whole, Rect.mem_set_unit]
  exact Iff.rfl

theorem mem_blk16 (t : Fin cfg0.N) (i : S8x3x65536.Idx) :
    i ∈ ((cfg0.win 16).blk t).view.set ↔ ∀ a : Fin 3, win0_16.index t a * S1x3x4096.size a ≤ (i a).val ∧ (i a).val < win0_16.index t a * S1x3x4096.size a + S1x3x4096.size a := by
  show i ∈ ((View.whole main_v53_1).slice (win0_16.rect t)).set ↔ _
  rw [View.set_slice_whole, Rect.mem_set_unit]
  exact Iff.rfl

/-- Every entry (b, 0, n) of the shape array is written by the point of image b and tile n / 4096. -/
theorem cover15 (i : S8x1x65536.Idx) :
    ∃ t : Fin cfg0.N, (cfg0.win 15).flush t = true ∧ i ∈ ((cfg0.win 15).blk t).view.set := by
  have h0 : (i 0).val < 8 := (i 0).isLt
  have h1 : (i 1).val < 1 := (i 1).isLt
  have h2 : (i 2).val < 65536 := (i 2).isLt
  have hN : 16 * (i 0).val + (i 2).val / 4096 < cfg0.N := lt_of_lt_of_eq (by omega : 16 * (i 0).val + (i 2).val / 4096 < 128) N_0.symm
  refine ⟨⟨16 * (i 0).val + (i 2).val / 4096, hN⟩, flush0_15 _, ?_⟩
  rw [mem_blk15]
  obtain ⟨e0, e1, e2⟩ := idx15 ⟨16 * (i 0).val + (i 2).val / 4096, hN⟩
  have ht : (⟨16 * (i 0).val + (i 2).val / 4096, hN⟩ : Fin cfg0.N).val = 16 * (i 0).val + (i 2).val / 4096 := rfl
  rw [ht] at e0 e2
  intro a
  match a with
  | ⟨0, _⟩ => show win0_15.index _ (0 : Fin 3) * 1 ≤ (i 0).val ∧ (i 0).val < win0_15.index _ (0 : Fin 3) * 1 + 1; omega
  | ⟨1, _⟩ => show win0_15.index _ (1 : Fin 3) * 1 ≤ (i 1).val ∧ (i 1).val < win0_15.index _ (1 : Fin 3) * 1 + 1; omega
  | ⟨2, _⟩ => show win0_15.index _ (2 : Fin 3) * 4096 ≤ (i 2).val ∧ (i 2).val < win0_15.index _ (2 : Fin 3) * 4096 + 4096; omega

theorem cover16 (i : S8x3x65536.Idx) :
    ∃ t : Fin cfg0.N, (cfg0.win 16).flush t = true ∧ i ∈ ((cfg0.win 16).blk t).view.set := by
  have h0 : (i 0).val < 8 := (i 0).isLt
  have h1 : (i 1).val < 3 := (i 1).isLt
  have h2 : (i 2).val < 65536 := (i 2).isLt
  have hN : 16 * (i 0).val + (i 2).val / 4096 < cfg0.N := lt_of_lt_of_eq (by omega : 16 * (i 0).val + (i 2).val / 4096 < 128) N_0.symm
  refine ⟨⟨16 * (i 0).val + (i 2).val / 4096, hN⟩, flush0_16 _, ?_⟩
  rw [mem_blk16]
  obtain ⟨e0, e1, e2⟩ := idx16 ⟨16 * (i 0).val + (i 2).val / 4096, hN⟩
  have ht : (⟨16 * (i 0).val + (i 2).val / 4096, hN⟩ : Fin cfg0.N).val = 16 * (i 0).val + (i 2).val / 4096 := rfl
  rw [ht] at e0 e2
  intro a
  match a with
  | ⟨0, _⟩ => show win0_16.index _ (0 : Fin 3) * 1 ≤ (i 0).val ∧ (i 0).val < win0_16.index _ (0 : Fin 3) * 1 + 1; omega
  | ⟨1, _⟩ => show win0_16.index _ (1 : Fin 3) * 3 ≤ (i 1).val ∧ (i 1).val < win0_16.index _ (1 : Fin 3) * 3 + 3; omega
  | ⟨2, _⟩ => show win0_16.index _ (2 : Fin 3) * 4096 ≤ (i 2).val ∧ (i 2).val < win0_16.index _ (2 : Fin 3) * 4096 + 4096; omega

/-- THE TWO ARRAYS after the region. -/
theorem final15 : (dats m 0 c).arrAt 15 cfg0.N = shapeArr (params m c) :=
  (dats m 0 c).arrAt_eq_of_cover 15 (shapeArr (params m c)) (fun t _ => flushed15 m c t) cover15

theorem final16 : (dats m 0 c).arrAt 16 cfg0.N = texArr (params m c) :=
  (dats m 0 c).arrAt_eq_of_cover 16 (texArr (params m c)) (fun t _ => flushed16 m c t) cover16

end Cert.KerSide

end
-- ==== Proof.KerRun.lean ====
/-
  The kernel's run, read at its two results.

  After the region the program exchanges the last two axes of each output array and unflattens the pixel axis:
  result entry (b, y, x, ch) is array entry (b, ch, 256·y + x), and (256·y + x) / 256 = y, (256·y + x) % 256 = x
  for x < 256.  With the arrays the region leaves (`final15`, `final16`) the results are the specification's
  `shapeOut` and `texOut` of the argument arrays; the arguments themselves end unchanged.
-/
import proofs.«145072_j3487513444877_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«145072_j3487513444877_2_alg».proof.Proof.KerArray

set_option maxRecDepth 16384

noncomputable section

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

namespace Cert.KerSide

variable (m : (ℓ : Loc nD τ sig) → Buf (Elt Ideal) ℓ) (c : Dev nD)

/-- The shape result: the region's [8, 1, 65536] array with its last two axes exchanged and the pixel axis
    unflattened, pixel n = 256·y + x. -/
theorem tail55 : (Pipeline.afterTail₀ cfgs (dats m) 0 (V0 m) [hostOps1] c main_v55 : S8x256x256x1.Idx → EReal)
    = Cert.Field.shapeOut (params m c) := by
  have e : (Pipeline.afterTail₀ cfgs (dats m) 0 (V0 m) [hostOps1] c main_v55 : S8x256x256x1.Idx → EReal)
      = shapeCast S8x256x256x1 (transpose S8x65536x1 [0, 2, 1]
          (Pipeline.withArrays (cfgs 0).spec c (V0 m c) (fun w => (dats m 0 c).arrAt w (cfgs 0).N) (Proc.tc.devRef main_v53_0))
          transposes_S8x1x65536_S8x65536x1_0_2_1) shapeCasts_S8x65536x1_S8x256x256x1 := by
    unfold Pipeline.afterTail₀
    show StableHlo.after hostOps1 _ (Proc.devRef .tc main_v55) = _
    after_results
    rfl
  have hA : Pipeline.withArrays (cfgs 0).spec c (V0 m c) (fun w => (dats m 0 c).arrAt w (cfgs 0).N) (Proc.tc.devRef main_v53_0)
      = shapeArr (params m c) := (Pipeline.withArrays_arr spec0 launch0.win.arr_inj c _ _ 15).trans (final15 m c)
  rw [e, hA]
  funext i
  have h0 : (i 0).val < 8 := (i 0).isLt
  have h1 : (i 1).val < 256 := (i 1).isLt
  have h2 : (i 2).val < 256 := (i 2).isLt
  have h3 : (i 3).val < 1 := (i 3).isLt
  rw [shapeCast_apply _ _ i (ix3 (⟨(i 0).val, h0⟩ : Fin 8) (⟨256 * (i 1).val + (i 2).val, by omega⟩ : Fin 65536) (⟨(i 3).val, h3⟩ : Fin 1))
    (by rw [Shape.rowMajor_val_three, Shape.rowMajor_val_four]
        show ((i 0).val * 65536 + (256 * (i 1).val + (i 2).val)) * 1 + (i 3).val = (((i 0).val * 256 + (i 1).val) * 256 + (i 2).val) * 1 + (i 3).val
        omega)]
  rw [transpose_ix3_021_apply]
  show Cert.Field.shapeAt (params m c) _ _ _ = Cert.Field.shapeAt (params m c) (i 0) (i 1) (i 2)
  congr 1 <;> (apply Fin.ext; first | rfl | (show (256 * (i 1).val + (i 2).val) / 256 = (i 1).val; omega) | (show (256 * (i 1).val + (i 2).val) % 256 = (i 2).val; omega))

/-- The texture result, the same way. -/
theorem tail57 : (Pipeline.afterTail₀ cfgs (dats m) 0 (V0 m) [hostOps1] c main_v57 : S8x256x256x3.Idx → EReal)
    = Cert.Field.texOut (params m c) := by
  have e : (Pipeline.afterTail₀ cfgs (dats m) 0 (V0 m) [hostOps1] c main_v57 : S8x256x256x3.Idx → EReal)
      = shapeCast S8x256x256x3 (transpose S8x65536x3 [0, 2, 1]
          (Pipeline.withArrays (cfgs 0).spec c (V0 m c) (fun w => (dats m 0 c).arrAt w (cfgs 0).N) (Proc.tc.devRef main_v53_1))
          transposes_S8x3x65536_S8x65536x3_0_2_1) shapeCasts_S8x65536x3_S8x256x256x3 := by
    unfold Pipeline.afterTail₀
    show StableHlo.after hostOps1 _ (Proc.devRef .tc main_v57) = _
    after_results
    rfl
  have hA : Pipeline.withArrays (cfgs 0).spec c (V0 m c) (fun w => (dats m 0 c).arrAt w (cfgs 0).N) (Proc.tc.devRef main_v53_1)
      = texArr (params m c) := (Pipeline.withArrays_arr spec0 launch0.win.arr_inj c _ _ 16).trans (final16 m c)
  rw [e, hA]
  funext i
  have h0 : (i 0).val < 8 := (i 0).isLt
  have h1 : (i 1).val < 256 := (i 1).isLt
  have h2 : (i 2).val < 256 := (i 2).isLt
  have h3 : (i 3).val < 3 := (i 3).isLt
  rw [shapeCast_apply _ _ i (ix3 (⟨(i 0).val, h0⟩ : Fin 8) (⟨256 * (i 1).val + (i 2).val, by omega⟩ : Fin 65536) (⟨(i 3).val, h3⟩ : Fin 3))
    (by rw [Shape.rowMajor_val_three, Shape.rowMajor_val_four]
        show ((i 0).val * 65536 + (256 * (i 1).val + (i 2).val)) * 3 + (i 3).val = (((i 0).val * 256 + (i 1).val) * 256 + (i 2).val) * 3 + (i 3).val
        omega)]
  rw [transpose_ix3_021_apply]
  show Cert.Field.texAt (params m c) _ _ _ _ = Cert.Field.texAt (params m c) (i 0) (i 1) (i 2) (i 3)
  congr 1 <;> (apply Fin.ext; first | rfl | (show (256 * (i 1).val + (i 2).val) / 256 = (i 1).val; omega) | (show (256 * (i 1).val + (i 2).val) % 256 = (i 2).val; omega))

/-- THE KERNEL'S RUN: every weakly fair execution terminates with the two results at the specification's arrays of
    the argument arrays, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v55) = Cert.Field.shapeOut (params m c)
      ∧ r.2.mem ((c.tc : Thread nD τ).loc main_v57) = Cert.Field.texOut (params m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    ⟨((h c).2 main_v55 (Pipeline.mem_restRefs_of main_v55 (by decide) (by decide))).trans (tail55 m c),
     ((h c).2 main_v57 (Pipeline.mem_restRefs_of main_v57 (by decide) (by decide))).trans (tail57 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c),
     ((h c).2 main_arg11 (Pipeline.mem_restRefs_of main_arg11 (by decide) (by decide))).trans (W_main_arg11 m (dats m) c),
     ((h c).2 main_arg12 (Pipeline.mem_restRefs_of main_arg12 (by decide) (by decide))).trans (W_main_arg12 m (dats m) c),
     ((h c).2 main_arg13 (Pipeline.mem_restRefs_of main_arg13 (by decide) (by decide))).trans (W_main_arg13 m (dats m) c),
     ((h c).2 main_arg14 (Pipeline.mem_restRefs_of main_arg14 (by decide) (by decide))).trans (W_main_arg14 m (dats m) c),
     ((h c).2 main_arg15 (Pipeline.mem_restRefs_of main_arg15 (by decide) (by decide))).trans (W_main_arg15 m (dats m) c),
     ((h c).2 main_arg16 (Pipeline.mem_restRefs_of main_arg16 (by decide) (by decide))).trans (W_main_arg16 m (dats m) c)⟩)
    (run_main m ρ)

end Cert.KerSide

end
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.RefRunOps.lean ====
/-
  The reference program's host operations as a list, in order, and its run read back.

  The program is a straight line of 156 tensor operations once the two outlined functions are unfolded at their
  six call sites (the leaky rectifier is six operations and the select of the function it calls; the rectifier
  at zero is three).  The list is cut into eleven consecutive windows, one per stage of the computation
  (features, each dense layer with its rectifier and gain, the two linear heads, the damping factor), so that
  each stage's value can be read off separately.  Every weakly fair execution terminates with each buffer at the
  fold of the operations' results over the launch contents.
-/
import proofs.«145072_j3487513444877_2_alg».proof.Proof.Gen.ReferenceIdeal
import proofs.«145072_j3487513444877_2_alg».proof.Proof.LibHostLine
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

/-- Two arrays joined along axis 4: the function of the operation that writes `main_v15`, named so that its operands stay plain arguments. -/
def cat_v15 (a : FVec F S8x256x256x8x2 .f32) (b : FVec F S8x256x256x8x2 .f32) : FVec F S8x256x256x8x4 .f32 :=
  concatenate S8x256x256x8x4 4 [⟨S8x256x256x8x2, a⟩, ⟨S8x256x256x8x2, b⟩] concatenates_S8x256x256x8x2_S8x256x256x8x2_S8x256x256x8x4_d4
/-- Two arrays joined along axis 3: the function of the operation that writes `main_v19`, named so that its operands stay plain arguments. -/
def cat_v19 (a : FVec F S8x256x256x32 .f32) (b : FVec F S8x256x256x64 .f32) : FVec F S8x256x256x96 .f32 :=
  concatenate S8x256x256x96 3 [⟨S8x256x256x32, a⟩, ⟨S8x256x256x64, b⟩] concatenates_S8x256x256x32_S8x256x256x64_S8x256x256x96_d3
/-- Two arrays joined along axis 1: the function of the operation that writes `main_v62`, named so that its operands stay plain arguments. -/
def cat_v62 (a : FVec F S524288x128 .f32) (b : FVec F S524288x64 .f32) : FVec F S524288x192 .f32 :=
  concatenate S524288x192 1 [⟨S524288x128, a⟩, ⟨S524288x64, b⟩] concatenates_S524288x128_S524288x64_S524288x192_d1

/-- Operations 1 … 23 of 156. -/
abbrev opsW1 : List (HloOp τ sig (Elt F)) :=
  [ nullary main_cst (constant S_ .f32 0x41200000#32),
    unary main_cst main_v0 (broadcastInDim S8x256x256x2 ![] bcast_S_S8x256x256x2 : (⟨S_, .f32⟩ : BufTy).Contents (Elt F) → (⟨S8x256x256x2, .f32⟩ : BufTy).Contents (Elt F)),
    binary main_arg0 main_v0 main_v1 (Host.divf : (⟨S8x256x256x2, .f32⟩ : BufTy).Contents (Elt F) → (⟨S8x256x256x2, .f32⟩ : BufTy).Contents (Elt F) → (⟨S8x256x256x2, .f32⟩ : BufTy).Contents (Elt F)),
    nullary main_v2 (iotaInDim S8 32 0),
    unary main_v2 main_v3 (sitofp .f32 : (⟨S8, .i32⟩ : BufTy).Contents (Elt F) → (⟨S8, .f32⟩ : BufTy).Contents (Elt F)),
    nullary main_cst_0 (constant S_ .f32 0x40000000#32),
    unary main_v2 main_v4 (sitofp .f32 : (⟨S8, .i32⟩ : BufTy).Contents (Elt F) → (⟨S8, .f32⟩ : BufTy).Contents (Elt F)),
    unary main_cst_0 main_v5 (broadcastInDim S8 ![] bcast_S_S8 : (⟨S_, .f32⟩ : BufTy).Contents (Elt F) → (⟨S8, .f32⟩ : BufTy).Contents (Elt F)),
    binary main_v5 main_v4 main_v6 (Host.powf : (⟨S8, .f32⟩ : BufTy).Contents (Elt F) → (⟨S8, .f32⟩ : BufTy).Contents (Elt F) → (⟨S8, .f32⟩ : BufTy).Contents (Elt F)),
    unary main_v1 main_v7 (broadcastInDim S8x256x256x1x2 ![0, 1, 2, 4] bcast_S8x256x256x2_S8x256x256x1x2_0_1_2_4 : (⟨S8x256x256x2, .f32⟩ : BufTy).Contents (Elt F) → (⟨S8x256x256x1x2, .f32⟩ : BufTy).Contents (Elt F)),
    unary main_v6 main_v8 (broadcastInDim S8x1 ![0] bcast_S8_S8x1_0 : (⟨S8, .f32⟩ : BufTy).Contents (Elt F) → (⟨S8x1, .f32⟩ : BufTy).Contents (Elt F)),
    unary main_v8 main_v9 (broadcastInDim S1x1x1x8x1 ![3, 4] bcast_S8x1_S1x1x1x8x1_3_4 : (⟨S8x1, .f32⟩ : BufTy).Contents (Elt F) → (⟨S1x1x1x8x1, .f32⟩ : BufTy).Contents (Elt F)),
    unary main_v7 main_v10 (broadcastInDim S8x256x256x8x2 ![0, 1, 2, 3, 4] bcast_S8x256x256x1x2_S8x256x256x8x2_0_1_2_3_4 : (⟨S8x256x256x1x2, .f32⟩ : BufTy).Contents (Elt F) → (⟨S8x256x256x8x2, .f32⟩ : BufTy).Contents (Elt F)),
    unary main_v9 main_v11 (broadcastInDim S8x256x256x8x2 ![0, 1, 2, 3, 4] bcast_S1x1x1x8x1_S8x256x256x8x2_0_1_2_3_4 : (⟨S1x1x1x8x1, .f32⟩ : BufTy).Contents (Elt F) → (⟨S8x256x256x8x2, .f32⟩ : BufTy).Contents (Elt F)),
    binary main_v10 main_v11 main_v12 (mulf : (⟨S8x256x256x8x2, .f32⟩ : BufTy).Contents (Elt F) → (⟨S8x256x256x8x2, .f32⟩ : BufTy).Contents (Elt F) → (⟨S8x256x256x8x2, .f32⟩ : BufTy).Contents (Elt F)),
    unary main_v12 main_v13 (Host.sin : (⟨S8x256x256x8x2, .f32⟩ : BufTy).Contents (Elt F) → (⟨S8x256x256x8x2, .f32⟩ : BufTy).Contents (Elt F)),
    unary main_v12 main_v14 (Host.cos : (⟨S8x256x256x8x2, .f32⟩ : BufTy).Contents (Elt F) → (⟨S8x256x256x8x2, .f32⟩ : BufTy).Contents (Elt F)),
    binary main_v13 main_v14 main_v15 (cat_v15 : (⟨S8x256x256x8x2, .f32⟩ : BufTy).Contents (Elt F) → (⟨S8x256x256x8x2, .f32⟩ : BufTy).Contents (Elt F) → (⟨S8x256x256x8x4, .f32⟩ : BufTy).Contents (Elt F)),
    reshape main_v15 main_v16 rfl shapeCasts_S8x256x256x8x4_S8x256x256x32,
    unary main_arg1 main_v17 (broadcastInDim S8x1x1x64 ![0, 3] bcast_S8x64_S8x1x1x64_0_3 : (⟨S8x64, .f32⟩ : BufTy).Contents (Elt F) → (⟨S8x1x1x64, .f32⟩ : BufTy).Contents (Elt F)),
    unary main_v17 main_v18 (broadcastInDim S8x256x256x64 ![0, 1, 2, 3] bcast_S8x1x1x64_S8x256x256x64_0_1_2_3 : (⟨S8x1x1x64, .f32⟩ : BufTy).Contents (Elt F) → (⟨S8x256x256x64, .f32⟩ : BufTy).Contents (Elt F)),
    binary main_v16 main_v18 main_v19 (cat_v19 : (⟨S8x256x256x32, .f32⟩ : BufTy).Contents (Elt F) → (⟨S8x256x256x64, .f32⟩ : BufTy).Contents (Elt F) → (⟨S8x256x256x96, .f32⟩ : BufTy).Contents (Elt F)),
    reshape main_v19 main_v20 rfl shapeCasts_S8x256x256x96_S524288x96 ]

/-- Operations 24 … 42 of 156. -/
abbrev opsW2 : List (HloOp τ sig (Elt F)) :=
  [ nullary main_cst_1 (constant S_ .f32 0x3DD105EC#32),
    unary main_cst_1 main_v21 (broadcastInDim S128x96 ![] bcast_S_S128x96 : (⟨S_, .f32⟩ : BufTy).Contents (Elt F) → (⟨S128x96, .f32⟩ : BufTy).Contents (Elt F)),
    binary main_arg3 main_v21 main_v22 (mulf : (⟨S128x96, .f32⟩ : BufTy).Contents (Elt F) → (⟨S128x96, .f32⟩ : BufTy).Contents (Elt F) → (⟨S128x96, .f32⟩ : BufTy).Contents (Elt F)),
    unary main_v22 main_v23 ((transpose S96x128 [1, 0] · transposes_S128x96_S96x128_1_0) : (⟨S128x96, .f32⟩ : BufTy).Contents (Elt F) → (⟨S96x128, .f32⟩ : BufTy).Contents (Elt F)),
    binary main_v20 main_v23 main_v24 ((fun l r => Host.dotGeneral dot_S524288x96_S96x128_S524288x128_1_0_0_1_n_n none l r) : (⟨S524288x96, .f32⟩ : BufTy).Contents (Elt F) → (⟨S96x128, .f32⟩ : BufTy).Contents (Elt F) → (⟨S524288x128, .f32⟩ : BufTy).Contents (Elt F)),
    unary main_arg4 main_v25 (broadcastInDim S1x128 ![1] bcast_S128_S1x128_1 : (⟨S128, .f32⟩ : BufTy).Contents (Elt F) → (⟨S1x128, .f32⟩ : BufTy).Contents (Elt F)),
    unary main_v25 main_v26 (broadcastInDim S524288x128 ![0, 1] bcast_S1x128_S524288x128_0_1 : (⟨S1x128, .f32⟩ : BufTy).Contents (Elt F) → (⟨S524288x128, .f32⟩ : BufTy).Contents (Elt F)),
    binary main_v24 main_v26 main_v27 (addf : (⟨S524288x128, .f32⟩ : BufTy).Contents (Elt F) → (⟨S524288x128, .f32⟩ : BufTy).Contents (Elt F) → (⟨S524288x128, .f32⟩ : BufTy).Contents (Elt F)),
    nullary main_cst_2 (constant S_ .f32 0x3E4CCCCD#32),
    TRef.nullary main_call0.cst (constant S_ .f32 0x00000000#32),
    TRef.unary main_call0.cst main_call0.v0 (broadcastInDim S524288x128 ![] bcast_S_S524288x128),
    TRef.binary (.of main_v27 : TRef sig ⟨S524288x128, .f32⟩) main_call0.v0 main_call0.v1 (cmpf .oge),
    TRef.unary (.of main_cst_2 : TRef sig ⟨S_, .f32⟩) main_call0.v2 id,
    TRef.unary main_call0.v2 main_call0.v3 (broadcastInDim S524288x128 ![] bcast_S_S524288x128),
    TRef.binary main_call0.v3 (.of main_v27 : TRef sig ⟨S524288x128, .f32⟩) main_call0.v4 mulf,
    TRef.ternary main_call0.v1 (.of main_v27 : TRef sig ⟨S524288x128, .f32⟩) main_call0.v4 main_call0.call0.v0 select,
    nullary main_cst_3 (constant S_ .f32 0x3FB504F3#32),
    unary main_cst_3 main_v29 (broadcastInDim S524288x128 ![] bcast_S_S524288x128 : (⟨S_, .f32⟩ : BufTy).Contents (Elt F) → (⟨S524288x128, .f32⟩ : BufTy).Contents (Elt F)),
    binary main_v28 main_v29 main_v30 (mulf : (⟨S524288x128, .f32⟩ : BufTy).Contents (Elt F) → (⟨S524288x128, .f32⟩ : BufTy).Contents (Elt F) → (⟨S524288x128, .f32⟩ : BufTy).Contents (Elt F)) ]

/-- Operations 43 … 61 of 156. -/
abbrev opsW3 : List (HloOp τ sig (Elt F)) :=
  [ nullary main_cst_4 (constant S_ .f32 0x3DB504F3#32),
    unary main_cst_4 main_v31 (broadcastInDim S128x128 ![] bcast_S_S128x128 : (⟨S_, .f32⟩ : BufTy).Contents (Elt F) → (⟨S128x128, .f32⟩ : BufTy).Contents (Elt F)),
    binary main_arg5 main_v31 main_v32 (mulf : (⟨S128x128, .f32⟩ : BufTy).Contents (Elt F) → (⟨S128x128, .f32⟩ : BufTy).Contents (Elt F) → (⟨S128x128, .f32⟩ : BufTy).Contents (Elt F)),
    unary main_v32 main_v33 ((transpose S128x128 [1, 0] · transposes_S128x128_S128x128_1_0) : (⟨S128x128, .f32⟩ : BufTy).Contents (Elt F) → (⟨S128x128, .f32⟩ : BufTy).Contents (Elt F)),
    binary main_v30 main_v33 main_v34 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg6 main_v35 (broadcastInDim S1x128 ![1] bcast_S128_S1x128_1 : (⟨S128, .f32⟩ : BufTy).Contents (Elt F) → (⟨S1x128, .f32⟩ : BufTy).Contents (Elt F)),
    unary main_v35 main_v36 (broadcastInDim S524288x128 ![0, 1] bcast_S1x128_S524288x128_0_1 : (⟨S1x128, .f32⟩ : BufTy).Contents (Elt F) → (⟨S524288x128, .f32⟩ : BufTy).Contents (Elt F)),
    binary main_v34 main_v36 main_v37 (addf : (⟨S524288x128, .f32⟩ : BufTy).Contents (Elt F) → (⟨S524288x128, .f32⟩ : BufTy).Contents (Elt F) → (⟨S524288x128, .f32⟩ : BufTy).Contents (Elt F)),
    nullary main_cst_5 (constant S_ .f32 0x3E4CCCCD#32),
    TRef.nullary main_call1.cst (constant S_ .f32 0x00000000#32),
    TRef.unary main_call1.cst main_call1.v0 (broadcastInDim S524288x128 ![] bcast_S_S524288x128),
    TRef.binary (.of main_v37 : TRef sig ⟨S524288x128, .f32⟩) main_call1.v0 main_call1.v1 (cmpf .oge),
    TRef.unary (.of main_cst_5 : TRef sig ⟨S_, .f32⟩) main_call1.v2 id,
    TRef.unary main_call1.v2 main_call1.v3 (broadcastInDim S524288x128 ![] bcast_S_S524288x128),
    TRef.binary main_call1.v3 (.of main_v37 : TRef sig ⟨S524288x128, .f32⟩) main_call1.v4 mulf,
    TRef.ternary main_call1.v1 (.of main_v37 : TRef sig ⟨S524288x128, .f32⟩) main_call1.v4 main_call1.call0.v0 select,
    nullary main_cst_6 (constant S_ .f32 0x3FB504F3#32),
    unary main_cst_6 main_v39 (broadcastInDim S524288x128 ![] bcast_S_S524288x128 : (⟨S_, .f32⟩ : BufTy).Contents (Elt F) → (⟨S524288x128, .f32⟩ : BufTy).Contents (Elt F)),
    binary main_v38 main_v39 main_v40 (mulf : (⟨S524288x128, .f32⟩ : BufTy).Contents (Elt F) → (⟨S524288x128, .f32⟩ : BufTy).Contents (Elt F) → (⟨S524288x128, .f32⟩ : BufTy).Contents (Elt F)) ]

/-- Operations 62 … 78 of 156. -/
abbrev opsW4a : List (HloOp τ sig (Elt F)) :=
  [ nullary main_cst_7 (constant S_ .f32 0x3DB504F3#32),
    unary main_cst_7 main_v41 (broadcastInDim S128x128 ![] bcast_S_S128x128 : (⟨S_, .f32⟩ : BufTy).Contents (Elt F) → (⟨S128x128, .f32⟩ : BufTy).Contents (Elt F)),
    binary main_arg7 main_v41 main_v42 (mulf : (⟨S128x128, .f32⟩ : BufTy).Contents (Elt F) → (⟨S128x128, .f32⟩ : BufTy).Contents (Elt F) → (⟨S128x128, .f32⟩ : BufTy).Contents (Elt F)),
    unary main_v42 main_v43 ((transpose S128x128 [1, 0] · transposes_S128x128_S128x128_1_0) : (⟨S128x128, .f32⟩ : BufTy).Contents (Elt F) → (⟨S128x128, .f32⟩ : BufTy).Contents (Elt F)),
    binary main_v40 main_v43 main_v44 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg8 main_v45 (broadcastInDim S1x128 ![1] bcast_S128_S1x128_1 : (⟨S128, .f32⟩ : BufTy).Contents (Elt F) → (⟨S1x128, .f32⟩ : BufTy).Contents (Elt F)),
    unary main_v45 main_v46 (broadcastInDim S524288x128 ![0, 1] bcast_S1x128_S524288x128_0_1 : (⟨S1x128, .f32⟩ : BufTy).Contents (Elt F) → (⟨S524288x128, .f32⟩ : BufTy).Contents (Elt F)),
    binary main_v44 main_v46 main_v47 (addf : (⟨S524288x128, .f32⟩ : BufTy).Contents (Elt F) → (⟨S524288x128, .f32⟩ : BufTy).Contents (Elt F) → (⟨S524288x128, .f32⟩ : BufTy).Contents (Elt F)),
    nullary main_cst_8 (constant S_ .f32 0x3E4CCCCD#32),
    TRef.nullary main_call2.cst (constant S_ .f32 0x00000000#32),
    TRef.unary main_call2.cst main_call2.v0 (broadcastInDim S524288x128 ![] bcast_S_S524288x128),
    TRef.binary (.of main_v47 : TRef sig ⟨S524288x128, .f32⟩) main_call2.v0 main_call2.v1 (cmpf .oge),
    TRef.unary (.of main_cst_8 : TRef sig ⟨S_, .f32⟩) main_call2.v2 id,
    TRef.unary main_call2.v2 main_call2.v3 (broadcastInDim S524288x128 ![] bcast_S_S524288x128),
    TRef.binary main_call2.v3 (.of main_v47 : TRef sig ⟨S524288x128, .f32⟩) main_call2.v4 mulf,
    TRef.ternary main_call2.v1 (.of main_v47 : TRef sig ⟨S524288x128, .f32⟩) main_call2.v4 main_call2.call0.v0 select,
    nullary main_cst_9 (constant S_ .f32 0x3FB504F3#32) ]

/-- Operations 79 … 80 of 156. -/
abbrev opsW4b : List (HloOp τ sig (Elt F)) :=
  [ unary main_cst_9 main_v49 (broadcastInDim S524288x128 ![] bcast_S_S524288x128 : (⟨S_, .f32⟩ : BufTy).Contents (Elt F) → (⟨S524288x128, .f32⟩ : BufTy).Contents (Elt F)),
    binary main_v48 main_v49 main_v50 (mulf : (⟨S524288x128, .f32⟩ : BufTy).Contents (Elt F) → (⟨S524288x128, .f32⟩ : BufTy).Contents (Elt F) → (⟨S524288x128, .f32⟩ : BufTy).Contents (Elt F)) ]

/-- Operations 81 … 89 of 156. -/
abbrev opsW5 : List (HloOp τ sig (Elt F)) :=
  [ nullary main_cst_10 (constant S_ .f32 0x3DB504F3#32),
    unary main_cst_10 main_v51 (broadcastInDim S1x128 ![] bcast_S_S1x128 : (⟨S_, .f32⟩ : BufTy).Contents (Elt F) → (⟨S1x128, .f32⟩ : BufTy).Contents (Elt F)),
    binary main_arg9 main_v51 main_v52 (mulf : (⟨S1x128, .f32⟩ : BufTy).Contents (Elt F) → (⟨S1x128, .f32⟩ : BufTy).Contents (Elt F) → (⟨S1x128, .f32⟩ : BufTy).Contents (Elt F)),
    unary main_v52 main_v53 ((transpose S128x1 [1, 0] · transposes_S1x128_S128x1_1_0) : (⟨S1x128, .f32⟩ : BufTy).Contents (Elt F) → (⟨S128x1, .f32⟩ : BufTy).Contents (Elt F)),
    binary main_v50 main_v53 main_v54 ((fun l r => Host.dotGeneral dot_S524288x128_S128x1_S524288x1_1_0_0_1_n_n none l r) : (⟨S524288x128, .f32⟩ : BufTy).Contents (Elt F) → (⟨S128x1, .f32⟩ : BufTy).Contents (Elt F) → (⟨S524288x1, .f32⟩ : BufTy).Contents (Elt F)),
    unary main_arg10 main_v55 (broadcastInDim S1x1 ![1] bcast_S1_S1x1_1 : (⟨S1, .f32⟩ : BufTy).Contents (Elt F) → (⟨S1x1, .f32⟩ : BufTy).Contents (Elt F)),
    unary main_v55 main_v56 (broadcastInDim S524288x1 ![0, 1] bcast_S1x1_S524288x1_0_1 : (⟨S1x1, .f32⟩ : BufTy).Contents (Elt F) → (⟨S524288x1, .f32⟩ : BufTy).Contents (Elt F)),
    binary main_v54 main_v56 main_v57 (addf : (⟨S524288x1, .f32⟩ : BufTy).Contents (Elt F) → (⟨S524288x1, .f32⟩ : BufTy).Contents (Elt F) → (⟨S524288x1, .f32⟩ : BufTy).Contents (Elt F)),
    reshape main_v57 main_v58 rfl shapeCasts_S524288x1_S8x256x256x1 ]

/-- Operations 90 … 112 of 156. -/
abbrev opsW6 : List (HloOp τ sig (Elt F)) :=
  [ unary main_arg2 main_v59 (broadcastInDim S8x1x1x64 ![0, 3] bcast_S8x64_S8x1x1x64_0_3 : (⟨S8x64, .f32⟩ : BufTy).Contents (Elt F) → (⟨S8x1x1x64, .f32⟩ : BufTy).Contents (Elt F)),
    unary main_v59 main_v60 (broadcastInDim S8x256x256x64 ![0, 1, 2, 3] bcast_S8x1x1x64_S8x256x256x64_0_1_2_3 : (⟨S8x1x1x64, .f32⟩ : BufTy).Contents (Elt F) → (⟨S8x256x256x64, .f32⟩ : BufTy).Contents (Elt F)),
    reshape main_v60 main_v61 rfl shapeCasts_S8x256x256x64_S524288x64,
    binary main_v50 main_v61 main_v62 (cat_v62 : (⟨S524288x128, .f32⟩ : BufTy).Contents (Elt F) → (⟨S524288x64, .f32⟩ : BufTy).Contents (Elt F) → (⟨S524288x192, .f32⟩ : BufTy).Contents (Elt F)),
    nullary main_cst_11 (constant S_ .f32 0x3D93CD3A#32),
    unary main_cst_11 main_v63 (broadcastInDim S128x192 ![] bcast_S_S128x192 : (⟨S_, .f32⟩ : BufTy).Contents (Elt F) → (⟨S128x192, .f32⟩ : BufTy).Contents (Elt F)),
    binary main_arg11 main_v63 main_v64 (mulf : (⟨S128x192, .f32⟩ : BufTy).Contents (Elt F) → (⟨S128x192, .f32⟩ : BufTy).Contents (Elt F) → (⟨S128x192, .f32⟩ : BufTy).Contents (Elt F)),
    unary main_v64 main_v65 ((transpose S192x128 [1, 0] · transposes_S128x192_S192x128_1_0) : (⟨S128x192, .f32⟩ : BufTy).Contents (Elt F) → (⟨S192x128, .f32⟩ : BufTy).Contents (Elt F)),
    binary main_v62 main_v65 main_v66 ((fun l r => Host.dotGeneral dot_S524288x192_S192x128_S524288x128_1_0_0_1_n_n none l r) : (⟨S524288x192, .f32⟩ : BufTy).Contents (Elt F) → (⟨S192x128, .f32⟩ : BufTy).Contents (Elt F) → (⟨S524288x128, .f32⟩ : BufTy).Contents (Elt F)),
    unary main_arg12 main_v67 (broadcastInDim S1x128 ![1] bcast_S128_S1x128_1 : (⟨S128, .f32⟩ : BufTy).Contents (Elt F) → (⟨S1x128, .f32⟩ : BufTy).Contents (Elt F)),
    unary main_v67 main_v68 (broadcastInDim S524288x128 ![0, 1] bcast_S1x128_S524288x128_0_1 : (⟨S1x128, .f32⟩ : BufTy).Contents (Elt F) → (⟨S524288x128, .f32⟩ : BufTy).Contents (Elt F)),
    binary main_v66 main_v68 main_v69 (addf : (⟨S524288x128, .f32⟩ : BufTy).Contents (Elt F) → (⟨S524288x128, .f32⟩ : BufTy).Contents (Elt F) → (⟨S524288x128, .f32⟩ : BufTy).Contents (Elt F)),
    nullary main_cst_12 (constant S_ .f32 0x3E4CCCCD#32),
    TRef.nullary main_call3.cst (constant S_ .f32 0x00000000#32),
    TRef.unary main_call3.cst main_call3.v0 (broadcastInDim S524288x128 ![] bcast_S_S524288x128),
    TRef.binary (.of main_v69 : TRef sig ⟨S524288x128, .f32⟩) main_call3.v0 main_call3.v1 (cmpf .oge),
    TRef.unary (.of main_cst_12 : TRef sig ⟨S_, .f32⟩) main_call3.v2 id,
    TRef.unary main_call3.v2 main_call3.v3 (broadcastInDim S524288x128 ![] bcast_S_S524288x128),
    TRef.binary main_call3.v3 (.of main_v69 : TRef sig ⟨S524288x128, .f32⟩) main_call3.v4 mulf,
    TRef.ternary main_call3.v1 (.of main_v69 : TRef sig ⟨S524288x128, .f32⟩) main_call3.v4 main_call3.call0.v0 select,
    nullary main_cst_13 (constant S_ .f32 0x3FB504F3#32),
    unary main_cst_13 main_v71 (broadcastInDim S524288x128 ![] bcast_S_S524288x128 : (⟨S_, .f32⟩ : BufTy).Contents (Elt F) → (⟨S524288x128, .f32⟩ : BufTy).Contents (Elt F)),
    binary main_v70 main_v71 main_v72 (mulf : (⟨S524288x128, .f32⟩ : BufTy).Contents (Elt F) → (⟨S524288x128, .f32⟩ : BufTy).Contents (Elt F) → (⟨S524288x128, .f32⟩ : BufTy).Contents (Elt F)) ]

/-- Operations 113 … 131 of 156. -/
abbrev opsW7 : List (HloOp τ sig (Elt F)) :=
  [ nullary main_cst_14 (constant S_ .f32 0x3DB504F3#32),
    unary main_cst_14 main_v73 (broadcastInDim S128x128 ![] bcast_S_S128x128 : (⟨S_, .f32⟩ : BufTy).Contents (Elt F) → (⟨S128x128, .f32⟩ : BufTy).Contents (Elt F)),
    binary main_arg13 main_v73 main_v74 (mulf : (⟨S128x128, .f32⟩ : BufTy).Contents (Elt F) → (⟨S128x128, .f32⟩ : BufTy).Contents (Elt F) → (⟨S128x128, .f32⟩ : BufTy).Contents (Elt F)),
    unary main_v74 main_v75 ((transpose S128x128 [1, 0] · transposes_S128x128_S128x128_1_0) : (⟨S128x128, .f32⟩ : BufTy).Contents (Elt F) → (⟨S128x128, .f32⟩ : BufTy).Contents (Elt F)),
    binary main_v72 main_v75 main_v76 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg14 main_v77 (broadcastInDim S1x128 ![1] bcast_S128_S1x128_1 : (⟨S128, .f32⟩ : BufTy).Contents (Elt F) → (⟨S1x128, .f32⟩ : BufTy).Contents (Elt F)),
    unary main_v77 main_v78 (broadcastInDim S524288x128 ![0, 1] bcast_S1x128_S524288x128_0_1 : (⟨S1x128, .f32⟩ : BufTy).Contents (Elt F) → (⟨S524288x128, .f32⟩ : BufTy).Contents (Elt F)),
    binary main_v76 main_v78 main_v79 (addf : (⟨S524288x128, .f32⟩ : BufTy).Contents (Elt F) → (⟨S524288x128, .f32⟩ : BufTy).Contents (Elt F) → (⟨S524288x128, .f32⟩ : BufTy).Contents (Elt F)),
    nullary main_cst_15 (constant S_ .f32 0x3E4CCCCD#32),
    TRef.nullary main_call4.cst (constant S_ .f32 0x00000000#32),
    TRef.unary main_call4.cst main_call4.v0 (broadcastInDim S524288x128 ![] bcast_S_S524288x128),
    TRef.binary (.of main_v79 : TRef sig ⟨S524288x128, .f32⟩) main_call4.v0 main_call4.v1 (cmpf .oge),
    TRef.unary (.of main_cst_15 : TRef sig ⟨S_, .f32⟩) main_call4.v2 id,
    TRef.unary main_call4.v2 main_call4.v3 (broadcastInDim S524288x128 ![] bcast_S_S524288x128),
    TRef.binary main_call4.v3 (.of main_v79 : TRef sig ⟨S524288x128, .f32⟩) main_call4.v4 mulf,
    TRef.ternary main_call4.v1 (.of main_v79 : TRef sig ⟨S524288x128, .f32⟩) main_call4.v4 main_call4.call0.v0 select,
    nullary main_cst_16 (constant S_ .f32 0x3FB504F3#32),
    unary main_cst_16 main_v81 (broadcastInDim S524288x128 ![] bcast_S_S524288x128 : (⟨S_, .f32⟩ : BufTy).Contents (Elt F) → (⟨S524288x128, .f32⟩ : BufTy).Contents (Elt F)),
    binary main_v80 main_v81 main_v82 (mulf : (⟨S524288x128, .f32⟩ : BufTy).Contents (Elt F) → (⟨S524288x128, .f32⟩ : BufTy).Contents (Elt F) → (⟨S524288x128, .f32⟩ : BufTy).Contents (Elt F)) ]

/-- Operations 132 … 140 of 156. -/
abbrev opsW8 : List (HloOp τ sig (Elt F)) :=
  [ nullary main_cst_17 (constant S_ .f32 0x3DB504F3#32),
    unary main_cst_17 main_v83 (broadcastInDim S3x128 ![] bcast_S_S3x128 : (⟨S_, .f32⟩ : BufTy).Contents (Elt F) → (⟨S3x128, .f32⟩ : BufTy).Contents (Elt F)),
    binary main_arg15 main_v83 main_v84 (mulf : (⟨S3x128, .f32⟩ : BufTy).Contents (Elt F) → (⟨S3x128, .f32⟩ : BufTy).Contents (Elt F) → (⟨S3x128, .f32⟩ : BufTy).Contents (Elt F)),
    unary main_v84 main_v85 ((transpose S128x3 [1, 0] · transposes_S3x128_S128x3_1_0) : (⟨S3x128, .f32⟩ : BufTy).Contents (Elt F) → (⟨S128x3, .f32⟩ : BufTy).Contents (Elt F)),
    binary main_v82 main_v85 main_v86 ((fun l r => Host.dotGeneral dot_S524288x128_S128x3_S524288x3_1_0_0_1_n_n none l r) : (⟨S524288x128, .f32⟩ : BufTy).Contents (Elt F) → (⟨S128x3, .f32⟩ : BufTy).Contents (Elt F) → (⟨S524288x3, .f32⟩ : BufTy).Contents (Elt F)),
    unary main_arg16 main_v87 (broadcastInDim S1x3 ![1] bcast_S3_S1x3_1 : (⟨S3, .f32⟩ : BufTy).Contents (Elt F) → (⟨S1x3, .f32⟩ : BufTy).Contents (Elt F)),
    unary main_v87 main_v88 (broadcastInDim S524288x3 ![0, 1] bcast_S1x3_S524288x3_0_1 : (⟨S1x3, .f32⟩ : BufTy).Contents (Elt F) → (⟨S524288x3, .f32⟩ : BufTy).Contents (Elt F)),
    binary main_v86 main_v88 main_v89 (addf : (⟨S524288x3, .f32⟩ : BufTy).Contents (Elt F) → (⟨S524288x3, .f32⟩ : BufTy).Contents (Elt F) → (⟨S524288x3, .f32⟩ : BufTy).Contents (Elt F)),
    reshape main_v89 main_v90 rfl shapeCasts_S524288x3_S8x256x256x3 ]

/-- Operations 141 … 152 of 156. -/
abbrev opsW9a : List (HloOp τ sig (Elt F)) :=
  [ binary main_arg0 main_arg0 main_v91 (mulf : (⟨S8x256x256x2, .f32⟩ : BufTy).Contents (Elt F) → (⟨S8x256x256x2, .f32⟩ : BufTy).Contents (Elt F) → (⟨S8x256x256x2, .f32⟩ : BufTy).Contents (Elt F)),
    nullary main_cst_18 (constant S_ .f32 0x00000000#32),
    binary main_v91 main_cst_18 main_v92 ((fun x v => Host.reduceAdd x v reducesTo_S8x256x256x2_S8x256x256_d3 h_S_) : (⟨S8x256x256x2, .f32⟩ : BufTy).Contents (Elt F) → (⟨S_, .f32⟩ : BufTy).Contents (Elt F) → (⟨S8x256x256, .f32⟩ : BufTy).Contents (Elt F)),
    unary main_v92 main_v93 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    unary main_v93 main_v94 (Host.sqrt : (⟨S8x256x256x1, .f32⟩ : BufTy).Contents (Elt F) → (⟨S8x256x256x1, .f32⟩ : BufTy).Contents (Elt F)),
    nullary main_cst_19 (constant S_ .f32 0x3F800000#32),
    unary main_cst_19 main_v95 (broadcastInDim S8x256x256x1 ![] bcast_S_S8x256x256x1 : (⟨S_, .f32⟩ : BufTy).Contents (Elt F) → (⟨S8x256x256x1, .f32⟩ : BufTy).Contents (Elt F)),
    binary main_v94 main_v95 main_v96 (subf : (⟨S8x256x256x1, .f32⟩ : BufTy).Contents (Elt F) → (⟨S8x256x256x1, .f32⟩ : BufTy).Contents (Elt F) → (⟨S8x256x256x1, .f32⟩ : BufTy).Contents (Elt F)),
    TRef.nullary main_call5.cst (constant S_ .f32 0x00000000#32),
    TRef.unary main_call5.cst main_call5.v0 (broadcastInDim S8x256x256x1 ![] bcast_S_S8x256x256x1),
    TRef.binary (.of main_v96 : TRef sig ⟨S8x256x256x1, .f32⟩) main_call5.v0 main_call5.v1 maximumf,
    unary main_v97 main_v98 (Host.tanh : (⟨S8x256x256x1, .f32⟩ : BufTy).Contents (Elt F) → (⟨S8x256x256x1, .f32⟩ : BufTy).Contents (Elt F)) ]

/-- Operations 153 … 156 of 156. -/
abbrev opsW9b : List (HloOp τ sig (Elt F)) :=
  [ nullary main_cst_20 (constant S_ .f32 0x3F800000#32),
    unary main_cst_20 main_v99 (broadcastInDim S8x256x256x1 ![] bcast_S_S8x256x256x1 : (⟨S_, .f32⟩ : BufTy).Contents (Elt F) → (⟨S8x256x256x1, .f32⟩ : BufTy).Contents (Elt F)),
    binary main_v99 main_v98 main_v100 (subf : (⟨S8x256x256x1, .f32⟩ : BufTy).Contents (Elt F) → (⟨S8x256x256x1, .f32⟩ : BufTy).Contents (Elt F) → (⟨S8x256x256x1, .f32⟩ : BufTy).Contents (Elt F)),
    binary main_v58 main_v100 main_v101 (mulf : (⟨S8x256x256x1, .f32⟩ : BufTy).Contents (Elt F) → (⟨S8x256x256x1, .f32⟩ : BufTy).Contents (Elt F) → (⟨S8x256x256x1, .f32⟩ : BufTy).Contents (Elt F)) ]

/-- The operations of the program's first block of statements. -/
abbrev opsP0 : List (HloOp τ sig (Elt F)) := opsW1 ++ (opsW2 ++ (opsW3 ++ (opsW4a)))
/-- The operations of the program's second block of statements. -/
abbrev opsP1 : List (HloOp τ sig (Elt F)) := opsW4b ++ (opsW5 ++ (opsW6 ++ (opsW7 ++ (opsW8 ++ (opsW9a)))))
/-- The operations of the program's third block of statements. -/
abbrev opsP2 : List (HloOp τ sig (Elt F)) := opsW9b
/-- All 156 operations, in order. -/
abbrev ops : List (HloOp τ sig (Elt F)) := opsP0 ++ (opsP1 ++ opsP2)

set_option maxRecDepth 8192 in
set_option maxHeartbeats 4000000 in
/-- The block is that line of operations: the called functions' definitions unfolded at their calls, sequencing reassociated. -/
theorem main_part0_eq (c : Dev nD) : main_part0 (F := F) c = seq opsP0 := by
  simp only [main_part0, fn_leaky_relu.body, fn_where.body, fn_relu.body, opsP0, opsW1, opsW2, opsW3, opsW4a, seq_append, seq, bind_assoc, pure_bind]
  rfl

set_option maxRecDepth 8192 in
set_option maxHeartbeats 4000000 in
/-- The block is that line of operations: the called functions' definitions unfolded at their calls, sequencing reassociated. -/
theorem main_part1_eq (c : Dev nD) : main_part1 (F := F) c = seq opsP1 := by
  simp only [main_part1, fn_leaky_relu.body, fn_where.body, fn_relu.body, opsP1, opsW4b, opsW5, opsW6, opsW7, opsW8, opsW9a, seq_append, seq, bind_assoc, pure_bind]
  rfl

set_option maxRecDepth 8192 in
set_option maxHeartbeats 4000000 in
/-- The block is that line of operations: the called functions' definitions unfolded at their calls, sequencing reassociated. -/
theorem main_part2_eq (c : Dev nD) : main_part2 (F := F) c = seq opsP2 := by
  simp only [main_part2, fn_leaky_relu.body, fn_where.body, fn_relu.body, opsP2, opsW9b, seq_append, seq, bind_assoc, pure_bind]

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsW1_sub : (opsW1 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., binary_bufs_sub .., reshape_bufs_sub .., unary_bufs_sub .., unary_bufs_sub .., binary_bufs_sub .., reshape_bufs_sub ..⟩
set_option maxRecDepth 8192 in
theorem opsW2_sub : (opsW2 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩
set_option maxRecDepth 8192 in
theorem opsW3_sub : (opsW3 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩
set_option maxRecDepth 8192 in
theorem opsW4a_sub : (opsW4a : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub ..⟩
set_option maxRecDepth 8192 in
theorem opsW4b_sub : (opsW4b : List (HloOp τ sig (Elt F))).Forall fun op => op.bufs ⊆ tcRefs τ sig :=
  ⟨unary_bufs_sub .., binary_bufs_sub ..⟩
set_option maxRecDepth 8192 in
theorem opsW5_sub : (opsW5 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., reshape_bufs_sub ..⟩
set_option maxRecDepth 8192 in
theorem opsW6_sub : (opsW6 : List (HloOp τ sig (Elt F))).Forall fun op => op.bufs ⊆ tcRefs τ sig :=
  ⟨unary_bufs_sub .., unary_bufs_sub .., reshape_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩
set_option maxRecDepth 8192 in
theorem opsW7_sub : (opsW7 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩
set_option maxRecDepth 8192 in
theorem opsW8_sub : (opsW8 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., reshape_bufs_sub ..⟩
set_option maxRecDepth 8192 in
theorem opsW9a_sub : (opsW9a : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub .., unary_bufs_sub ..⟩
set_option maxRecDepth 8192 in
theorem opsW9b_sub : (opsW9b : List (HloOp τ sig (Elt F))).Forall fun op => op.bufs ⊆ tcRefs τ sig :=
  ⟨nullary_bufs_sub .., unary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, opsP0, opsP1, opsP2, List.mem_append, or_assoc] at h
    rcases h with h | h | h | h | h | h | h | h | h | h | h
    exacts [List.forall_iff_forall_mem.mp opsW1_sub op h, List.forall_iff_forall_mem.mp opsW2_sub op h, List.forall_iff_forall_mem.mp opsW3_sub op h, List.forall_iff_forall_mem.mp opsW4a_sub op h, List.forall_iff_forall_mem.mp opsW4b_sub op h, List.forall_iff_forall_mem.mp opsW5_sub op h, List.forall_iff_forall_mem.mp opsW6_sub op h, List.forall_iff_forall_mem.mp opsW7_sub op h, List.forall_iff_forall_mem.mp opsW8_sub op h, List.forall_iff_forall_mem.mp opsW9a_sub op h, List.forall_iff_forall_mem.mp opsW9b_sub op h]

/-- From any memory with zero counters: every weakly fair execution of the program terminates, and every final
    state has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  The reference program's two results as layered terms of the seventeen argument arrays.

  Each definition is one value of the printed host program (or a short run of values), written with the very
  operation the printed line applies: the coordinates divided by ten, the eight frequencies 2^0 … 2^7 as a power
  of the converted iota, the phases, their sines and cosines concatenated and flattened to thirty-two features,
  the conditioning numbers spread over the image and appended, the rows flattened to 524288 positions, six scaled
  dense layers (a contraction against the scaled, transposed weights plus the spread bias), five of them followed
  by the leaky rectifier and its gain, and the damping 1 − tanh(max(√(Σ c²) − 1, 0)) of the shape value.
-/
import proofs.«145072_j3487513444877_2_alg».proof.Proof.Spec
import proofs.«145072_j3487513444877_2_alg».proof.ReferenceIdeal
import proofs.«145072_j3487513444877_2_alg».proof.Proof.Gen.ReferenceIdeal

noncomputable section

namespace Cert.RefSide.RefTerm

open Idealize.ShloMosaic Cert.ReferenceIdeal Cert.ReferenceIdeal.Facts₀

/-- An f32 array of shape s at the ideal instance. -/
abbrev A (s : Shape) : Type := FVec Ideal s .f32

/-- The leaky rectifier as the host spells it: select(z ≥ 0, z, slope·z), zero and the slope spread over the array. -/
def lrelu (z : A S524288x128) (slope : A S_) : A S524288x128 :=
  select
    (cmpf (F := Ideal) .oge z (broadcastInDim S524288x128 ![] bcast_S_S524288x128 (constant (F := Ideal) S_ .f32 0x00000000#32)))
    z
    (mulf (F := Ideal) (broadcastInDim S524288x128 ![] bcast_S_S524288x128 (id slope)) z)

variable (P : Cert.Field.Params)

/-- %1: the coordinates divided by ten. -/
def v1 : A S8x256x256x2 :=
  Host.divf (F := Ideal) P.coords (broadcastInDim S8x256x256x2 ![] bcast_S_S8x256x256x2 (constant (F := Ideal) S_ .f32 0x41200000#32))

/-- %6: the frequencies, two to the power of the converted iota. -/
def v6 : A S8 :=
  Host.powf (F := Ideal) (broadcastInDim S8 ![] bcast_S_S8 (constant (F := Ideal) S_ .f32 0x40000000#32))
    (sitofp (F := Ideal) .f32 (iotaInDim S8 32 0))

/-- %7: the scaled coordinates with a unit frequency axis. -/
def v7 : A S8x256x256x1x2 :=
  broadcastInDim S8x256x256x1x2 ![0, 1, 2, 4] bcast_S8x256x256x2_S8x256x256x1x2_0_1_2_4 (v1 P)

/-- %9: the frequencies as a [1,1,1,8,1] array. -/
def v9 : A S1x1x1x8x1 :=
  broadcastInDim S1x1x1x8x1 ![3, 4] bcast_S8x1_S1x1x1x8x1_3_4 (broadcastInDim S8x1 ![0] bcast_S8_S8x1_0 v6)

/-- %12: the phases, coordinate times frequency. -/
def v12 : A S8x256x256x8x2 :=
  mulf (F := Ideal)
    (broadcastInDim S8x256x256x8x2 ![0, 1, 2, 3, 4] bcast_S8x256x256x1x2_S8x256x256x8x2_0_1_2_3_4 (v7 P))
    (broadcastInDim S8x256x256x8x2 ![0, 1, 2, 3, 4] bcast_S1x1x1x8x1_S8x256x256x8x2_0_1_2_3_4 v9)

/-- %15: sines then cosines along the last axis. -/
def v15 : A S8x256x256x8x4 :=
  concatenate S8x256x256x8x4 4 [⟨S8x256x256x8x2, Host.sin (F := Ideal) (v12 P)⟩, ⟨S8x256x256x8x2, Host.cos (F := Ideal) (v12 P)⟩]
    concatenates_S8x256x256x8x2_S8x256x256x8x2_S8x256x256x8x4_d4

/-- %16: the thirty-two features. -/
def v16 : A S8x256x256x32 := shapeCast S8x256x256x32 (v15 P) shapeCasts_S8x256x256x8x4_S8x256x256x32

/-- %18: the shape-conditioning numbers spread over the image. -/
def v18 : A S8x256x256x64 :=
  broadcastInDim S8x256x256x64 ![0, 1, 2, 3] bcast_S8x1x1x64_S8x256x256x64_0_1_2_3
    (broadcastInDim S8x1x1x64 ![0, 3] bcast_S8x64_S8x1x1x64_0_3 P.sc)

/-- %19: features followed by conditioning numbers. -/
def v19 : A S8x256x256x96 :=
  concatenate S8x256x256x96 3 [⟨S8x256x256x32, v16 P⟩, ⟨S8x256x256x64, v18 P⟩]
    concatenates_S8x256x256x32_S8x256x256x64_S8x256x256x96_d3

/-- %20: the first layer's input, one row per position. -/
def v20 : A S524288x96 := shapeCast S524288x96 (v19 P) shapeCasts_S8x256x256x96_S524288x96

/-- %23 and %27: the first shape layer. -/
def v23 : A S96x128 :=
  transpose S96x128 [1, 0] (mulf (F := Ideal) P.ws0 (broadcastInDim S128x96 ![] bcast_S_S128x96 (constant (F := Ideal) S_ .f32 0x3DD105EC#32))) transposes_S128x96_S96x128_1_0
def v27 : A S524288x128 :=
  addf (F := Ideal) (Host.dotGeneral (F := Ideal) dot_S524288x96_S96x128_S524288x128_1_0_0_1_n_n none (v20 P) (v23 P))
    (broadcastInDim S524288x128 ![0, 1] bcast_S1x128_S524288x128_0_1 (broadcastInDim S1x128 ![1] bcast_S128_S1x128_1 P.bs0))
/-- %30: rectified, with gain. -/
def v30 : A S524288x128 :=
  mulf (F := Ideal) (lrelu (v27 P) (constant (F := Ideal) S_ .f32 0x3E4CCCCD#32)) (broadcastInDim S524288x128 ![] bcast_S_S524288x128 (constant (F := Ideal) S_ .f32 0x3FB504F3#32))
/-- %33 and %37: the second shape layer. -/
def v33 : A S128x128 :=
  transpose S128x128 [1, 0] (mulf (F := Ideal) P.ws1 (broadcastInDim S128x128 ![] bcast_S_S128x128 (constant (F := Ideal) S_ .f32 0x3DB504F3#32))) transposes_S128x128_S128x128_1_0
def v37 : A S524288x128 :=
  addf (F := Ideal) (Host.dotGeneral (F := Ideal) dot_S524288x128_S128x128_S524288x128_1_0_0_1_n_n none (v30 P) (v33 P))
    (broadcastInDim S524288x128 ![0, 1] bcast_S1x128_S524288x128_0_1 (broadcastInDim S1x128 ![1] bcast_S128_S1x128_1 P.bs1))
/-- %40: rectified, with gain. -/
def v40 : A S524288x128 :=
  mulf (F := Ideal) (lrelu (v37 P) (constant (F := Ideal) S_ .f32 0x3E4CCCCD#32)) (broadcastInDim S524288x128 ![] bcast_S_S524288x128 (constant (F := Ideal) S_ .f32 0x3FB504F3#32))
/-- %43 and %47: the third shape layer. -/
def v43 : A S128x128 :=
  transpose S128x128 [1, 0] (mulf (F := Ideal) P.ws2 (broadcastInDim S128x128 ![] bcast_S_S128x128 (constant (F := Ideal) S_ .f32 0x3DB504F3#32))) transposes_S128x128_S128x128_1_0
def v47 : A S524288x128 :=
  addf (F := Ideal) (Host.dotGeneral (F := Ideal) dot_S524288x128_S128x128_S524288x128_1_0_0_1_n_n none (v40 P) (v43 P))
    (broadcastInDim S524288x128 ![0, 1] bcast_S1x128_S524288x128_0_1 (broadcastInDim S1x128 ![1] bcast_S128_S1x128_1 P.bs2))
/-- %50: rectified, with gain. -/
def v50 : A S524288x128 :=
  mulf (F := Ideal) (lrelu (v47 P) (constant (F := Ideal) S_ .f32 0x3E4CCCCD#32)) (broadcastInDim S524288x128 ![] bcast_S_S524288x128 (constant (F := Ideal) S_ .f32 0x3FB504F3#32))

/-- %53 and %57: the linear shape layer, one output. -/
def v53 : A S128x1 :=
  transpose S128x1 [1, 0] (mulf (F := Ideal) P.wsh (broadcastInDim S1x128 ![] bcast_S_S1x128 (constant (F := Ideal) S_ .f32 0x3DB504F3#32))) transposes_S1x128_S128x1_1_0
def v57 : A S524288x1 :=
  addf (F := Ideal) (Host.dotGeneral (F := Ideal) dot_S524288x128_S128x1_S524288x1_1_0_0_1_n_n none (v50 P) (v53 P))
    (broadcastInDim S524288x1 ![0, 1] bcast_S1x1_S524288x1_0_1 (broadcastInDim S1x1 ![1] bcast_S1_S1x1_1 P.bsh))

/-- %58: the raw shape value on the image. -/
def v58 : A S8x256x256x1 := shapeCast S8x256x256x1 (v57 P) shapeCasts_S524288x1_S8x256x256x1

/-- %61: the texture-conditioning numbers spread over the image, one row per position. -/
def v61 : A S524288x64 :=
  shapeCast S524288x64
    (broadcastInDim S8x256x256x64 ![0, 1, 2, 3] bcast_S8x1x1x64_S8x256x256x64_0_1_2_3
      (broadcastInDim S8x1x1x64 ![0, 3] bcast_S8x64_S8x1x1x64_0_3 P.tc))
    shapeCasts_S8x256x256x64_S524288x64

/-- %62: the texture branch's input. -/
def v62 : A S524288x192 :=
  concatenate S524288x192 1 [⟨S524288x128, v50 P⟩, ⟨S524288x64, v61 P⟩] concatenates_S524288x128_S524288x64_S524288x192_d1

/-- %65 and %69: the first texture layer. -/
def v65 : A S192x128 :=
  transpose S192x128 [1, 0] (mulf (F := Ideal) P.wt0 (broadcastInDim S128x192 ![] bcast_S_S128x192 (constant (F := Ideal) S_ .f32 0x3D93CD3A#32))) transposes_S128x192_S192x128_1_0
def v69 : A S524288x128 :=
  addf (F := Ideal) (Host.dotGeneral (F := Ideal) dot_S524288x192_S192x128_S524288x128_1_0_0_1_n_n none (v62 P) (v65 P))
    (broadcastInDim S524288x128 ![0, 1] bcast_S1x128_S524288x128_0_1 (broadcastInDim S1x128 ![1] bcast_S128_S1x128_1 P.bt0))
/-- %72: rectified, with gain. -/
def v72 : A S524288x128 :=
  mulf (F := Ideal) (lrelu (v69 P) (constant (F := Ideal) S_ .f32 0x3E4CCCCD#32)) (broadcastInDim S524288x128 ![] bcast_S_S524288x128 (constant (F := Ideal) S_ .f32 0x3FB504F3#32))
/-- %75 and %79: the second texture layer. -/
def v75 : A S128x128 :=
  transpose S128x128 [1, 0] (mulf (F := Ideal) P.wt1 (broadcastInDim S128x128 ![] bcast_S_S128x128 (constant (F := Ideal) S_ .f32 0x3DB504F3#32))) transposes_S128x128_S128x128_1_0
def v79 : A S524288x128 :=
  addf (F := Ideal) (Host.dotGeneral (F := Ideal) dot_S524288x128_S128x128_S524288x128_1_0_0_1_n_n none (v72 P) (v75 P))
    (broadcastInDim S524288x128 ![0, 1] bcast_S1x128_S524288x128_0_1 (broadcastInDim S1x128 ![1] bcast_S128_S1x128_1 P.bt1))
/-- %82: rectified, with gain. -/
def v82 : A S524288x128 :=
  mulf (F := Ideal) (lrelu (v79 P) (constant (F := Ideal) S_ .f32 0x3E4CCCCD#32)) (broadcastInDim S524288x128 ![] bcast_S_S524288x128 (constant (F := Ideal) S_ .f32 0x3FB504F3#32))

/-- %85 and %89: the linear texture layer, three outputs. -/
def v85 : A S128x3 :=
  transpose S128x3 [1, 0] (mulf (F := Ideal) P.wt2 (broadcastInDim S3x128 ![] bcast_S_S3x128 (constant (F := Ideal) S_ .f32 0x3DB504F3#32))) transposes_S3x128_S128x3_1_0
def v89 : A S524288x3 :=
  addf (F := Ideal) (Host.dotGeneral (F := Ideal) dot_S524288x128_S128x3_S524288x3_1_0_0_1_n_n none (v82 P) (v85 P))
    (broadcastInDim S524288x3 ![0, 1] bcast_S1x3_S524288x3_0_1 (broadcastInDim S1x3 ![1] bcast_S3_S1x3_1 P.bt2))

/-- %90: the texture result. -/
def tex : A S8x256x256x3 := shapeCast S8x256x256x3 (v89 P) shapeCasts_S524288x3_S8x256x256x3

/-- %94: the radius, the square root of the sum of the squared coordinates. -/
def v94 : A S8x256x256x1 :=
  Host.sqrt (F := Ideal)
    (broadcastInDim S8x256x256x1 ![0, 1, 2] bcast_S8x256x256_S8x256x256x1_0_1_2
      (Host.reduceAdd (F := Ideal) (mulf (F := Ideal) P.coords P.coords) (constant (F := Ideal) S_ .f32 0x00000000#32)
        reducesTo_S8x256x256x2_S8x256x256_d3 h_S_))

/-- %97: max(radius − 1, 0). -/
def v97 : A S8x256x256x1 :=
  maximumf (F := Ideal)
    (subf (F := Ideal) (v94 P) (broadcastInDim S8x256x256x1 ![] bcast_S_S8x256x256x1 (constant (F := Ideal) S_ .f32 0x3F800000#32)))
    (broadcastInDim S8x256x256x1 ![] bcast_S_S8x256x256x1 (constant (F := Ideal) S_ .f32 0x00000000#32))

/-- %100: the damping 1 − tanh(…). -/
def v100 : A S8x256x256x1 :=
  subf (F := Ideal) (broadcastInDim S8x256x256x1 ![] bcast_S_S8x256x256x1 (constant (F := Ideal) S_ .f32 0x3F800000#32)) (Host.tanh (F := Ideal) (v97 P))

/-- %101: the shape result. -/
def shape : A S8x256x256x1 := mulf (F := Ideal) (v58 P) (v100 P)

end Cert.RefSide.RefTerm

end
-- ==== Proof.RefRunVals.lean ====
/-
  The reference program's buffers read back stage by stage.

  The operation list is run window by window from arbitrary buffer contents.  After each window, every buffer a
  later window still reads is identified: an argument array is what it was at the start (no operation writes an
  argument), and the window's own result is the layered term of the argument arrays that the stage computes —
  the features, each dense layer followed by the leaky rectifier and its gain, the two linear heads, the damping
  factor.  A window's result is computed by rewriting each operation's result at its own buffer and every other
  buffer to what it held before, then replacing the reads of earlier windows' buffers by their terms; the
  transports along a buffer's type equation inside a called function cancel pairwise, and those at the
  function's inputs and result are the identity because the buffer's type is the value's.
-/
import proofs.«145072_j3487513444877_2_alg».proof.Proof.RefRunOps
import proofs.«145072_j3487513444877_2_alg».proof.Proof.RefTerm

noncomputable section

namespace Cert.RefSide

open Cert.ReferenceIdeal Cert.ReferenceIdeal.Facts₀ Idealize.ShloMosaic Idealize.ShloMosaic.TcCoe Idealize.SL.Sem Idealize.ShloMosaic.StableHlo
open Cert.LibHostLine (after_append ofBuf_toBuf)

/-! ## The transports at a called function's inputs and result -/

theorem ofBuf_main_v27 (h : main_v27.ty = ⟨S524288x128, .f32⟩) (hd : main_v27.space ≠ .host) (hs : main_v27.isScoped = false) (v : (⟨S524288x128, .f32⟩ : BufTy).Contents (Elt Ideal)) :
    (TRef.of (sig := sig) main_v27 h hd hs).ofBuf (Val := Elt Ideal) v = v := rfl
theorem ofBuf_main_cst_2 (h : main_cst_2.ty = ⟨S_, .f32⟩) (hd : main_cst_2.space ≠ .host) (hs : main_cst_2.isScoped = false) (v : (⟨S_, .f32⟩ : BufTy).Contents (Elt Ideal)) :
    (TRef.of (sig := sig) main_cst_2 h hd hs).ofBuf (Val := Elt Ideal) v = v := rfl
theorem ofBuf_main_v37 (h : main_v37.ty = ⟨S524288x128, .f32⟩) (hd : main_v37.space ≠ .host) (hs : main_v37.isScoped = false) (v : (⟨S524288x128, .f32⟩ : BufTy).Contents (Elt Ideal)) :
    (TRef.of (sig := sig) main_v37 h hd hs).ofBuf (Val := Elt Ideal) v = v := rfl
theorem ofBuf_main_cst_5 (h : main_cst_5.ty = ⟨S_, .f32⟩) (hd : main_cst_5.space ≠ .host) (hs : main_cst_5.isScoped = false) (v : (⟨S_, .f32⟩ : BufTy).Contents (Elt Ideal)) :
    (TRef.of (sig := sig) main_cst_5 h hd hs).ofBuf (Val := Elt Ideal) v = v := rfl
theorem ofBuf_main_v47 (h : main_v47.ty = ⟨S524288x128, .f32⟩) (hd : main_v47.space ≠ .host) (hs : main_v47.isScoped = false) (v : (⟨S524288x128, .f32⟩ : BufTy).Contents (Elt Ideal)) :
    (TRef.of (sig := sig) main_v47 h hd hs).ofBuf (Val := Elt Ideal) v = v := rfl
theorem ofBuf_main_cst_8 (h : main_cst_8.ty = ⟨S_, .f32⟩) (hd : main_cst_8.space ≠ .host) (hs : main_cst_8.isScoped = false) (v : (⟨S_, .f32⟩ : BufTy).Contents (Elt Ideal)) :
    (TRef.of (sig := sig) main_cst_8 h hd hs).ofBuf (Val := Elt Ideal) v = v := rfl
theorem ofBuf_main_v69 (h : main_v69.ty = ⟨S524288x128, .f32⟩) (hd : main_v69.space ≠ .host) (hs : main_v69.isScoped = false) (v : (⟨S524288x128, .f32⟩ : BufTy).Contents (Elt Ideal)) :
    (TRef.of (sig := sig) main_v69 h hd hs).ofBuf (Val := Elt Ideal) v = v := rfl
theorem ofBuf_main_cst_12 (h : main_cst_12.ty = ⟨S_, .f32⟩) (hd : main_cst_12.space ≠ .host) (hs : main_cst_12.isScoped = false) (v : (⟨S_, .f32⟩ : BufTy).Contents (Elt Ideal)) :
    (TRef.of (sig := sig) main_cst_12 h hd hs).ofBuf (Val := Elt Ideal) v = v := rfl
theorem ofBuf_main_v79 (h : main_v79.ty = ⟨S524288x128, .f32⟩) (hd : main_v79.space ≠ .host) (hs : main_v79.isScoped = false) (v : (⟨S524288x128, .f32⟩ : BufTy).Contents (Elt Ideal)) :
    (TRef.of (sig := sig) main_v79 h hd hs).ofBuf (Val := Elt Ideal) v = v := rfl
theorem ofBuf_main_cst_15 (h : main_cst_15.ty = ⟨S_, .f32⟩) (hd : main_cst_15.space ≠ .host) (hs : main_cst_15.isScoped = false) (v : (⟨S_, .f32⟩ : BufTy).Contents (Elt Ideal)) :
    (TRef.of (sig := sig) main_cst_15 h hd hs).ofBuf (Val := Elt Ideal) v = v := rfl
theorem ofBuf_main_v96 (h : main_v96.ty = ⟨S8x256x256x1, .f32⟩) (hd : main_v96.space ≠ .host) (hs : main_v96.isScoped = false) (v : (⟨S8x256x256x1, .f32⟩ : BufTy).Contents (Elt Ideal)) :
    (TRef.of (sig := sig) main_v96 h hd hs).ofBuf (Val := Elt Ideal) v = v := rfl
theorem toBuf_main_v28 (h : main_v28.ty = ⟨S524288x128, .f32⟩) (hd : main_v28.space ≠ .host) (hs : main_v28.isScoped = false) (v : (⟨S524288x128, .f32⟩ : BufTy).Contents (Elt Ideal)) :
    (TRef.of (sig := sig) main_v28 h hd hs).toBuf (Val := Elt Ideal) v = v := rfl
theorem toBuf_main_v38 (h : main_v38.ty = ⟨S524288x128, .f32⟩) (hd : main_v38.space ≠ .host) (hs : main_v38.isScoped = false) (v : (⟨S524288x128, .f32⟩ : BufTy).Contents (Elt Ideal)) :
    (TRef.of (sig := sig) main_v38 h hd hs).toBuf (Val := Elt Ideal) v = v := rfl
theorem toBuf_main_v48 (h : main_v48.ty = ⟨S524288x128, .f32⟩) (hd : main_v48.space ≠ .host) (hs : main_v48.isScoped = false) (v : (⟨S524288x128, .f32⟩ : BufTy).Contents (Elt Ideal)) :
    (TRef.of (sig := sig) main_v48 h hd hs).toBuf (Val := Elt Ideal) v = v := rfl
theorem toBuf_main_v70 (h : main_v70.ty = ⟨S524288x128, .f32⟩) (hd : main_v70.space ≠ .host) (hs : main_v70.isScoped = false) (v : (⟨S524288x128, .f32⟩ : BufTy).Contents (Elt Ideal)) :
    (TRef.of (sig := sig) main_v70 h hd hs).toBuf (Val := Elt Ideal) v = v := rfl
theorem toBuf_main_v80 (h : main_v80.ty = ⟨S524288x128, .f32⟩) (hd : main_v80.space ≠ .host) (hs : main_v80.isScoped = false) (v : (⟨S524288x128, .f32⟩ : BufTy).Contents (Elt Ideal)) :
    (TRef.of (sig := sig) main_v80 h hd hs).toBuf (Val := Elt Ideal) v = v := rfl
theorem toBuf_main_v97 (h : main_v97.ty = ⟨S8x256x256x1, .f32⟩) (hd : main_v97.space ≠ .host) (hs : main_v97.isScoped = false) (v : (⟨S8x256x256x1, .f32⟩ : BufTy).Contents (Elt Ideal)) :
    (TRef.of (sig := sig) main_v97 h hd hs).toBuf (Val := Elt Ideal) v = v := rfl

/-! ## The argument arrays -/

/-- The seventeen argument arrays, read from a device's buffer contents. -/
def paramsV (V0 : Valuation τ sig (Elt Ideal)) : Cert.Field.Params where
  coords := V0 (Proc.devRef .tc main_arg0)
  sc := V0 (Proc.devRef .tc main_arg1)
  tc := V0 (Proc.devRef .tc main_arg2)
  ws0 := V0 (Proc.devRef .tc main_arg3)
  bs0 := V0 (Proc.devRef .tc main_arg4)
  ws1 := V0 (Proc.devRef .tc main_arg5)
  bs1 := V0 (Proc.devRef .tc main_arg6)
  ws2 := V0 (Proc.devRef .tc main_arg7)
  bs2 := V0 (Proc.devRef .tc main_arg8)
  wsh := V0 (Proc.devRef .tc main_arg9)
  bsh := V0 (Proc.devRef .tc main_arg10)
  wt0 := V0 (Proc.devRef .tc main_arg11)
  bt0 := V0 (Proc.devRef .tc main_arg12)
  wt1 := V0 (Proc.devRef .tc main_arg13)
  bt1 := V0 (Proc.devRef .tc main_arg14)
  wt2 := V0 (Proc.devRef .tc main_arg15)
  bt2 := V0 (Proc.devRef .tc main_arg16)

/-! ## The windows -/

/-- The buffer contents before the first window. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
theorem val0_main_arg4 (V0 : Valuation τ sig (Elt Ideal)) : val0 V0 (no_index (Proc.devRef .tc main_arg4)) = V0 (Proc.devRef .tc main_arg4) := rfl
theorem val0_main_arg5 (V0 : Valuation τ sig (Elt Ideal)) : val0 V0 (no_index (Proc.devRef .tc main_arg5)) = V0 (Proc.devRef .tc main_arg5) := rfl
theorem val0_main_arg6 (V0 : Valuation τ sig (Elt Ideal)) : val0 V0 (no_index (Proc.devRef .tc main_arg6)) = V0 (Proc.devRef .tc main_arg6) := rfl
theorem val0_main_arg7 (V0 : Valuation τ sig (Elt Ideal)) : val0 V0 (no_index (Proc.devRef .tc main_arg7)) = V0 (Proc.devRef .tc main_arg7) := rfl
theorem val0_main_arg8 (V0 : Valuation τ sig (Elt Ideal)) : val0 V0 (no_index (Proc.devRef .tc main_arg8)) = V0 (Proc.devRef .tc main_arg8) := rfl
theorem val0_main_arg9 (V0 : Valuation τ sig (Elt Ideal)) : val0 V0 (no_index (Proc.devRef .tc main_arg9)) = V0 (Proc.devRef .tc main_arg9) := rfl
theorem val0_main_arg10 (V0 : Valuation τ sig (Elt Ideal)) : val0 V0 (no_index (Proc.devRef .tc main_arg10)) = V0 (Proc.devRef .tc main_arg10) := rfl
theorem val0_main_arg11 (V0 : Valuation τ sig (Elt Ideal)) : val0 V0 (no_index (Proc.devRef .tc main_arg11)) = V0 (Proc.devRef .tc main_arg11) := rfl
theorem val0_main_arg12 (V0 : Valuation τ sig (Elt Ideal)) : val0 V0 (no_index (Proc.devRef .tc main_arg12)) = V0 (Proc.devRef .tc main_arg12) := rfl
theorem val0_main_arg13 (V0 : Valuation τ sig (Elt Ideal)) : val0 V0 (no_index (Proc.devRef .tc main_arg13)) = V0 (Proc.devRef .tc main_arg13) := rfl
theorem val0_main_arg14 (V0 : Valuation τ sig (Elt Ideal)) : val0 V0 (no_index (Proc.devRef .tc main_arg14)) = V0 (Proc.devRef .tc main_arg14) := rfl
theorem val0_main_arg15 (V0 : Valuation τ sig (Elt Ideal)) : val0 V0 (no_index (Proc.devRef .tc main_arg15)) = V0 (Proc.devRef .tc main_arg15) := rfl
theorem val0_main_arg16 (V0 : Valuation τ sig (Elt Ideal)) : val0 V0 (no_index (Proc.devRef .tc main_arg16)) = V0 (Proc.devRef .tc main_arg16) := rfl

/-- The buffer contents after the windows up to `opsW1`. -/
def val1 (V0 : Valuation τ sig (Elt Ideal)) : Valuation τ sig (Elt Ideal) := after (opsW1 (F := Ideal)) (val0 V0)
/-- The buffers that window `opsW1` writes. -/
abbrev opsW1_W : List (Ref sig .tc) := [main_cst, main_v0, main_v1, main_v2, main_v3, main_cst_0, main_v4, main_v5, main_v6, main_v7, main_v8, main_v9, main_v10, main_v11, main_v12, main_v13, main_v14, main_v15, main_v16, main_v17, main_v18, main_v19, main_v20]
set_option maxRecDepth 8192 in
theorem opsW1_writes : (opsW1 (F := Ideal)).Forall fun op => op.writes ⊆ (opsW1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val1_keep (V0 : Valuation τ sig (Elt Ideal)) (r : Ref sig .tc) (h : r ∉ opsW1_W) :
    val1 V0 (Proc.devRef .tc r) = val0 V0 (Proc.devRef .tc r) :=
  after_of_writes_sub (opsW1 (F := Ideal)) _ opsW1_writes h
theorem val1_main_arg0 (V0 : Valuation τ sig (Elt Ideal)) : val1 V0 (no_index (Proc.devRef .tc main_arg0)) = V0 (Proc.devRef .tc main_arg0) :=
  (val1_keep V0 main_arg0 (by decide)).trans (val0_main_arg0 V0)
theorem val1_main_arg1 (V0 : Valuation τ sig (Elt Ideal)) : val1 V0 (no_index (Proc.devRef .tc main_arg1)) = V0 (Proc.devRef .tc main_arg1) :=
  (val1_keep V0 main_arg1 (by decide)).trans (val0_main_arg1 V0)
theorem val1_main_arg2 (V0 : Valuation τ sig (Elt Ideal)) : val1 V0 (no_index (Proc.devRef .tc main_arg2)) = V0 (Proc.devRef .tc main_arg2) :=
  (val1_keep V0 main_arg2 (by decide)).trans (val0_main_arg2 V0)
theorem val1_main_arg3 (V0 : Valuation τ sig (Elt Ideal)) : val1 V0 (no_index (Proc.devRef .tc main_arg3)) = V0 (Proc.devRef .tc main_arg3) :=
  (val1_keep V0 main_arg3 (by decide)).trans (val0_main_arg3 V0)
theorem val1_main_arg4 (V0 : Valuation τ sig (Elt Ideal)) : val1 V0 (no_index (Proc.devRef .tc main_arg4)) = V0 (Proc.devRef .tc main_arg4) :=
  (val1_keep V0 main_arg4 (by decide)).trans (val0_main_arg4 V0)
theorem val1_main_arg5 (V0 : Valuation τ sig (Elt Ideal)) : val1 V0 (no_index (Proc.devRef .tc main_arg5)) = V0 (Proc.devRef .tc main_arg5) :=
  (val1_keep V0 main_arg5 (by decide)).trans (val0_main_arg5 V0)
theorem val1_main_arg6 (V0 : Valuation τ sig (Elt Ideal)) : val1 V0 (no_index (Proc.devRef .tc main_arg6)) = V0 (Proc.devRef .tc main_arg6) :=
  (val1_keep V0 main_arg6 (by decide)).trans (val0_main_arg6 V0)
theorem val1_main_arg7 (V0 : Valuation τ sig (Elt Ideal)) : val1 V0 (no_index (Proc.devRef .tc main_arg7)) = V0 (Proc.devRef .tc main_arg7) :=
  (val1_keep V0 main_arg7 (by decide)).trans (val0_main_arg7 V0)
theorem val1_main_arg8 (V0 : Valuation τ sig (Elt Ideal)) : val1 V0 (no_index (Proc.devRef .tc main_arg8)) = V0 (Proc.devRef .tc main_arg8) :=
  (val1_keep V0 main_arg8 (by decide)).trans (val0_main_arg8 V0)
theorem val1_main_arg9 (V0 : Valuation τ sig (Elt Ideal)) : val1 V0 (no_index (Proc.devRef .tc main_arg9)) = V0 (Proc.devRef .tc main_arg9) :=
  (val1_keep V0 main_arg9 (by decide)).trans (val0_main_arg9 V0)
theorem val1_main_arg10 (V0 : Valuation τ sig (Elt Ideal)) : val1 V0 (no_index (Proc.devRef .tc main_arg10)) = V0 (Proc.devRef .tc main_arg10) :=
  (val1_keep V0 main_arg10 (by decide)).trans (val0_main_arg10 V0)
theorem val1_main_arg11 (V0 : Valuation τ sig (Elt Ideal)) : val1 V0 (no_index (Proc.devRef .tc main_arg11)) = V0 (Proc.devRef .tc main_arg11) :=
  (val1_keep V0 main_arg11 (by decide)).trans (val0_main_arg11 V0)
theorem val1_main_arg12 (V0 : Valuation τ sig (Elt Ideal)) : val1 V0 (no_index (Proc.devRef .tc main_arg12)) = V0 (Proc.devRef .tc main_arg12) :=
  (val1_keep V0 main_arg12 (by decide)).trans (val0_main_arg12 V0)
theorem val1_main_arg13 (V0 : Valuation τ sig (Elt Ideal)) : val1 V0 (no_index (Proc.devRef .tc main_arg13)) = V0 (Proc.devRef .tc main_arg13) :=
  (val1_keep V0 main_arg13 (by decide)).trans (val0_main_arg13 V0)
theorem val1_main_arg14 (V0 : Valuation τ sig (Elt Ideal)) : val1 V0 (no_index (Proc.devRef .tc main_arg14)) = V0 (Proc.devRef .tc main_arg14) :=
  (val1_keep V0 main_arg14 (by decide)).trans (val0_main_arg14 V0)
theorem val1_main_arg15 (V0 : Valuation τ sig (Elt Ideal)) : val1 V0 (no_index (Proc.devRef .tc main_arg15)) = V0 (Proc.devRef .tc main_arg15) :=
  (val1_keep V0 main_arg15 (by decide)).trans (val0_main_arg15 V0)
theorem val1_main_arg16 (V0 : Valuation τ sig (Elt Ideal)) : val1 V0 (no_index (Proc.devRef .tc main_arg16)) = V0 (Proc.devRef .tc main_arg16) :=
  (val1_keep V0 main_arg16 (by decide)).trans (val0_main_arg16 V0)
set_option maxRecDepth 8192 in
set_option maxHeartbeats 2000000 in
theorem val1_main_v20 (V0 : Valuation τ sig (Elt Ideal)) : val1 V0 (no_index (Proc.devRef .tc main_v20)) = RefTerm.v20 (paramsV V0) := by
  unfold val1
  simp only [opsW1]
  after_results_simp
  simp only [val0_main_arg1, val0_main_arg0]
  delta cat_v15 cat_v19 RefTerm.v20 RefTerm.v19 RefTerm.v18 RefTerm.v16 RefTerm.v15 RefTerm.v12 RefTerm.v9 RefTerm.v7 RefTerm.v6 RefTerm.v1
  rfl

/-- The buffer contents after the windows up to `opsW2`. -/
def val2 (V0 : Valuation τ sig (Elt Ideal)) : Valuation τ sig (Elt Ideal) := after (opsW2 (F := Ideal)) (val1 V0)
/-- The buffers that window `opsW2` writes. -/
abbrev opsW2_W : List (Ref sig .tc) := [main_cst_1, main_v21, main_v22, main_v23, main_v24, main_v25, main_v26, main_v27, main_cst_2, main_call0_cst, main_call0_v0, main_call0_v1, main_call0_v2, main_call0_v3, main_call0_v4, main_v28, main_cst_3, main_v29, main_v30]
set_option maxRecDepth 8192 in
theorem opsW2_writes : (opsW2 (F := Ideal)).Forall fun op => op.writes ⊆ (opsW2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val2_keep (V0 : Valuation τ sig (Elt Ideal)) (r : Ref sig .tc) (h : r ∉ opsW2_W) :
    val2 V0 (Proc.devRef .tc r) = val1 V0 (Proc.devRef .tc r) :=
  after_of_writes_sub (opsW2 (F := Ideal)) _ opsW2_writes h
theorem val2_main_arg0 (V0 : Valuation τ sig (Elt Ideal)) : val2 V0 (no_index (Proc.devRef .tc main_arg0)) = V0 (Proc.devRef .tc main_arg0) :=
  (val2_keep V0 main_arg0 (by decide)).trans (val1_main_arg0 V0)
theorem val2_main_arg1 (V0 : Valuation τ sig (Elt Ideal)) : val2 V0 (no_index (Proc.devRef .tc main_arg1)) = V0 (Proc.devRef .tc main_arg1) :=
  (val2_keep V0 main_arg1 (by decide)).trans (val1_main_arg1 V0)
theorem val2_main_arg2 (V0 : Valuation τ sig (Elt Ideal)) : val2 V0 (no_index (Proc.devRef .tc main_arg2)) = V0 (Proc.devRef .tc main_arg2) :=
  (val2_keep V0 main_arg2 (by decide)).trans (val1_main_arg2 V0)
theorem val2_main_arg3 (V0 : Valuation τ sig (Elt Ideal)) : val2 V0 (no_index (Proc.devRef .tc main_arg3)) = V0 (Proc.devRef .tc main_arg3) :=
  (val2_keep V0 main_arg3 (by decide)).trans (val1_main_arg3 V0)
theorem val2_main_arg4 (V0 : Valuation τ sig (Elt Ideal)) : val2 V0 (no_index (Proc.devRef .tc main_arg4)) = V0 (Proc.devRef .tc main_arg4) :=
  (val2_keep V0 main_arg4 (by decide)).trans (val1_main_arg4 V0)
theorem val2_main_arg5 (V0 : Valuation τ sig (Elt Ideal)) : val2 V0 (no_index (Proc.devRef .tc main_arg5)) = V0 (Proc.devRef .tc main_arg5) :=
  (val2_keep V0 main_arg5 (by decide)).trans (val1_main_arg5 V0)
theorem val2_main_arg6 (V0 : Valuation τ sig (Elt Ideal)) : val2 V0 (no_index (Proc.devRef .tc main_arg6)) = V0 (Proc.devRef .tc main_arg6) :=
  (val2_keep V0 main_arg6 (by decide)).trans (val1_main_arg6 V0)
theorem val2_main_arg7 (V0 : Valuation τ sig (Elt Ideal)) : val2 V0 (no_index (Proc.devRef .tc main_arg7)) = V0 (Proc.devRef .tc main_arg7) :=
  (val2_keep V0 main_arg7 (by decide)).trans (val1_main_arg7 V0)
theorem val2_main_arg8 (V0 : Valuation τ sig (Elt Ideal)) : val2 V0 (no_index (Proc.devRef .tc main_arg8)) = V0 (Proc.devRef .tc main_arg8) :=
  (val2_keep V0 main_arg8 (by decide)).trans (val1_main_arg8 V0)
theorem val2_main_arg9 (V0 : Valuation τ sig (Elt Ideal)) : val2 V0 (no_index (Proc.devRef .tc main_arg9)) = V0 (Proc.devRef .tc main_arg9) :=
  (val2_keep V0 main_arg9 (by decide)).trans (val1_main_arg9 V0)
theorem val2_main_arg10 (V0 : Valuation τ sig (Elt Ideal)) : val2 V0 (no_index (Proc.devRef .tc main_arg10)) = V0 (Proc.devRef .tc main_arg10) :=
  (val2_keep V0 main_arg10 (by decide)).trans (val1_main_arg10 V0)
theorem val2_main_arg11 (V0 : Valuation τ sig (Elt Ideal)) : val2 V0 (no_index (Proc.devRef .tc main_arg11)) = V0 (Proc.devRef .tc main_arg11) :=
  (val2_keep V0 main_arg11 (by decide)).trans (val1_main_arg11 V0)
theorem val2_main_arg12 (V0 : Valuation τ sig (Elt Ideal)) : val2 V0 (no_index (Proc.devRef .tc main_arg12)) = V0 (Proc.devRef .tc main_arg12) :=
  (val2_keep V0 main_arg12 (by decide)).trans (val1_main_arg12 V0)
theorem val2_main_arg13 (V0 : Valuation τ sig (Elt Ideal)) : val2 V0 (no_index (Proc.devRef .tc main_arg13)) = V0 (Proc.devRef .tc main_arg13) :=
  (val2_keep V0 main_arg13 (by decide)).trans (val1_main_arg13 V0)
theorem val2_main_arg14 (V0 : Valuation τ sig (Elt Ideal)) : val2 V0 (no_index (Proc.devRef .tc main_arg14)) = V0 (Proc.devRef .tc main_arg14) :=
  (val2_keep V0 main_arg14 (by decide)).trans (val1_main_arg14 V0)
theorem val2_main_arg15 (V0 : Valuation τ sig (Elt Ideal)) : val2 V0 (no_index (Proc.devRef .tc main_arg15)) = V0 (Proc.devRef .tc main_arg15) :=
  (val2_keep V0 main_arg15 (by decide)).trans (val1_main_arg15 V0)
theorem val2_main_arg16 (V0 : Valuation τ sig (Elt Ideal)) : val2 V0 (no_index (Proc.devRef .tc main_arg16)) = V0 (Proc.devRef .tc main_arg16) :=
  (val2_keep V0 main_arg16 (by decide)).trans (val1_main_arg16 V0)
set_option maxRecDepth 8192 in
set_option maxHeartbeats 1900000 in
theorem val2_main_v30 (V0 : Valuation τ sig (Elt Ideal)) : val2 V0 (no_index (Proc.devRef .tc main_v30)) = RefTerm.v30 (paramsV V0) := by
  unfold val2
  simp only [opsW2]
  after_results_simp
  simp only [val1_main_arg4, val1_main_arg3, val1_main_v20]
  simp only [ofBuf_toBuf, ofBuf_main_v27, ofBuf_main_cst_2, toBuf_main_v28]
  delta RefTerm.v30 RefTerm.v27 RefTerm.v23 RefTerm.lrelu
  rfl

/-- The buffer contents after the windows up to `opsW3`. -/
def val3 (V0 : Valuation τ sig (Elt Ideal)) : Valuation τ sig (Elt Ideal) := after (opsW3 (F := Ideal)) (val2 V0)
/-- The buffers that window `opsW3` writes. -/
abbrev opsW3_W : List (Ref sig .tc) := [main_cst_4, main_v31, main_v32, main_v33, main_v34, main_v35, main_v36, main_v37, main_cst_5, main_call1_cst, main_call1_v0, main_call1_v1, main_call1_v2, main_call1_v3, main_call1_v4, main_v38, main_cst_6, main_v39, main_v40]
set_option maxRecDepth 8192 in
theorem opsW3_writes : (opsW3 (F := Ideal)).Forall fun op => op.writes ⊆ (opsW3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val3_keep (V0 : Valuation τ sig (Elt Ideal)) (r : Ref sig .tc) (h : r ∉ opsW3_W) :
    val3 V0 (Proc.devRef .tc r) = val2 V0 (Proc.devRef .tc r) :=
  after_of_writes_sub (opsW3 (F := Ideal)) _ opsW3_writes h
theorem val3_main_arg0 (V0 : Valuation τ sig (Elt Ideal)) : val3 V0 (no_index (Proc.devRef .tc main_arg0)) = V0 (Proc.devRef .tc main_arg0) :=
  (val3_keep V0 main_arg0 (by decide)).trans (val2_main_arg0 V0)
theorem val3_main_arg1 (V0 : Valuation τ sig (Elt Ideal)) : val3 V0 (no_index (Proc.devRef .tc main_arg1)) = V0 (Proc.devRef .tc main_arg1) :=
  (val3_keep V0 main_arg1 (by decide)).trans (val2_main_arg1 V0)
theorem val3_main_arg2 (V0 : Valuation τ sig (Elt Ideal)) : val3 V0 (no_index (Proc.devRef .tc main_arg2)) = V0 (Proc.devRef .tc main_arg2) :=
  (val3_keep V0 main_arg2 (by decide)).trans (val2_main_arg2 V0)
theorem val3_main_arg3 (V0 : Valuation τ sig (Elt Ideal)) : val3 V0 (no_index (Proc.devRef .tc main_arg3)) = V0 (Proc.devRef .tc main_arg3) :=
  (val3_keep V0 main_arg3 (by decide)).trans (val2_main_arg3 V0)
theorem val3_main_arg4 (V0 : Valuation τ sig (Elt Ideal)) : val3 V0 (no_index (Proc.devRef .tc main_arg4)) = V0 (Proc.devRef .tc main_arg4) :=
  (val3_keep V0 main_arg4 (by decide)).trans (val2_main_arg4 V0)
theorem val3_main_arg5 (V0 : Valuation τ sig (Elt Ideal)) : val3 V0 (no_index (Proc.devRef .tc main_arg5)) = V0 (Proc.devRef .tc main_arg5) :=
  (val3_keep V0 main_arg5 (by decide)).trans (val2_main_arg5 V0)
theorem val3_main_arg6 (V0 : Valuation τ sig (Elt Ideal)) : val3 V0 (no_index (Proc.devRef .tc main_arg6)) = V0 (Proc.devRef .tc main_arg6) :=
  (val3_keep V0 main_arg6 (by decide)).trans (val2_main_arg6 V0)
theorem val3_main_arg7 (V0 : Valuation τ sig (Elt Ideal)) : val3 V0 (no_index (Proc.devRef .tc main_arg7)) = V0 (Proc.devRef .tc main_arg7) :=
  (val3_keep V0 main_arg7 (by decide)).trans (val2_main_arg7 V0)
theorem val3_main_arg8 (V0 : Valuation τ sig (Elt Ideal)) : val3 V0 (no_index (Proc.devRef .tc main_arg8)) = V0 (Proc.devRef .tc main_arg8) :=
  (val3_keep V0 main_arg8 (by decide)).trans (val2_main_arg8 V0)
theorem val3_main_arg9 (V0 : Valuation τ sig (Elt Ideal)) : val3 V0 (no_index (Proc.devRef .tc main_arg9)) = V0 (Proc.devRef .tc main_arg9) :=
  (val3_keep V0 main_arg9 (by decide)).trans (val2_main_arg9 V0)
theorem val3_main_arg10 (V0 : Valuation τ sig (Elt Ideal)) : val3 V0 (no_index (Proc.devRef .tc main_arg10)) = V0 (Proc.devRef .tc main_arg10) :=
  (val3_keep V0 main_arg10 (by decide)).trans (val2_main_arg10 V0)
theorem val3_main_arg11 (V0 : Valuation τ sig (Elt Ideal)) : val3 V0 (no_index (Proc.devRef .tc main_arg11)) = V0 (Proc.devRef .tc main_arg11) :=
  (val3_keep V0 main_arg11 (by decide)).trans (val2_main_arg11 V0)
theorem val3_main_arg12 (V0 : Valuation τ sig (Elt Ideal)) : val3 V0 (no_index (Proc.devRef .tc main_arg12)) = V0 (Proc.devRef .tc main_arg12) :=
  (val3_keep V0 main_arg12 (by decide)).trans (val2_main_arg12 V0)
theorem val3_main_arg13 (V0 : Valuation τ sig (Elt Ideal)) : val3 V0 (no_index (Proc.devRef .tc main_arg13)) = V0 (Proc.devRef .tc main_arg13) :=
  (val3_keep V0 main_arg13 (by decide)).trans (val2_main_arg13 V0)
theorem val3_main_arg14 (V0 : Valuation τ sig (Elt Ideal)) : val3 V0 (no_index (Proc.devRef .tc main_arg14)) = V0 (Proc.devRef .tc main_arg14) :=
  (val3_keep V0 main_arg14 (by decide)).trans (val2_main_arg14 V0)
theorem val3_main_arg15 (V0 : Valuation τ sig (Elt Ideal)) : val3 V0 (no_index (Proc.devRef .tc main_arg15)) = V0 (Proc.devRef .tc main_arg15) :=
  (val3_keep V0 main_arg15 (by decide)).trans (val2_main_arg15 V0)
theorem val3_main_arg16 (V0 : Valuation τ sig (Elt Ideal)) : val3 V0 (no_index (Proc.devRef .tc main_arg16)) = V0 (Proc.devRef .tc main_arg16) :=
  (val3_keep V0 main_arg16 (by decide)).trans (val2_main_arg16 V0)
set_option maxRecDepth 8192 in
set_option maxHeartbeats 1900000 in
theorem val3_main_v40 (V0 : Valuation τ sig (Elt Ideal)) : val3 V0 (no_index (Proc.devRef .tc main_v40)) = RefTerm.v40 (paramsV V0) := by
  unfold val3
  simp only [opsW3]
  after_results_simp
  simp only [val2_main_arg6, val2_main_arg5, val2_main_v30]
  simp only [ofBuf_toBuf, ofBuf_main_v37, ofBuf_main_cst_5, toBuf_main_v38]
  delta RefTerm.v40 RefTerm.v37 RefTerm.v33 RefTerm.lrelu
  rfl

/-- The buffer contents after the windows up to `opsW4a`. -/
def val4a (V0 : Valuation τ sig (Elt Ideal)) : Valuation τ sig (Elt Ideal) := after (opsW4a (F := Ideal)) (val3 V0)
/-- The buffers that window `opsW4a` writes. -/
abbrev opsW4a_W : List (Ref sig .tc) := [main_cst_7, main_v41, main_v42, main_v43, main_v44, main_v45, main_v46, main_v47, main_cst_8, main_call2_cst, main_call2_v0, main_call2_v1, main_call2_v2, main_call2_v3, main_call2_v4, main_v48, main_cst_9]
set_option maxRecDepth 8192 in
theorem opsW4a_writes : (opsW4a (F := Ideal)).Forall fun op => op.writes ⊆ (opsW4a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val4a_keep (V0 : Valuation τ sig (Elt Ideal)) (r : Ref sig .tc) (h : r ∉ opsW4a_W) :
    val4a V0 (Proc.devRef .tc r) = val3 V0 (Proc.devRef .tc r) :=
  after_of_writes_sub (opsW4a (F := Ideal)) _ opsW4a_writes h
theorem val4a_main_arg0 (V0 : Valuation τ sig (Elt Ideal)) : val4a V0 (no_index (Proc.devRef .tc main_arg0)) = V0 (Proc.devRef .tc main_arg0) :=
  (val4a_keep V0 main_arg0 (by decide)).trans (val3_main_arg0 V0)
theorem val4a_main_arg1 (V0 : Valuation τ sig (Elt Ideal)) : val4a V0 (no_index (Proc.devRef .tc main_arg1)) = V0 (Proc.devRef .tc main_arg1) :=
  (val4a_keep V0 main_arg1 (by decide)).trans (val3_main_arg1 V0)
theorem val4a_main_arg2 (V0 : Valuation τ sig (Elt Ideal)) : val4a V0 (no_index (Proc.devRef .tc main_arg2)) = V0 (Proc.devRef .tc main_arg2) :=
  (val4a_keep V0 main_arg2 (by decide)).trans (val3_main_arg2 V0)
theorem val4a_main_arg3 (V0 : Valuation τ sig (Elt Ideal)) : val4a V0 (no_index (Proc.devRef .tc main_arg3)) = V0 (Proc.devRef .tc main_arg3) :=
  (val4a_keep V0 main_arg3 (by decide)).trans (val3_main_arg3 V0)
theorem val4a_main_arg4 (V0 : Valuation τ sig (Elt Ideal)) : val4a V0 (no_index (Proc.devRef .tc main_arg4)) = V0 (Proc.devRef .tc main_arg4) :=
  (val4a_keep V0 main_arg4 (by decide)).trans (val3_main_arg4 V0)
theorem val4a_main_arg5 (V0 : Valuation τ sig (Elt Ideal)) : val4a V0 (no_index (Proc.devRef .tc main_arg5)) = V0 (Proc.devRef .tc main_arg5) :=
  (val4a_keep V0 main_arg5 (by decide)).trans (val3_main_arg5 V0)
theorem val4a_main_arg6 (V0 : Valuation τ sig (Elt Ideal)) : val4a V0 (no_index (Proc.devRef .tc main_arg6)) = V0 (Proc.devRef .tc main_arg6) :=
  (val4a_keep V0 main_arg6 (by decide)).trans (val3_main_arg6 V0)
theorem val4a_main_arg7 (V0 : Valuation τ sig (Elt Ideal)) : val4a V0 (no_index (Proc.devRef .tc main_arg7)) = V0 (Proc.devRef .tc main_arg7) :=
  (val4a_keep V0 main_arg7 (by decide)).trans (val3_main_arg7 V0)
theorem val4a_main_arg8 (V0 : Valuation τ sig (Elt Ideal)) : val4a V0 (no_index (Proc.devRef .tc main_arg8)) = V0 (Proc.devRef .tc main_arg8) :=
  (val4a_keep V0 main_arg8 (by decide)).trans (val3_main_arg8 V0)
theorem val4a_main_arg9 (V0 : Valuation τ sig (Elt Ideal)) : val4a V0 (no_index (Proc.devRef .tc main_arg9)) = V0 (Proc.devRef .tc main_arg9) :=
  (val4a_keep V0 main_arg9 (by decide)).trans (val3_main_arg9 V0)
theorem val4a_main_arg10 (V0 : Valuation τ sig (Elt Ideal)) : val4a V0 (no_index (Proc.devRef .tc main_arg10)) = V0 (Proc.devRef .tc main_arg10) :=
  (val4a_keep V0 main_arg10 (by decide)).trans (val3_main_arg10 V0)
theorem val4a_main_arg11 (V0 : Valuation τ sig (Elt Ideal)) : val4a V0 (no_index (Proc.devRef .tc main_arg11)) = V0 (Proc.devRef .tc main_arg11) :=
  (val4a_keep V0 main_arg11 (by decide)).trans (val3_main_arg11 V0)
theorem val4a_main_arg12 (V0 : Valuation τ sig (Elt Ideal)) : val4a V0 (no_index (Proc.devRef .tc main_arg12)) = V0 (Proc.devRef .tc main_arg12) :=
  (val4a_keep V0 main_arg12 (by decide)).trans (val3_main_arg12 V0)
theorem val4a_main_arg13 (V0 : Valuation τ sig (Elt Ideal)) : val4a V0 (no_index (Proc.devRef .tc main_arg13)) = V0 (Proc.devRef .tc main_arg13) :=
  (val4a_keep V0 main_arg13 (by decide)).trans (val3_main_arg13 V0)
theorem val4a_main_arg14 (V0 : Valuation τ sig (Elt Ideal)) : val4a V0 (no_index (Proc.devRef .tc main_arg14)) = V0 (Proc.devRef .tc main_arg14) :=
  (val4a_keep V0 main_arg14 (by decide)).trans (val3_main_arg14 V0)
theorem val4a_main_arg15 (V0 : Valuation τ sig (Elt Ideal)) : val4a V0 (no_index (Proc.devRef .tc main_arg15)) = V0 (Proc.devRef .tc main_arg15) :=
  (val4a_keep V0 main_arg15 (by decide)).trans (val3_main_arg15 V0)
theorem val4a_main_arg16 (V0 : Valuation τ sig (Elt Ideal)) : val4a V0 (no_index (Proc.devRef .tc main_arg16)) = V0 (Proc.devRef .tc main_arg16) :=
  (val4a_keep V0 main_arg16 (by decide)).trans (val3_main_arg16 V0)
set_option maxRecDepth 8192 in
set_option maxHeartbeats 1700000 in
theorem val4a_main_v48 (V0 : Valuation τ sig (Elt Ideal)) : val4a V0 (no_index (Proc.devRef .tc main_v48)) = RefTerm.lrelu (RefTerm.v47 (paramsV V0)) (constant (F := Ideal) S_ .f32 0x3E4CCCCD#32) := by
  unfold val4a
  simp only [opsW4a]
  after_results_simp
  simp only [val3_main_arg8, val3_main_arg7, val3_main_v40]
  simp only [ofBuf_toBuf, ofBuf_main_v47, ofBuf_main_cst_8, toBuf_main_v48]
  delta RefTerm.lrelu RefTerm.v47 RefTerm.v43
  rfl
set_option maxRecDepth 8192 in
set_option maxHeartbeats 1700000 in
theorem val4a_main_cst_9 (V0 : Valuation τ sig (Elt Ideal)) : val4a V0 (no_index (Proc.devRef .tc main_cst_9)) = constant (F := Ideal) S_ .f32 0x3FB504F3#32 := by
  unfold val4a
  simp only [opsW4a]
  after_results_simp

/-- The buffer contents after the windows up to `opsW4b`. -/
def val4b (V0 : Valuation τ sig (Elt Ideal)) : Valuation τ sig (Elt Ideal) := after (opsW4b (F := Ideal)) (val4a V0)
/-- The buffers that window `opsW4b` writes. -/
abbrev opsW4b_W : List (Ref sig .tc) := [main_v49, main_v50]
set_option maxRecDepth 8192 in
theorem opsW4b_writes : (opsW4b (F := Ideal)).Forall fun op => op.writes ⊆ (opsW4b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val4b_keep (V0 : Valuation τ sig (Elt Ideal)) (r : Ref sig .tc) (h : r ∉ opsW4b_W) :
    val4b V0 (Proc.devRef .tc r) = val4a V0 (Proc.devRef .tc r) :=
  after_of_writes_sub (opsW4b (F := Ideal)) _ opsW4b_writes h
theorem val4b_main_arg0 (V0 : Valuation τ sig (Elt Ideal)) : val4b V0 (no_index (Proc.devRef .tc main_arg0)) = V0 (Proc.devRef .tc main_arg0) :=
  (val4b_keep V0 main_arg0 (by decide)).trans (val4a_main_arg0 V0)
theorem val4b_main_arg1 (V0 : Valuation τ sig (Elt Ideal)) : val4b V0 (no_index (Proc.devRef .tc main_arg1)) = V0 (Proc.devRef .tc main_arg1) :=
  (val4b_keep V0 main_arg1 (by decide)).trans (val4a_main_arg1 V0)
theorem val4b_main_arg2 (V0 : Valuation τ sig (Elt Ideal)) : val4b V0 (no_index (Proc.devRef .tc main_arg2)) = V0 (Proc.devRef .tc main_arg2) :=
  (val4b_keep V0 main_arg2 (by decide)).trans (val4a_main_arg2 V0)
theorem val4b_main_arg3 (V0 : Valuation τ sig (Elt Ideal)) : val4b V0 (no_index (Proc.devRef .tc main_arg3)) = V0 (Proc.devRef .tc main_arg3) :=
  (val4b_keep V0 main_arg3 (by decide)).trans (val4a_main_arg3 V0)
theorem val4b_main_arg4 (V0 : Valuation τ sig (Elt Ideal)) : val4b V0 (no_index (Proc.devRef .tc main_arg4)) = V0 (Proc.devRef .tc main_arg4) :=
  (val4b_keep V0 main_arg4 (by decide)).trans (val4a_main_arg4 V0)
theorem val4b_main_arg5 (V0 : Valuation τ sig (Elt Ideal)) : val4b V0 (no_index (Proc.devRef .tc main_arg5)) = V0 (Proc.devRef .tc main_arg5) :=
  (val4b_keep V0 main_arg5 (by decide)).trans (val4a_main_arg5 V0)
theorem val4b_main_arg6 (V0 : Valuation τ sig (Elt Ideal)) : val4b V0 (no_index (Proc.devRef .tc main_arg6)) = V0 (Proc.devRef .tc main_arg6) :=
  (val4b_keep V0 main_arg6 (by decide)).trans (val4a_main_arg6 V0)
theorem val4b_main_arg7 (V0 : Valuation τ sig (Elt Ideal)) : val4b V0 (no_index (Proc.devRef .tc main_arg7)) = V0 (Proc.devRef .tc main_arg7) :=
  (val4b_keep V0 main_arg7 (by decide)).trans (val4a_main_arg7 V0)
theorem val4b_main_arg8 (V0 : Valuation τ sig (Elt Ideal)) : val4b V0 (no_index (Proc.devRef .tc main_arg8)) = V0 (Proc.devRef .tc main_arg8) :=
  (val4b_keep V0 main_arg8 (by decide)).trans (val4a_main_arg8 V0)
theorem val4b_main_arg9 (V0 : Valuation τ sig (Elt Ideal)) : val4b V0 (no_index (Proc.devRef .tc main_arg9)) = V0 (Proc.devRef .tc main_arg9) :=
  (val4b_keep V0 main_arg9 (by decide)).trans (val4a_main_arg9 V0)
theorem val4b_main_arg10 (V0 : Valuation τ sig (Elt Ideal)) : val4b V0 (no_index (Proc.devRef .tc main_arg10)) = V0 (Proc.devRef .tc main_arg10) :=
  (val4b_keep V0 main_arg10 (by decide)).trans (val4a_main_arg10 V0)
theorem val4b_main_arg11 (V0 : Valuation τ sig (Elt Ideal)) : val4b V0 (no_index (Proc.devRef .tc main_arg11)) = V0 (Proc.devRef .tc main_arg11) :=
  (val4b_keep V0 main_arg11 (by decide)).trans (val4a_main_arg11 V0)
theorem val4b_main_arg12 (V0 : Valuation τ sig (Elt Ideal)) : val4b V0 (no_index (Proc.devRef .tc main_arg12)) = V0 (Proc.devRef .tc main_arg12) :=
  (val4b_keep V0 main_arg12 (by decide)).trans (val4a_main_arg12 V0)
theorem val4b_main_arg13 (V0 : Valuation τ sig (Elt Ideal)) : val4b V0 (no_index (Proc.devRef .tc main_arg13)) = V0 (Proc.devRef .tc main_arg13) :=
  (val4b_keep V0 main_arg13 (by decide)).trans (val4a_main_arg13 V0)
theorem val4b_main_arg14 (V0 : Valuation τ sig (Elt Ideal)) : val4b V0 (no_index (Proc.devRef .tc main_arg14)) = V0 (Proc.devRef .tc main_arg14) :=
  (val4b_keep V0 main_arg14 (by decide)).trans (val4a_main_arg14 V0)
theorem val4b_main_arg15 (V0 : Valuation τ sig (Elt Ideal)) : val4b V0 (no_index (Proc.devRef .tc main_arg15)) = V0 (Proc.devRef .tc main_arg15) :=
  (val4b_keep V0 main_arg15 (by decide)).trans (val4a_main_arg15 V0)
theorem val4b_main_arg16 (V0 : Valuation τ sig (Elt Ideal)) : val4b V0 (no_index (Proc.devRef .tc main_arg16)) = V0 (Proc.devRef .tc main_arg16) :=
  (val4b_keep V0 main_arg16 (by decide)).trans (val4a_main_arg16 V0)
set_option maxRecDepth 8192 in
set_option maxHeartbeats 200000 in
theorem val4b_main_v50 (V0 : Valuation τ sig (Elt Ideal)) : val4b V0 (no_index (Proc.devRef .tc main_v50)) = RefTerm.v50 (paramsV V0) := by
  unfold val4b
  simp only [opsW4b]
  after_results_simp
  simp only [val4a_main_cst_9, val4a_main_v48]
  delta RefTerm.v50
  rfl

/-- The buffer contents after the windows up to `opsW5`. -/
def val5 (V0 : Valuation τ sig (Elt Ideal)) : Valuation τ sig (Elt Ideal) := after (opsW5 (F := Ideal)) (val4b V0)
/-- The buffers that window `opsW5` writes. -/
abbrev opsW5_W : List (Ref sig .tc) := [main_cst_10, main_v51, main_v52, main_v53, main_v54, main_v55, main_v56, main_v57, main_v58]
set_option maxRecDepth 8192 in
theorem opsW5_writes : (opsW5 (F := Ideal)).Forall fun op => op.writes ⊆ (opsW5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val5_keep (V0 : Valuation τ sig (Elt Ideal)) (r : Ref sig .tc) (h : r ∉ opsW5_W) :
    val5 V0 (Proc.devRef .tc r) = val4b V0 (Proc.devRef .tc r) :=
  after_of_writes_sub (opsW5 (F := Ideal)) _ opsW5_writes h
theorem val5_main_arg0 (V0 : Valuation τ sig (Elt Ideal)) : val5 V0 (no_index (Proc.devRef .tc main_arg0)) = V0 (Proc.devRef .tc main_arg0) :=
  (val5_keep V0 main_arg0 (by decide)).trans (val4b_main_arg0 V0)
theorem val5_main_arg1 (V0 : Valuation τ sig (Elt Ideal)) : val5 V0 (no_index (Proc.devRef .tc main_arg1)) = V0 (Proc.devRef .tc main_arg1) :=
  (val5_keep V0 main_arg1 (by decide)).trans (val4b_main_arg1 V0)
theorem val5_main_arg2 (V0 : Valuation τ sig (Elt Ideal)) : val5 V0 (no_index (Proc.devRef .tc main_arg2)) = V0 (Proc.devRef .tc main_arg2) :=
  (val5_keep V0 main_arg2 (by decide)).trans (val4b_main_arg2 V0)
theorem val5_main_arg3 (V0 : Valuation τ sig (Elt Ideal)) : val5 V0 (no_index (Proc.devRef .tc main_arg3)) = V0 (Proc.devRef .tc main_arg3) :=
  (val5_keep V0 main_arg3 (by decide)).trans (val4b_main_arg3 V0)
theorem val5_main_arg4 (V0 : Valuation τ sig (Elt Ideal)) : val5 V0 (no_index (Proc.devRef .tc main_arg4)) = V0 (Proc.devRef .tc main_arg4) :=
  (val5_keep V0 main_arg4 (by decide)).trans (val4b_main_arg4 V0)
theorem val5_main_arg5 (V0 : Valuation τ sig (Elt Ideal)) : val5 V0 (no_index (Proc.devRef .tc main_arg5)) = V0 (Proc.devRef .tc main_arg5) :=
  (val5_keep V0 main_arg5 (by decide)).trans (val4b_main_arg5 V0)
theorem val5_main_arg6 (V0 : Valuation τ sig (Elt Ideal)) : val5 V0 (no_index (Proc.devRef .tc main_arg6)) = V0 (Proc.devRef .tc main_arg6) :=
  (val5_keep V0 main_arg6 (by decide)).trans (val4b_main_arg6 V0)
theorem val5_main_arg7 (V0 : Valuation τ sig (Elt Ideal)) : val5 V0 (no_index (Proc.devRef .tc main_arg7)) = V0 (Proc.devRef .tc main_arg7) :=
  (val5_keep V0 main_arg7 (by decide)).trans (val4b_main_arg7 V0)
theorem val5_main_arg8 (V0 : Valuation τ sig (Elt Ideal)) : val5 V0 (no_index (Proc.devRef .tc main_arg8)) = V0 (Proc.devRef .tc main_arg8) :=
  (val5_keep V0 main_arg8 (by decide)).trans (val4b_main_arg8 V0)
theorem val5_main_arg9 (V0 : Valuation τ sig (Elt Ideal)) : val5 V0 (no_index (Proc.devRef .tc main_arg9)) = V0 (Proc.devRef .tc main_arg9) :=
  (val5_keep V0 main_arg9 (by decide)).trans (val4b_main_arg9 V0)
theorem val5_main_arg10 (V0 : Valuation τ sig (Elt Ideal)) : val5 V0 (no_index (Proc.devRef .tc main_arg10)) = V0 (Proc.devRef .tc main_arg10) :=
  (val5_keep V0 main_arg10 (by decide)).trans (val4b_main_arg10 V0)
theorem val5_main_arg11 (V0 : Valuation τ sig (Elt Ideal)) : val5 V0 (no_index (Proc.devRef .tc main_arg11)) = V0 (Proc.devRef .tc main_arg11) :=
  (val5_keep V0 main_arg11 (by decide)).trans (val4b_main_arg11 V0)
theorem val5_main_arg12 (V0 : Valuation τ sig (Elt Ideal)) : val5 V0 (no_index (Proc.devRef .tc main_arg12)) = V0 (Proc.devRef .tc main_arg12) :=
  (val5_keep V0 main_arg12 (by decide)).trans (val4b_main_arg12 V0)
theorem val5_main_arg13 (V0 : Valuation τ sig (Elt Ideal)) : val5 V0 (no_index (Proc.devRef .tc main_arg13)) = V0 (Proc.devRef .tc main_arg13) :=
  (val5_keep V0 main_arg13 (by decide)).trans (val4b_main_arg13 V0)
theorem val5_main_arg14 (V0 : Valuation τ sig (Elt Ideal)) : val5 V0 (no_index (Proc.devRef .tc main_arg14)) = V0 (Proc.devRef .tc main_arg14) :=
  (val5_keep V0 main_arg14 (by decide)).trans (val4b_main_arg14 V0)
theorem val5_main_arg15 (V0 : Valuation τ sig (Elt Ideal)) : val5 V0 (no_index (Proc.devRef .tc main_arg15)) = V0 (Proc.devRef .tc main_arg15) :=
  (val5_keep V0 main_arg15 (by decide)).trans (val4b_main_arg15 V0)
theorem val5_main_arg16 (V0 : Valuation τ sig (Elt Ideal)) : val5 V0 (no_index (Proc.devRef .tc main_arg16)) = V0 (Proc.devRef .tc main_arg16) :=
  (val5_keep V0 main_arg16 (by decide)).trans (val4b_main_arg16 V0)
set_option maxRecDepth 8192 in
set_option maxHeartbeats 900000 in
theorem val5_main_v58 (V0 : Valuation τ sig (Elt Ideal)) : val5 V0 (no_index (Proc.devRef .tc main_v58)) = RefTerm.v58 (paramsV V0) := by
  unfold val5
  simp only [opsW5]
  after_results_simp
  simp only [val4b_main_arg10, val4b_main_arg9, val4b_main_v50]
  delta RefTerm.v58 RefTerm.v57 RefTerm.v53
  rfl
theorem val5_main_v50 (V0 : Valuation τ sig (Elt Ideal)) : val5 V0 (no_index (Proc.devRef .tc main_v50)) = RefTerm.v50 (paramsV V0) :=
  (val5_keep V0 main_v50 (by decide)).trans (val4b_main_v50 V0)

/-- The buffer contents after the windows up to `opsW6`. -/
def val6 (V0 : Valuation τ sig (Elt Ideal)) : Valuation τ sig (Elt Ideal) := after (opsW6 (F := Ideal)) (val5 V0)
/-- The buffers that window `opsW6` writes. -/
abbrev opsW6_W : List (Ref sig .tc) := [main_v59, main_v60, main_v61, main_v62, main_cst_11, main_v63, main_v64, main_v65, main_v66, main_v67, main_v68, main_v69, main_cst_12, main_call3_cst, main_call3_v0, main_call3_v1, main_call3_v2, main_call3_v3, main_call3_v4, main_v70, main_cst_13, main_v71, main_v72]
set_option maxRecDepth 8192 in
theorem opsW6_writes : (opsW6 (F := Ideal)).Forall fun op => op.writes ⊆ (opsW6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val6_keep (V0 : Valuation τ sig (Elt Ideal)) (r : Ref sig .tc) (h : r ∉ opsW6_W) :
    val6 V0 (Proc.devRef .tc r) = val5 V0 (Proc.devRef .tc r) :=
  after_of_writes_sub (opsW6 (F := Ideal)) _ opsW6_writes h
theorem val6_main_arg0 (V0 : Valuation τ sig (Elt Ideal)) : val6 V0 (no_index (Proc.devRef .tc main_arg0)) = V0 (Proc.devRef .tc main_arg0) :=
  (val6_keep V0 main_arg0 (by decide)).trans (val5_main_arg0 V0)
theorem val6_main_arg1 (V0 : Valuation τ sig (Elt Ideal)) : val6 V0 (no_index (Proc.devRef .tc main_arg1)) = V0 (Proc.devRef .tc main_arg1) :=
  (val6_keep V0 main_arg1 (by decide)).trans (val5_main_arg1 V0)
theorem val6_main_arg2 (V0 : Valuation τ sig (Elt Ideal)) : val6 V0 (no_index (Proc.devRef .tc main_arg2)) = V0 (Proc.devRef .tc main_arg2) :=
  (val6_keep V0 main_arg2 (by decide)).trans (val5_main_arg2 V0)
theorem val6_main_arg3 (V0 : Valuation τ sig (Elt Ideal)) : val6 V0 (no_index (Proc.devRef .tc main_arg3)) = V0 (Proc.devRef .tc main_arg3) :=
  (val6_keep V0 main_arg3 (by decide)).trans (val5_main_arg3 V0)
theorem val6_main_arg4 (V0 : Valuation τ sig (Elt Ideal)) : val6 V0 (no_index (Proc.devRef .tc main_arg4)) = V0 (Proc.devRef .tc main_arg4) :=
  (val6_keep V0 main_arg4 (by decide)).trans (val5_main_arg4 V0)
theorem val6_main_arg5 (V0 : Valuation τ sig (Elt Ideal)) : val6 V0 (no_index (Proc.devRef .tc main_arg5)) = V0 (Proc.devRef .tc main_arg5) :=
  (val6_keep V0 main_arg5 (by decide)).trans (val5_main_arg5 V0)
theorem val6_main_arg6 (V0 : Valuation τ sig (Elt Ideal)) : val6 V0 (no_index (Proc.devRef .tc main_arg6)) = V0 (Proc.devRef .tc main_arg6) :=
  (val6_keep V0 main_arg6 (by decide)).trans (val5_main_arg6 V0)
theorem val6_main_arg7 (V0 : Valuation τ sig (Elt Ideal)) : val6 V0 (no_index (Proc.devRef .tc main_arg7)) = V0 (Proc.devRef .tc main_arg7) :=
  (val6_keep V0 main_arg7 (by decide)).trans (val5_main_arg7 V0)
theorem val6_main_arg8 (V0 : Valuation τ sig (Elt Ideal)) : val6 V0 (no_index (Proc.devRef .tc main_arg8)) = V0 (Proc.devRef .tc main_arg8) :=
  (val6_keep V0 main_arg8 (by decide)).trans (val5_main_arg8 V0)
theorem val6_main_arg9 (V0 : Valuation τ sig (Elt Ideal)) : val6 V0 (no_index (Proc.devRef .tc main_arg9)) = V0 (Proc.devRef .tc main_arg9) :=
  (val6_keep V0 main_arg9 (by decide)).trans (val5_main_arg9 V0)
theorem val6_main_arg10 (V0 : Valuation τ sig (Elt Ideal)) : val6 V0 (no_index (Proc.devRef .tc main_arg10)) = V0 (Proc.devRef .tc main_arg10) :=
  (val6_keep V0 main_arg10 (by decide)).trans (val5_main_arg10 V0)
theorem val6_main_arg11 (V0 : Valuation τ sig (Elt Ideal)) : val6 V0 (no_index (Proc.devRef .tc main_arg11)) = V0 (Proc.devRef .tc main_arg11) :=
  (val6_keep V0 main_arg11 (by decide)).trans (val5_main_arg11 V0)
theorem val6_main_arg12 (V0 : Valuation τ sig (Elt Ideal)) : val6 V0 (no_index (Proc.devRef .tc main_arg12)) = V0 (Proc.devRef .tc main_arg12) :=
  (val6_keep V0 main_arg12 (by decide)).trans (val5_main_arg12 V0)
theorem val6_main_arg13 (V0 : Valuation τ sig (Elt Ideal)) : val6 V0 (no_index (Proc.devRef .tc main_arg13)) = V0 (Proc.devRef .tc main_arg13) :=
  (val6_keep V0 main_arg13 (by decide)).trans (val5_main_arg13 V0)
theorem val6_main_arg14 (V0 : Valuation τ sig (Elt Ideal)) : val6 V0 (no_index (Proc.devRef .tc main_arg14)) = V0 (Proc.devRef .tc main_arg14) :=
  (val6_keep V0 main_arg14 (by decide)).trans (val5_main_arg14 V0)
theorem val6_main_arg15 (V0 : Valuation τ sig (Elt Ideal)) : val6 V0 (no_index (Proc.devRef .tc main_arg15)) = V0 (Proc.devRef .tc main_arg15) :=
  (val6_keep V0 main_arg15 (by decide)).trans (val5_main_arg15 V0)
theorem val6_main_arg16 (V0 : Valuation τ sig (Elt Ideal)) : val6 V0 (no_index (Proc.devRef .tc main_arg16)) = V0 (Proc.devRef .tc main_arg16) :=
  (val6_keep V0 main_arg16 (by decide)).trans (val5_main_arg16 V0)
set_option maxRecDepth 8192 in
set_option maxHeartbeats 2000000 in
theorem val6_main_v72 (V0 : Valuation τ sig (Elt Ideal)) : val6 V0 (no_index (Proc.devRef .tc main_v72)) = RefTerm.v72 (paramsV V0) := by
  unfold val6
  simp only [opsW6]
  after_results_simp
  simp only [val5_main_arg12, val5_main_arg11, val5_main_arg2, val5_main_v50]
  simp only [ofBuf_toBuf, ofBuf_main_v69, ofBuf_main_cst_12, toBuf_main_v70]
  delta cat_v62 RefTerm.v72 RefTerm.v69 RefTerm.v65 RefTerm.v62 RefTerm.v61 RefTerm.lrelu
  rfl
theorem val6_main_v58 (V0 : Valuation τ sig (Elt Ideal)) : val6 V0 (no_index (Proc.devRef .tc main_v58)) = RefTerm.v58 (paramsV V0) :=
  (val6_keep V0 main_v58 (by decide)).trans (val5_main_v58 V0)

/-- The buffer contents after the windows up to `opsW7`. -/
def val7 (V0 : Valuation τ sig (Elt Ideal)) : Valuation τ sig (Elt Ideal) := after (opsW7 (F := Ideal)) (val6 V0)
/-- The buffers that window `opsW7` writes. -/
abbrev opsW7_W : List (Ref sig .tc) := [main_cst_14, main_v73, main_v74, main_v75, main_v76, main_v77, main_v78, main_v79, main_cst_15, main_call4_cst, main_call4_v0, main_call4_v1, main_call4_v2, main_call4_v3, main_call4_v4, main_v80, main_cst_16, main_v81, main_v82]
set_option maxRecDepth 8192 in
theorem opsW7_writes : (opsW7 (F := Ideal)).Forall fun op => op.writes ⊆ (opsW7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val7_keep (V0 : Valuation τ sig (Elt Ideal)) (r : Ref sig .tc) (h : r ∉ opsW7_W) :
    val7 V0 (Proc.devRef .tc r) = val6 V0 (Proc.devRef .tc r) :=
  after_of_writes_sub (opsW7 (F := Ideal)) _ opsW7_writes h
theorem val7_main_arg0 (V0 : Valuation τ sig (Elt Ideal)) : val7 V0 (no_index (Proc.devRef .tc main_arg0)) = V0 (Proc.devRef .tc main_arg0) :=
  (val7_keep V0 main_arg0 (by decide)).trans (val6_main_arg0 V0)
theorem val7_main_arg1 (V0 : Valuation τ sig (Elt Ideal)) : val7 V0 (no_index (Proc.devRef .tc main_arg1)) = V0 (Proc.devRef .tc main_arg1) :=
  (val7_keep V0 main_arg1 (by decide)).trans (val6_main_arg1 V0)
theorem val7_main_arg2 (V0 : Valuation τ sig (Elt Ideal)) : val7 V0 (no_index (Proc.devRef .tc main_arg2)) = V0 (Proc.devRef .tc main_arg2) :=
  (val7_keep V0 main_arg2 (by decide)).trans (val6_main_arg2 V0)
theorem val7_main_arg3 (V0 : Valuation τ sig (Elt Ideal)) : val7 V0 (no_index (Proc.devRef .tc main_arg3)) = V0 (Proc.devRef .tc main_arg3) :=
  (val7_keep V0 main_arg3 (by decide)).trans (val6_main_arg3 V0)
theorem val7_main_arg4 (V0 : Valuation τ sig (Elt Ideal)) : val7 V0 (no_index (Proc.devRef .tc main_arg4)) = V0 (Proc.devRef .tc main_arg4) :=
  (val7_keep V0 main_arg4 (by decide)).trans (val6_main_arg4 V0)
theorem val7_main_arg5 (V0 : Valuation τ sig (Elt Ideal)) : val7 V0 (no_index (Proc.devRef .tc main_arg5)) = V0 (Proc.devRef .tc main_arg5) :=
  (val7_keep V0 main_arg5 (by decide)).trans (val6_main_arg5 V0)
theorem val7_main_arg6 (V0 : Valuation τ sig (Elt Ideal)) : val7 V0 (no_index (Proc.devRef .tc main_arg6)) = V0 (Proc.devRef .tc main_arg6) :=
  (val7_keep V0 main_arg6 (by decide)).trans (val6_main_arg6 V0)
theorem val7_main_arg7 (V0 : Valuation τ sig (Elt Ideal)) : val7 V0 (no_index (Proc.devRef .tc main_arg7)) = V0 (Proc.devRef .tc main_arg7) :=
  (val7_keep V0 main_arg7 (by decide)).trans (val6_main_arg7 V0)
theorem val7_main_arg8 (V0 : Valuation τ sig (Elt Ideal)) : val7 V0 (no_index (Proc.devRef .tc main_arg8)) = V0 (Proc.devRef .tc main_arg8) :=
  (val7_keep V0 main_arg8 (by decide)).trans (val6_main_arg8 V0)
theorem val7_main_arg9 (V0 : Valuation τ sig (Elt Ideal)) : val7 V0 (no_index (Proc.devRef .tc main_arg9)) = V0 (Proc.devRef .tc main_arg9) :=
  (val7_keep V0 main_arg9 (by decide)).trans (val6_main_arg9 V0)
theorem val7_main_arg10 (V0 : Valuation τ sig (Elt Ideal)) : val7 V0 (no_index (Proc.devRef .tc main_arg10)) = V0 (Proc.devRef .tc main_arg10) :=
  (val7_keep V0 main_arg10 (by decide)).trans (val6_main_arg10 V0)
theorem val7_main_arg11 (V0 : Valuation τ sig (Elt Ideal)) : val7 V0 (no_index (Proc.devRef .tc main_arg11)) = V0 (Proc.devRef .tc main_arg11) :=
  (val7_keep V0 main_arg11 (by decide)).trans (val6_main_arg11 V0)
theorem val7_main_arg12 (V0 : Valuation τ sig (Elt Ideal)) : val7 V0 (no_index (Proc.devRef .tc main_arg12)) = V0 (Proc.devRef .tc main_arg12) :=
  (val7_keep V0 main_arg12 (by decide)).trans (val6_main_arg12 V0)
theorem val7_main_arg13 (V0 : Valuation τ sig (Elt Ideal)) : val7 V0 (no_index (Proc.devRef .tc main_arg13)) = V0 (Proc.devRef .tc main_arg13) :=
  (val7_keep V0 main_arg13 (by decide)).trans (val6_main_arg13 V0)
theorem val7_main_arg14 (V0 : Valuation τ sig (Elt Ideal)) : val7 V0 (no_index (Proc.devRef .tc main_arg14)) = V0 (Proc.devRef .tc main_arg14) :=
  (val7_keep V0 main_arg14 (by decide)).trans (val6_main_arg14 V0)
theorem val7_main_arg15 (V0 : Valuation τ sig (Elt Ideal)) : val7 V0 (no_index (Proc.devRef .tc main_arg15)) = V0 (Proc.devRef .tc main_arg15) :=
  (val7_keep V0 main_arg15 (by decide)).trans (val6_main_arg15 V0)
theorem val7_main_arg16 (V0 : Valuation τ sig (Elt Ideal)) : val7 V0 (no_index (Proc.devRef .tc main_arg16)) = V0 (Proc.devRef .tc main_arg16) :=
  (val7_keep V0 main_arg16 (by decide)).trans (val6_main_arg16 V0)
set_option maxRecDepth 8192 in
set_option maxHeartbeats 1900000 in
theorem val7_main_v82 (V0 : Valuation τ sig (Elt Ideal)) : val7 V0 (no_index (Proc.devRef .tc main_v82)) = RefTerm.v82 (paramsV V0) := by
  unfold val7
  simp only [opsW7]
  after_results_simp
  simp only [val6_main_arg14, val6_main_arg13, val6_main_v72]
  simp only [ofBuf_toBuf, ofBuf_main_v79, ofBuf_main_cst_15, toBuf_main_v80]
  delta RefTerm.v82 RefTerm.v79 RefTerm.v75 RefTerm.lrelu
  rfl
theorem val7_main_v58 (V0 : Valuation τ sig (Elt Ideal)) : val7 V0 (no_index (Proc.devRef .tc main_v58)) = RefTerm.v58 (paramsV V0) :=
  (val7_keep V0 main_v58 (by decide)).trans (val6_main_v58 V0)

/-- The buffer contents after the windows up to `opsW8`. -/
def val8 (V0 : Valuation τ sig (Elt Ideal)) : Valuation τ sig (Elt Ideal) := after (opsW8 (F := Ideal)) (val7 V0)
/-- The buffers that window `opsW8` writes. -/
abbrev opsW8_W : List (Ref sig .tc) := [main_cst_17, main_v83, main_v84, main_v85, main_v86, main_v87, main_v88, main_v89, main_v90]
set_option maxRecDepth 8192 in
theorem opsW8_writes : (opsW8 (F := Ideal)).Forall fun op => op.writes ⊆ (opsW8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val8_keep (V0 : Valuation τ sig (Elt Ideal)) (r : Ref sig .tc) (h : r ∉ opsW8_W) :
    val8 V0 (Proc.devRef .tc r) = val7 V0 (Proc.devRef .tc r) :=
  after_of_writes_sub (opsW8 (F := Ideal)) _ opsW8_writes h
theorem val8_main_arg0 (V0 : Valuation τ sig (Elt Ideal)) : val8 V0 (no_index (Proc.devRef .tc main_arg0)) = V0 (Proc.devRef .tc main_arg0) :=
  (val8_keep V0 main_arg0 (by decide)).trans (val7_main_arg0 V0)
theorem val8_main_arg1 (V0 : Valuation τ sig (Elt Ideal)) : val8 V0 (no_index (Proc.devRef .tc main_arg1)) = V0 (Proc.devRef .tc main_arg1) :=
  (val8_keep V0 main_arg1 (by decide)).trans (val7_main_arg1 V0)
theorem val8_main_arg2 (V0 : Valuation τ sig (Elt Ideal)) : val8 V0 (no_index (Proc.devRef .tc main_arg2)) = V0 (Proc.devRef .tc main_arg2) :=
  (val8_keep V0 main_arg2 (by decide)).trans (val7_main_arg2 V0)
theorem val8_main_arg3 (V0 : Valuation τ sig (Elt Ideal)) : val8 V0 (no_index (Proc.devRef .tc main_arg3)) = V0 (Proc.devRef .tc main_arg3) :=
  (val8_keep V0 main_arg3 (by decide)).trans (val7_main_arg3 V0)
theorem val8_main_arg4 (V0 : Valuation τ sig (Elt Ideal)) : val8 V0 (no_index (Proc.devRef .tc main_arg4)) = V0 (Proc.devRef .tc main_arg4) :=
  (val8_keep V0 main_arg4 (by decide)).trans (val7_main_arg4 V0)
theorem val8_main_arg5 (V0 : Valuation τ sig (Elt Ideal)) : val8 V0 (no_index (Proc.devRef .tc main_arg5)) = V0 (Proc.devRef .tc main_arg5) :=
  (val8_keep V0 main_arg5 (by decide)).trans (val7_main_arg5 V0)
theorem val8_main_arg6 (V0 : Valuation τ sig (Elt Ideal)) : val8 V0 (no_index (Proc.devRef .tc main_arg6)) = V0 (Proc.devRef .tc main_arg6) :=
  (val8_keep V0 main_arg6 (by decide)).trans (val7_main_arg6 V0)
theorem val8_main_arg7 (V0 : Valuation τ sig (Elt Ideal)) : val8 V0 (no_index (Proc.devRef .tc main_arg7)) = V0 (Proc.devRef .tc main_arg7) :=
  (val8_keep V0 main_arg7 (by decide)).trans (val7_main_arg7 V0)
theorem val8_main_arg8 (V0 : Valuation τ sig (Elt Ideal)) : val8 V0 (no_index (Proc.devRef .tc main_arg8)) = V0 (Proc.devRef .tc main_arg8) :=
  (val8_keep V0 main_arg8 (by decide)).trans (val7_main_arg8 V0)
theorem val8_main_arg9 (V0 : Valuation τ sig (Elt Ideal)) : val8 V0 (no_index (Proc.devRef .tc main_arg9)) = V0 (Proc.devRef .tc main_arg9) :=
  (val8_keep V0 main_arg9 (by decide)).trans (val7_main_arg9 V0)
theorem val8_main_arg10 (V0 : Valuation τ sig (Elt Ideal)) : val8 V0 (no_index (Proc.devRef .tc main_arg10)) = V0 (Proc.devRef .tc main_arg10) :=
  (val8_keep V0 main_arg10 (by decide)).trans (val7_main_arg10 V0)
theorem val8_main_arg11 (V0 : Valuation τ sig (Elt Ideal)) : val8 V0 (no_index (Proc.devRef .tc main_arg11)) = V0 (Proc.devRef .tc main_arg11) :=
  (val8_keep V0 main_arg11 (by decide)).trans (val7_main_arg11 V0)
theorem val8_main_arg12 (V0 : Valuation τ sig (Elt Ideal)) : val8 V0 (no_index (Proc.devRef .tc main_arg12)) = V0 (Proc.devRef .tc main_arg12) :=
  (val8_keep V0 main_arg12 (by decide)).trans (val7_main_arg12 V0)
theorem val8_main_arg13 (V0 : Valuation τ sig (Elt Ideal)) : val8 V0 (no_index (Proc.devRef .tc main_arg13)) = V0 (Proc.devRef .tc main_arg13) :=
  (val8_keep V0 main_arg13 (by decide)).trans (val7_main_arg13 V0)
theorem val8_main_arg14 (V0 : Valuation τ sig (Elt Ideal)) : val8 V0 (no_index (Proc.devRef .tc main_arg14)) = V0 (Proc.devRef .tc main_arg14) :=
  (val8_keep V0 main_arg14 (by decide)).trans (val7_main_arg14 V0)
theorem val8_main_arg15 (V0 : Valuation τ sig (Elt Ideal)) : val8 V0 (no_index (Proc.devRef .tc main_arg15)) = V0 (Proc.devRef .tc main_arg15) :=
  (val8_keep V0 main_arg15 (by decide)).trans (val7_main_arg15 V0)
theorem val8_main_arg16 (V0 : Valuation τ sig (Elt Ideal)) : val8 V0 (no_index (Proc.devRef .tc main_arg16)) = V0 (Proc.devRef .tc main_arg16) :=
  (val8_keep V0 main_arg16 (by decide)).trans (val7_main_arg16 V0)
set_option maxRecDepth 8192 in
set_option maxHeartbeats 900000 in
theorem val8_main_v90 (V0 : Valuation τ sig (Elt Ideal)) : val8 V0 (no_index (Proc.devRef .tc main_v90)) = RefTerm.tex (paramsV V0) := by
  unfold val8
  simp only [opsW8]
  after_results_simp
  simp only [val7_main_arg16, val7_main_arg15, val7_main_v82]
  delta RefTerm.tex RefTerm.v89 RefTerm.v85
  rfl
theorem val8_main_v58 (V0 : Valuation τ sig (Elt Ideal)) : val8 V0 (no_index (Proc.devRef .tc main_v58)) = RefTerm.v58 (paramsV V0) :=
  (val8_keep V0 main_v58 (by decide)).trans (val7_main_v58 V0)

/-- The buffer contents after the windows up to `opsW9a`. -/
def val9a (V0 : Valuation τ sig (Elt Ideal)) : Valuation τ sig (Elt Ideal) := after (opsW9a (F := Ideal)) (val8 V0)
/-- The buffers that window `opsW9a` writes. -/
abbrev opsW9a_W : List (Ref sig .tc) := [main_v91, main_cst_18, main_v92, main_v93, main_v94, main_cst_19, main_v95, main_v96, main_call5_cst, main_call5_v0, main_v97, main_v98]
set_option maxRecDepth 8192 in
theorem opsW9a_writes : (opsW9a (F := Ideal)).Forall fun op => op.writes ⊆ (opsW9a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val9a_keep (V0 : Valuation τ sig (Elt Ideal)) (r : Ref sig .tc) (h : r ∉ opsW9a_W) :
    val9a V0 (Proc.devRef .tc r) = val8 V0 (Proc.devRef .tc r) :=
  after_of_writes_sub (opsW9a (F := Ideal)) _ opsW9a_writes h
theorem val9a_main_arg0 (V0 : Valuation τ sig (Elt Ideal)) : val9a V0 (no_index (Proc.devRef .tc main_arg0)) = V0 (Proc.devRef .tc main_arg0) :=
  (val9a_keep V0 main_arg0 (by decide)).trans (val8_main_arg0 V0)
theorem val9a_main_arg1 (V0 : Valuation τ sig (Elt Ideal)) : val9a V0 (no_index (Proc.devRef .tc main_arg1)) = V0 (Proc.devRef .tc main_arg1) :=
  (val9a_keep V0 main_arg1 (by decide)).trans (val8_main_arg1 V0)
theorem val9a_main_arg2 (V0 : Valuation τ sig (Elt Ideal)) : val9a V0 (no_index (Proc.devRef .tc main_arg2)) = V0 (Proc.devRef .tc main_arg2) :=
  (val9a_keep V0 main_arg2 (by decide)).trans (val8_main_arg2 V0)
theorem val9a_main_arg3 (V0 : Valuation τ sig (Elt Ideal)) : val9a V0 (no_index (Proc.devRef .tc main_arg3)) = V0 (Proc.devRef .tc main_arg3) :=
  (val9a_keep V0 main_arg3 (by decide)).trans (val8_main_arg3 V0)
theorem val9a_main_arg4 (V0 : Valuation τ sig (Elt Ideal)) : val9a V0 (no_index (Proc.devRef .tc main_arg4)) = V0 (Proc.devRef .tc main_arg4) :=
  (val9a_keep V0 main_arg4 (by decide)).trans (val8_main_arg4 V0)
theorem val9a_main_arg5 (V0 : Valuation τ sig (Elt Ideal)) : val9a V0 (no_index (Proc.devRef .tc main_arg5)) = V0 (Proc.devRef .tc main_arg5) :=
  (val9a_keep V0 main_arg5 (by decide)).trans (val8_main_arg5 V0)
theorem val9a_main_arg6 (V0 : Valuation τ sig (Elt Ideal)) : val9a V0 (no_index (Proc.devRef .tc main_arg6)) = V0 (Proc.devRef .tc main_arg6) :=
  (val9a_keep V0 main_arg6 (by decide)).trans (val8_main_arg6 V0)
theorem val9a_main_arg7 (V0 : Valuation τ sig (Elt Ideal)) : val9a V0 (no_index (Proc.devRef .tc main_arg7)) = V0 (Proc.devRef .tc main_arg7) :=
  (val9a_keep V0 main_arg7 (by decide)).trans (val8_main_arg7 V0)
theorem val9a_main_arg8 (V0 : Valuation τ sig (Elt Ideal)) : val9a V0 (no_index (Proc.devRef .tc main_arg8)) = V0 (Proc.devRef .tc main_arg8) :=
  (val9a_keep V0 main_arg8 (by decide)).trans (val8_main_arg8 V0)
theorem val9a_main_arg9 (V0 : Valuation τ sig (Elt Ideal)) : val9a V0 (no_index (Proc.devRef .tc main_arg9)) = V0 (Proc.devRef .tc main_arg9) :=
  (val9a_keep V0 main_arg9 (by decide)).trans (val8_main_arg9 V0)
theorem val9a_main_arg10 (V0 : Valuation τ sig (Elt Ideal)) : val9a V0 (no_index (Proc.devRef .tc main_arg10)) = V0 (Proc.devRef .tc main_arg10) :=
  (val9a_keep V0 main_arg10 (by decide)).trans (val8_main_arg10 V0)
theorem val9a_main_arg11 (V0 : Valuation τ sig (Elt Ideal)) : val9a V0 (no_index (Proc.devRef .tc main_arg11)) = V0 (Proc.devRef .tc main_arg11) :=
  (val9a_keep V0 main_arg11 (by decide)).trans (val8_main_arg11 V0)
theorem val9a_main_arg12 (V0 : Valuation τ sig (Elt Ideal)) : val9a V0 (no_index (Proc.devRef .tc main_arg12)) = V0 (Proc.devRef .tc main_arg12) :=
  (val9a_keep V0 main_arg12 (by decide)).trans (val8_main_arg12 V0)
theorem val9a_main_arg13 (V0 : Valuation τ sig (Elt Ideal)) : val9a V0 (no_index (Proc.devRef .tc main_arg13)) = V0 (Proc.devRef .tc main_arg13) :=
  (val9a_keep V0 main_arg13 (by decide)).trans (val8_main_arg13 V0)
theorem val9a_main_arg14 (V0 : Valuation τ sig (Elt Ideal)) : val9a V0 (no_index (Proc.devRef .tc main_arg14)) = V0 (Proc.devRef .tc main_arg14) :=
  (val9a_keep V0 main_arg14 (by decide)).trans (val8_main_arg14 V0)
theorem val9a_main_arg15 (V0 : Valuation τ sig (Elt Ideal)) : val9a V0 (no_index (Proc.devRef .tc main_arg15)) = V0 (Proc.devRef .tc main_arg15) :=
  (val9a_keep V0 main_arg15 (by decide)).trans (val8_main_arg15 V0)
theorem val9a_main_arg16 (V0 : Valuation τ sig (Elt Ideal)) : val9a V0 (no_index (Proc.devRef .tc main_arg16)) = V0 (Proc.devRef .tc main_arg16) :=
  (val9a_keep V0 main_arg16 (by decide)).trans (val8_main_arg16 V0)
set_option maxRecDepth 8192 in
set_option maxHeartbeats 1200000 in
theorem val9a_main_v98 (V0 : Valuation τ sig (Elt Ideal)) : val9a V0 (no_index (Proc.devRef .tc main_v98)) = Host.tanh (F := Ideal) (RefTerm.v97 (paramsV V0)) := by
  unfold val9a
  simp only [opsW9a]
  after_results_simp
  simp only [val8_main_arg0]
  simp only [ofBuf_toBuf, ofBuf_main_v96, toBuf_main_v97]
  delta RefTerm.v97 RefTerm.v94
  rfl
theorem val9a_main_v58 (V0 : Valuation τ sig (Elt Ideal)) : val9a V0 (no_index (Proc.devRef .tc main_v58)) = RefTerm.v58 (paramsV V0) :=
  (val9a_keep V0 main_v58 (by decide)).trans (val8_main_v58 V0)
theorem val9a_main_v90 (V0 : Valuation τ sig (Elt Ideal)) : val9a V0 (no_index (Proc.devRef .tc main_v90)) = RefTerm.tex (paramsV V0) :=
  (val9a_keep V0 main_v90 (by decide)).trans (val8_main_v90 V0)

/-- The buffer contents after the windows up to `opsW9b`. -/
def val9b (V0 : Valuation τ sig (Elt Ideal)) : Valuation τ sig (Elt Ideal) := after (opsW9b (F := Ideal)) (val9a V0)
/-- The buffers that window `opsW9b` writes. -/
abbrev opsW9b_W : List (Ref sig .tc) := [main_cst_20, main_v99, main_v100, main_v101]
set_option maxRecDepth 8192 in
theorem opsW9b_writes : (opsW9b (F := Ideal)).Forall fun op => op.writes ⊆ (opsW9b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer that the window does not write keeps its contents through it. -/
theorem val9b_keep (V0 : Valuation τ sig (Elt Ideal)) (r : Ref sig .tc) (h : r ∉ opsW9b_W) :
    val9b V0 (Proc.devRef .tc r) = val9a V0 (Proc.devRef .tc r) :=
  after_of_writes_sub (opsW9b (F := Ideal)) _ opsW9b_writes h
theorem val9b_main_arg0 (V0 : Valuation τ sig (Elt Ideal)) : val9b V0 (no_index (Proc.devRef .tc main_arg0)) = V0 (Proc.devRef .tc main_arg0) :=
  (val9b_keep V0 main_arg0 (by decide)).trans (val9a_main_arg0 V0)
theorem val9b_main_arg1 (V0 : Valuation τ sig (Elt Ideal)) : val9b V0 (no_index (Proc.devRef .tc main_arg1)) = V0 (Proc.devRef .tc main_arg1) :=
  (val9b_keep V0 main_arg1 (by decide)).trans (val9a_main_arg1 V0)
theorem val9b_main_arg2 (V0 : Valuation τ sig (Elt Ideal)) : val9b V0 (no_index (Proc.devRef .tc main_arg2)) = V0 (Proc.devRef .tc main_arg2) :=
  (val9b_keep V0 main_arg2 (by decide)).trans (val9a_main_arg2 V0)
theorem val9b_main_arg3 (V0 : Valuation τ sig (Elt Ideal)) : val9b V0 (no_index (Proc.devRef .tc main_arg3)) = V0 (Proc.devRef .tc main_arg3) :=
  (val9b_keep V0 main_arg3 (by decide)).trans (val9a_main_arg3 V0)
theorem val9b_main_arg4 (V0 : Valuation τ sig (Elt Ideal)) : val9b V0 (no_index (Proc.devRef .tc main_arg4)) = V0 (Proc.devRef .tc main_arg4) :=
  (val9b_keep V0 main_arg4 (by decide)).trans (val9a_main_arg4 V0)
theorem val9b_main_arg5 (V0 : Valuation τ sig (Elt Ideal)) : val9b V0 (no_index (Proc.devRef .tc main_arg5)) = V0 (Proc.devRef .tc main_arg5) :=
  (val9b_keep V0 main_arg5 (by decide)).trans (val9a_main_arg5 V0)
theorem val9b_main_arg6 (V0 : Valuation τ sig (Elt Ideal)) : val9b V0 (no_index (Proc.devRef .tc main_arg6)) = V0 (Proc.devRef .tc main_arg6) :=
  (val9b_keep V0 main_arg6 (by decide)).trans (val9a_main_arg6 V0)
theorem val9b_main_arg7 (V0 : Valuation τ sig (Elt Ideal)) : val9b V0 (no_index (Proc.devRef .tc main_arg7)) = V0 (Proc.devRef .tc main_arg7) :=
  (val9b_keep V0 main_arg7 (by decide)).trans (val9a_main_arg7 V0)
theorem val9b_main_arg8 (V0 : Valuation τ sig (Elt Ideal)) : val9b V0 (no_index (Proc.devRef .tc main_arg8)) = V0 (Proc.devRef .tc main_arg8) :=
  (val9b_keep V0 main_arg8 (by decide)).trans (val9a_main_arg8 V0)
theorem val9b_main_arg9 (V0 : Valuation τ sig (Elt Ideal)) : val9b V0 (no_index (Proc.devRef .tc main_arg9)) = V0 (Proc.devRef .tc main_arg9) :=
  (val9b_keep V0 main_arg9 (by decide)).trans (val9a_main_arg9 V0)
theorem val9b_main_arg10 (V0 : Valuation τ sig (Elt Ideal)) : val9b V0 (no_index (Proc.devRef .tc main_arg10)) = V0 (Proc.devRef .tc main_arg10) :=
  (val9b_keep V0 main_arg10 (by decide)).trans (val9a_main_arg10 V0)
theorem val9b_main_arg11 (V0 : Valuation τ sig (Elt Ideal)) : val9b V0 (no_index (Proc.devRef .tc main_arg11)) = V0 (Proc.devRef .tc main_arg11) :=
  (val9b_keep V0 main_arg11 (by decide)).trans (val9a_main_arg11 V0)
theorem val9b_main_arg12 (V0 : Valuation τ sig (Elt Ideal)) : val9b V0 (no_index (Proc.devRef .tc main_arg12)) = V0 (Proc.devRef .tc main_arg12) :=
  (val9b_keep V0 main_arg12 (by decide)).trans (val9a_main_arg12 V0)
theorem val9b_main_arg13 (V0 : Valuation τ sig (Elt Ideal)) : val9b V0 (no_index (Proc.devRef .tc main_arg13)) = V0 (Proc.devRef .tc main_arg13) :=
  (val9b_keep V0 main_arg13 (by decide)).trans (val9a_main_arg13 V0)
theorem val9b_main_arg14 (V0 : Valuation τ sig (Elt Ideal)) : val9b V0 (no_index (Proc.devRef .tc main_arg14)) = V0 (Proc.devRef .tc main_arg14) :=
  (val9b_keep V0 main_arg14 (by decide)).trans (val9a_main_arg14 V0)
theorem val9b_main_arg15 (V0 : Valuation τ sig (Elt Ideal)) : val9b V0 (no_index (Proc.devRef .tc main_arg15)) = V0 (Proc.devRef .tc main_arg15) :=
  (val9b_keep V0 main_arg15 (by decide)).trans (val9a_main_arg15 V0)
theorem val9b_main_arg16 (V0 : Valuation τ sig (Elt Ideal)) : val9b V0 (no_index (Proc.devRef .tc main_arg16)) = V0 (Proc.devRef .tc main_arg16) :=
  (val9b_keep V0 main_arg16 (by decide)).trans (val9a_main_arg16 V0)
set_option maxRecDepth 8192 in
set_option maxHeartbeats 400000 in
theorem val9b_main_v101 (V0 : Valuation τ sig (Elt Ideal)) : val9b V0 (no_index (Proc.devRef .tc main_v101)) = RefTerm.shape (paramsV V0) := by
  unfold val9b
  simp only [opsW9b]
  after_results_simp
  simp only [val9a_main_v98, val9a_main_v58]
  delta RefTerm.shape RefTerm.v100
  rfl
theorem val9b_main_v90 (V0 : Valuation τ sig (Elt Ideal)) : val9b V0 (no_index (Proc.devRef .tc main_v90)) = RefTerm.tex (paramsV V0) :=
  (val9b_keep V0 main_v90 (by decide)).trans (val9a_main_v90 V0)

/-- Running the whole list is running the windows in turn. -/
theorem after_ops (V0 : Valuation τ sig (Elt Ideal)) : after (ops (F := Ideal)) V0 = val9b V0 := by
  simp only [ops, opsP0, opsP1, opsP2, after_append]
  rfl

end Cert.RefSide

end
-- ==== Proof.RefRun.lean ====
/-
  The reference program's run: both results as the layered terms of the argument arrays, the arguments unchanged.

  Every weakly fair execution of the program terminates.  In the final state the shape result's buffer holds the
  layered term `RefTerm.shape` of the seventeen argument arrays as they were at launch, the texture result's
  buffer holds `RefTerm.tex` of them, and every argument array is what it was at launch.
-/
import proofs.«145072_j3487513444877_2_alg».proof.Proof.RefRunVals

noncomputable section

namespace Cert.RefSide

open Cert.ReferenceIdeal Idealize.ShloMosaic Idealize.ShloMosaic.TcCoe Idealize.SL.Sem Idealize.ShloMosaic.StableHlo

/-- The seventeen argument arrays as device `c` holds them at launch. -/
def params (m : (ℓ : Loc nD τ sig) → Buf (Elt Ideal) ℓ) (c : Dev nD) : Cert.Field.Params where
  coords := m ((c.tc : Thread nD τ).loc main_arg0)
  sc := m ((c.tc : Thread nD τ).loc main_arg1)
  tc := m ((c.tc : Thread nD τ).loc main_arg2)
  ws0 := m ((c.tc : Thread nD τ).loc main_arg3)
  bs0 := m ((c.tc : Thread nD τ).loc main_arg4)
  ws1 := m ((c.tc : Thread nD τ).loc main_arg5)
  bs1 := m ((c.tc : Thread nD τ).loc main_arg6)
  ws2 := m ((c.tc : Thread nD τ).loc main_arg7)
  bs2 := m ((c.tc : Thread nD τ).loc main_arg8)
  wsh := m ((c.tc : Thread nD τ).loc main_arg9)
  bsh := m ((c.tc : Thread nD τ).loc main_arg10)
  wt0 := m ((c.tc : Thread nD τ).loc main_arg11)
  bt0 := m ((c.tc : Thread nD τ).loc main_arg12)
  wt1 := m ((c.tc : Thread nD τ).loc main_arg13)
  bt1 := m ((c.tc : Thread nD τ).loc main_arg14)
  wt2 := m ((c.tc : Thread nD τ).loc main_arg15)
  bt2 := m ((c.tc : Thread nD τ).loc main_arg16)

/-- Reading the arrays from the launch contents of device `c` gives the same record. -/
theorem paramsV_launch (m : (ℓ : Loc nD τ sig) → Buf (Elt Ideal) ℓ) (c : Dev nD) :
    paramsV (launchContents m c) = params m c := rfl

/-- From any memory with zero counters: every weakly fair execution of the program terminates with the shape
    result and the texture result at their layered terms of the launch arrays, and the arrays unchanged. -/
theorem run_terms (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v101) = RefTerm.shape (params m c)
      ∧ r.2.mem ((c.tc : Thread nD τ).loc main_v90) = RefTerm.tex (params m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨
      (h c main_v101).trans (by rw [after_ops, ← paramsV_launch]; exact val9b_main_v101 _),
      (h c main_v90).trans (by rw [after_ops, ← paramsV_launch]; exact val9b_main_v90 _),
      (h c main_arg0).trans (by rw [after_ops]; exact val9b_main_arg0 _),
      (h c main_arg1).trans (by rw [after_ops]; exact val9b_main_arg1 _),
      (h c main_arg2).trans (by rw [after_ops]; exact val9b_main_arg2 _),
      (h c main_arg3).trans (by rw [after_ops]; exact val9b_main_arg3 _),
      (h c main_arg4).trans (by rw [after_ops]; exact val9b_main_arg4 _),
      (h c main_arg5).trans (by rw [after_ops]; exact val9b_main_arg5 _),
      (h c main_arg6).trans (by rw [after_ops]; exact val9b_main_arg6 _),
      (h c main_arg7).trans (by rw [after_ops]; exact val9b_main_arg7 _),
      (h c main_arg8).trans (by rw [after_ops]; exact val9b_main_arg8 _),
      (h c main_arg9).trans (by rw [after_ops]; exact val9b_main_arg9 _),
      (h c main_arg10).trans (by rw [after_ops]; exact val9b_main_arg10 _),
      (h c main_arg11).trans (by rw [after_ops]; exact val9b_main_arg11 _),
      (h c main_arg12).trans (by rw [after_ops]; exact val9b_main_arg12 _),
      (h c main_arg13).trans (by rw [after_ops]; exact val9b_main_arg13 _),
      (h c main_arg14).trans (by rw [after_ops]; exact val9b_main_arg14 _),
      (h c main_arg15).trans (by rw [after_ops]; exact val9b_main_arg15 _),
      (h c main_arg16).trans (by rw [after_ops]; exact val9b_main_arg16 _)⟩)
    (run_main m ρ)

end Cert.RefSide

end
-- ==== Proof.RefReadConsts.lean ====
/-
  The two float words of the reference whose numerical values the proof needs, as the reals they denote:
  0x40000000 is 2 (the base of the frequencies) and 0x41200000 is 10 (the divisor of the coordinates).
  Every other word of the program is the same word on both sides and is never evaluated.
-/
import Idealize.ShloMosaic.PureOps.Ideal

noncomputable section

open scoped BigOperators

namespace Cert.RefSide.Consts

open Idealize.ShloMosaic

/-- The word 0x40000000 denotes the real 2. -/
theorem ofBits_two : Ideal.ofBits .f32 0x40000000#32 = ((2 : ℝ) : EReal) := by
  simp [Ideal.ofBits, Ideal.ieee, -EReal.coe_mul]; norm_num

/-- The word 0x41200000 denotes the real 10. -/
theorem ofBits_ten : Ideal.ofBits .f32 0x41200000#32 = ((10 : ℝ) : EReal) := by
  simp [Ideal.ofBits, Ideal.ieee, -EReal.coe_mul]; norm_num

end Cert.RefSide.Consts

end
-- ==== Proof.RefReadLayout.lean ====
/-
  Layout operations of the host program read at an index, general in the extents.

  A scalar spread over an array reads the scalar everywhere.  A bias vector of M entries spread first to a 1 × M row
  and then over n rows reads entry q of the vector at (p, q).  An array [a, b, c, d] recast as the matrix [n, d] of
  its n = a·b·c rows (or back) puts row (s·b + t)·c + u of the matrix at position (s, t, u): both sit at the same
  row-major position.  An array [a, b, c, d, e] recast as [a, b, c, d·e] puts entry s·e + q of the last axis at (s, q).
-/
import Idealize.ShloMosaic.Lib.Pipeline.Value
import Idealize.ShloMosaic.Lib.ValueIdx

noncomputable section

open scoped BigOperators

namespace Cert.RefSide.Layout

open Idealize.ShloMosaic Idealize.ShloMosaic.ValueIdx

variable {α : Type}

/-- A scalar spread over an array of any shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply (s := (⟨0, ![]⟩ : Shape)) (t := t) (![] : Fin 0 → Fin t.rank) h x j ix0 (fun a => Fin.elim0 a)

/-- A vector of M entries spread to a 1 × M row and then over n rows, read at (p, q): entry q of the vector. -/
theorem bcast_bias_apply {n M : Nat} (b : (⟨1, ![M]⟩ : Shape).Idx → α)
    (hb1 : (⟨1, ![M]⟩ : Shape).BroadcastsInDim (⟨2, ![1, M]⟩ : Shape) (![1] : Fin 1 → Fin 2))
    (hb2 : (⟨2, ![1, M]⟩ : Shape).BroadcastsInDim (⟨2, ![n, M]⟩ : Shape) (![0, 1] : Fin 2 → Fin 2))
    (p : Fin n) (q : Fin M) :
    broadcastInDim (⟨2, ![n, M]⟩ : Shape) ![0, 1] hb2 (broadcastInDim (⟨2, ![1, M]⟩ : Shape) ![1] hb1 b) (ix2 p q)
      = b (ix1 q) := by
  rw [broadcastInDim_apply ![0, 1] hb2 _ (ix2 p q) (ix2 (0 : Fin 1) q) (fun a => by
    match a with
    | ⟨0, _⟩ => show 0 = if (1 : Nat) = 1 then 0 else p.val; rw [if_pos rfl]
    | ⟨1, _⟩ =>
      show q.val = if M = 1 then 0 else q.val
      split
      · have := q.isLt; omega
      · rfl)]
  exact broadcastInDim_apply ![1] hb1 b (ix2 (0 : Fin 1) q) (ix1 q) (fun a => by
    match a with
    | ⟨0, _⟩ =>
      show q.val = if M = 1 then 0 else q.val
      split
      · have := q.isLt; omega
      · rfl)

/-- [a, b, c, d] recast as [n, d], read at (r, l) with r = (s·b + t)·c + u: the array at (s, t, u, l). -/
theorem shapeCast_abcd_nd_apply {a b c d n : ℕ} (x : (⟨4, ![a, b, c, d]⟩ : Shape).Idx → α)
    (h : (⟨4, ![a, b, c, d]⟩ : Shape).ShapeCasts ⟨2, ![n, d]⟩) (s : Fin a) (t : Fin b) (u : Fin c) (l : Fin d) (r : Fin n)
    (hr : r.val = (s.val * b + t.val) * c + u.val) :
    shapeCast ⟨2, ![n, d]⟩ x h (ix2 r l) = x (ix4 s t u l) :=
  shapeCast_apply x h _ _ (by
    rw [Shape.rowMajor_val_four, Shape.rowMajor_val_two]
    show ((s.val * b + t.val) * c + u.val) * d + l.val = r.val * d + l.val
    rw [hr])

/-- [n, d] recast as [a, b, c, d], read at (s, t, u, l): the matrix at (r, l) with r = (s·b + t)·c + u. -/
theorem shapeCast_nd_abcd_apply {a b c d n : ℕ} (x : (⟨2, ![n, d]⟩ : Shape).Idx → α)
    (h : (⟨2, ![n, d]⟩ : Shape).ShapeCasts ⟨4, ![a, b, c, d]⟩) (s : Fin a) (t : Fin b) (u : Fin c) (l : Fin d) (r : Fin n)
    (hr : r.val = (s.val * b + t.val) * c + u.val) :
    shapeCast ⟨4, ![a, b, c, d]⟩ x h (ix4 s t u l) = x (ix2 r l) :=
  shapeCast_apply x h _ _ (by
    rw [Shape.rowMajor_val_four, Shape.rowMajor_val_two]
    show r.val * d + l.val = ((s.val * b + t.val) * c + u.val) * d + l.val
    rw [hr])

/-- [a, b, c, d, e] recast as [a, b, c, m] with m = d·e, read at (i, j, k, f) with f = s·e + q: the array at (i, j, k, s, q). -/
theorem shapeCast_abcde_abcm_apply {a b c d e m : ℕ} (x : (⟨5, ![a, b, c, d, e]⟩ : Shape).Idx → α)
    (h : (⟨5, ![a, b, c, d, e]⟩ : Shape).ShapeCasts ⟨4, ![a, b, c, m]⟩) (hm : m = d * e)
    (i : Fin a) (j : Fin b) (k : Fin c) (s : Fin d) (q : Fin e) (f : Fin m) (hf : f.val = s.val * e + q.val) :
    shapeCast ⟨4, ![a, b, c, m]⟩ x h (ix4 i j k f) = x (ix5 i j k s q) :=
  shapeCast_apply x h _ _ (by
    rw [Shape.rowMajor_val_five, Shape.rowMajor_val_four]
    show ((((i.val * b + j.val) * c + k.val) * d + s.val) * e + q.val) = ((i.val * b + j.val) * c + k.val) * m + f.val
    rw [hf, hm]
    ring)

end Cert.RefSide.Layout

end
-- ==== Proof.RefReadEmbed.lean ====
/-
  The reference's sinusoidal embedding read at an index.

  The frequencies: two (the word 0x40000000) to the power of the converted iota, at s the real 2^s.  The scaled
  coordinates: division by ten (the word 0x41200000) is multiplication by 1/10.  The phase array [8,256,256,8,2] at
  (b, y, x, s, d) is coordinate d of position (b, y, x), divided by ten, times 2^s.  Sines and cosines of the phases
  are laid side by side on the last axis, [.., 8, 4], entry q of that axis being sin or cos (q / 2) of coordinate
  q mod 2; flattening the last two axes puts entry (s, q) at feature 4·s + q.
-/
import proofs.«145072_j3487513444877_2_alg».proof.Proof.RefTerm
import proofs.«145072_j3487513444877_2_alg».proof.Proof.RefReadConsts
import proofs.«145072_j3487513444877_2_alg».proof.Proof.RefReadLayout

noncomputable section

open scoped BigOperators

namespace Cert.RefSide

open Idealize.ShloMosaic Idealize.ShloMosaic.ValueIdx Cert.ReferenceIdeal Cert.ReferenceIdeal.Facts₀ Cert.Field

/-- The frequency array at s is 2^s. -/
theorem v6_apply (s : Fin 8) : RefTerm.v6 (ix1 s) = freq s := by
  unfold RefTerm.v6
  show Ideal.pow (broadcastInDim S8 ![] bcast_S_S8 (constant (F := Ideal) S_ .f32 0x40000000#32) (ix1 s))
      (((BitVec.ofNat 32 s.val).toInt : ℝ) : EReal) = _
  rw [Layout.bcast_scalar_apply, constant_apply, Consts.ofBits_two]
  have hs : (BitVec.ofNat 32 s.val).toInt = (s.val : ℤ) := by
    fin_cases s <;> rfl
  rw [hs, Ideal.pow_coe_coe]
  unfold freq
  refine congrArg (fun r : ℝ => (r : EReal)) ?_
  show Real.rpow 2 (((s.val : ℤ) : ℝ)) = 2 ^ s.val
  rw [Int.cast_natCast]
  exact Real.rpow_natCast 2 s.val

/-- The coordinates divided by ten are the coordinates times 1/10. -/
theorem v1_apply (P : Params) (b : Fin 8) (y x : Fin 256) (d : Fin 2) :
    RefTerm.v1 P (ix4 b y x d) = P.coords (ix4 b y x d) * ((1 / 10 : ℝ) : EReal) := by
  unfold RefTerm.v1
  show Ideal.div (P.coords (ix4 b y x d))
      (broadcastInDim S8x256x256x2 ![] bcast_S_S8x256x256x2 (constant (F := Ideal) S_ .f32 0x41200000#32) (ix4 b y x d)) = _
  rw [Layout.bcast_scalar_apply, constant_apply, Consts.ofBits_ten, Ideal.div_coe (by norm_num)]

/-- The phase array at (b, y, x, s, d). -/
theorem v12_apply (P : Params) (b : Fin 8) (y x : Fin 256) (s : Fin 8) (d : Fin 2) :
    RefTerm.v12 P (ix5 b y x s d) = phase (P.coords (ix4 b y x d)) s := by
  have e1 : broadcastInDim S8x256x256x8x2 ![0, 1, 2, 3, 4] bcast_S8x256x256x1x2_S8x256x256x8x2_0_1_2_3_4 (RefTerm.v7 P)
      (ix5 b y x s d) = RefTerm.v1 P (ix4 b y x d) := by
    refine (broadcastInDim_apply _ _ _ _ (ix5 b y x (0 : Fin 1) d) (fun a => by
      match a with
      | ⟨0, _⟩ => rfl
      | ⟨1, _⟩ => rfl
      | ⟨2, _⟩ => rfl
      | ⟨3, _⟩ => rfl
      | ⟨4, _⟩ => rfl)).trans ?_
    unfold RefTerm.v7
    exact broadcastInDim_apply _ _ _ _ (ix4 b y x d) (fun a => by
      match a with
      | ⟨0, _⟩ => rfl
      | ⟨1, _⟩ => rfl
      | ⟨2, _⟩ => rfl
      | ⟨3, _⟩ => rfl)
  have e2 : broadcastInDim S8x256x256x8x2 ![0, 1, 2, 3, 4] bcast_S1x1x1x8x1_S8x256x256x8x2_0_1_2_3_4 RefTerm.v9
      (ix5 b y x s d) = RefTerm.v6 (ix1 s) := by
    refine (broadcastInDim_apply _ _ _ _ (ix5 (0 : Fin 1) (0 : Fin 1) (0 : Fin 1) s (0 : Fin 1)) (fun a => by
      match a with
      | ⟨0, _⟩ => rfl
      | ⟨1, _⟩ => rfl
      | ⟨2, _⟩ => rfl
      | ⟨3, _⟩ => rfl
      | ⟨4, _⟩ => rfl)).trans ?_
    unfold RefTerm.v9
    refine (broadcastInDim_apply _ _ _ _ (ix2 s (0 : Fin 1)) (fun a => by
      match a with
      | ⟨0, _⟩ => rfl
      | ⟨1, _⟩ => rfl)).trans ?_
    exact broadcastInDim_apply _ _ _ _ (ix1 s) (fun a => by
      match a with
      | ⟨0, _⟩ => rfl)
  unfold RefTerm.v12
  rw [mulf_apply, e1, e2, v1_apply, v6_apply]
  rfl

/-- The sine-and-cosine array at (b, y, x, s, q) is entry q of the four waves of frequency s. -/
theorem v15_apply (P : Params) (b : Fin 8) (y x : Fin 256) (s : Fin 8) (q : Fin 4) :
    RefTerm.v15 P (ix5 b y x s q) = wave (cx P b y x) (cy P b y x) s q := by
  unfold RefTerm.v15
  match q with
  | ⟨0, hq⟩ =>
    refine Eq.trans (concatenate_pair_apply_left (t := S8x256x256x8x4) (s₁ := S8x256x256x8x2) (s₂ := S8x256x256x8x2) 4
      (Host.sin (F := Ideal) (RefTerm.v12 P)) (Host.cos (F := Ideal) (RefTerm.v12 P))
      concatenates_S8x256x256x8x2_S8x256x256x8x2_S8x256x256x8x4_d4 (ix5 b y x s (⟨0, hq⟩ : Fin 4)) rfl
      (ix5 b y x s (0 : Fin 2)) (fun a => by
      match a with
      | ⟨0, _⟩ => rfl
      | ⟨1, _⟩ => rfl
      | ⟨2, _⟩ => rfl
      | ⟨3, _⟩ => rfl
      | ⟨4, _⟩ => rfl)) ?_
    show Ideal.sin (RefTerm.v12 P (ix5 b y x s (0 : Fin 2))) = _
    rw [v12_apply]; rfl
  | ⟨1, hq⟩ =>
    refine Eq.trans (concatenate_pair_apply_left (t := S8x256x256x8x4) (s₁ := S8x256x256x8x2) (s₂ := S8x256x256x8x2) 4
      (Host.sin (F := Ideal) (RefTerm.v12 P)) (Host.cos (F := Ideal) (RefTerm.v12 P))
      concatenates_S8x256x256x8x2_S8x256x256x8x2_S8x256x256x8x4_d4 (ix5 b y x s (⟨1, hq⟩ : Fin 4)) rfl
      (ix5 b y x s (1 : Fin 2)) (fun a => by
      match a with
      | ⟨0, _⟩ => rfl
      | ⟨1, _⟩ => rfl
      | ⟨2, _⟩ => rfl
      | ⟨3, _⟩ => rfl
      | ⟨4, _⟩ => rfl)) ?_
    show Ideal.sin (RefTerm.v12 P (ix5 b y x s (1 : Fin 2))) = _
    rw [v12_apply]; rfl
  | ⟨2, hq⟩ =>
    refine Eq.trans (concatenate_pair_apply_right (t := S8x256x256x8x4) (s₁ := S8x256x256x8x2) (s₂ := S8x256x256x8x2) 4
      (Host.sin (F := Ideal) (RefTerm.v12 P)) (Host.cos (F := Ideal) (RefTerm.v12 P))
      concatenates_S8x256x256x8x2_S8x256x256x8x2_S8x256x256x8x4_d4 (ix5 b y x s (⟨2, hq⟩ : Fin 4)) rfl rfl
      (ix5 b y x s (0 : Fin 2)) (fun a ha => by
      match a with
      | ⟨0, _⟩ => rfl
      | ⟨1, _⟩ => rfl
      | ⟨2, _⟩ => rfl
      | ⟨3, _⟩ => rfl
      | ⟨4, _⟩ => exact absurd rfl ha) rfl) ?_
    show Ideal.cos (RefTerm.v12 P (ix5 b y x s (0 : Fin 2))) = _
    rw [v12_apply]; rfl
  | ⟨3, hq⟩ =>
    refine Eq.trans (concatenate_pair_apply_right (t := S8x256x256x8x4) (s₁ := S8x256x256x8x2) (s₂ := S8x256x256x8x2) 4
      (Host.sin (F := Ideal) (RefTerm.v12 P)) (Host.cos (F := Ideal) (RefTerm.v12 P))
      concatenates_S8x256x256x8x2_S8x256x256x8x2_S8x256x256x8x4_d4 (ix5 b y x s (⟨3, hq⟩ : Fin 4)) rfl rfl
      (ix5 b y x s (1 : Fin 2)) (fun a ha => by
      match a with
      | ⟨0, _⟩ => rfl
      | ⟨1, _⟩ => rfl
      | ⟨2, _⟩ => rfl
      | ⟨3, _⟩ => rfl
      | ⟨4, _⟩ => exact absurd rfl ha) rfl) ?_
    show Ideal.cos (RefTerm.v12 P (ix5 b y x s (1 : Fin 2))) = _
    rw [v12_apply]; rfl

/-- The feature array at (b, y, x, f) is feature f of the position's coordinates. -/
theorem v16_apply (P : Params) (b : Fin 8) (y x : Fin 256) (f : Fin 32) :
    RefTerm.v16 P (ix4 b y x f) = feature (cx P b y x) (cy P b y x) f := by
  unfold RefTerm.v16 feature
  refine Eq.trans (Layout.shapeCast_abcde_abcm_apply (RefTerm.v15 P) shapeCasts_S8x256x256x8x4_S8x256x256x32 (by norm_num)
    b y x (⟨f.val / 4, by omega⟩ : Fin 8) (⟨f.val % 4, by omega⟩ : Fin 4) f
    (by show f.val = f.val / 4 * 4 + f.val % 4; omega)) ?_
  exact v15_apply P b y x _ _

end Cert.RefSide

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.RefReadIn0.lean ====
/-
  The first layer's input read at a row.

  Position (b, y, x) of the image is row (b·256 + y)·256 + x of the flattened arrays.  The conditioning numbers of
  image b are spread over the image's positions; the thirty-two features followed by the sixty-four conditioning
  numbers are the ninety-six inputs of the first layer, and flattening puts position (b, y, x) at its row.
-/
import proofs.«145072_j3487513444877_2_alg».proof.Proof.RefReadEmbed
import proofs.«145072_j3487513444877_2_alg».proof.Proof.LibConcatCols

noncomputable section

open scoped BigOperators

namespace Cert.RefSide

open Idealize.ShloMosaic Idealize.ShloMosaic.ValueIdx Cert.ReferenceIdeal Cert.ReferenceIdeal.Facts₀ Cert.Field

/-- The row of position (b, y, x) in the flattened arrays. -/
def row (b : Fin 8) (y x : Fin 256) : Fin 524288 := ⟨(b.val * 256 + y.val) * 256 + x.val, by omega⟩

theorem row_val (b : Fin 8) (y x : Fin 256) : (row b y x).val = (b.val * 256 + y.val) * 256 + x.val := rfl

/-- Conditioning numbers of image b spread over the image, at (b, y, x, j): number j of image b. -/
theorem cond_apply (c : RefTerm.A S8x64) (b : Fin 8) (y x : Fin 256) (j : Fin 64) :
    broadcastInDim S8x256x256x64 ![0, 1, 2, 3] bcast_S8x1x1x64_S8x256x256x64_0_1_2_3
        (broadcastInDim S8x1x1x64 ![0, 3] bcast_S8x64_S8x1x1x64_0_3 c) (ix4 b y x j)
      = c (ix2 b j) := by
  refine Eq.trans (broadcastInDim_apply ![0, 1, 2, 3] bcast_S8x1x1x64_S8x256x256x64_0_1_2_3 _ (ix4 b y x j)
    (ix4 b (0 : Fin 1) (0 : Fin 1) j) (fun a => by
      match a with
      | ⟨0, _⟩ => rfl
      | ⟨1, _⟩ => rfl
      | ⟨2, _⟩ => rfl
      | ⟨3, _⟩ => rfl)) ?_
  exact broadcastInDim_apply ![0, 3] bcast_S8x64_S8x1x1x64_0_3 c (ix4 b (0 : Fin 1) (0 : Fin 1) j) (ix2 b j) (fun a => by
      match a with
      | ⟨0, _⟩ => rfl
      | ⟨1, _⟩ => rfl)

/-- The first layer's input on the image, at (b, y, x, k). -/
theorem v19_apply (P : Params) (b : Fin 8) (y x : Fin 256) (k : Fin 96) :
    RefTerm.v19 P (ix4 b y x k) = in0 P b y x k := by
  unfold RefTerm.v19 in0 withCond
  by_cases h : k.val < 32
  · rw [dif_pos h]
    refine Eq.trans (concatenate_pair_apply_left (t := S8x256x256x96) (s₁ := S8x256x256x32) (s₂ := S8x256x256x64) 3
      (RefTerm.v16 P) (RefTerm.v18 P) concatenates_S8x256x256x32_S8x256x256x64_S8x256x256x96_d3 (ix4 b y x k) rfl
      (ix4 b y x (⟨k.val, h⟩ : Fin 32)) (fun a => by
      match a with
      | ⟨0, _⟩ => rfl
      | ⟨1, _⟩ => rfl
      | ⟨2, _⟩ => rfl
      | ⟨3, _⟩ => rfl)) ?_
    exact v16_apply P b y x _
  · rw [dif_neg h]
    refine Eq.trans (concatenate_pair_apply_right (t := S8x256x256x96) (s₁ := S8x256x256x32) (s₂ := S8x256x256x64) 3
      (RefTerm.v16 P) (RefTerm.v18 P) concatenates_S8x256x256x32_S8x256x256x64_S8x256x256x96_d3 (ix4 b y x k) rfl rfl
      (ix4 b y x (⟨k.val - 32, by omega⟩ : Fin 64)) (fun a ha => by
      match a with
      | ⟨0, _⟩ => rfl
      | ⟨1, _⟩ => rfl
      | ⟨2, _⟩ => rfl
      | ⟨3, _⟩ => exact absurd rfl ha) (by show k.val - 32 + 32 = k.val; omega)) ?_
    unfold RefTerm.v18
    exact cond_apply P.sc b y x _

/-- The first layer's input at the row of (b, y, x). -/
theorem v20_apply (P : Params) (b : Fin 8) (y x : Fin 256) (k : Fin 96) :
    RefTerm.v20 P (ix2 (row b y x) k) = in0 P b y x k := by
  unfold RefTerm.v20
  refine Eq.trans (Layout.shapeCast_abcd_nd_apply (RefTerm.v19 P) shapeCasts_S8x256x256x96_S524288x96 b y x k (row b y x) rfl) ?_
  exact v19_apply P b y x k

end Cert.RefSide

end
-- ==== Proof.RefReadDense.lean ====
/-
  A scaled dense layer as the host spells it, read at an entry; general in the extents.

  The host multiplies the M × K weight matrix by a scalar spread over it, transposes the product, contracts the
  n × K input's columns against the transposed matrix's rows, and adds the bias vector spread over the rows.  At
  entry (p, o) this is  Σ_k x(p, k) · (w(o, k) · s) + b(o),  the unit of the specification.  The four coordinate
  facts and the contraction's one axis are what a program's literal dimension numbers decide.
-/
import proofs.«145072_j3487513444877_2_alg».proof.Proof.Spec
import proofs.«145072_j3487513444877_2_alg».proof.Proof.LibPlainDot
import proofs.«145072_j3487513444877_2_alg».proof.Proof.RefReadLayout
import Idealize.ShloMosaic.Lib.ValueLayout

noncomputable section

open scoped BigOperators

namespace Cert.RefSide.Dense

open Idealize.ShloMosaic Idealize.ShloMosaic.ValueIdx

/-- The scaled weight matrix, transposed, at (k, o): w(o, k) · s. -/
theorem scaledT_apply {K M : Nat} (w : FVec Ideal (⟨2, ![M, K]⟩ : Shape) .f32) (word : BitVec 32)
    (hbw : (⟨0, ![]⟩ : Shape).BroadcastsInDim (⟨2, ![M, K]⟩ : Shape) (![] : Fin 0 → Fin 2))
    (ht : (⟨2, ![M, K]⟩ : Shape).Transposes [1, 0] (⟨2, ![K, M]⟩ : Shape)) (k : Fin K) (o : Fin M) :
    transpose (⟨2, ![K, M]⟩ : Shape) [1, 0]
        (mulf (F := Ideal) w (broadcastInDim (⟨2, ![M, K]⟩ : Shape) ![] hbw (constant (F := Ideal) (⟨0, ![]⟩ : Shape) .f32 word))) ht
        (ix2 k o)
      = w (ix2 o k) * Ideal.ofBits .f32 word := by
  rw [transpose_ix2_apply, mulf_apply, Layout.bcast_scalar_apply, constant_apply]

/-- The host's dense layer at entry (p, o) is the specification's unit. -/
theorem dense_apply {n K M : Nat}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (x : FVec Ideal (⟨2, ![n, K]⟩ : Shape) .f32) (w : FVec Ideal (⟨2, ![M, K]⟩ : Shape) .f32)
    (b : FVec Ideal (⟨1, ![M]⟩ : Shape) .f32) (word : BitVec 32)
    (hbw : (⟨0, ![]⟩ : Shape).BroadcastsInDim (⟨2, ![M, K]⟩ : Shape) (![] : Fin 0 → Fin 2))
    (ht : (⟨2, ![M, K]⟩ : Shape).Transposes [1, 0] (⟨2, ![K, M]⟩ : Shape))
    (hb1 : (⟨1, ![M]⟩ : Shape).BroadcastsInDim (⟨2, ![1, M]⟩ : Shape) (![1] : Fin 1 → Fin 2))
    (hb2 : (⟨2, ![1, M]⟩ : Shape).BroadcastsInDim (⟨2, ![n, M]⟩ : Shape) (![0, 1] : Fin 2 → Fin 2))
    (p : Fin n) (o : Fin M) :
    (addf (F := Ideal)
        (Host.dotGeneral (F := Ideal) D none x
          (transpose (⟨2, ![K, M]⟩ : Shape) [1, 0]
            (mulf (F := Ideal) w (broadcastInDim (⟨2, ![M, K]⟩ : Shape) ![] hbw (constant (F := Ideal) (⟨0, ![]⟩ : Shape) .f32 word))) ht))
        (broadcastInDim (⟨2, ![n, M]⟩ : Shape) ![0, 1] hb2 (broadcastInDim (⟨2, ![1, M]⟩ : Shape) ![1] hb1 b)) :
        FVec Ideal (⟨2, ![n, M]⟩ : Shape) .f32) (ix2 p o)
      = Cert.Field.unit (fun k => x (ix2 p k)) (fun k => w (ix2 o k)) (Ideal.ofBits .f32 word) (b (ix1 o)) := by
  rw [addf_apply, Layout.bcast_bias_apply]
  have hdot := PlainDot.dotGeneral_apply D hr hs l0 l1 r0 r1 none .single x
    (transpose (⟨2, ![K, M]⟩ : Shape) [1, 0]
      (mulf (F := Ideal) w (broadcastInDim (⟨2, ![M, K]⟩ : Shape) ![] hbw (constant (F := Ideal) (⟨0, ![]⟩ : Shape) .f32 word))) ht) p o
  refine (congrArg (· + b (ix1 o)) hdot).trans ?_
  unfold Cert.Field.unit
  refine congrArg (· + b (ix1 o)) (Finset.sum_congr rfl fun k _ => ?_)
  rw [scaledT_apply]

end Cert.RefSide.Dense

end
-- ==== Proof.RefReadAct.lean ====
/-
  The leaky rectifier with its gain as the host spells it, read at an entry.

  The host selects, where z ≥ 0 (zero spread over the array), z itself and elsewhere the slope (spread over the array)
  times z, and multiplies the result by the gain spread over the array.  At an entry this is the specification's
  act: (z if 0 ≤ z, else slope·z)·gain, with the three words kept as words.
-/
import proofs.«145072_j3487513444877_2_alg».proof.Proof.RefTerm
import proofs.«145072_j3487513444877_2_alg».proof.Proof.RefReadLayout

noncomputable section

open scoped BigOperators

namespace Cert.RefSide

open Idealize.ShloMosaic Idealize.ShloMosaic.ValueIdx Cert.ReferenceIdeal Cert.ReferenceIdeal.Facts₀ Cert.Field

/-- The rectifier followed by the gain, at an entry, is act of the entry. -/
theorem act_apply (z : RefTerm.A S524288x128) (i : S524288x128.Idx) :
    (mulf (F := Ideal) (RefTerm.lrelu z (constant (F := Ideal) S_ .f32 0x3E4CCCCD#32))
        (broadcastInDim S524288x128 ![] bcast_S_S524288x128 (constant (F := Ideal) S_ .f32 0x3FB504F3#32))) i
      = act (z i) := by
  rw [mulf_apply, Layout.bcast_scalar_apply, constant_apply]
  unfold RefTerm.lrelu act
  rw [select_apply, cmpf_apply, mulf_apply, Layout.bcast_scalar_apply, Layout.bcast_scalar_apply, constant_apply]
  show (if Ideal.cmp .oge (z i) (Ideal.ofBits .f32 0x00000000#32) = 1#1 then z i
      else Ideal.ofBits .f32 0x3E4CCCCD#32 * z i) * Ideal.ofBits .f32 0x3FB504F3#32 = _
  by_cases h : Ideal.ofBits .f32 0x00000000#32 ≤ z i
  · rw [if_pos h, if_pos (by unfold Ideal.cmp; simp [h])]
  · rw [if_neg h, if_neg (by unfold Ideal.cmp; simp [h])]

end Cert.RefSide

end
-- ==== Proof.RefReadShapeLayers.lean ====
/-
  The three rectified shape layers read at a row.

  Each layer is the host's scaled dense layer followed by the leaky rectifier and its gain; at the row of position
  (b, y, x) and output o it is act of the unit over the previous layer's values at that position, the first layer's
  inputs being the features and the shape-conditioning numbers.
-/
import proofs.«145072_j3487513444877_2_alg».proof.Proof.RefReadIn0
import proofs.«145072_j3487513444877_2_alg».proof.Proof.RefReadDense
import proofs.«145072_j3487513444877_2_alg».proof.Proof.RefReadAct

noncomputable section

open scoped BigOperators

namespace Cert.RefSide

open Idealize.ShloMosaic Idealize.ShloMosaic.ValueIdx Cert.ReferenceIdeal Cert.ReferenceIdeal.Facts₀ Cert.Field

/-- The first layer before the rectifier. -/
theorem v27_apply (P : Params) (b : Fin 8) (y x : Fin 256) (o : Fin 128) :
    RefTerm.v27 P (ix2 (row b y x) o) = unit (in0 P b y x) (fun k => P.ws0 (ix2 o k)) wS96 (P.bs0 (ix1 o)) := by
  unfold RefTerm.v27 RefTerm.v23
  refine Eq.trans (Dense.dense_apply dot_S524288x96_S96x128_S524288x128_1_0_0_1_n_n rfl rfl (fun _ _ => rfl) (fun _ _ => rfl) (fun _ _ => rfl) (fun _ _ => rfl)
    (RefTerm.v20 P) P.ws0 P.bs0 0x3DD105EC#32 bcast_S_S128x96 transposes_S128x96_S96x128_1_0 bcast_S128_S1x128_1
    bcast_S1x128_S524288x128_0_1 (row b y x) o) ?_
  exact congrArg (fun f => unit f (fun k => P.ws0 (ix2 o k)) wS96 (P.bs0 (ix1 o)))
    (funext fun k => v20_apply P b y x k)

/-- The first layer. -/
theorem v30_apply (P : Params) (b : Fin 8) (y x : Fin 256) (o : Fin 128) :
    RefTerm.v30 P (ix2 (row b y x) o) = h1 P b y x o := by
  unfold RefTerm.v30 h1
  rw [act_apply, v27_apply]

/-- The second layer before the rectifier. -/
theorem v37_apply (P : Params) (b : Fin 8) (y x : Fin 256) (o : Fin 128) :
    RefTerm.v37 P (ix2 (row b y x) o) = unit (h1 P b y x) (fun k => P.ws1 (ix2 o k)) wS128 (P.bs1 (ix1 o)) := by
  unfold RefTerm.v37 RefTerm.v33
  refine Eq.trans (Dense.dense_apply dot_S524288x128_S128x128_S524288x128_1_0_0_1_n_n rfl rfl (fun _ _ => rfl) (fun _ _ => rfl) (fun _ _ => rfl) (fun _ _ => rfl)
    (RefTerm.v30 P) P.ws1 P.bs1 0x3DB504F3#32 bcast_S_S128x128 transposes_S128x128_S128x128_1_0 bcast_S128_S1x128_1
    bcast_S1x128_S524288x128_0_1 (row b y x) o) ?_
  exact congrArg (fun f => unit f (fun k => P.ws1 (ix2 o k)) wS128 (P.bs1 (ix1 o)))
    (funext fun k => v30_apply P b y x k)

/-- The second layer. -/
theorem v40_apply (P : Params) (b : Fin 8) (y x : Fin 256) (o : Fin 128) :
    RefTerm.v40 P (ix2 (row b y x) o) = h2 P b y x o := by
  unfold RefTerm.v40 h2
  rw [act_apply, v37_apply]

/-- The third layer before the rectifier. -/
theorem v47_apply (P : Params) (b : Fin 8) (y x : Fin 256) (o : Fin 128) :
    RefTerm.v47 P (ix2 (row b y x) o) = unit (h2 P b y x) (fun k => P.ws2 (ix2 o k)) wS128 (P.bs2 (ix1 o)) := by
  unfold RefTerm.v47 RefTerm.v43
  refine Eq.trans (Dense.dense_apply dot_S524288x128_S128x128_S524288x128_1_0_0_1_n_n rfl rfl (fun _ _ => rfl) (fun _ _ => rfl) (fun _ _ => rfl) (fun _ _ => rfl)
    (RefTerm.v40 P) P.ws2 P.bs2 0x3DB504F3#32 bcast_S_S128x128 transposes_S128x128_S128x128_1_0 bcast_S128_S1x128_1
    bcast_S1x128_S524288x128_0_1 (row b y x) o) ?_
  exact congrArg (fun f => unit f (fun k => P.ws2 (ix2 o k)) wS128 (P.bs2 (ix1 o)))
    (funext fun k => v40_apply P b y x k)

/-- The third layer. -/
theorem v50_apply (P : Params) (b : Fin 8) (y x : Fin 256) (o : Fin 128) :
    RefTerm.v50 P (ix2 (row b y x) o) = h3 P b y x o := by
  unfold RefTerm.v50 h3
  rw [act_apply, v47_apply]

end Cert.RefSide

end
-- ==== Proof.RefReadShape.lean ====
/-
  The reference's shape result read at a position.

  The linear shape layer at the row of (b, y, x) is the raw shape value; recasting the column of rows as the image
  puts it at (b, y, x).  The radius is the square root of zero plus the two squared coordinates; the damping is
  one minus the hyperbolic tangent of max(radius − 1, 0); the result is their product.
-/
import proofs.«145072_j3487513444877_2_alg».proof.Proof.RefReadShapeLayers
import Idealize.ShloMosaic.PureOps.Ideal.Laws

noncomputable section

open scoped BigOperators

namespace Cert.RefSide

open Idealize.ShloMosaic Idealize.ShloMosaic.ValueIdx Cert.ReferenceIdeal Cert.ReferenceIdeal.Facts₀ Cert.Field

/-- The linear shape layer at the row of (b, y, x). -/
theorem v57_apply (P : Params) (b : Fin 8) (y x : Fin 256) :
    RefTerm.v57 P (ix2 (row b y x) (0 : Fin 1)) = shapeRaw P b y x := by
  unfold RefTerm.v57 RefTerm.v53 shapeRaw
  refine Eq.trans (Dense.dense_apply dot_S524288x128_S128x1_S524288x1_1_0_0_1_n_n rfl rfl (fun _ _ => rfl) (fun _ _ => rfl) (fun _ _ => rfl) (fun _ _ => rfl)
    (RefTerm.v50 P) P.wsh P.bsh 0x3DB504F3#32 bcast_S_S1x128 transposes_S1x128_S128x1_1_0 bcast_S1_S1x1_1
    bcast_S1x1_S524288x1_0_1 (row b y x) (0 : Fin 1)) ?_
  exact congrArg (fun f => unit f (fun k => P.wsh (ix2 (0 : Fin 1) k)) wS128 (P.bsh (ix1 (0 : Fin 1))))
    (funext fun k => v50_apply P b y x k)

/-- The raw shape value on the image. -/
theorem v58_apply (P : Params) (b : Fin 8) (y x : Fin 256) :
    RefTerm.v58 P (ix4 b y x (0 : Fin 1)) = shapeRaw P b y x := by
  unfold RefTerm.v58
  refine Eq.trans (Layout.shapeCast_nd_abcd_apply (RefTerm.v57 P) shapeCasts_S524288x1_S8x256x256x1 b y x (0 : Fin 1)
    (row b y x) rfl) ?_
  exact v57_apply P b y x

/-- The radius at a position. -/
theorem v94_apply (P : Params) (b : Fin 8) (y x : Fin 256) :
    RefTerm.v94 P (ix4 b y x (0 : Fin 1))
      = Ideal.sqrt (cx P b y x * cx P b y x + cy P b y x * cy P b y x) := by
  have hR : S8x256x256x2.Reduces [3] S8x256x256 := by decide
  unfold RefTerm.v94
  show Ideal.sqrt (broadcastInDim S8x256x256x1 ![0, 1, 2] bcast_S8x256x256_S8x256x256x1_0_1_2
    (Host.reduceAdd (F := Ideal) (mulf (F := Ideal) P.coords P.coords) (constant (F := Ideal) S_ .f32 0x00000000#32)
      reducesTo_S8x256x256x2_S8x256x256_d3 h_S_) (ix4 b y x (0 : Fin 1))) = _
  refine congrArg Ideal.sqrt ?_
  refine Eq.trans (broadcastInDim_apply ![0, 1, 2] bcast_S8x256x256_S8x256x256x1_0_1_2 _ (ix4 b y x (0 : Fin 1)) (ix3 b y x)
    (fun a => by
      match a with
      | ⟨0, _⟩ => rfl
      | ⟨1, _⟩ => rfl
      | ⟨2, _⟩ => rfl)) ?_
  show Ideal.hostReduceAdd reducesTo_S8x256x256x2_S8x256x256_d3 (mulf (F := Ideal) P.coords P.coords)
    (Ideal.ofBits .f32 0x00000000#32) (ix3 b y x) = _
  refine Eq.trans (Ideal.hostReduceAdd_single reducesTo_S8x256x256x2_S8x256x256_d3 hR _ _ (ix3 b y x)) ?_
  rw [Ideal.ofBits_zero_f32, zero_add]
  have hl : ∀ k : Fin 2, hR.lift (ix3 b y x) k = ix4 b y x k := fun k => funext fun a => Fin.ext (by
    match a with
    | ⟨0, _⟩ => rfl
    | ⟨1, _⟩ => rfl
    | ⟨2, _⟩ => rfl
    | ⟨3, _⟩ => rfl)
  show ∑ k : Fin 2, mulf (F := Ideal) P.coords P.coords (hR.lift (ix3 b y x) k) = _
  rw [Fin.sum_univ_two, hl, hl]
  rfl

/-- The damping at a position. -/
theorem v100_apply (P : Params) (b : Fin 8) (y x : Fin 256) :
    RefTerm.v100 P (ix4 b y x (0 : Fin 1)) = damp (cx P b y x) (cy P b y x) := by
  unfold RefTerm.v100 RefTerm.v97 damp
  rw [subf_apply, Layout.bcast_scalar_apply, constant_apply]
  show wOne - Ideal.tanh (maximumf (F := Ideal)
      (subf (F := Ideal) (RefTerm.v94 P) (broadcastInDim S8x256x256x1 ![] bcast_S_S8x256x256x1 (constant (F := Ideal) S_ .f32 0x3F800000#32)))
      (broadcastInDim S8x256x256x1 ![] bcast_S_S8x256x256x1 (constant (F := Ideal) S_ .f32 0x00000000#32)) (ix4 b y x (0 : Fin 1))) = _
  rw [maximumf_apply, subf_apply, Layout.bcast_scalar_apply, Layout.bcast_scalar_apply, constant_apply, constant_apply,
    v94_apply]

/-- The reference's shape result is the specification's. -/
theorem shape_eq (P : Params) : RefTerm.shape P = shapeOut P := by
  funext i
  obtain ⟨b, y, x, c, rfl⟩ : ∃ (b : Fin 8) (y x : Fin 256) (c : Fin 1), i = ix4 b y x c :=
    ⟨i 0, i 1, i 2, i 3, eq_ix4 i⟩
  obtain rfl : c = (0 : Fin 1) := Subsingleton.elim _ _
  unfold RefTerm.shape
  rw [mulf_apply, v58_apply, v100_apply]
  rfl

end Cert.RefSide

end
-- ==== Proof.RefReadTex.lean ====
/-
  The reference's texture result read at a position.

  The texture-conditioning numbers of image b, spread over the image and flattened, sit in every row of that image;
  the third shape layer's output followed by them feeds two rectified layers and a linear layer with three outputs,
  and recasting the rows as the image puts row (b·256 + y)·256 + x at (b, y, x).
-/
import proofs.«145072_j3487513444877_2_alg».proof.Proof.RefReadShapeLayers

noncomputable section

open scoped BigOperators

namespace Cert.RefSide

open Idealize.ShloMosaic Idealize.ShloMosaic.ValueIdx Cert.ReferenceIdeal Cert.ReferenceIdeal.Facts₀ Cert.Field

/-- The flattened texture-conditioning array at the row of (b, y, x). -/
theorem v61_apply (P : Params) (b : Fin 8) (y x : Fin 256) (j : Fin 64) :
    RefTerm.v61 P (ix2 (row b y x) j) = P.tc (ix2 b j) := by
  unfold RefTerm.v61
  refine Eq.trans (Layout.shapeCast_abcd_nd_apply _ shapeCasts_S8x256x256x64_S524288x64 b y x j (row b y x) rfl) ?_
  exact cond_apply P.tc b y x j

/-- The texture branch's input at the row of (b, y, x). -/
theorem v62_apply (P : Params) (b : Fin 8) (y x : Fin 256) (k : Fin 192) :
    RefTerm.v62 P (ix2 (row b y x) k) = inT P b y x k := by
  unfold RefTerm.v62 inT withCond
  by_cases h : k.val < 128
  · rw [dif_pos h]
    refine Eq.trans (concatenate_cols_left (RefTerm.v50 P) (RefTerm.v61 P) concatenates_S524288x128_S524288x64_S524288x192_d1
      (row b y x) k (⟨k.val, h⟩ : Fin 128) rfl) ?_
    exact v50_apply P b y x _
  · rw [dif_neg h]
    refine Eq.trans (concatenate_cols_right (RefTerm.v50 P) (RefTerm.v61 P) concatenates_S524288x128_S524288x64_S524288x192_d1
      (row b y x) k (⟨k.val - 128, by omega⟩ : Fin 64) (by show k.val - 128 + 128 = k.val; omega)) ?_
    exact v61_apply P b y x _

/-- The first texture layer before the rectifier. -/
theorem v69_apply (P : Params) (b : Fin 8) (y x : Fin 256) (o : Fin 128) :
    RefTerm.v69 P (ix2 (row b y x) o) = unit (inT P b y x) (fun k => P.wt0 (ix2 o k)) wS192 (P.bt0 (ix1 o)) := by
  unfold RefTerm.v69 RefTerm.v65
  refine Eq.trans (Dense.dense_apply dot_S524288x192_S192x128_S524288x128_1_0_0_1_n_n rfl rfl (fun _ _ => rfl) (fun _ _ => rfl) (fun _ _ => rfl) (fun _ _ => rfl)
    (RefTerm.v62 P) P.wt0 P.bt0 0x3D93CD3A#32 bcast_S_S128x192 transposes_S128x192_S192x128_1_0 bcast_S128_S1x128_1
    bcast_S1x128_S524288x128_0_1 (row b y x) o) ?_
  exact congrArg (fun f => unit f (fun k => P.wt0 (ix2 o k)) wS192 (P.bt0 (ix1 o)))
    (funext fun k => v62_apply P b y x k)

/-- The first texture layer. -/
theorem v72_apply (P : Params) (b : Fin 8) (y x : Fin 256) (o : Fin 128) :
    RefTerm.v72 P (ix2 (row b y x) o) = t1 P b y x o := by
  unfold RefTerm.v72 t1
  rw [act_apply, v69_apply]

/-- The second texture layer before the rectifier. -/
theorem v79_apply (P : Params) (b : Fin 8) (y x : Fin 256) (o : Fin 128) :
    RefTerm.v79 P (ix2 (row b y x) o) = unit (t1 P b y x) (fun k => P.wt1 (ix2 o k)) wS128 (P.bt1 (ix1 o)) := by
  unfold RefTerm.v79 RefTerm.v75
  refine Eq.trans (Dense.dense_apply dot_S524288x128_S128x128_S524288x128_1_0_0_1_n_n rfl rfl (fun _ _ => rfl) (fun _ _ => rfl) (fun _ _ => rfl) (fun _ _ => rfl)
    (RefTerm.v72 P) P.wt1 P.bt1 0x3DB504F3#32 bcast_S_S128x128 transposes_S128x128_S128x128_1_0 bcast_S128_S1x128_1
    bcast_S1x128_S524288x128_0_1 (row b y x) o) ?_
  exact congrArg (fun f => unit f (fun k => P.wt1 (ix2 o k)) wS128 (P.bt1 (ix1 o)))
    (funext fun k => v72_apply P b y x k)

/-- The second texture layer. -/
theorem v82_apply (P : Params) (b : Fin 8) (y x : Fin 256) (o : Fin 128) :
    RefTerm.v82 P (ix2 (row b y x) o) = t2 P b y x o := by
  unfold RefTerm.v82 t2
  rw [act_apply, v79_apply]

/-- The linear texture layer at the row of (b, y, x), channel ch. -/
theorem v89_apply (P : Params) (b : Fin 8) (y x : Fin 256) (ch : Fin 3) :
    RefTerm.v89 P (ix2 (row b y x) ch) = texAt P b y x ch := by
  unfold RefTerm.v89 RefTerm.v85 texAt
  refine Eq.trans (Dense.dense_apply dot_S524288x128_S128x3_S524288x3_1_0_0_1_n_n rfl rfl (fun _ _ => rfl) (fun _ _ => rfl) (fun _ _ => rfl) (fun _ _ => rfl)
    (RefTerm.v82 P) P.wt2 P.bt2 0x3DB504F3#32 bcast_S_S3x128 transposes_S3x128_S128x3_1_0 bcast_S3_S1x3_1
    bcast_S1x3_S524288x3_0_1 (row b y x) ch) ?_
  exact congrArg (fun f => unit f (fun k => P.wt2 (ix2 ch k)) wS128 (P.bt2 (ix1 ch)))
    (funext fun k => v82_apply P b y x k)

/-- The reference's texture result is the specification's. -/
theorem tex_eq (P : Params) : RefTerm.tex P = texOut P := by
  funext i
  obtain ⟨b, y, x, ch, rfl⟩ : ∃ (b : Fin 8) (y x : Fin 256) (ch : Fin 3), i = ix4 b y x ch :=
    ⟨i 0, i 1, i 2, i 3, eq_ix4 i⟩
  unfold RefTerm.tex
  refine Eq.trans (Layout.shapeCast_nd_abcd_apply (RefTerm.v89 P) shapeCasts_S524288x3_S8x256x256x3 b y x ch (row b y x) rfl) ?_
  exact v89_apply P b y x ch

end Cert.RefSide

end
-- ==== Proof.RefRead.lean ====
/-
  The reference's two results are the specification's two arrays: the statements of the two modules below, gathered.
-/
import proofs.«145072_j3487513444877_2_alg».proof.Proof.RefReadShape
import proofs.«145072_j3487513444877_2_alg».proof.Proof.RefReadTex

noncomputable section

open scoped BigOperators

namespace Cert.RefSide

open Cert.Field

/-- Both results at once. -/
theorem results_eq (P : Params) : RefTerm.shape P = shapeOut P ∧ RefTerm.tex P = texOut P :=
  ⟨shape_eq P, tex_eq P⟩

end Cert.RefSide

end
-- ==== Proof.Claims.lean ====
/-
  The five claims of the certificate, each from the piece that proves it.

  The two frames of the kernel's programs are the generated frame certificates.  The reference's frame is its run
  with the two results dropped.  The idealization rewrote one constant, named "inv_10", whose value is 1/10.  At the
  ideal instance the kernel's run ends with the specification's two arrays of its argument arrays; the reference's run
  ends with its layered terms, which are the same two arrays index by index; and memories that agree on the seventeen
  arguments give the same record of arrays.
-/
import proofs.«145072_j3487513444877_2_alg».proof.Defs
import proofs.«145072_j3487513444877_2_alg».proof.Proof.Gen.Kernel.Frame
import proofs.«145072_j3487513444877_2_alg».proof.Proof.Gen.KernelIdeal.Frame
import proofs.«145072_j3487513444877_2_alg».proof.Proof.Gen.ReferenceIdeal
import proofs.«145072_j3487513444877_2_alg».proof.Proof.Gen.Pre_finite_inputs
import Idealize.ShloMosaic.Adequacy
import Idealize.ShloMosaic.Init
import proofs.«145072_j3487513444877_2_alg».proof.Proof.KerRun
import proofs.«145072_j3487513444877_2_alg».proof.Proof.RefRun
import proofs.«145072_j3487513444877_2_alg».proof.Proof.RefRead

noncomputable section

namespace Cert.Proof.Claims

open Idealize.ShloMosaic Idealize.SL.Sem

/-- The kernel's program as printed runs and leaves its arguments unchanged: the generated frame. -/
theorem frame_k : Cert.frame_Kernel := fun m ρ _ => Cert.Kernel.Gen.frame m ρ

/-- The idealized kernel's program likewise. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.RefSide.run_terms m ρ)

/-- The one rewrite of the idealization: the constant named "inv_10" is given the value 1/10, and the printed
    constant is that value at the ideal instance. -/
theorem preserves : Cert.preserves_Kernel_KernelIdeal :=
  IdealRules.named_const.statement Cert.KernelIdeal.κ "inv_10" .f32 0x3DCCCCCD#32 ((1 / 10 : ℝ) : EReal) rfl

/-- Memories that agree on the seventeen argument arrays give the same record of arrays. -/
theorem params_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.RefSide.params m' c = Cert.KerSide.params m c := by
  simp only [Cert.RefSide.params, Cert.KerSide.params, Cert.Field.Params.mk.injEq]
  exact h

/-- At the ideal instance both programs end with the specification's two arrays of the argument arrays: the kernel by
    its run, the reference by its run's layered terms read index by index, the two records of arrays being equal
    where the memories agree. -/
theorem algebraic : Cert.algebraic_KernelIdeal_ReferenceIdeal := by
  intro m ρ m' ρ' _ hagree
  refine ⟨fun c => Cert.Field.shapeOut (Cert.KerSide.params m c), fun c => Cert.Field.texOut (Cert.KerSide.params m c),
    Cert.KerSide.run m ρ, ?_⟩
  refine (θ_run Cert.ReferenceIdeal.defs _ _).mono
    (fun _ h c => ⟨(h c).1.trans ?_, (h c).2.1.trans ?_, (h c).2.2⟩) (Cert.RefSide.run_terms m' ρ')
  · rw [Cert.RefSide.shape_eq, params_agree m m' c (hagree c)]
  · rw [Cert.RefSide.tex_eq, params_agree m m' c (hagree c)]

end Cert.Proof.Claims

end
-- ==== Proof.lean ====
/-
  Two programs for one neural field, equal on the extended reals.

  Every image position carries two coordinates; thirty-two sinusoidal features of them, joined by the image's
  conditioning numbers, pass through three rectified dense layers to a damped shape value and, joined by a second
  set of conditioning numbers, through two more to a three-channel texture (`Proof/Spec.lean`).  The reference
  computes exactly that, one flattened position per row, its frequencies as powers 2^s and its coordinates
  divided by ten.  The kernel works channels first on tiles of 4096 positions: it multiplies by the constant that
  is read as 1/10, uses the frequencies 1, 2, …, 128 as literals, takes its first layer's feature columns in the
  order grouped by kind, and carries the conditioning part of the two conditioned dense sums in per-image biases
  computed before the tiles are visited.  The two arrangements agree by commutativity of sum and product, by
  splitting and reordering finite sums, and by x·(1/10) = x/10 — laws that hold on all extended reals, so the
  inputs' finiteness is never used.

  `Proof/Claims.lean` proves the five conjuncts: the three frames (the kernel's two from the generated frame
  certificates, the reference's from its run), the idealization's one ledger entry, and the equality of results.
-/
import proofs.«145072_j3487513444877_2_alg».proof.Defs
import proofs.«145072_j3487513444877_2_alg».proof.Proof.Gen.Kernel
import proofs.«145072_j3487513444877_2_alg».proof.Proof.Gen.KernelIdeal
import proofs.«145072_j3487513444877_2_alg».proof.Proof.Gen.ReferenceIdeal
import proofs.«145072_j3487513444877_2_alg».proof.Proof.Gen.Pre_finite_inputs
import proofs.«145072_j3487513444877_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri,
    Cert.Proof.Claims.preserves, Cert.Proof.Claims.algebraic⟩

end Cert.Proof

end
